-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x2048 : Shape := ⟨2, ![1024, 2048]⟩
abbrev S8x64 : Shape := ⟨2, ![8, 64]⟩
abbrev S_ : Shape := ⟨0, ![]⟩

class Facts : Prop where
  bcast_S_S8x64 : S_.BroadcastsInDim S8x64 (![] : Fin 0 → Fin S8x64.rank)
  reducesTo_S8x64_S_d0_1 : S8x64.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : IVec S1024x2048 32) (main_arg1 : FVec F S8x64 .f32) : IVec S_ 1 :=
  let main_v0 : FVec F S8x64 .f32 := Host.absf main_arg1
  let main_cst : FVec F S_ .f32 := constant S_ .f32 0x7F800000#32
  let main_v1 : FVec F S8x64 .f32 := broadcastInDim S8x64 ![] bcast_S_S8x64 main_cst
  let main_v2 : IVec S8x64 1 := cmpf .olt main_v0 main_v1
  let main_c : IVec S_ 1 := constantI S_ 1 1#1
  let main_v3 : IVec S_ 1 := (fun x v => Host.reduce IntOp.andi x v reducesTo_S8x64_S_d0_1 h_S_) main_v2 main_c
  let main_c_0 : IVec S_ 32 := constantI S_ 32 0#32
  let main_v4 : IVec S1024x2048 32 := broadcastInDim S1024x2048 ![] bcast_S_S1024x2048 main_c_0
  let main_v5 : IVec S1024x2048 1 := cmpi .sge main_arg0 main_v4
  let main_c_1 : IVec S_ 32 := constantI S_ 32 7#32
  let main_v6 : IVec S1024x2048 32 := broadcastInDim S1024x2048 ![] bcast_S_S1024x2048 main_c_1
  let main_v7 : IVec S1024x2048 1 := cmpi .sle main_arg0 main_v6
  let main_v8 : IVec S1024x2048 1 := andi main_v5 main_v7
  let main_c_2 : IVec S_ 1 := constantI S_ 1 1#1
  let main_v9 : IVec S_ 1 := (fun x v => Host.reduce IntOp.andi x v reducesTo_S1024x2048_S_d0_1 h_S_) main_v8 main_c_2
  let main_v10 : IVec S_ 1 := andi main_v3 main_v9
  main_v10
-- ==== Kernel.lean ====
abbrev S1024x2048 : Shape := ⟨2, ![1024, 2048]⟩
abbrev S8x64 : Shape := ⟨2, ![8, 64]⟩
abbrev S512x1 : Shape := ⟨2, ![512, 1]⟩
abbrev S1x512x1x1 : Shape := ⟨4, ![1, 512, 1, 1]⟩
abbrev S1x512x16x1 : Shape := ⟨4, ![1, 512, 16, 1]⟩
abbrev S512x16 : Shape := ⟨2, ![512, 16]⟩
abbrev S8192 : Shape := ⟨1, ![8192]⟩
abbrev S16 : Shape := ⟨1, ![16]⟩
abbrev S2097152 : Shape := ⟨1, ![2097152]⟩
abbrev S1024x64x2048 : Shape := ⟨3, ![1024, 64, 2048]⟩
abbrev S4096 : Shape := ⟨1, ![4096]⟩
abbrev S16x2048 : Shape := ⟨2, ![16, 2048]⟩
abbrev S_ : Shape := ⟨0, ![]⟩
abbrev S2048 : Shape := ⟨1, ![2048]⟩
abbrev S1x16x2048 : Shape := ⟨3, ![1, 16, 2048]⟩
abbrev S1x16 : Shape := ⟨2, ![1, 16]⟩

abbrev nBuf : Table → Nat
  | .hbm => 10
  | .local .scVector .vmem => 5
  | _ => 0

abbrev bufTy : (tb : Table) → Fin (nBuf tb) → BufTy
  | .hbm, ⟨0, _⟩ => ⟨S1024x2048, .i32⟩
  | .hbm, ⟨1, _⟩ => ⟨S8x64, .f32⟩
  | .hbm, ⟨2, _⟩ => ⟨S512x1, .f32⟩
  | .hbm, ⟨3, _⟩ => ⟨S1x512x1x1, .f32⟩
  | .hbm, ⟨4, _⟩ => ⟨S1x512x16x1, .f32⟩
  | .hbm, ⟨5, _⟩ => ⟨S512x16, .f32⟩
  | .hbm, ⟨6, _⟩ => ⟨S8192, .f32⟩
  | .hbm, ⟨7, _⟩ => ⟨S16, .i32⟩
  | .hbm, ⟨8, _⟩ => ⟨S2097152, .i32⟩
  | .hbm, ⟨9, _⟩ => ⟨S1024x64x2048, .f32⟩
  | .local .scVector .vmem, ⟨0, _⟩ => ⟨S4096, .i32⟩
  | .local .scVector .vmem, ⟨1, _⟩ => ⟨S8192, .f32⟩
  | .local .scVector .vmem, ⟨2, _⟩ => ⟨S16, .i32⟩
  | .local .scVector .vmem, ⟨3, _⟩ => ⟨S16x2048, .f32⟩
  | .local .scVector .vmem, ⟨4, _⟩ => ⟨S16x2048, .f32⟩
  | _, _ => ⟨S1024x2048, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v6_scv : Ref sig .scVector := ⟨.hbm, 8, rfl⟩
abbrev main_v4_scv : Ref sig .scVector := ⟨.hbm, 6, rfl⟩
abbrev main_v5_scv : Ref sig .scVector := ⟨.hbm, 7, rfl⟩
abbrev main_v7_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c2048_i32 : BitVec 32 := 2048#32
  let v4 : BitVec 32 := Scalar.muli v3 c2048_i32
  ![v4.toNat]
@[reducible] def k0_t1_loop : Scf.Loop 32 :=
  let c0_i32_2 : BitVec 32 := 0#32
  let c32_i32_3 : BitVec 32 := 32#32
  let v9 : BitVec 32 := Scalar.addi c0_i32_2 c32_i32_3
  let c1_i32 : BitVec 32 := 1#32
  ⟨c0_i32_2, v9, c1_i32⟩
def k0_cond1 (k0_t1 : Fin k0_t1_loop.trips) : BitVec 1 :=
  let c0_i32_2 : BitVec 32 := 0#32
  let c1_i32 : BitVec 32 := 1#32
  let arg14 : BitVec 32 := Scf.iv c0_i32_2 c1_i32 k0_t1
  let c1_i32_27 : BitVec 32 := 1#32
  let v35 : BitVec 32 := Scalar.addi arg14 c1_i32_27
  let c32_i32_28 : BitVec 32 := 32#32
  let v36 : BitVec 1 := Scalar.cmpi .slt v35 c32_i32_28
  let v37 : BitVec 32 := Scalar.extui v36
  let c0_i32_29 : BitVec 32 := 0#32
  let v38 : BitVec 1 := Scalar.cmpi .ne v37 c0_i32_29
  v38

def k0_off2 (k0_t1 : Fin k0_t1_loop.trips) : Fin 1 → Nat :=
  let c2048_i32_79 : BitVec 32 := 2048#32
  let c0_i32_2 : BitVec 32 := 0#32
  let c1_i32 : BitVec 32 := 1#32
  let arg14 : BitVec 32 := Scf.iv c0_i32_2 c1_i32 k0_t1
  let c2_i32_16 : BitVec 32 := 2#32
  let c0_i32_17 : BitVec 32 := 0#32
  let v20 : BitVec 1 := Scalar.cmpi .eq c2_i32_16 c0_i32_17
  let c1_i32_18 : BitVec 32 := 1#32
  let v21 : BitVec 32 := Scalar.select v20 c1_i32_18 c2_i32_16
  let v22 : BitVec 32 := Scalar.remsi arg14 v21
  let c0_i32_20 : BitVec 32 := 0#32
  let v24 : BitVec 1 := Scalar.cmpi .slt v22 c0_i32_20
  let c0_i32_21 : BitVec 32 := 0#32
  let v25 : BitVec 1 := Scalar.cmpi .slt v21 c0_i32_21
  let v26 : BitVec 1 := Scalar.xori v24 v25
  let c0_i32_19 : BitVec 32 := 0#32
  let v23 : BitVec 1 := Scalar.cmpi .ne v22 c0_i32_19
  let v27 : BitVec 1 := Scalar.andi v26 v23
  let v28 : BitVec 32 := Scalar.addi v22 v21
  let v29 : BitVec 32 := Scalar.select v27 v28 v22
  let c2048_i32_22 : BitVec 32 := 2048#32
  let v30 : BitVec 32 := Scalar.muli v29 c2048_i32_22
  let v75 : BitVec 32 := Scalar.subi c2048_i32_79 v30
  ![v75.toNat]
def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_15 : BitVec 32 := 32#32
  let v18 : BitVec 32 := Scalar.muli v1 c32_i32_15
  let c0_i32_2 : BitVec 32 := 0#32
  let c1_i32 : BitVec 32 := 1#32
  let arg14 : BitVec 32 := Scf.iv c0_i32_2 c1_i32 k0_t1
  let v19 : BitVec 32 := Scalar.addi v18 arg14
  let c1_i32_77 : BitVec 32 := 1#32
  let v73 : BitVec 32 := Scalar.addi v19 c1_i32_77
  let c2048_i32_78 : BitVec 32 := 2048#32
  let v74 : BitVec 32 := Scalar.muli v73 c2048_i32_78
  ![v74.toNat]
@[reducible] def k0_t2_loop : Scf.Loop 32 :=
  let c0_i32_33 : BitVec 32 := 0#32
  let c128_i32 : BitVec 32 := 128#32
  let v42 : BitVec 32 := Scalar.addi c0_i32_33 c128_i32
  let c1_i32_34 : BitVec 32 := 1#32
  ⟨c0_i32_33, v42, c1_i32_34⟩
def k0_off4 (k0_t1 : Fin k0_t1_loop.trips) (k0_t2 : Fin k0_t2_loop.trips) : Fin 1 → Nat :=
  let c0_i32_2 : BitVec 32 := 0#32
  let c1_i32 : BitVec 32 := 1#32
  let arg14 : BitVec 32 := Scf.iv c0_i32_2 c1_i32 k0_t1
  let c2_i32_16 : BitVec 32 := 2#32
  let c0_i32_17 : BitVec 32 := 0#32
  let v20 : BitVec 1 := Scalar.cmpi .eq c2_i32_16 c0_i32_17
  let c1_i32_18 : BitVec 32 := 1#32
  let v21 : BitVec 32 := Scalar.select v20 c1_i32_18 c2_i32_16
  let v22 : BitVec 32 := Scalar.remsi arg14 v21
  let c0_i32_20 : BitVec 32 := 0#32
  let v24 : BitVec 1 := Scalar.cmpi .slt v22 c0_i32_20
  let c0_i32_21 : BitVec 32 := 0#32
  let v25 : BitVec 1 := Scalar.cmpi .slt v21 c0_i32_21
  let v26 : BitVec 1 := Scalar.xori v24 v25
  let c0_i32_19 : BitVec 32 := 0#32
  let v23 : BitVec 1 := Scalar.cmpi .ne v22 c0_i32_19
  let v27 : BitVec 1 := Scalar.andi v26 v23
  let v28 : BitVec 32 := Scalar.addi v22 v21
  let v29 : BitVec 32 := Scalar.select v27 v28 v22
  let c2048_i32_22 : BitVec 32 := 2048#32
  let v30 : BitVec 32 := Scalar.muli v29 c2048_i32_22
  let c0_i32_33 : BitVec 32 := 0#32
  let c1_i32_34 : BitVec 32 := 1#32
  let arg15 : BitVec 32 := Scf.iv c0_i32_33 c1_i32_34 k0_t2
  let c16_i32_77 : BitVec 32 := 16#32
  let v73 : BitVec 32 := Scalar.muli arg15 c16_i32_77
  let v74 : BitVec 32 := Scalar.addi v30 v73
  let v75 : Index := Scalar.indexCast v74
  ![v75.toNat]

def k0_chk1 (v83 : IVec S16 32) : Prop :=
  (∀ a x, ((![v83] : Fin 1 → IVec S16 32) a x).toNat < S8192.size a)
instance k0_chk1.dec : ∀ (v83 : IVec S16 32), Decidable (k0_chk1 v83) := fun v83 => decidable_of_iff' _ (Iff.of_eq (k0_chk1.eq_1 v83))
theorem k0_idx1_inb : ∀ (v83 : IVec S16 32) (k0_hw1 : k0_chk1 v83), ∀ a x, ((![v83] : Fin 1 → IVec S16 32) a x).toNat < S8192.size a := fun v83 k0_hw1 => k0_hw1

def k0_chk2 (v86 : IVec S16 32) : Prop :=
  (∀ a x, ((![v86] : Fin 1 → IVec S16 32) a x).toNat < S8192.size a)
instance k0_chk2.dec : ∀ (v86 : IVec S16 32), Decidable (k0_chk2 v86) := fun v86 => decidable_of_iff' _ (Iff.of_eq (k0_chk2.eq_1 v86))
theorem k0_idx2_inb : ∀ (v86 : IVec S16 32) (k0_hw2 : k0_chk2 v86), ∀ a x, ((![v86] : Fin 1 → IVec S16 32) a x).toNat < S8192.size a := fun v86 k0_hw2 => k0_hw2

def k0_chk3 (v89 : IVec S16 32) : Prop :=
  (∀ a x, ((![v89] : Fin 1 → IVec S16 32) a x).toNat < S8192.size a)
instance k0_chk3.dec : ∀ (v89 : IVec S16 32), Decidable (k0_chk3 v89) := fun v89 => decidable_of_iff' _ (Iff.of_eq (k0_chk3.eq_1 v89))
theorem k0_idx3_inb : ∀ (v89 : IVec S16 32) (k0_hw3 : k0_chk3 v89), ∀ a x, ((![v89] : Fin 1 → IVec S16 32) a x).toNat < S8192.size a := fun v89 k0_hw3 => k0_hw3

def k0_chk4 (v92 : IVec S16 32) : Prop :=
  (∀ a x, ((![v92] : Fin 1 → IVec S16 32) a x).toNat < S8192.size a)
instance k0_chk4.dec : ∀ (v92 : IVec S16 32), Decidable (k0_chk4 v92) := fun v92 => decidable_of_iff' _ (Iff.of_eq (k0_chk4.eq_1 v92))
theorem k0_idx4_inb : ∀ (v92 : IVec S16 32) (k0_hw4 : k0_chk4 v92), ∀ a x, ((![v92] : Fin 1 → IVec S16 32) a x).toNat < S8192.size a := fun v92 k0_hw4 => k0_hw4

def k0_chk5 (v95 : IVec S16 32) : Prop :=
  (∀ a x, ((![v95] : Fin 1 → IVec S16 32) a x).toNat < S8192.size a)
instance k0_chk5.dec : ∀ (v95 : IVec S16 32), Decidable (k0_chk5 v95) := fun v95 => decidable_of_iff' _ (Iff.of_eq (k0_chk5.eq_1 v95))
theorem k0_idx5_inb : ∀ (v95 : IVec S16 32) (k0_hw5 : k0_chk5 v95), ∀ a x, ((![v95] : Fin 1 → IVec S16 32) a x).toNat < S8192.size a := fun v95 k0_hw5 => k0_hw5

def k0_chk6 (v98 : IVec S16 32) : Prop :=
  (∀ a x, ((![v98] : Fin 1 → IVec S16 32) a x).toNat < S8192.size a)
instance k0_chk6.dec : ∀ (v98 : IVec S16 32), Decidable (k0_chk6 v98) := fun v98 => decidable_of_iff' _ (Iff.of_eq (k0_chk6.eq_1 v98))
theorem k0_idx6_inb : ∀ (v98 : IVec S16 32) (k0_hw6 : k0_chk6 v98), ∀ a x, ((![v98] : Fin 1 → IVec S16 32) a x).toNat < S8192.size a := fun v98 k0_hw6 => k0_hw6

def k0_chk7 (v101 : IVec S16 32) : Prop :=
  (∀ a x, ((![v101] : Fin 1 → IVec S16 32) a x).toNat < S8192.size a)
instance k0_chk7.dec : ∀ (v101 : IVec S16 32), Decidable (k0_chk7 v101) := fun v101 => decidable_of_iff' _ (Iff.of_eq (k0_chk7.eq_1 v101))
theorem k0_idx7_inb : ∀ (v101 : IVec S16 32) (k0_hw7 : k0_chk7 v101), ∀ a x, ((![v101] : Fin 1 → IVec S16 32) a x).toNat < S8192.size a := fun v101 k0_hw7 => k0_hw7

def k0_chk8 (v104 : IVec S16 32) : Prop :=
  (∀ a x, ((![v104] : Fin 1 → IVec S16 32) a x).toNat < S8192.size a)
instance k0_chk8.dec : ∀ (v104 : IVec S16 32), Decidable (k0_chk8 v104) := fun v104 => decidable_of_iff' _ (Iff.of_eq (k0_chk8.eq_1 v104))
theorem k0_idx8_inb : ∀ (v104 : IVec S16 32) (k0_hw8 : k0_chk8 v104), ∀ a x, ((![v104] : Fin 1 → IVec S16 32) a x).toNat < S8192.size a := fun v104 k0_hw8 => k0_hw8

def k0_chk9 (v107 : IVec S16 32) : Prop :=
  (∀ a x, ((![v107] : Fin 1 → IVec S16 32) a x).toNat < S8192.size a)
instance k0_chk9.dec : ∀ (v107 : IVec S16 32), Decidable (k0_chk9 v107) := fun v107 => decidable_of_iff' _ (Iff.of_eq (k0_chk9.eq_1 v107))
theorem k0_idx9_inb : ∀ (v107 : IVec S16 32) (k0_hw9 : k0_chk9 v107), ∀ a x, ((![v107] : Fin 1 → IVec S16 32) a x).toNat < S8192.size a := fun v107 k0_hw9 => k0_hw9

def k0_chk10 (v110 : IVec S16 32) : Prop :=
  (∀ a x, ((![v110] : Fin 1 → IVec S16 32) a x).toNat < S8192.size a)
instance k0_chk10.dec : ∀ (v110 : IVec S16 32), Decidable (k0_chk10 v110) := fun v110 => decidable_of_iff' _ (Iff.of_eq (k0_chk10.eq_1 v110))
theorem k0_idx10_inb : ∀ (v110 : IVec S16 32) (k0_hw10 : k0_chk10 v110), ∀ a x, ((![v110] : Fin 1 → IVec S16 32) a x).toNat < S8192.size a := fun v110 k0_hw10 => k0_hw10

def k0_chk11 (v113 : IVec S16 32) : Prop :=
  (∀ a x, ((![v113] : Fin 1 → IVec S16 32) a x).toNat < S8192.size a)
instance k0_chk11.dec : ∀ (v113 : IVec S16 32), Decidable (k0_chk11 v113) := fun v113 => decidable_of_iff' _ (Iff.of_eq (k0_chk11.eq_1 v113))
theorem k0_idx11_inb : ∀ (v113 : IVec S16 32) (k0_hw11 : k0_chk11 v113), ∀ a x, ((![v113] : Fin 1 → IVec S16 32) a x).toNat < S8192.size a := fun v113 k0_hw11 => k0_hw11

def k0_chk12 (v116 : IVec S16 32) : Prop :=
  (∀ a x, ((![v116] : Fin 1 → IVec S16 32) a x).toNat < S8192.size a)
instance k0_chk12.dec : ∀ (v116 : IVec S16 32), Decidable (k0_chk12 v116) := fun v116 => decidable_of_iff' _ (Iff.of_eq (k0_chk12.eq_1 v116))
theorem k0_idx12_inb : ∀ (v116 : IVec S16 32) (k0_hw12 : k0_chk12 v116), ∀ a x, ((![v116] : Fin 1 → IVec S16 32) a x).toNat < S8192.size a := fun v116 k0_hw12 => k0_hw12

def k0_chk13 (v119 : IVec S16 32) : Prop :=
  (∀ a x, ((![v119] : Fin 1 → IVec S16 32) a x).toNat < S8192.size a)
instance k0_chk13.dec : ∀ (v119 : IVec S16 32), Decidable (k0_chk13 v119) := fun v119 => decidable_of_iff' _ (Iff.of_eq (k0_chk13.eq_1 v119))
theorem k0_idx13_inb : ∀ (v119 : IVec S16 32) (k0_hw13 : k0_chk13 v119), ∀ a x, ((![v119] : Fin 1 → IVec S16 32) a x).toNat < S8192.size a := fun v119 k0_hw13 => k0_hw13

def k0_chk14 (v122 : IVec S16 32) : Prop :=
  (∀ a x, ((![v122] : Fin 1 → IVec S16 32) a x).toNat < S8192.size a)
instance k0_chk14.dec : ∀ (v122 : IVec S16 32), Decidable (k0_chk14 v122) := fun v122 => decidable_of_iff' _ (Iff.of_eq (k0_chk14.eq_1 v122))
theorem k0_idx14_inb : ∀ (v122 : IVec S16 32) (k0_hw14 : k0_chk14 v122), ∀ a x, ((![v122] : Fin 1 → IVec S16 32) a x).toNat < S8192.size a := fun v122 k0_hw14 => k0_hw14

def k0_chk15 (v125 : IVec S16 32) : Prop :=
  (∀ a x, ((![v125] : Fin 1 → IVec S16 32) a x).toNat < S8192.size a)
instance k0_chk15.dec : ∀ (v125 : IVec S16 32), Decidable (k0_chk15 v125) := fun v125 => decidable_of_iff' _ (Iff.of_eq (k0_chk15.eq_1 v125))
theorem k0_idx15_inb : ∀ (v125 : IVec S16 32) (k0_hw15 : k0_chk15 v125), ∀ a x, ((![v125] : Fin 1 → IVec S16 32) a x).toNat < S8192.size a := fun v125 k0_hw15 => k0_hw15

def k0_chk16 (v128 : IVec S16 32) : Prop :=
  (∀ a x, ((![v128] : Fin 1 → IVec S16 32) a x).toNat < S8192.size a)
instance k0_chk16.dec : ∀ (v128 : IVec S16 32), Decidable (k0_chk16 v128) := fun v128 => decidable_of_iff' _ (Iff.of_eq (k0_chk16.eq_1 v128))
theorem k0_idx16_inb : ∀ (v128 : IVec S16 32) (k0_hw16 : k0_chk16 v128), ∀ a x, ((![v128] : Fin 1 → IVec S16 32) a x).toNat < S8192.size a := fun v128 k0_hw16 => k0_hw16
def k0_off5 (k0_t2 : Fin k0_t2_loop.trips) : Fin 2 → Nat :=
  let c0_i32_84 : BitVec 32 := 0#32
  let v130 : Index := Scalar.indexCast c0_i32_84
  let c0_i32_33 : BitVec 32 := 0#32
  let c1_i32_34 : BitVec 32 := 1#32
  let arg15 : BitVec 32 := Scf.iv c0_i32_33 c1_i32_34 k0_t2
  let c16_i32_77 : BitVec 32 := 16#32
  let v73 : BitVec 32 := Scalar.muli arg15 c16_i32_77
  let v131 : Index := Scalar.indexCast v73
  ![0, v131.toNat]
def k0_off6 (k0_t2 : Fin k0_t2_loop.trips) : Fin 2 → Nat :=
  let c1_i32_85 : BitVec 32 := 1#32
  let v133 : Index := Scalar.indexCast c1_i32_85
  let c0_i32_33 : BitVec 32 := 0#32
  let c1_i32_34 : BitVec 32 := 1#32
  let arg15 : BitVec 32 := Scf.iv c0_i32_33 c1_i32_34 k0_t2
  let c16_i32_77 : BitVec 32 := 16#32
  let v73 : BitVec 32 := Scalar.muli arg15 c16_i32_77
  let v134 : Index := Scalar.indexCast v73
  ![1, v134.toNat]
def k0_off7 (k0_t2 : Fin k0_t2_loop.trips) : Fin 2 → Nat :=
  let c2_i32_86 : BitVec 32 := 2#32
  let v136 : Index := Scalar.indexCast c2_i32_86
  let c0_i32_33 : BitVec 32 := 0#32
  let c1_i32_34 : BitVec 32 := 1#32
  let arg15 : BitVec 32 := Scf.iv c0_i32_33 c1_i32_34 k0_t2
  let c16_i32_77 : BitVec 32 := 16#32
  let v73 : BitVec 32 := Scalar.muli arg15 c16_i32_77
  let v137 : Index := Scalar.indexCast v73
  ![2, v137.toNat]
def k0_off8 (k0_t2 : Fin k0_t2_loop.trips) : Fin 2 → Nat :=
  let c3_i32 : BitVec 32 := 3#32
  let v139 : Index := Scalar.indexCast c3_i32
  let c0_i32_33 : BitVec 32 := 0#32
  let c1_i32_34 : BitVec 32 := 1#32
  let arg15 : BitVec 32 := Scf.iv c0_i32_33 c1_i32_34 k0_t2
  let c16_i32_77 : BitVec 32 := 16#32
  let v73 : BitVec 32 := Scalar.muli arg15 c16_i32_77
  let v140 : Index := Scalar.indexCast v73
  ![3, v140.toNat]
def k0_off9 (k0_t2 : Fin k0_t2_loop.trips) : Fin 2 → Nat :=
  let c4_i32 : BitVec 32 := 4#32
  let v142 : Index := Scalar.indexCast c4_i32
  let c0_i32_33 : BitVec 32 := 0#32
  let c1_i32_34 : BitVec 32 := 1#32
  let arg15 : BitVec 32 := Scf.iv c0_i32_33 c1_i32_34 k0_t2
  let c16_i32_77 : BitVec 32 := 16#32
  let v73 : BitVec 32 := Scalar.muli arg15 c16_i32_77
  let v143 : Index := Scalar.indexCast v73
  ![4, v143.toNat]
def k0_off10 (k0_t2 : Fin k0_t2_loop.trips) : Fin 2 → Nat :=
  let c5_i32 : BitVec 32 := 5#32
  let v145 : Index := Scalar.indexCast c5_i32
  let c0_i32_33 : BitVec 32 := 0#32
  let c1_i32_34 : BitVec 32 := 1#32
  let arg15 : BitVec 32 := Scf.iv c0_i32_33 c1_i32_34 k0_t2
  let c16_i32_77 : BitVec 32 := 16#32
  let v73 : BitVec 32 := Scalar.muli arg15 c16_i32_77
  let v146 : Index := Scalar.indexCast v73
  ![5, v146.toNat]
def k0_off11 (k0_t2 : Fin k0_t2_loop.trips) : Fin 2 → Nat :=
  let c6_i32 : BitVec 32 := 6#32
  let v148 : Index := Scalar.indexCast c6_i32
  let c0_i32_33 : BitVec 32 := 0#32
  let c1_i32_34 : BitVec 32 := 1#32
  let arg15 : BitVec 32 := Scf.iv c0_i32_33 c1_i32_34 k0_t2
  let c16_i32_77 : BitVec 32 := 16#32
  let v73 : BitVec 32 := Scalar.muli arg15 c16_i32_77
  let v149 : Index := Scalar.indexCast v73
  ![6, v149.toNat]
def k0_off12 (k0_t2 : Fin k0_t2_loop.trips) : Fin 2 → Nat :=
  let c7_i32 : BitVec 32 := 7#32
  let v151 : Index := Scalar.indexCast c7_i32
  let c0_i32_33 : BitVec 32 := 0#32
  let c1_i32_34 : BitVec 32 := 1#32
  let arg15 : BitVec 32 := Scf.iv c0_i32_33 c1_i32_34 k0_t2
  let c16_i32_77 : BitVec 32 := 16#32
  let v73 : BitVec 32 := Scalar.muli arg15 c16_i32_77
  let v152 : Index := Scalar.indexCast v73
  ![7, v152.toNat]
def k0_off13 (k0_t2 : Fin k0_t2_loop.trips) : Fin 2 → Nat :=
  let c8_i32 : BitVec 32 := 8#32
  let v154 : Index := Scalar.indexCast c8_i32
  let c0_i32_33 : BitVec 32 := 0#32
  let c1_i32_34 : BitVec 32 := 1#32
  let arg15 : BitVec 32 := Scf.iv c0_i32_33 c1_i32_34 k0_t2
  let c16_i32_77 : BitVec 32 := 16#32
  let v73 : BitVec 32 := Scalar.muli arg15 c16_i32_77
  let v155 : Index := Scalar.indexCast v73
  ![8, v155.toNat]
def k0_off14 (k0_t2 : Fin k0_t2_loop.trips) : Fin 2 → Nat :=
  let c9_i32 : BitVec 32 := 9#32
  let v157 : Index := Scalar.indexCast c9_i32
  let c0_i32_33 : BitVec 32 := 0#32
  let c1_i32_34 : BitVec 32 := 1#32
  let arg15 : BitVec 32 := Scf.iv c0_i32_33 c1_i32_34 k0_t2
  let c16_i32_77 : BitVec 32 := 16#32
  let v73 : BitVec 32 := Scalar.muli arg15 c16_i32_77
  let v158 : Index := Scalar.indexCast v73
  ![9, v158.toNat]
def k0_off15 (k0_t2 : Fin k0_t2_loop.trips) : Fin 2 → Nat :=
  let c10_i32 : BitVec 32 := 10#32
  let v160 : Index := Scalar.indexCast c10_i32
  let c0_i32_33 : BitVec 32 := 0#32
  let c1_i32_34 : BitVec 32 := 1#32
  let arg15 : BitVec 32 := Scf.iv c0_i32_33 c1_i32_34 k0_t2
  let c16_i32_77 : BitVec 32 := 16#32
  let v73 : BitVec 32 := Scalar.muli arg15 c16_i32_77
  let v161 : Index := Scalar.indexCast v73
  ![10, v161.toNat]
def k0_off16 (k0_t2 : Fin k0_t2_loop.trips) : Fin 2 → Nat :=
  let c11_i32 : BitVec 32 := 11#32
  let v163 : Index := Scalar.indexCast c11_i32
  let c0_i32_33 : BitVec 32 := 0#32
  let c1_i32_34 : BitVec 32 := 1#32
  let arg15 : BitVec 32 := Scf.iv c0_i32_33 c1_i32_34 k0_t2
  let c16_i32_77 : BitVec 32 := 16#32
  let v73 : BitVec 32 := Scalar.muli arg15 c16_i32_77
  let v164 : Index := Scalar.indexCast v73
  ![11, v164.toNat]
def k0_off17 (k0_t2 : Fin k0_t2_loop.trips) : Fin 2 → Nat :=
  let c12_i32 : BitVec 32 := 12#32
  let v166 : Index := Scalar.indexCast c12_i32
  let c0_i32_33 : BitVec 32 := 0#32
  let c1_i32_34 : BitVec 32 := 1#32
  let arg15 : BitVec 32 := Scf.iv c0_i32_33 c1_i32_34 k0_t2
  let c16_i32_77 : BitVec 32 := 16#32
  let v73 : BitVec 32 := Scalar.muli arg15 c16_i32_77
  let v167 : Index := Scalar.indexCast v73
  ![12, v167.toNat]
def k0_off18 (k0_t2 : Fin k0_t2_loop.trips) : Fin 2 → Nat :=
  let c13_i32 : BitVec 32 := 13#32
  let v169 : Index := Scalar.indexCast c13_i32
  let c0_i32_33 : BitVec 32 := 0#32
  let c1_i32_34 : BitVec 32 := 1#32
  let arg15 : BitVec 32 := Scf.iv c0_i32_33 c1_i32_34 k0_t2
  let c16_i32_77 : BitVec 32 := 16#32
  let v73 : BitVec 32 := Scalar.muli arg15 c16_i32_77
  let v170 : Index := Scalar.indexCast v73
  ![13, v170.toNat]
def k0_off19 (k0_t2 : Fin k0_t2_loop.trips) : Fin 2 → Nat :=
  let c14_i32 : BitVec 32 := 14#32
  let v172 : Index := Scalar.indexCast c14_i32
  let c0_i32_33 : BitVec 32 := 0#32
  let c1_i32_34 : BitVec 32 := 1#32
  let arg15 : BitVec 32 := Scf.iv c0_i32_33 c1_i32_34 k0_t2
  let c16_i32_77 : BitVec 32 := 16#32
  let v73 : BitVec 32 := Scalar.muli arg15 c16_i32_77
  let v173 : Index := Scalar.indexCast v73
  ![14, v173.toNat]
def k0_off20 (k0_t2 : Fin k0_t2_loop.trips) : Fin 2 → Nat :=
  let c15_i32 : BitVec 32 := 15#32
  let v175 : Index := Scalar.indexCast c15_i32
  let c0_i32_33 : BitVec 32 := 0#32
  let c1_i32_34 : BitVec 32 := 1#32
  let arg15 : BitVec 32 := Scf.iv c0_i32_33 c1_i32_34 k0_t2
  let c16_i32_77 : BitVec 32 := 16#32
  let v73 : BitVec 32 := Scalar.muli arg15 c16_i32_77
  let v176 : Index := Scalar.indexCast v73
  ![15, v176.toNat]
def k0_off21 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_15 : BitVec 32 := 32#32
  let v18 : BitVec 32 := Scalar.muli v1 c32_i32_15
  let c0_i32_2 : BitVec 32 := 0#32
  let c1_i32 : BitVec 32 := 1#32
  let arg14 : BitVec 32 := Scf.iv c0_i32_2 c1_i32 k0_t1
  let v19 : BitVec 32 := Scalar.addi v18 arg14
  let c0_i32_36 : BitVec 32 := 0#32
  let c0_i32_37 : BitVec 32 := 0#32
  ![v19.toNat, 0, 0]
@[reducible] def k0_t3_loop : Scf.Loop 32 :=
  let c0_i32_43 : BitVec 32 := 0#32
  let c128_i32_44 : BitVec 32 := 128#32
  let v50 : BitVec 32 := Scalar.addi c0_i32_43 c128_i32_44
  let c1_i32_45 : BitVec 32 := 1#32
  ⟨c0_i32_43, v50, c1_i32_45⟩
def k0_off22 (k0_t1 : Fin k0_t1_loop.trips) (k0_t3 : Fin k0_t3_loop.trips) : Fin 1 → Nat :=
  let c0_i32_2 : BitVec 32 := 0#32
  let c1_i32 : BitVec 32 := 1#32
  let arg14 : BitVec 32 := Scf.iv c0_i32_2 c1_i32 k0_t1
  let c2_i32_16 : BitVec 32 := 2#32
  let c0_i32_17 : BitVec 32 := 0#32
  let v20 : BitVec 1 := Scalar.cmpi .eq c2_i32_16 c0_i32_17
  let c1_i32_18 : BitVec 32 := 1#32
  let v21 : BitVec 32 := Scalar.select v20 c1_i32_18 c2_i32_16
  let v22 : BitVec 32 := Scalar.remsi arg14 v21
  let c0_i32_20 : BitVec 32 := 0#32
  let v24 : BitVec 1 := Scalar.cmpi .slt v22 c0_i32_20
  let c0_i32_21 : BitVec 32 := 0#32
  let v25 : BitVec 1 := Scalar.cmpi .slt v21 c0_i32_21
  let v26 : BitVec 1 := Scalar.xori v24 v25
  let c0_i32_19 : BitVec 32 := 0#32
  let v23 : BitVec 1 := Scalar.cmpi .ne v22 c0_i32_19
  let v27 : BitVec 1 := Scalar.andi v26 v23
  let v28 : BitVec 32 := Scalar.addi v22 v21
  let v29 : BitVec 32 := Scalar.select v27 v28 v22
  let c2048_i32_22 : BitVec 32 := 2048#32
  let v30 : BitVec 32 := Scalar.muli v29 c2048_i32_22
  let c0_i32_43 : BitVec 32 := 0#32
  let c1_i32_45 : BitVec 32 := 1#32
  let arg15 : BitVec 32 := Scf.iv c0_i32_43 c1_i32_45 k0_t3
  let c16_i32_77 : BitVec 32 := 16#32
  let v73 : BitVec 32 := Scalar.muli arg15 c16_i32_77
  let v74 : BitVec 32 := Scalar.addi v30 v73
  let v75 : Index := Scalar.indexCast v74
  ![v75.toNat]

def k0_chk17 (v83 : IVec S16 32) : Prop :=
  (∀ a x, ((![v83] : Fin 1 → IVec S16 32) a x).toNat < S8192.size a)
instance k0_chk17.dec : ∀ (v83 : IVec S16 32), Decidable (k0_chk17 v83) := fun v83 => decidable_of_iff' _ (Iff.of_eq (k0_chk17.eq_1 v83))
theorem k0_idx17_inb : ∀ (v83 : IVec S16 32) (k0_hw17 : k0_chk17 v83), ∀ a x, ((![v83] : Fin 1 → IVec S16 32) a x).toNat < S8192.size a := fun v83 k0_hw17 => k0_hw17

def k0_chk18 (v86 : IVec S16 32) : Prop :=
  (∀ a x, ((![v86] : Fin 1 → IVec S16 32) a x).toNat < S8192.size a)
instance k0_chk18.dec : ∀ (v86 : IVec S16 32), Decidable (k0_chk18 v86) := fun v86 => decidable_of_iff' _ (Iff.of_eq (k0_chk18.eq_1 v86))
theorem k0_idx18_inb : ∀ (v86 : IVec S16 32) (k0_hw18 : k0_chk18 v86), ∀ a x, ((![v86] : Fin 1 → IVec S16 32) a x).toNat < S8192.size a := fun v86 k0_hw18 => k0_hw18

def k0_chk19 (v89 : IVec S16 32) : Prop :=
  (∀ a x, ((![v89] : Fin 1 → IVec S16 32) a x).toNat < S8192.size a)
instance k0_chk19.dec : ∀ (v89 : IVec S16 32), Decidable (k0_chk19 v89) := fun v89 => decidable_of_iff' _ (Iff.of_eq (k0_chk19.eq_1 v89))
theorem k0_idx19_inb : ∀ (v89 : IVec S16 32) (k0_hw19 : k0_chk19 v89), ∀ a x, ((![v89] : Fin 1 → IVec S16 32) a x).toNat < S8192.size a := fun v89 k0_hw19 => k0_hw19

def k0_chk20 (v92 : IVec S16 32) : Prop :=
  (∀ a x, ((![v92] : Fin 1 → IVec S16 32) a x).toNat < S8192.size a)
instance k0_chk20.dec : ∀ (v92 : IVec S16 32), Decidable (k0_chk20 v92) := fun v92 => decidable_of_iff' _ (Iff.of_eq (k0_chk20.eq_1 v92))
theorem k0_idx20_inb : ∀ (v92 : IVec S16 32) (k0_hw20 : k0_chk20 v92), ∀ a x, ((![v92] : Fin 1 → IVec S16 32) a x).toNat < S8192.size a := fun v92 k0_hw20 => k0_hw20

def k0_chk21 (v95 : IVec S16 32) : Prop :=
  (∀ a x, ((![v95] : Fin 1 → IVec S16 32) a x).toNat < S8192.size a)
instance k0_chk21.dec : ∀ (v95 : IVec S16 32), Decidable (k0_chk21 v95) := fun v95 => decidable_of_iff' _ (Iff.of_eq (k0_chk21.eq_1 v95))
theorem k0_idx21_inb : ∀ (v95 : IVec S16 32) (k0_hw21 : k0_chk21 v95), ∀ a x, ((![v95] : Fin 1 → IVec S16 32) a x).toNat < S8192.size a := fun v95 k0_hw21 => k0_hw21

def k0_chk22 (v98 : IVec S16 32) : Prop :=
  (∀ a x, ((![v98] : Fin 1 → IVec S16 32) a x).toNat < S8192.size a)
instance k0_chk22.dec : ∀ (v98 : IVec S16 32), Decidable (k0_chk22 v98) := fun v98 => decidable_of_iff' _ (Iff.of_eq (k0_chk22.eq_1 v98))
theorem k0_idx22_inb : ∀ (v98 : IVec S16 32) (k0_hw22 : k0_chk22 v98), ∀ a x, ((![v98] : Fin 1 → IVec S16 32) a x).toNat < S8192.size a := fun v98 k0_hw22 => k0_hw22

def k0_chk23 (v101 : IVec S16 32) : Prop :=
  (∀ a x, ((![v101] : Fin 1 → IVec S16 32) a x).toNat < S8192.size a)
instance k0_chk23.dec : ∀ (v101 : IVec S16 32), Decidable (k0_chk23 v101) := fun v101 => decidable_of_iff' _ (Iff.of_eq (k0_chk23.eq_1 v101))
theorem k0_idx23_inb : ∀ (v101 : IVec S16 32) (k0_hw23 : k0_chk23 v101), ∀ a x, ((![v101] : Fin 1 → IVec S16 32) a x).toNat < S8192.size a := fun v101 k0_hw23 => k0_hw23

def k0_chk24 (v104 : IVec S16 32) : Prop :=
  (∀ a x, ((![v104] : Fin 1 → IVec S16 32) a x).toNat < S8192.size a)
instance k0_chk24.dec : ∀ (v104 : IVec S16 32), Decidable (k0_chk24 v104) := fun v104 => decidable_of_iff' _ (Iff.of_eq (k0_chk24.eq_1 v104))
theorem k0_idx24_inb : ∀ (v104 : IVec S16 32) (k0_hw24 : k0_chk24 v104), ∀ a x, ((![v104] : Fin 1 → IVec S16 32) a x).toNat < S8192.size a := fun v104 k0_hw24 => k0_hw24

def k0_chk25 (v107 : IVec S16 32) : Prop :=
  (∀ a x, ((![v107] : Fin 1 → IVec S16 32) a x).toNat < S8192.size a)
instance k0_chk25.dec : ∀ (v107 : IVec S16 32), Decidable (k0_chk25 v107) := fun v107 => decidable_of_iff' _ (Iff.of_eq (k0_chk25.eq_1 v107))
theorem k0_idx25_inb : ∀ (v107 : IVec S16 32) (k0_hw25 : k0_chk25 v107), ∀ a x, ((![v107] : Fin 1 → IVec S16 32) a x).toNat < S8192.size a := fun v107 k0_hw25 => k0_hw25

def k0_chk26 (v110 : IVec S16 32) : Prop :=
  (∀ a x, ((![v110] : Fin 1 → IVec S16 32) a x).toNat < S8192.size a)
instance k0_chk26.dec : ∀ (v110 : IVec S16 32), Decidable (k0_chk26 v110) := fun v110 => decidable_of_iff' _ (Iff.of_eq (k0_chk26.eq_1 v110))
theorem k0_idx26_inb : ∀ (v110 : IVec S16 32) (k0_hw26 : k0_chk26 v110), ∀ a x, ((![v110] : Fin 1 → IVec S16 32) a x).toNat < S8192.size a := fun v110 k0_hw26 => k0_hw26

def k0_chk27 (v113 : IVec S16 32) : Prop :=
  (∀ a x, ((![v113] : Fin 1 → IVec S16 32) a x).toNat < S8192.size a)
instance k0_chk27.dec : ∀ (v113 : IVec S16 32), Decidable (k0_chk27 v113) := fun v113 => decidable_of_iff' _ (Iff.of_eq (k0_chk27.eq_1 v113))
theorem k0_idx27_inb : ∀ (v113 : IVec S16 32) (k0_hw27 : k0_chk27 v113), ∀ a x, ((![v113] : Fin 1 → IVec S16 32) a x).toNat < S8192.size a := fun v113 k0_hw27 => k0_hw27

def k0_chk28 (v116 : IVec S16 32) : Prop :=
  (∀ a x, ((![v116] : Fin 1 → IVec S16 32) a x).toNat < S8192.size a)
instance k0_chk28.dec : ∀ (v116 : IVec S16 32), Decidable (k0_chk28 v116) := fun v116 => decidable_of_iff' _ (Iff.of_eq (k0_chk28.eq_1 v116))
theorem k0_idx28_inb : ∀ (v116 : IVec S16 32) (k0_hw28 : k0_chk28 v116), ∀ a x, ((![v116] : Fin 1 → IVec S16 32) a x).toNat < S8192.size a := fun v116 k0_hw28 => k0_hw28

def k0_chk29 (v119 : IVec S16 32) : Prop :=
  (∀ a x, ((![v119] : Fin 1 → IVec S16 32) a x).toNat < S8192.size a)
instance k0_chk29.dec : ∀ (v119 : IVec S16 32), Decidable (k0_chk29 v119) := fun v119 => decidable_of_iff' _ (Iff.of_eq (k0_chk29.eq_1 v119))
theorem k0_idx29_inb : ∀ (v119 : IVec S16 32) (k0_hw29 : k0_chk29 v119), ∀ a x, ((![v119] : Fin 1 → IVec S16 32) a x).toNat < S8192.size a := fun v119 k0_hw29 => k0_hw29

def k0_chk30 (v122 : IVec S16 32) : Prop :=
  (∀ a x, ((![v122] : Fin 1 → IVec S16 32) a x).toNat < S8192.size a)
instance k0_chk30.dec : ∀ (v122 : IVec S16 32), Decidable (k0_chk30 v122) := fun v122 => decidable_of_iff' _ (Iff.of_eq (k0_chk30.eq_1 v122))
theorem k0_idx30_inb : ∀ (v122 : IVec S16 32) (k0_hw30 : k0_chk30 v122), ∀ a x, ((![v122] : Fin 1 → IVec S16 32) a x).toNat < S8192.size a := fun v122 k0_hw30 => k0_hw30

def k0_chk31 (v125 : IVec S16 32) : Prop :=
  (∀ a x, ((![v125] : Fin 1 → IVec S16 32) a x).toNat < S8192.size a)
instance k0_chk31.dec : ∀ (v125 : IVec S16 32), Decidable (k0_chk31 v125) := fun v125 => decidable_of_iff' _ (Iff.of_eq (k0_chk31.eq_1 v125))
theorem k0_idx31_inb : ∀ (v125 : IVec S16 32) (k0_hw31 : k0_chk31 v125), ∀ a x, ((![v125] : Fin 1 → IVec S16 32) a x).toNat < S8192.size a := fun v125 k0_hw31 => k0_hw31

def k0_chk32 (v128 : IVec S16 32) : Prop :=
  (∀ a x, ((![v128] : Fin 1 → IVec S16 32) a x).toNat < S8192.size a)
instance k0_chk32.dec : ∀ (v128 : IVec S16 32), Decidable (k0_chk32 v128) := fun v128 => decidable_of_iff' _ (Iff.of_eq (k0_chk32.eq_1 v128))
theorem k0_idx32_inb : ∀ (v128 : IVec S16 32) (k0_hw32 : k0_chk32 v128), ∀ a x, ((![v128] : Fin 1 → IVec S16 32) a x).toNat < S8192.size a := fun v128 k0_hw32 => k0_hw32
def k0_off23 (k0_t3 : Fin k0_t3_loop.trips) : Fin 2 → Nat :=
  let c0_i32_83 : BitVec 32 := 0#32
  let v130 : Index := Scalar.indexCast c0_i32_83
  let c0_i32_43 : BitVec 32 := 0#32
  let c1_i32_45 : BitVec 32 := 1#32
  let arg15 : BitVec 32 := Scf.iv c0_i32_43 c1_i32_45 k0_t3
  let c16_i32_77 : BitVec 32 := 16#32
  let v73 : BitVec 32 := Scalar.muli arg15 c16_i32_77
  let v131 : Index := Scalar.indexCast v73
  ![0, v131.toNat]
def k0_off24 (k0_t3 : Fin k0_t3_loop.trips) : Fin 2 → Nat :=
  let c1_i32_84 : BitVec 32 := 1#32
  let v133 : Index := Scalar.indexCast c1_i32_84
  let c0_i32_43 : BitVec 32 := 0#32
  let c1_i32_45 : BitVec 32 := 1#32
  let arg15 : BitVec 32 := Scf.iv c0_i32_43 c1_i32_45 k0_t3
  let c16_i32_77 : BitVec 32 := 16#32
  let v73 : BitVec 32 := Scalar.muli arg15 c16_i32_77
  let v134 : Index := Scalar.indexCast v73
  ![1, v134.toNat]
def k0_off25 (k0_t3 : Fin k0_t3_loop.trips) : Fin 2 → Nat :=
  let c2_i32_85 : BitVec 32 := 2#32
  let v136 : Index := Scalar.indexCast c2_i32_85
  let c0_i32_43 : BitVec 32 := 0#32
  let c1_i32_45 : BitVec 32 := 1#32
  let arg15 : BitVec 32 := Scf.iv c0_i32_43 c1_i32_45 k0_t3
  let c16_i32_77 : BitVec 32 := 16#32
  let v73 : BitVec 32 := Scalar.muli arg15 c16_i32_77
  let v137 : Index := Scalar.indexCast v73
  ![2, v137.toNat]
def k0_off26 (k0_t3 : Fin k0_t3_loop.trips) : Fin 2 → Nat :=
  let c3_i32 : BitVec 32 := 3#32
  let v139 : Index := Scalar.indexCast c3_i32
  let c0_i32_43 : BitVec 32 := 0#32
  let c1_i32_45 : BitVec 32 := 1#32
  let arg15 : BitVec 32 := Scf.iv c0_i32_43 c1_i32_45 k0_t3
  let c16_i32_77 : BitVec 32 := 16#32
  let v73 : BitVec 32 := Scalar.muli arg15 c16_i32_77
  let v140 : Index := Scalar.indexCast v73
  ![3, v140.toNat]
def k0_off27 (k0_t3 : Fin k0_t3_loop.trips) : Fin 2 → Nat :=
  let c4_i32 : BitVec 32 := 4#32
  let v142 : Index := Scalar.indexCast c4_i32
  let c0_i32_43 : BitVec 32 := 0#32
  let c1_i32_45 : BitVec 32 := 1#32
  let arg15 : BitVec 32 := Scf.iv c0_i32_43 c1_i32_45 k0_t3
  let c16_i32_77 : BitVec 32 := 16#32
  let v73 : BitVec 32 := Scalar.muli arg15 c16_i32_77
  let v143 : Index := Scalar.indexCast v73
  ![4, v143.toNat]
def k0_off28 (k0_t3 : Fin k0_t3_loop.trips) : Fin 2 → Nat :=
  let c5_i32 : BitVec 32 := 5#32
  let v145 : Index := Scalar.indexCast c5_i32
  let c0_i32_43 : BitVec 32 := 0#32
  let c1_i32_45 : BitVec 32 := 1#32
  let arg15 : BitVec 32 := Scf.iv c0_i32_43 c1_i32_45 k0_t3
  let c16_i32_77 : BitVec 32 := 16#32
  let v73 : BitVec 32 := Scalar.muli arg15 c16_i32_77
  let v146 : Index := Scalar.indexCast v73
  ![5, v146.toNat]
def k0_off29 (k0_t3 : Fin k0_t3_loop.trips) : Fin 2 → Nat :=
  let c6_i32 : BitVec 32 := 6#32
  let v148 : Index := Scalar.indexCast c6_i32
  let c0_i32_43 : BitVec 32 := 0#32
  let c1_i32_45 : BitVec 32 := 1#32
  let arg15 : BitVec 32 := Scf.iv c0_i32_43 c1_i32_45 k0_t3
  let c16_i32_77 : BitVec 32 := 16#32
  let v73 : BitVec 32 := Scalar.muli arg15 c16_i32_77
  let v149 : Index := Scalar.indexCast v73
  ![6, v149.toNat]
def k0_off30 (k0_t3 : Fin k0_t3_loop.trips) : Fin 2 → Nat :=
  let c7_i32 : BitVec 32 := 7#32
  let v151 : Index := Scalar.indexCast c7_i32
  let c0_i32_43 : BitVec 32 := 0#32
  let c1_i32_45 : BitVec 32 := 1#32
  let arg15 : BitVec 32 := Scf.iv c0_i32_43 c1_i32_45 k0_t3
  let c16_i32_77 : BitVec 32 := 16#32
  let v73 : BitVec 32 := Scalar.muli arg15 c16_i32_77
  let v152 : Index := Scalar.indexCast v73
  ![7, v152.toNat]
def k0_off31 (k0_t3 : Fin k0_t3_loop.trips) : Fin 2 → Nat :=
  let c8_i32 : BitVec 32 := 8#32
  let v154 : Index := Scalar.indexCast c8_i32
  let c0_i32_43 : BitVec 32 := 0#32
  let c1_i32_45 : BitVec 32 := 1#32
  let arg15 : BitVec 32 := Scf.iv c0_i32_43 c1_i32_45 k0_t3
  let c16_i32_77 : BitVec 32 := 16#32
  let v73 : BitVec 32 := Scalar.muli arg15 c16_i32_77
  let v155 : Index := Scalar.indexCast v73
  ![8, v155.toNat]
def k0_off32 (k0_t3 : Fin k0_t3_loop.trips) : Fin 2 → Nat :=
  let c9_i32 : BitVec 32 := 9#32
  let v157 : Index := Scalar.indexCast c9_i32
  let c0_i32_43 : BitVec 32 := 0#32
  let c1_i32_45 : BitVec 32 := 1#32
  let arg15 : BitVec 32 := Scf.iv c0_i32_43 c1_i32_45 k0_t3
  let c16_i32_77 : BitVec 32 := 16#32
  let v73 : BitVec 32 := Scalar.muli arg15 c16_i32_77
  let v158 : Index := Scalar.indexCast v73
  ![9, v158.toNat]
def k0_off33 (k0_t3 : Fin k0_t3_loop.trips) : Fin 2 → Nat :=
  let c10_i32 : BitVec 32 := 10#32
  let v160 : Index := Scalar.indexCast c10_i32
  let c0_i32_43 : BitVec 32 := 0#32
  let c1_i32_45 : BitVec 32 := 1#32
  let arg15 : BitVec 32 := Scf.iv c0_i32_43 c1_i32_45 k0_t3
  let c16_i32_77 : BitVec 32 := 16#32
  let v73 : BitVec 32 := Scalar.muli arg15 c16_i32_77
  let v161 : Index := Scalar.indexCast v73
  ![10, v161.toNat]
def k0_off34 (k0_t3 : Fin k0_t3_loop.trips) : Fin 2 → Nat :=
  let c11_i32 : BitVec 32 := 11#32
  let v163 : Index := Scalar.indexCast c11_i32
  let c0_i32_43 : BitVec 32 := 0#32
  let c1_i32_45 : BitVec 32 := 1#32
  let arg15 : BitVec 32 := Scf.iv c0_i32_43 c1_i32_45 k0_t3
  let c16_i32_77 : BitVec 32 := 16#32
  let v73 : BitVec 32 := Scalar.muli arg15 c16_i32_77
  let v164 : Index := Scalar.indexCast v73
  ![11, v164.toNat]
def k0_off35 (k0_t3 : Fin k0_t3_loop.trips) : Fin 2 → Nat :=
  let c12_i32 : BitVec 32 := 12#32
  let v166 : Index := Scalar.indexCast c12_i32
  let c0_i32_43 : BitVec 32 := 0#32
  let c1_i32_45 : BitVec 32 := 1#32
  let arg15 : BitVec 32 := Scf.iv c0_i32_43 c1_i32_45 k0_t3
  let c16_i32_77 : BitVec 32 := 16#32
  let v73 : BitVec 32 := Scalar.muli arg15 c16_i32_77
  let v167 : Index := Scalar.indexCast v73
  ![12, v167.toNat]
def k0_off36 (k0_t3 : Fin k0_t3_loop.trips) : Fin 2 → Nat :=
  let c13_i32 : BitVec 32 := 13#32
  let v169 : Index := Scalar.indexCast c13_i32
  let c0_i32_43 : BitVec 32 := 0#32
  let c1_i32_45 : BitVec 32 := 1#32
  let arg15 : BitVec 32 := Scf.iv c0_i32_43 c1_i32_45 k0_t3
  let c16_i32_77 : BitVec 32 := 16#32
  let v73 : BitVec 32 := Scalar.muli arg15 c16_i32_77
  let v170 : Index := Scalar.indexCast v73
  ![13, v170.toNat]
def k0_off37 (k0_t3 : Fin k0_t3_loop.trips) : Fin 2 → Nat :=
  let c14_i32 : BitVec 32 := 14#32
  let v172 : Index := Scalar.indexCast c14_i32
  let c0_i32_43 : BitVec 32 := 0#32
  let c1_i32_45 : BitVec 32 := 1#32
  let arg15 : BitVec 32 := Scf.iv c0_i32_43 c1_i32_45 k0_t3
  let c16_i32_77 : BitVec 32 := 16#32
  let v73 : BitVec 32 := Scalar.muli arg15 c16_i32_77
  let v173 : Index := Scalar.indexCast v73
  ![14, v173.toNat]
def k0_off38 (k0_t3 : Fin k0_t3_loop.trips) : Fin 2 → Nat :=
  let c15_i32 : BitVec 32 := 15#32
  let v175 : Index := Scalar.indexCast c15_i32
  let c0_i32_43 : BitVec 32 := 0#32
  let c1_i32_45 : BitVec 32 := 1#32
  let arg15 : BitVec 32 := Scf.iv c0_i32_43 c1_i32_45 k0_t3
  let c16_i32_77 : BitVec 32 := 16#32
  let v73 : BitVec 32 := Scalar.muli arg15 c16_i32_77
  let v176 : Index := Scalar.indexCast v73
  ![15, v176.toNat]
def k0_off39 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_15 : BitVec 32 := 32#32
  let v18 : BitVec 32 := Scalar.muli v1 c32_i32_15
  let c0_i32_2 : BitVec 32 := 0#32
  let c1_i32 : BitVec 32 := 1#32
  let arg14 : BitVec 32 := Scf.iv c0_i32_2 c1_i32 k0_t1
  let v19 : BitVec 32 := Scalar.addi v18 arg14
  let c16_i32 : BitVec 32 := 16#32
  let c0_i32_47 : BitVec 32 := 0#32
  ![v19.toNat, 16, 0]
@[reducible] def k0_t4_loop : Scf.Loop 32 :=
  let c0_i32_56 : BitVec 32 := 0#32
  let c128_i32_57 : BitVec 32 := 128#32
  let v59 : BitVec 32 := Scalar.addi c0_i32_56 c128_i32_57
  let c1_i32_58 : BitVec 32 := 1#32
  ⟨c0_i32_56, v59, c1_i32_58⟩
def k0_off40 (k0_t1 : Fin k0_t1_loop.trips) (k0_t4 : Fin k0_t4_loop.trips) : Fin 1 → Nat :=
  let c0_i32_2 : BitVec 32 := 0#32
  let c1_i32 : BitVec 32 := 1#32
  let arg14 : BitVec 32 := Scf.iv c0_i32_2 c1_i32 k0_t1
  let c2_i32_16 : BitVec 32 := 2#32
  let c0_i32_17 : BitVec 32 := 0#32
  let v20 : BitVec 1 := Scalar.cmpi .eq c2_i32_16 c0_i32_17
  let c1_i32_18 : BitVec 32 := 1#32
  let v21 : BitVec 32 := Scalar.select v20 c1_i32_18 c2_i32_16
  let v22 : BitVec 32 := Scalar.remsi arg14 v21
  let c0_i32_20 : BitVec 32 := 0#32
  let v24 : BitVec 1 := Scalar.cmpi .slt v22 c0_i32_20
  let c0_i32_21 : BitVec 32 := 0#32
  let v25 : BitVec 1 := Scalar.cmpi .slt v21 c0_i32_21
  let v26 : BitVec 1 := Scalar.xori v24 v25
  let c0_i32_19 : BitVec 32 := 0#32
  let v23 : BitVec 1 := Scalar.cmpi .ne v22 c0_i32_19
  let v27 : BitVec 1 := Scalar.andi v26 v23
  let v28 : BitVec 32 := Scalar.addi v22 v21
  let v29 : BitVec 32 := Scalar.select v27 v28 v22
  let c2048_i32_22 : BitVec 32 := 2048#32
  let v30 : BitVec 32 := Scalar.muli v29 c2048_i32_22
  let c0_i32_56 : BitVec 32 := 0#32
  let c1_i32_58 : BitVec 32 := 1#32
  let arg15 : BitVec 32 := Scf.iv c0_i32_56 c1_i32_58 k0_t4
  let c16_i32_77 : BitVec 32 := 16#32
  let v73 : BitVec 32 := Scalar.muli arg15 c16_i32_77
  let v74 : BitVec 32 := Scalar.addi v30 v73
  let v75 : Index := Scalar.indexCast v74
  ![v75.toNat]

def k0_chk33 (v83 : IVec S16 32) : Prop :=
  (∀ a x, ((![v83] : Fin 1 → IVec S16 32) a x).toNat < S8192.size a)
instance k0_chk33.dec : ∀ (v83 : IVec S16 32), Decidable (k0_chk33 v83) := fun v83 => decidable_of_iff' _ (Iff.of_eq (k0_chk33.eq_1 v83))
theorem k0_idx33_inb : ∀ (v83 : IVec S16 32) (k0_hw33 : k0_chk33 v83), ∀ a x, ((![v83] : Fin 1 → IVec S16 32) a x).toNat < S8192.size a := fun v83 k0_hw33 => k0_hw33

def k0_chk34 (v86 : IVec S16 32) : Prop :=
  (∀ a x, ((![v86] : Fin 1 → IVec S16 32) a x).toNat < S8192.size a)
instance k0_chk34.dec : ∀ (v86 : IVec S16 32), Decidable (k0_chk34 v86) := fun v86 => decidable_of_iff' _ (Iff.of_eq (k0_chk34.eq_1 v86))
theorem k0_idx34_inb : ∀ (v86 : IVec S16 32) (k0_hw34 : k0_chk34 v86), ∀ a x, ((![v86] : Fin 1 → IVec S16 32) a x).toNat < S8192.size a := fun v86 k0_hw34 => k0_hw34

def k0_chk35 (v89 : IVec S16 32) : Prop :=
  (∀ a x, ((![v89] : Fin 1 → IVec S16 32) a x).toNat < S8192.size a)
instance k0_chk35.dec : ∀ (v89 : IVec S16 32), Decidable (k0_chk35 v89) := fun v89 => decidable_of_iff' _ (Iff.of_eq (k0_chk35.eq_1 v89))
theorem k0_idx35_inb : ∀ (v89 : IVec S16 32) (k0_hw35 : k0_chk35 v89), ∀ a x, ((![v89] : Fin 1 → IVec S16 32) a x).toNat < S8192.size a := fun v89 k0_hw35 => k0_hw35

def k0_chk36 (v92 : IVec S16 32) : Prop :=
  (∀ a x, ((![v92] : Fin 1 → IVec S16 32) a x).toNat < S8192.size a)
instance k0_chk36.dec : ∀ (v92 : IVec S16 32), Decidable (k0_chk36 v92) := fun v92 => decidable_of_iff' _ (Iff.of_eq (k0_chk36.eq_1 v92))
theorem k0_idx36_inb : ∀ (v92 : IVec S16 32) (k0_hw36 : k0_chk36 v92), ∀ a x, ((![v92] : Fin 1 → IVec S16 32) a x).toNat < S8192.size a := fun v92 k0_hw36 => k0_hw36

def k0_chk37 (v95 : IVec S16 32) : Prop :=
  (∀ a x, ((![v95] : Fin 1 → IVec S16 32) a x).toNat < S8192.size a)
instance k0_chk37.dec : ∀ (v95 : IVec S16 32), Decidable (k0_chk37 v95) := fun v95 => decidable_of_iff' _ (Iff.of_eq (k0_chk37.eq_1 v95))
theorem k0_idx37_inb : ∀ (v95 : IVec S16 32) (k0_hw37 : k0_chk37 v95), ∀ a x, ((![v95] : Fin 1 → IVec S16 32) a x).toNat < S8192.size a := fun v95 k0_hw37 => k0_hw37

def k0_chk38 (v98 : IVec S16 32) : Prop :=
  (∀ a x, ((![v98] : Fin 1 → IVec S16 32) a x).toNat < S8192.size a)
instance k0_chk38.dec : ∀ (v98 : IVec S16 32), Decidable (k0_chk38 v98) := fun v98 => decidable_of_iff' _ (Iff.of_eq (k0_chk38.eq_1 v98))
theorem k0_idx38_inb : ∀ (v98 : IVec S16 32) (k0_hw38 : k0_chk38 v98), ∀ a x, ((![v98] : Fin 1 → IVec S16 32) a x).toNat < S8192.size a := fun v98 k0_hw38 => k0_hw38

def k0_chk39 (v101 : IVec S16 32) : Prop :=
  (∀ a x, ((![v101] : Fin 1 → IVec S16 32) a x).toNat < S8192.size a)
instance k0_chk39.dec : ∀ (v101 : IVec S16 32), Decidable (k0_chk39 v101) := fun v101 => decidable_of_iff' _ (Iff.of_eq (k0_chk39.eq_1 v101))
theorem k0_idx39_inb : ∀ (v101 : IVec S16 32) (k0_hw39 : k0_chk39 v101), ∀ a x, ((![v101] : Fin 1 → IVec S16 32) a x).toNat < S8192.size a := fun v101 k0_hw39 => k0_hw39

def k0_chk40 (v104 : IVec S16 32) : Prop :=
  (∀ a x, ((![v104] : Fin 1 → IVec S16 32) a x).toNat < S8192.size a)
instance k0_chk40.dec : ∀ (v104 : IVec S16 32), Decidable (k0_chk40 v104) := fun v104 => decidable_of_iff' _ (Iff.of_eq (k0_chk40.eq_1 v104))
theorem k0_idx40_inb : ∀ (v104 : IVec S16 32) (k0_hw40 : k0_chk40 v104), ∀ a x, ((![v104] : Fin 1 → IVec S16 32) a x).toNat < S8192.size a := fun v104 k0_hw40 => k0_hw40

def k0_chk41 (v107 : IVec S16 32) : Prop :=
  (∀ a x, ((![v107] : Fin 1 → IVec S16 32) a x).toNat < S8192.size a)
instance k0_chk41.dec : ∀ (v107 : IVec S16 32), Decidable (k0_chk41 v107) := fun v107 => decidable_of_iff' _ (Iff.of_eq (k0_chk41.eq_1 v107))
theorem k0_idx41_inb : ∀ (v107 : IVec S16 32) (k0_hw41 : k0_chk41 v107), ∀ a x, ((![v107] : Fin 1 → IVec S16 32) a x).toNat < S8192.size a := fun v107 k0_hw41 => k0_hw41

def k0_chk42 (v110 : IVec S16 32) : Prop :=
  (∀ a x, ((![v110] : Fin 1 → IVec S16 32) a x).toNat < S8192.size a)
instance k0_chk42.dec : ∀ (v110 : IVec S16 32), Decidable (k0_chk42 v110) := fun v110 => decidable_of_iff' _ (Iff.of_eq (k0_chk42.eq_1 v110))
theorem k0_idx42_inb : ∀ (v110 : IVec S16 32) (k0_hw42 : k0_chk42 v110), ∀ a x, ((![v110] : Fin 1 → IVec S16 32) a x).toNat < S8192.size a := fun v110 k0_hw42 => k0_hw42

def k0_chk43 (v113 : IVec S16 32) : Prop :=
  (∀ a x, ((![v113] : Fin 1 → IVec S16 32) a x).toNat < S8192.size a)
instance k0_chk43.dec : ∀ (v113 : IVec S16 32), Decidable (k0_chk43 v113) := fun v113 => decidable_of_iff' _ (Iff.of_eq (k0_chk43.eq_1 v113))
theorem k0_idx43_inb : ∀ (v113 : IVec S16 32) (k0_hw43 : k0_chk43 v113), ∀ a x, ((![v113] : Fin 1 → IVec S16 32) a x).toNat < S8192.size a := fun v113 k0_hw43 => k0_hw43

def k0_chk44 (v116 : IVec S16 32) : Prop :=
  (∀ a x, ((![v116] : Fin 1 → IVec S16 32) a x).toNat < S8192.size a)
instance k0_chk44.dec : ∀ (v116 : IVec S16 32), Decidable (k0_chk44 v116) := fun v116 => decidable_of_iff' _ (Iff.of_eq (k0_chk44.eq_1 v116))
theorem k0_idx44_inb : ∀ (v116 : IVec S16 32) (k0_hw44 : k0_chk44 v116), ∀ a x, ((![v116] : Fin 1 → IVec S16 32) a x).toNat < S8192.size a := fun v116 k0_hw44 => k0_hw44

def k0_chk45 (v119 : IVec S16 32) : Prop :=
  (∀ a x, ((![v119] : Fin 1 → IVec S16 32) a x).toNat < S8192.size a)
instance k0_chk45.dec : ∀ (v119 : IVec S16 32), Decidable (k0_chk45 v119) := fun v119 => decidable_of_iff' _ (Iff.of_eq (k0_chk45.eq_1 v119))
theorem k0_idx45_inb : ∀ (v119 : IVec S16 32) (k0_hw45 : k0_chk45 v119), ∀ a x, ((![v119] : Fin 1 → IVec S16 32) a x).toNat < S8192.size a := fun v119 k0_hw45 => k0_hw45

def k0_chk46 (v122 : IVec S16 32) : Prop :=
  (∀ a x, ((![v122] : Fin 1 → IVec S16 32) a x).toNat < S8192.size a)
instance k0_chk46.dec : ∀ (v122 : IVec S16 32), Decidable (k0_chk46 v122) := fun v122 => decidable_of_iff' _ (Iff.of_eq (k0_chk46.eq_1 v122))
theorem k0_idx46_inb : ∀ (v122 : IVec S16 32) (k0_hw46 : k0_chk46 v122), ∀ a x, ((![v122] : Fin 1 → IVec S16 32) a x).toNat < S8192.size a := fun v122 k0_hw46 => k0_hw46

def k0_chk47 (v125 : IVec S16 32) : Prop :=
  (∀ a x, ((![v125] : Fin 1 → IVec S16 32) a x).toNat < S8192.size a)
instance k0_chk47.dec : ∀ (v125 : IVec S16 32), Decidable (k0_chk47 v125) := fun v125 => decidable_of_iff' _ (Iff.of_eq (k0_chk47.eq_1 v125))
theorem k0_idx47_inb : ∀ (v125 : IVec S16 32) (k0_hw47 : k0_chk47 v125), ∀ a x, ((![v125] : Fin 1 → IVec S16 32) a x).toNat < S8192.size a := fun v125 k0_hw47 => k0_hw47

def k0_chk48 (v128 : IVec S16 32) : Prop :=
  (∀ a x, ((![v128] : Fin 1 → IVec S16 32) a x).toNat < S8192.size a)
instance k0_chk48.dec : ∀ (v128 : IVec S16 32), Decidable (k0_chk48 v128) := fun v128 => decidable_of_iff' _ (Iff.of_eq (k0_chk48.eq_1 v128))
theorem k0_idx48_inb : ∀ (v128 : IVec S16 32) (k0_hw48 : k0_chk48 v128), ∀ a x, ((![v128] : Fin 1 → IVec S16 32) a x).toNat < S8192.size a := fun v128 k0_hw48 => k0_hw48
def k0_off41 (k0_t4 : Fin k0_t4_loop.trips) : Fin 2 → Nat :=
  let c0_i32_83 : BitVec 32 := 0#32
  let v130 : Index := Scalar.indexCast c0_i32_83
  let c0_i32_56 : BitVec 32 := 0#32
  let c1_i32_58 : BitVec 32 := 1#32
  let arg15 : BitVec 32 := Scf.iv c0_i32_56 c1_i32_58 k0_t4
  let c16_i32_77 : BitVec 32 := 16#32
  let v73 : BitVec 32 := Scalar.muli arg15 c16_i32_77
  let v131 : Index := Scalar.indexCast v73
  ![0, v131.toNat]
def k0_off42 (k0_t4 : Fin k0_t4_loop.trips) : Fin 2 → Nat :=
  let c1_i32_84 : BitVec 32 := 1#32
  let v133 : Index := Scalar.indexCast c1_i32_84
  let c0_i32_56 : BitVec 32 := 0#32
  let c1_i32_58 : BitVec 32 := 1#32
  let arg15 : BitVec 32 := Scf.iv c0_i32_56 c1_i32_58 k0_t4
  let c16_i32_77 : BitVec 32 := 16#32
  let v73 : BitVec 32 := Scalar.muli arg15 c16_i32_77
  let v134 : Index := Scalar.indexCast v73
  ![1, v134.toNat]
def k0_off43 (k0_t4 : Fin k0_t4_loop.trips) : Fin 2 → Nat :=
  let c2_i32_85 : BitVec 32 := 2#32
  let v136 : Index := Scalar.indexCast c2_i32_85
  let c0_i32_56 : BitVec 32 := 0#32
  let c1_i32_58 : BitVec 32 := 1#32
  let arg15 : BitVec 32 := Scf.iv c0_i32_56 c1_i32_58 k0_t4
  let c16_i32_77 : BitVec 32 := 16#32
  let v73 : BitVec 32 := Scalar.muli arg15 c16_i32_77
  let v137 : Index := Scalar.indexCast v73
  ![2, v137.toNat]
def k0_off44 (k0_t4 : Fin k0_t4_loop.trips) : Fin 2 → Nat :=
  let c3_i32 : BitVec 32 := 3#32
  let v139 : Index := Scalar.indexCast c3_i32
  let c0_i32_56 : BitVec 32 := 0#32
  let c1_i32_58 : BitVec 32 := 1#32
  let arg15 : BitVec 32 := Scf.iv c0_i32_56 c1_i32_58 k0_t4
  let c16_i32_77 : BitVec 32 := 16#32
  let v73 : BitVec 32 := Scalar.muli arg15 c16_i32_77
  let v140 : Index := Scalar.indexCast v73
  ![3, v140.toNat]
def k0_off45 (k0_t4 : Fin k0_t4_loop.trips) : Fin 2 → Nat :=
  let c4_i32 : BitVec 32 := 4#32
  let v142 : Index := Scalar.indexCast c4_i32
  let c0_i32_56 : BitVec 32 := 0#32
  let c1_i32_58 : BitVec 32 := 1#32
  let arg15 : BitVec 32 := Scf.iv c0_i32_56 c1_i32_58 k0_t4
  let c16_i32_77 : BitVec 32 := 16#32
  let v73 : BitVec 32 := Scalar.muli arg15 c16_i32_77
  let v143 : Index := Scalar.indexCast v73
  ![4, v143.toNat]
def k0_off46 (k0_t4 : Fin k0_t4_loop.trips) : Fin 2 → Nat :=
  let c5_i32 : BitVec 32 := 5#32
  let v145 : Index := Scalar.indexCast c5_i32
  let c0_i32_56 : BitVec 32 := 0#32
  let c1_i32_58 : BitVec 32 := 1#32
  let arg15 : BitVec 32 := Scf.iv c0_i32_56 c1_i32_58 k0_t4
  let c16_i32_77 : BitVec 32 := 16#32
  let v73 : BitVec 32 := Scalar.muli arg15 c16_i32_77
  let v146 : Index := Scalar.indexCast v73
  ![5, v146.toNat]
def k0_off47 (k0_t4 : Fin k0_t4_loop.trips) : Fin 2 → Nat :=
  let c6_i32 : BitVec 32 := 6#32
  let v148 : Index := Scalar.indexCast c6_i32
  let c0_i32_56 : BitVec 32 := 0#32
  let c1_i32_58 : BitVec 32 := 1#32
  let arg15 : BitVec 32 := Scf.iv c0_i32_56 c1_i32_58 k0_t4
  let c16_i32_77 : BitVec 32 := 16#32
  let v73 : BitVec 32 := Scalar.muli arg15 c16_i32_77
  let v149 : Index := Scalar.indexCast v73
  ![6, v149.toNat]
def k0_off48 (k0_t4 : Fin k0_t4_loop.trips) : Fin 2 → Nat :=
  let c7_i32 : BitVec 32 := 7#32
  let v151 : Index := Scalar.indexCast c7_i32
  let c0_i32_56 : BitVec 32 := 0#32
  let c1_i32_58 : BitVec 32 := 1#32
  let arg15 : BitVec 32 := Scf.iv c0_i32_56 c1_i32_58 k0_t4
  let c16_i32_77 : BitVec 32 := 16#32
  let v73 : BitVec 32 := Scalar.muli arg15 c16_i32_77
  let v152 : Index := Scalar.indexCast v73
  ![7, v152.toNat]
def k0_off49 (k0_t4 : Fin k0_t4_loop.trips) : Fin 2 → Nat :=
  let c8_i32 : BitVec 32 := 8#32
  let v154 : Index := Scalar.indexCast c8_i32
  let c0_i32_56 : BitVec 32 := 0#32
  let c1_i32_58 : BitVec 32 := 1#32
  let arg15 : BitVec 32 := Scf.iv c0_i32_56 c1_i32_58 k0_t4
  let c16_i32_77 : BitVec 32 := 16#32
  let v73 : BitVec 32 := Scalar.muli arg15 c16_i32_77
  let v155 : Index := Scalar.indexCast v73
  ![8, v155.toNat]
def k0_off50 (k0_t4 : Fin k0_t4_loop.trips) : Fin 2 → Nat :=
  let c9_i32 : BitVec 32 := 9#32
  let v157 : Index := Scalar.indexCast c9_i32
  let c0_i32_56 : BitVec 32 := 0#32
  let c1_i32_58 : BitVec 32 := 1#32
  let arg15 : BitVec 32 := Scf.iv c0_i32_56 c1_i32_58 k0_t4
  let c16_i32_77 : BitVec 32 := 16#32
  let v73 : BitVec 32 := Scalar.muli arg15 c16_i32_77
  let v158 : Index := Scalar.indexCast v73
  ![9, v158.toNat]
def k0_off51 (k0_t4 : Fin k0_t4_loop.trips) : Fin 2 → Nat :=
  let c10_i32 : BitVec 32 := 10#32
  let v160 : Index := Scalar.indexCast c10_i32
  let c0_i32_56 : BitVec 32 := 0#32
  let c1_i32_58 : BitVec 32 := 1#32
  let arg15 : BitVec 32 := Scf.iv c0_i32_56 c1_i32_58 k0_t4
  let c16_i32_77 : BitVec 32 := 16#32
  let v73 : BitVec 32 := Scalar.muli arg15 c16_i32_77
  let v161 : Index := Scalar.indexCast v73
  ![10, v161.toNat]
def k0_off52 (k0_t4 : Fin k0_t4_loop.trips) : Fin 2 → Nat :=
  let c11_i32 : BitVec 32 := 11#32
  let v163 : Index := Scalar.indexCast c11_i32
  let c0_i32_56 : BitVec 32 := 0#32
  let c1_i32_58 : BitVec 32 := 1#32
  let arg15 : BitVec 32 := Scf.iv c0_i32_56 c1_i32_58 k0_t4
  let c16_i32_77 : BitVec 32 := 16#32
  let v73 : BitVec 32 := Scalar.muli arg15 c16_i32_77
  let v164 : Index := Scalar.indexCast v73
  ![11, v164.toNat]
def k0_off53 (k0_t4 : Fin k0_t4_loop.trips) : Fin 2 → Nat :=
  let c12_i32 : BitVec 32 := 12#32
  let v166 : Index := Scalar.indexCast c12_i32
  let c0_i32_56 : BitVec 32 := 0#32
  let c1_i32_58 : BitVec 32 := 1#32
  let arg15 : BitVec 32 := Scf.iv c0_i32_56 c1_i32_58 k0_t4
  let c16_i32_77 : BitVec 32 := 16#32
  let v73 : BitVec 32 := Scalar.muli arg15 c16_i32_77
  let v167 : Index := Scalar.indexCast v73
  ![12, v167.toNat]
def k0_off54 (k0_t4 : Fin k0_t4_loop.trips) : Fin 2 → Nat :=
  let c13_i32 : BitVec 32 := 13#32
  let v169 : Index := Scalar.indexCast c13_i32
  let c0_i32_56 : BitVec 32 := 0#32
  let c1_i32_58 : BitVec 32 := 1#32
  let arg15 : BitVec 32 := Scf.iv c0_i32_56 c1_i32_58 k0_t4
  let c16_i32_77 : BitVec 32 := 16#32
  let v73 : BitVec 32 := Scalar.muli arg15 c16_i32_77
  let v170 : Index := Scalar.indexCast v73
  ![13, v170.toNat]
def k0_off55 (k0_t4 : Fin k0_t4_loop.trips) : Fin 2 → Nat :=
  let c14_i32 : BitVec 32 := 14#32
  let v172 : Index := Scalar.indexCast c14_i32
  let c0_i32_56 : BitVec 32 := 0#32
  let c1_i32_58 : BitVec 32 := 1#32
  let arg15 : BitVec 32 := Scf.iv c0_i32_56 c1_i32_58 k0_t4
  let c16_i32_77 : BitVec 32 := 16#32
  let v73 : BitVec 32 := Scalar.muli arg15 c16_i32_77
  let v173 : Index := Scalar.indexCast v73
  ![14, v173.toNat]
def k0_off56 (k0_t4 : Fin k0_t4_loop.trips) : Fin 2 → Nat :=
  let c15_i32 : BitVec 32 := 15#32
  let v175 : Index := Scalar.indexCast c15_i32
  let c0_i32_56 : BitVec 32 := 0#32
  let c1_i32_58 : BitVec 32 := 1#32
  let arg15 : BitVec 32 := Scf.iv c0_i32_56 c1_i32_58 k0_t4
  let c16_i32_77 : BitVec 32 := 16#32
  let v73 : BitVec 32 := Scalar.muli arg15 c16_i32_77
  let v176 : Index := Scalar.indexCast v73
  ![15, v176.toNat]
def k0_off57 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_15 : BitVec 32 := 32#32
  let v18 : BitVec 32 := Scalar.muli v1 c32_i32_15
  let c0_i32_2 : BitVec 32 := 0#32
  let c1_i32 : BitVec 32 := 1#32
  let arg14 : BitVec 32 := Scf.iv c0_i32_2 c1_i32 k0_t1
  let v19 : BitVec 32 := Scalar.addi v18 arg14
  let c32_i32_60 : BitVec 32 := 32#32
  let c0_i32_61 : BitVec 32 := 0#32
  ![v19.toNat, 32, 0]
@[reducible] def k0_t5_loop : Scf.Loop 32 :=
  let c0_i32_70 : BitVec 32 := 0#32
  let c128_i32_71 : BitVec 32 := 128#32
  let v68 : BitVec 32 := Scalar.addi c0_i32_70 c128_i32_71
  let c1_i32_72 : BitVec 32 := 1#32
  ⟨c0_i32_70, v68, c1_i32_72⟩
def k0_off58 (k0_t1 : Fin k0_t1_loop.trips) (k0_t5 : Fin k0_t5_loop.trips) : Fin 1 → Nat :=
  let c0_i32_2 : BitVec 32 := 0#32
  let c1_i32 : BitVec 32 := 1#32
  let arg14 : BitVec 32 := Scf.iv c0_i32_2 c1_i32 k0_t1
  let c2_i32_16 : BitVec 32 := 2#32
  let c0_i32_17 : BitVec 32 := 0#32
  let v20 : BitVec 1 := Scalar.cmpi .eq c2_i32_16 c0_i32_17
  let c1_i32_18 : BitVec 32 := 1#32
  let v21 : BitVec 32 := Scalar.select v20 c1_i32_18 c2_i32_16
  let v22 : BitVec 32 := Scalar.remsi arg14 v21
  let c0_i32_20 : BitVec 32 := 0#32
  let v24 : BitVec 1 := Scalar.cmpi .slt v22 c0_i32_20
  let c0_i32_21 : BitVec 32 := 0#32
  let v25 : BitVec 1 := Scalar.cmpi .slt v21 c0_i32_21
  let v26 : BitVec 1 := Scalar.xori v24 v25
  let c0_i32_19 : BitVec 32 := 0#32
  let v23 : BitVec 1 := Scalar.cmpi .ne v22 c0_i32_19
  let v27 : BitVec 1 := Scalar.andi v26 v23
  let v28 : BitVec 32 := Scalar.addi v22 v21
  let v29 : BitVec 32 := Scalar.select v27 v28 v22
  let c2048_i32_22 : BitVec 32 := 2048#32
  let v30 : BitVec 32 := Scalar.muli v29 c2048_i32_22
  let c0_i32_70 : BitVec 32 := 0#32
  let c1_i32_72 : BitVec 32 := 1#32
  let arg15 : BitVec 32 := Scf.iv c0_i32_70 c1_i32_72 k0_t5
  let c16_i32_77 : BitVec 32 := 16#32
  let v73 : BitVec 32 := Scalar.muli arg15 c16_i32_77
  let v74 : BitVec 32 := Scalar.addi v30 v73
  let v75 : Index := Scalar.indexCast v74
  ![v75.toNat]

def k0_chk49 (v83 : IVec S16 32) : Prop :=
  (∀ a x, ((![v83] : Fin 1 → IVec S16 32) a x).toNat < S8192.size a)
instance k0_chk49.dec : ∀ (v83 : IVec S16 32), Decidable (k0_chk49 v83) := fun v83 => decidable_of_iff' _ (Iff.of_eq (k0_chk49.eq_1 v83))
theorem k0_idx49_inb : ∀ (v83 : IVec S16 32) (k0_hw49 : k0_chk49 v83), ∀ a x, ((![v83] : Fin 1 → IVec S16 32) a x).toNat < S8192.size a := fun v83 k0_hw49 => k0_hw49

def k0_chk50 (v86 : IVec S16 32) : Prop :=
  (∀ a x, ((![v86] : Fin 1 → IVec S16 32) a x).toNat < S8192.size a)
instance k0_chk50.dec : ∀ (v86 : IVec S16 32), Decidable (k0_chk50 v86) := fun v86 => decidable_of_iff' _ (Iff.of_eq (k0_chk50.eq_1 v86))
theorem k0_idx50_inb : ∀ (v86 : IVec S16 32) (k0_hw50 : k0_chk50 v86), ∀ a x, ((![v86] : Fin 1 → IVec S16 32) a x).toNat < S8192.size a := fun v86 k0_hw50 => k0_hw50

def k0_chk51 (v89 : IVec S16 32) : Prop :=
  (∀ a x, ((![v89] : Fin 1 → IVec S16 32) a x).toNat < S8192.size a)
instance k0_chk51.dec : ∀ (v89 : IVec S16 32), Decidable (k0_chk51 v89) := fun v89 => decidable_of_iff' _ (Iff.of_eq (k0_chk51.eq_1 v89))
theorem k0_idx51_inb : ∀ (v89 : IVec S16 32) (k0_hw51 : k0_chk51 v89), ∀ a x, ((![v89] : Fin 1 → IVec S16 32) a x).toNat < S8192.size a := fun v89 k0_hw51 => k0_hw51

def k0_chk52 (v92 : IVec S16 32) : Prop :=
  (∀ a x, ((![v92] : Fin 1 → IVec S16 32) a x).toNat < S8192.size a)
instance k0_chk52.dec : ∀ (v92 : IVec S16 32), Decidable (k0_chk52 v92) := fun v92 => decidable_of_iff' _ (Iff.of_eq (k0_chk52.eq_1 v92))
theorem k0_idx52_inb : ∀ (v92 : IVec S16 32) (k0_hw52 : k0_chk52 v92), ∀ a x, ((![v92] : Fin 1 → IVec S16 32) a x).toNat < S8192.size a := fun v92 k0_hw52 => k0_hw52

def k0_chk53 (v95 : IVec S16 32) : Prop :=
  (∀ a x, ((![v95] : Fin 1 → IVec S16 32) a x).toNat < S8192.size a)
instance k0_chk53.dec : ∀ (v95 : IVec S16 32), Decidable (k0_chk53 v95) := fun v95 => decidable_of_iff' _ (Iff.of_eq (k0_chk53.eq_1 v95))
theorem k0_idx53_inb : ∀ (v95 : IVec S16 32) (k0_hw53 : k0_chk53 v95), ∀ a x, ((![v95] : Fin 1 → IVec S16 32) a x).toNat < S8192.size a := fun v95 k0_hw53 => k0_hw53

def k0_chk54 (v98 : IVec S16 32) : Prop :=
  (∀ a x, ((![v98] : Fin 1 → IVec S16 32) a x).toNat < S8192.size a)
instance k0_chk54.dec : ∀ (v98 : IVec S16 32), Decidable (k0_chk54 v98) := fun v98 => decidable_of_iff' _ (Iff.of_eq (k0_chk54.eq_1 v98))
theorem k0_idx54_inb : ∀ (v98 : IVec S16 32) (k0_hw54 : k0_chk54 v98), ∀ a x, ((![v98] : Fin 1 → IVec S16 32) a x).toNat < S8192.size a := fun v98 k0_hw54 => k0_hw54

def k0_chk55 (v101 : IVec S16 32) : Prop :=
  (∀ a x, ((![v101] : Fin 1 → IVec S16 32) a x).toNat < S8192.size a)
instance k0_chk55.dec : ∀ (v101 : IVec S16 32), Decidable (k0_chk55 v101) := fun v101 => decidable_of_iff' _ (Iff.of_eq (k0_chk55.eq_1 v101))
theorem k0_idx55_inb : ∀ (v101 : IVec S16 32) (k0_hw55 : k0_chk55 v101), ∀ a x, ((![v101] : Fin 1 → IVec S16 32) a x).toNat < S8192.size a := fun v101 k0_hw55 => k0_hw55

def k0_chk56 (v104 : IVec S16 32) : Prop :=
  (∀ a x, ((![v104] : Fin 1 → IVec S16 32) a x).toNat < S8192.size a)
instance k0_chk56.dec : ∀ (v104 : IVec S16 32), Decidable (k0_chk56 v104) := fun v104 => decidable_of_iff' _ (Iff.of_eq (k0_chk56.eq_1 v104))
theorem k0_idx56_inb : ∀ (v104 : IVec S16 32) (k0_hw56 : k0_chk56 v104), ∀ a x, ((![v104] : Fin 1 → IVec S16 32) a x).toNat < S8192.size a := fun v104 k0_hw56 => k0_hw56

def k0_chk57 (v107 : IVec S16 32) : Prop :=
  (∀ a x, ((![v107] : Fin 1 → IVec S16 32) a x).toNat < S8192.size a)
instance k0_chk57.dec : ∀ (v107 : IVec S16 32), Decidable (k0_chk57 v107) := fun v107 => decidable_of_iff' _ (Iff.of_eq (k0_chk57.eq_1 v107))
theorem k0_idx57_inb : ∀ (v107 : IVec S16 32) (k0_hw57 : k0_chk57 v107), ∀ a x, ((![v107] : Fin 1 → IVec S16 32) a x).toNat < S8192.size a := fun v107 k0_hw57 => k0_hw57

def k0_chk58 (v110 : IVec S16 32) : Prop :=
  (∀ a x, ((![v110] : Fin 1 → IVec S16 32) a x).toNat < S8192.size a)
instance k0_chk58.dec : ∀ (v110 : IVec S16 32), Decidable (k0_chk58 v110) := fun v110 => decidable_of_iff' _ (Iff.of_eq (k0_chk58.eq_1 v110))
theorem k0_idx58_inb : ∀ (v110 : IVec S16 32) (k0_hw58 : k0_chk58 v110), ∀ a x, ((![v110] : Fin 1 → IVec S16 32) a x).toNat < S8192.size a := fun v110 k0_hw58 => k0_hw58

def k0_chk59 (v113 : IVec S16 32) : Prop :=
  (∀ a x, ((![v113] : Fin 1 → IVec S16 32) a x).toNat < S8192.size a)
instance k0_chk59.dec : ∀ (v113 : IVec S16 32), Decidable (k0_chk59 v113) := fun v113 => decidable_of_iff' _ (Iff.of_eq (k0_chk59.eq_1 v113))
theorem k0_idx59_inb : ∀ (v113 : IVec S16 32) (k0_hw59 : k0_chk59 v113), ∀ a x, ((![v113] : Fin 1 → IVec S16 32) a x).toNat < S8192.size a := fun v113 k0_hw59 => k0_hw59

def k0_chk60 (v116 : IVec S16 32) : Prop :=
  (∀ a x, ((![v116] : Fin 1 → IVec S16 32) a x).toNat < S8192.size a)
instance k0_chk60.dec : ∀ (v116 : IVec S16 32), Decidable (k0_chk60 v116) := fun v116 => decidable_of_iff' _ (Iff.of_eq (k0_chk60.eq_1 v116))
theorem k0_idx60_inb : ∀ (v116 : IVec S16 32) (k0_hw60 : k0_chk60 v116), ∀ a x, ((![v116] : Fin 1 → IVec S16 32) a x).toNat < S8192.size a := fun v116 k0_hw60 => k0_hw60

def k0_chk61 (v119 : IVec S16 32) : Prop :=
  (∀ a x, ((![v119] : Fin 1 → IVec S16 32) a x).toNat < S8192.size a)
instance k0_chk61.dec : ∀ (v119 : IVec S16 32), Decidable (k0_chk61 v119) := fun v119 => decidable_of_iff' _ (Iff.of_eq (k0_chk61.eq_1 v119))
theorem k0_idx61_inb : ∀ (v119 : IVec S16 32) (k0_hw61 : k0_chk61 v119), ∀ a x, ((![v119] : Fin 1 → IVec S16 32) a x).toNat < S8192.size a := fun v119 k0_hw61 => k0_hw61

def k0_chk62 (v122 : IVec S16 32) : Prop :=
  (∀ a x, ((![v122] : Fin 1 → IVec S16 32) a x).toNat < S8192.size a)
instance k0_chk62.dec : ∀ (v122 : IVec S16 32), Decidable (k0_chk62 v122) := fun v122 => decidable_of_iff' _ (Iff.of_eq (k0_chk62.eq_1 v122))
theorem k0_idx62_inb : ∀ (v122 : IVec S16 32) (k0_hw62 : k0_chk62 v122), ∀ a x, ((![v122] : Fin 1 → IVec S16 32) a x).toNat < S8192.size a := fun v122 k0_hw62 => k0_hw62

def k0_chk63 (v125 : IVec S16 32) : Prop :=
  (∀ a x, ((![v125] : Fin 1 → IVec S16 32) a x).toNat < S8192.size a)
instance k0_chk63.dec : ∀ (v125 : IVec S16 32), Decidable (k0_chk63 v125) := fun v125 => decidable_of_iff' _ (Iff.of_eq (k0_chk63.eq_1 v125))
theorem k0_idx63_inb : ∀ (v125 : IVec S16 32) (k0_hw63 : k0_chk63 v125), ∀ a x, ((![v125] : Fin 1 → IVec S16 32) a x).toNat < S8192.size a := fun v125 k0_hw63 => k0_hw63

def k0_chk64 (v128 : IVec S16 32) : Prop :=
  (∀ a x, ((![v128] : Fin 1 → IVec S16 32) a x).toNat < S8192.size a)
instance k0_chk64.dec : ∀ (v128 : IVec S16 32), Decidable (k0_chk64 v128) := fun v128 => decidable_of_iff' _ (Iff.of_eq (k0_chk64.eq_1 v128))
theorem k0_idx64_inb : ∀ (v128 : IVec S16 32) (k0_hw64 : k0_chk64 v128), ∀ a x, ((![v128] : Fin 1 → IVec S16 32) a x).toNat < S8192.size a := fun v128 k0_hw64 => k0_hw64
def k0_off59 (k0_t5 : Fin k0_t5_loop.trips) : Fin 2 → Nat :=
  let c0_i32_83 : BitVec 32 := 0#32
  let v130 : Index := Scalar.indexCast c0_i32_83
  let c0_i32_70 : BitVec 32 := 0#32
  let c1_i32_72 : BitVec 32 := 1#32
  let arg15 : BitVec 32 := Scf.iv c0_i32_70 c1_i32_72 k0_t5
  let c16_i32_77 : BitVec 32 := 16#32
  let v73 : BitVec 32 := Scalar.muli arg15 c16_i32_77
  let v131 : Index := Scalar.indexCast v73
  ![0, v131.toNat]
def k0_off60 (k0_t5 : Fin k0_t5_loop.trips) : Fin 2 → Nat :=
  let c1_i32_84 : BitVec 32 := 1#32
  let v133 : Index := Scalar.indexCast c1_i32_84
  let c0_i32_70 : BitVec 32 := 0#32
  let c1_i32_72 : BitVec 32 := 1#32
  let arg15 : BitVec 32 := Scf.iv c0_i32_70 c1_i32_72 k0_t5
  let c16_i32_77 : BitVec 32 := 16#32
  let v73 : BitVec 32 := Scalar.muli arg15 c16_i32_77
  let v134 : Index := Scalar.indexCast v73
  ![1, v134.toNat]
def k0_off61 (k0_t5 : Fin k0_t5_loop.trips) : Fin 2 → Nat :=
  let c2_i32_85 : BitVec 32 := 2#32
  let v136 : Index := Scalar.indexCast c2_i32_85
  let c0_i32_70 : BitVec 32 := 0#32
  let c1_i32_72 : BitVec 32 := 1#32
  let arg15 : BitVec 32 := Scf.iv c0_i32_70 c1_i32_72 k0_t5
  let c16_i32_77 : BitVec 32 := 16#32
  let v73 : BitVec 32 := Scalar.muli arg15 c16_i32_77
  let v137 : Index := Scalar.indexCast v73
  ![2, v137.toNat]
def k0_off62 (k0_t5 : Fin k0_t5_loop.trips) : Fin 2 → Nat :=
  let c3_i32 : BitVec 32 := 3#32
  let v139 : Index := Scalar.indexCast c3_i32
  let c0_i32_70 : BitVec 32 := 0#32
  let c1_i32_72 : BitVec 32 := 1#32
  let arg15 : BitVec 32 := Scf.iv c0_i32_70 c1_i32_72 k0_t5
  let c16_i32_77 : BitVec 32 := 16#32
  let v73 : BitVec 32 := Scalar.muli arg15 c16_i32_77
  let v140 : Index := Scalar.indexCast v73
  ![3, v140.toNat]
def k0_off63 (k0_t5 : Fin k0_t5_loop.trips) : Fin 2 → Nat :=
  let c4_i32 : BitVec 32 := 4#32
  let v142 : Index := Scalar.indexCast c4_i32
  let c0_i32_70 : BitVec 32 := 0#32
  let c1_i32_72 : BitVec 32 := 1#32
  let arg15 : BitVec 32 := Scf.iv c0_i32_70 c1_i32_72 k0_t5
  let c16_i32_77 : BitVec 32 := 16#32
  let v73 : BitVec 32 := Scalar.muli arg15 c16_i32_77
  let v143 : Index := Scalar.indexCast v73
  ![4, v143.toNat]
def k0_off64 (k0_t5 : Fin k0_t5_loop.trips) : Fin 2 → Nat :=
  let c5_i32 : BitVec 32 := 5#32
  let v145 : Index := Scalar.indexCast c5_i32
  let c0_i32_70 : BitVec 32 := 0#32
  let c1_i32_72 : BitVec 32 := 1#32
  let arg15 : BitVec 32 := Scf.iv c0_i32_70 c1_i32_72 k0_t5
  let c16_i32_77 : BitVec 32 := 16#32
  let v73 : BitVec 32 := Scalar.muli arg15 c16_i32_77
  let v146 : Index := Scalar.indexCast v73
  ![5, v146.toNat]
def k0_off65 (k0_t5 : Fin k0_t5_loop.trips) : Fin 2 → Nat :=
  let c6_i32 : BitVec 32 := 6#32
  let v148 : Index := Scalar.indexCast c6_i32
  let c0_i32_70 : BitVec 32 := 0#32
  let c1_i32_72 : BitVec 32 := 1#32
  let arg15 : BitVec 32 := Scf.iv c0_i32_70 c1_i32_72 k0_t5
  let c16_i32_77 : BitVec 32 := 16#32
  let v73 : BitVec 32 := Scalar.muli arg15 c16_i32_77
  let v149 : Index := Scalar.indexCast v73
  ![6, v149.toNat]
def k0_off66 (k0_t5 : Fin k0_t5_loop.trips) : Fin 2 → Nat :=
  let c7_i32 : BitVec 32 := 7#32
  let v151 : Index := Scalar.indexCast c7_i32
  let c0_i32_70 : BitVec 32 := 0#32
  let c1_i32_72 : BitVec 32 := 1#32
  let arg15 : BitVec 32 := Scf.iv c0_i32_70 c1_i32_72 k0_t5
  let c16_i32_77 : BitVec 32 := 16#32
  let v73 : BitVec 32 := Scalar.muli arg15 c16_i32_77
  let v152 : Index := Scalar.indexCast v73
  ![7, v152.toNat]
def k0_off67 (k0_t5 : Fin k0_t5_loop.trips) : Fin 2 → Nat :=
  let c8_i32 : BitVec 32 := 8#32
  let v154 : Index := Scalar.indexCast c8_i32
  let c0_i32_70 : BitVec 32 := 0#32
  let c1_i32_72 : BitVec 32 := 1#32
  let arg15 : BitVec 32 := Scf.iv c0_i32_70 c1_i32_72 k0_t5
  let c16_i32_77 : BitVec 32 := 16#32
  let v73 : BitVec 32 := Scalar.muli arg15 c16_i32_77
  let v155 : Index := Scalar.indexCast v73
  ![8, v155.toNat]
def k0_off68 (k0_t5 : Fin k0_t5_loop.trips) : Fin 2 → Nat :=
  let c9_i32 : BitVec 32 := 9#32
  let v157 : Index := Scalar.indexCast c9_i32
  let c0_i32_70 : BitVec 32 := 0#32
  let c1_i32_72 : BitVec 32 := 1#32
  let arg15 : BitVec 32 := Scf.iv c0_i32_70 c1_i32_72 k0_t5
  let c16_i32_77 : BitVec 32 := 16#32
  let v73 : BitVec 32 := Scalar.muli arg15 c16_i32_77
  let v158 : Index := Scalar.indexCast v73
  ![9, v158.toNat]
def k0_off69 (k0_t5 : Fin k0_t5_loop.trips) : Fin 2 → Nat :=
  let c10_i32 : BitVec 32 := 10#32
  let v160 : Index := Scalar.indexCast c10_i32
  let c0_i32_70 : BitVec 32 := 0#32
  let c1_i32_72 : BitVec 32 := 1#32
  let arg15 : BitVec 32 := Scf.iv c0_i32_70 c1_i32_72 k0_t5
  let c16_i32_77 : BitVec 32 := 16#32
  let v73 : BitVec 32 := Scalar.muli arg15 c16_i32_77
  let v161 : Index := Scalar.indexCast v73
  ![10, v161.toNat]
def k0_off70 (k0_t5 : Fin k0_t5_loop.trips) : Fin 2 → Nat :=
  let c11_i32 : BitVec 32 := 11#32
  let v163 : Index := Scalar.indexCast c11_i32
  let c0_i32_70 : BitVec 32 := 0#32
  let c1_i32_72 : BitVec 32 := 1#32
  let arg15 : BitVec 32 := Scf.iv c0_i32_70 c1_i32_72 k0_t5
  let c16_i32_77 : BitVec 32 := 16#32
  let v73 : BitVec 32 := Scalar.muli arg15 c16_i32_77
  let v164 : Index := Scalar.indexCast v73
  ![11, v164.toNat]
def k0_off71 (k0_t5 : Fin k0_t5_loop.trips) : Fin 2 → Nat :=
  let c12_i32 : BitVec 32 := 12#32
  let v166 : Index := Scalar.indexCast c12_i32
  let c0_i32_70 : BitVec 32 := 0#32
  let c1_i32_72 : BitVec 32 := 1#32
  let arg15 : BitVec 32 := Scf.iv c0_i32_70 c1_i32_72 k0_t5
  let c16_i32_77 : BitVec 32 := 16#32
  let v73 : BitVec 32 := Scalar.muli arg15 c16_i32_77
  let v167 : Index := Scalar.indexCast v73
  ![12, v167.toNat]
def k0_off72 (k0_t5 : Fin k0_t5_loop.trips) : Fin 2 → Nat :=
  let c13_i32 : BitVec 32 := 13#32
  let v169 : Index := Scalar.indexCast c13_i32
  let c0_i32_70 : BitVec 32 := 0#32
  let c1_i32_72 : BitVec 32 := 1#32
  let arg15 : BitVec 32 := Scf.iv c0_i32_70 c1_i32_72 k0_t5
  let c16_i32_77 : BitVec 32 := 16#32
  let v73 : BitVec 32 := Scalar.muli arg15 c16_i32_77
  let v170 : Index := Scalar.indexCast v73
  ![13, v170.toNat]
def k0_off73 (k0_t5 : Fin k0_t5_loop.trips) : Fin 2 → Nat :=
  let c14_i32 : BitVec 32 := 14#32
  let v172 : Index := Scalar.indexCast c14_i32
  let c0_i32_70 : BitVec 32 := 0#32
  let c1_i32_72 : BitVec 32 := 1#32
  let arg15 : BitVec 32 := Scf.iv c0_i32_70 c1_i32_72 k0_t5
  let c16_i32_77 : BitVec 32 := 16#32
  let v73 : BitVec 32 := Scalar.muli arg15 c16_i32_77
  let v173 : Index := Scalar.indexCast v73
  ![14, v173.toNat]
def k0_off74 (k0_t5 : Fin k0_t5_loop.trips) : Fin 2 → Nat :=
  let c15_i32 : BitVec 32 := 15#32
  let v175 : Index := Scalar.indexCast c15_i32
  let c0_i32_70 : BitVec 32 := 0#32
  let c1_i32_72 : BitVec 32 := 1#32
  let arg15 : BitVec 32 := Scf.iv c0_i32_70 c1_i32_72 k0_t5
  let c16_i32_77 : BitVec 32 := 16#32
  let v73 : BitVec 32 := Scalar.muli arg15 c16_i32_77
  let v176 : Index := Scalar.indexCast v73
  ![15, v176.toNat]
def k0_off75 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_15 : BitVec 32 := 32#32
  let v18 : BitVec 32 := Scalar.muli v1 c32_i32_15
  let c0_i32_2 : BitVec 32 := 0#32
  let c1_i32 : BitVec 32 := 1#32
  let arg14 : BitVec 32 := Scf.iv c0_i32_2 c1_i32 k0_t1
  let v19 : BitVec 32 := Scalar.addi v18 arg14
  let c48_i32 : BitVec 32 := 48#32
  let c0_i32_74 : BitVec 32 := 0#32
  ![v19.toNat, 48, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S8x64_S512x1 : S8x64.ShapeCasts S512x1
  shapeCasts_S512x1_S1x512x1x1 : S512x1.ShapeCasts S1x512x1x1
  bcast_S1x512x1x1_S1x512x16x1_0_1_2_3 : S1x512x1x1.BroadcastsInDim S1x512x16x1 (![0, 1, 2, 3] : Fin 4 → Fin S1x512x16x1.rank)
  shapeCasts_S1x512x16x1_S512x16 : S1x512x16x1.ShapeCasts S512x16
  shapeCasts_S512x16_S8192 : S512x16.ShapeCasts S8192
  shapeCasts_S1024x2048_S2097152 : S1024x2048.ShapeCasts S2097152
  inb_S16_S16_0 : ∀ a, (![0] : Fin 1 → Nat) a + S16.size a ≤ S16.size a
  h_S16 : 0 < S16.numel
  inb_S4096_S2048_0 : ∀ a, (![0] : Fin 1 → Nat) a + S2048.size a ≤ S4096.size a
  inb_S2097152_S2048_0 : ∀ a, (![0] : Fin 1 → Nat) a + S2048.size a ≤ S2097152.size a
  inb_S1024x64x2048_S1x16x2048_0_0_0 : ∀ a, (![0, 0, 0] : Fin 3 → Nat) a + S1x16x2048.size a ≤ S1024x64x2048.size a
  squeezes_S1x16x2048_S16x2048 : S1x16x2048.Squeezes S16x2048
  h_S8192 : 0 < S8192.numel
  h_S1x16 : 0 < S1x16.numel
  shapeCasts_S1x16_S16 : S1x16.ShapeCasts S16
  shapeCasts_S16_S1x16 : S16.ShapeCasts S1x16
  hcc0_scratch5 : 0 + S_.numel ≤ 5
  hcc0_scratch6 : 1 + S_.numel ≤ 5
  hcc0_scratch7 : 2 + S_.numel ≤ 5
  hcc0_scoped0 : 3 + S_.numel ≤ 5
  hcc0_scoped1 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S2048.size a ≤ S2097152.size a
  k0_t1_ok : k0_t1_loop.OK
  k0_off2_inb : ∀ k0_t1 : Fin k0_t1_loop.trips, ∀ (k0_h1 : k0_cond1 k0_t1 = 1#1), ∀ a, (k0_off2 k0_t1) a + S2048.size a ≤ S4096.size a
  k0_off3_inb : ∀ (i : grid0.Coords) (k0_t1 : Fin k0_t1_loop.trips), ∀ (k0_h1 : k0_cond1 k0_t1 = 1#1), ∀ a, (k0_off3 i k0_t1) a + S2048.size a ≤ S2097152.size a
  k0_t2_ok : k0_t2_loop.OK
  k0_off4_inb : ∀ (k0_t1 : Fin k0_t1_loop.trips) (k0_t2 : Fin k0_t2_loop.trips), ∀ a, (k0_off4 k0_t1 k0_t2) a + S16.size a ≤ S4096.size a
  k0_off5_inb : ∀ k0_t2 : Fin k0_t2_loop.trips, ∀ a, (k0_off5 k0_t2) a + S1x16.size a ≤ S16x2048.size a
  k0_off6_inb : ∀ k0_t2 : Fin k0_t2_loop.trips, ∀ a, (k0_off6 k0_t2) a + S1x16.size a ≤ S16x2048.size a
  k0_off7_inb : ∀ k0_t2 : Fin k0_t2_loop.trips, ∀ a, (k0_off7 k0_t2) a + S1x16.size a ≤ S16x2048.size a
  k0_off8_inb : ∀ k0_t2 : Fin k0_t2_loop.trips, ∀ a, (k0_off8 k0_t2) a + S1x16.size a ≤ S16x2048.size a
  k0_off9_inb : ∀ k0_t2 : Fin k0_t2_loop.trips, ∀ a, (k0_off9 k0_t2) a + S1x16.size a ≤ S16x2048.size a
  k0_off10_inb : ∀ k0_t2 : Fin k0_t2_loop.trips, ∀ a, (k0_off10 k0_t2) a + S1x16.size a ≤ S16x2048.size a
  k0_off11_inb : ∀ k0_t2 : Fin k0_t2_loop.trips, ∀ a, (k0_off11 k0_t2) a + S1x16.size a ≤ S16x2048.size a
  k0_off12_inb : ∀ k0_t2 : Fin k0_t2_loop.trips, ∀ a, (k0_off12 k0_t2) a + S1x16.size a ≤ S16x2048.size a
  k0_off13_inb : ∀ k0_t2 : Fin k0_t2_loop.trips, ∀ a, (k0_off13 k0_t2) a + S1x16.size a ≤ S16x2048.size a
  k0_off14_inb : ∀ k0_t2 : Fin k0_t2_loop.trips, ∀ a, (k0_off14 k0_t2) a + S1x16.size a ≤ S16x2048.size a
  k0_off15_inb : ∀ k0_t2 : Fin k0_t2_loop.trips, ∀ a, (k0_off15 k0_t2) a + S1x16.size a ≤ S16x2048.size a
  k0_off16_inb : ∀ k0_t2 : Fin k0_t2_loop.trips, ∀ a, (k0_off16 k0_t2) a + S1x16.size a ≤ S16x2048.size a
  k0_off17_inb : ∀ k0_t2 : Fin k0_t2_loop.trips, ∀ a, (k0_off17 k0_t2) a + S1x16.size a ≤ S16x2048.size a
  k0_off18_inb : ∀ k0_t2 : Fin k0_t2_loop.trips, ∀ a, (k0_off18 k0_t2) a + S1x16.size a ≤ S16x2048.size a
  k0_off19_inb : ∀ k0_t2 : Fin k0_t2_loop.trips, ∀ a, (k0_off19 k0_t2) a + S1x16.size a ≤ S16x2048.size a
  k0_off20_inb : ∀ k0_t2 : Fin k0_t2_loop.trips, ∀ a, (k0_off20 k0_t2) a + S1x16.size a ≤ S16x2048.size a
  k0_off21_inb : ∀ (i : grid0.Coords) (k0_t1 : Fin k0_t1_loop.trips), ∀ a, (k0_off21 i k0_t1) a + S1x16x2048.size a ≤ S1024x64x2048.size a
  k0_t3_ok : k0_t3_loop.OK
  k0_off22_inb : ∀ (k0_t1 : Fin k0_t1_loop.trips) (k0_t3 : Fin k0_t3_loop.trips), ∀ a, (k0_off22 k0_t1 k0_t3) a + S16.size a ≤ S4096.size a
  k0_off23_inb : ∀ k0_t3 : Fin k0_t3_loop.trips, ∀ a, (k0_off23 k0_t3) a + S1x16.size a ≤ S16x2048.size a
  k0_off24_inb : ∀ k0_t3 : Fin k0_t3_loop.trips, ∀ a, (k0_off24 k0_t3) a + S1x16.size a ≤ S16x2048.size a
  k0_off25_inb : ∀ k0_t3 : Fin k0_t3_loop.trips, ∀ a, (k0_off25 k0_t3) a + S1x16.size a ≤ S16x2048.size a
  k0_off26_inb : ∀ k0_t3 : Fin k0_t3_loop.trips, ∀ a, (k0_off26 k0_t3) a + S1x16.size a ≤ S16x2048.size a
  k0_off27_inb : ∀ k0_t3 : Fin k0_t3_loop.trips, ∀ a, (k0_off27 k0_t3) a + S1x16.size a ≤ S16x2048.size a
  k0_off28_inb : ∀ k0_t3 : Fin k0_t3_loop.trips, ∀ a, (k0_off28 k0_t3) a + S1x16.size a ≤ S16x2048.size a
  k0_off29_inb : ∀ k0_t3 : Fin k0_t3_loop.trips, ∀ a, (k0_off29 k0_t3) a + S1x16.size a ≤ S16x2048.size a
  k0_off30_inb : ∀ k0_t3 : Fin k0_t3_loop.trips, ∀ a, (k0_off30 k0_t3) a + S1x16.size a ≤ S16x2048.size a
  k0_off31_inb : ∀ k0_t3 : Fin k0_t3_loop.trips, ∀ a, (k0_off31 k0_t3) a + S1x16.size a ≤ S16x2048.size a
  k0_off32_inb : ∀ k0_t3 : Fin k0_t3_loop.trips, ∀ a, (k0_off32 k0_t3) a + S1x16.size a ≤ S16x2048.size a
  k0_off33_inb : ∀ k0_t3 : Fin k0_t3_loop.trips, ∀ a, (k0_off33 k0_t3) a + S1x16.size a ≤ S16x2048.size a
  k0_off34_inb : ∀ k0_t3 : Fin k0_t3_loop.trips, ∀ a, (k0_off34 k0_t3) a + S1x16.size a ≤ S16x2048.size a
  k0_off35_inb : ∀ k0_t3 : Fin k0_t3_loop.trips, ∀ a, (k0_off35 k0_t3) a + S1x16.size a ≤ S16x2048.size a
  k0_off36_inb : ∀ k0_t3 : Fin k0_t3_loop.trips, ∀ a, (k0_off36 k0_t3) a + S1x16.size a ≤ S16x2048.size a
  k0_off37_inb : ∀ k0_t3 : Fin k0_t3_loop.trips, ∀ a, (k0_off37 k0_t3) a + S1x16.size a ≤ S16x2048.size a
  k0_off38_inb : ∀ k0_t3 : Fin k0_t3_loop.trips, ∀ a, (k0_off38 k0_t3) a + S1x16.size a ≤ S16x2048.size a
  k0_off39_inb : ∀ (i : grid0.Coords) (k0_t1 : Fin k0_t1_loop.trips), ∀ a, (k0_off39 i k0_t1) a + S1x16x2048.size a ≤ S1024x64x2048.size a
  k0_t4_ok : k0_t4_loop.OK
  k0_off40_inb : ∀ (k0_t1 : Fin k0_t1_loop.trips) (k0_t4 : Fin k0_t4_loop.trips), ∀ a, (k0_off40 k0_t1 k0_t4) a + S16.size a ≤ S4096.size a
  k0_off41_inb : ∀ k0_t4 : Fin k0_t4_loop.trips, ∀ a, (k0_off41 k0_t4) a + S1x16.size a ≤ S16x2048.size a
  k0_off42_inb : ∀ k0_t4 : Fin k0_t4_loop.trips, ∀ a, (k0_off42 k0_t4) a + S1x16.size a ≤ S16x2048.size a
  k0_off43_inb : ∀ k0_t4 : Fin k0_t4_loop.trips, ∀ a, (k0_off43 k0_t4) a + S1x16.size a ≤ S16x2048.size a
  k0_off44_inb : ∀ k0_t4 : Fin k0_t4_loop.trips, ∀ a, (k0_off44 k0_t4) a + S1x16.size a ≤ S16x2048.size a
  k0_off45_inb : ∀ k0_t4 : Fin k0_t4_loop.trips, ∀ a, (k0_off45 k0_t4) a + S1x16.size a ≤ S16x2048.size a
  k0_off46_inb : ∀ k0_t4 : Fin k0_t4_loop.trips, ∀ a, (k0_off46 k0_t4) a + S1x16.size a ≤ S16x2048.size a
  k0_off47_inb : ∀ k0_t4 : Fin k0_t4_loop.trips, ∀ a, (k0_off47 k0_t4) a + S1x16.size a ≤ S16x2048.size a
  k0_off48_inb : ∀ k0_t4 : Fin k0_t4_loop.trips, ∀ a, (k0_off48 k0_t4) a + S1x16.size a ≤ S16x2048.size a
  k0_off49_inb : ∀ k0_t4 : Fin k0_t4_loop.trips, ∀ a, (k0_off49 k0_t4) a + S1x16.size a ≤ S16x2048.size a
  k0_off50_inb : ∀ k0_t4 : Fin k0_t4_loop.trips, ∀ a, (k0_off50 k0_t4) a + S1x16.size a ≤ S16x2048.size a
  k0_off51_inb : ∀ k0_t4 : Fin k0_t4_loop.trips, ∀ a, (k0_off51 k0_t4) a + S1x16.size a ≤ S16x2048.size a
  k0_off52_inb : ∀ k0_t4 : Fin k0_t4_loop.trips, ∀ a, (k0_off52 k0_t4) a + S1x16.size a ≤ S16x2048.size a
  k0_off53_inb : ∀ k0_t4 : Fin k0_t4_loop.trips, ∀ a, (k0_off53 k0_t4) a + S1x16.size a ≤ S16x2048.size a
  k0_off54_inb : ∀ k0_t4 : Fin k0_t4_loop.trips, ∀ a, (k0_off54 k0_t4) a + S1x16.size a ≤ S16x2048.size a
  k0_off55_inb : ∀ k0_t4 : Fin k0_t4_loop.trips, ∀ a, (k0_off55 k0_t4) a + S1x16.size a ≤ S16x2048.size a
  k0_off56_inb : ∀ k0_t4 : Fin k0_t4_loop.trips, ∀ a, (k0_off56 k0_t4) a + S1x16.size a ≤ S16x2048.size a
  k0_off57_inb : ∀ (i : grid0.Coords) (k0_t1 : Fin k0_t1_loop.trips), ∀ a, (k0_off57 i k0_t1) a + S1x16x2048.size a ≤ S1024x64x2048.size a
  k0_t5_ok : k0_t5_loop.OK
  k0_off58_inb : ∀ (k0_t1 : Fin k0_t1_loop.trips) (k0_t5 : Fin k0_t5_loop.trips), ∀ a, (k0_off58 k0_t1 k0_t5) a + S16.size a ≤ S4096.size a
  k0_off59_inb : ∀ k0_t5 : Fin k0_t5_loop.trips, ∀ a, (k0_off59 k0_t5) a + S1x16.size a ≤ S16x2048.size a
  k0_off60_inb : ∀ k0_t5 : Fin k0_t5_loop.trips, ∀ a, (k0_off60 k0_t5) a + S1x16.size a ≤ S16x2048.size a
  k0_off61_inb : ∀ k0_t5 : Fin k0_t5_loop.trips, ∀ a, (k0_off61 k0_t5) a + S1x16.size a ≤ S16x2048.size a
  k0_off62_inb : ∀ k0_t5 : Fin k0_t5_loop.trips, ∀ a, (k0_off62 k0_t5) a + S1x16.size a ≤ S16x2048.size a
  k0_off63_inb : ∀ k0_t5 : Fin k0_t5_loop.trips, ∀ a, (k0_off63 k0_t5) a + S1x16.size a ≤ S16x2048.size a
  k0_off64_inb : ∀ k0_t5 : Fin k0_t5_loop.trips, ∀ a, (k0_off64 k0_t5) a + S1x16.size a ≤ S16x2048.size a
  k0_off65_inb : ∀ k0_t5 : Fin k0_t5_loop.trips, ∀ a, (k0_off65 k0_t5) a + S1x16.size a ≤ S16x2048.size a
  k0_off66_inb : ∀ k0_t5 : Fin k0_t5_loop.trips, ∀ a, (k0_off66 k0_t5) a + S1x16.size a ≤ S16x2048.size a
  k0_off67_inb : ∀ k0_t5 : Fin k0_t5_loop.trips, ∀ a, (k0_off67 k0_t5) a + S1x16.size a ≤ S16x2048.size a
  k0_off68_inb : ∀ k0_t5 : Fin k0_t5_loop.trips, ∀ a, (k0_off68 k0_t5) a + S1x16.size a ≤ S16x2048.size a
  k0_off69_inb : ∀ k0_t5 : Fin k0_t5_loop.trips, ∀ a, (k0_off69 k0_t5) a + S1x16.size a ≤ S16x2048.size a
  k0_off70_inb : ∀ k0_t5 : Fin k0_t5_loop.trips, ∀ a, (k0_off70 k0_t5) a + S1x16.size a ≤ S16x2048.size a
  k0_off71_inb : ∀ k0_t5 : Fin k0_t5_loop.trips, ∀ a, (k0_off71 k0_t5) a + S1x16.size a ≤ S16x2048.size a
  k0_off72_inb : ∀ k0_t5 : Fin k0_t5_loop.trips, ∀ a, (k0_off72 k0_t5) a + S1x16.size a ≤ S16x2048.size a
  k0_off73_inb : ∀ k0_t5 : Fin k0_t5_loop.trips, ∀ a, (k0_off73 k0_t5) a + S1x16.size a ≤ S16x2048.size a
  k0_off74_inb : ∀ k0_t5 : Fin k0_t5_loop.trips, ∀ a, (k0_off74 k0_t5) a + S1x16.size a ≤ S16x2048.size a
  k0_off75_inb : ∀ (i : grid0.Coords) (k0_t1 : Fin k0_t1_loop.trips), ∀ a, (k0_off75 i k0_t1) a + S1x16x2048.size a ≤ S1024x64x2048.size a

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scoped0 : DmaSems sig S_ := SemArray.consecutive 3 S_ hcc0_scoped0
abbrev cc0_scoped1 : DmaSems sig S_ := SemArray.consecutive 4 S_ hcc0_scoped1

class Facts : Prop extends Facts₀ where

variable [Facts]
-- ==== ReferenceIdeal.lean ====
abbrev S1024x2048 : Shape := ⟨2, ![1024, 2048]⟩
abbrev S8x64 : Shape := ⟨2, ![8, 64]⟩
abbrev S_ : Shape := ⟨0, ![]⟩
abbrev S1024x2048x1 : Shape := ⟨3, ![1024, 2048, 1]⟩
abbrev S1 : Shape := ⟨1, ![1]⟩
abbrev S1x1x1 : Shape := ⟨3, ![1, 1, 1]⟩
abbrev S1024x2048x64 : Shape := ⟨3, ![1024, 2048, 64]⟩
abbrev S1024x64x2048 : Shape := ⟨3, ![1024, 64, 2048]⟩

abbrev nBuf : Space → Nat
  | .hbm => 26
  | .vmem => 0
  | .smem => 0
  | _ => 0

abbrev bufTy : (tb : Table) → Fin (tcTables nBuf tb) → BufTy
  | .hbm, ⟨0, _⟩ => ⟨S1024x2048, .i32⟩
  | .hbm, ⟨1, _⟩ => ⟨S8x64, .f32⟩
  | .hbm, ⟨2, _⟩ => ⟨S_, .i32⟩
  | .hbm, ⟨3, _⟩ => ⟨S1024x2048, .i32⟩
  | .hbm, ⟨4, _⟩ => ⟨S1024x2048, .i1⟩
  | .hbm, ⟨5, _⟩ => ⟨S_, .i32⟩
  | .hbm, ⟨6, _⟩ => ⟨S1024x2048, .i32⟩
  | .hbm, ⟨7, _⟩ => ⟨S1024x2048, .i32⟩
  | .hbm, ⟨8, _⟩ => ⟨S1024x2048, .i32⟩
  | .hbm, ⟨9, _⟩ => ⟨S1024x2048x1, .i32⟩
  | .hbm, ⟨10, _⟩ => ⟨S1, .i32⟩
  | .hbm, ⟨11, _⟩ => ⟨S_, .i32⟩
  | .hbm, ⟨12, _⟩ => ⟨S1024x2048x1, .i32⟩
  | .hbm, ⟨13, _⟩ => ⟨S1024x2048x1, .i1⟩
  | .hbm, ⟨14, _⟩ => ⟨S1x1x1, .i32⟩
  | .hbm, ⟨15, _⟩ => ⟨S1024x2048x1, .i32⟩
  | .hbm, ⟨16, _⟩ => ⟨S1024x2048x1, .i1⟩
  | .hbm, ⟨17, _⟩ => ⟨S1024x2048x1, .i1⟩
  | .hbm, ⟨18, _⟩ => ⟨S_, .i1⟩
  | .hbm, ⟨19, _⟩ => ⟨S1024x2048, .i1⟩
  | .hbm, ⟨20, _⟩ => ⟨S1024x2048x64, .f32⟩
  | .hbm, ⟨21, _⟩ => ⟨S1024x2048x64, .i1⟩
  | .hbm, ⟨22, _⟩ => ⟨S_, .f32⟩
  | .hbm, ⟨23, _⟩ => ⟨S1024x2048x64, .f32⟩
  | .hbm, ⟨24, _⟩ => ⟨S1024x2048x64, .f32⟩
  | .hbm, ⟨25, _⟩ => ⟨S1024x64x2048, .f32⟩
  | _, _ => ⟨S1024x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  bcast_S_S1024x2048 : S_.BroadcastsInDim S1024x2048 (![] : Fin 0 → Fin S1024x2048.rank)
  bcast_S1024x2048_S1024x2048x1_0_1 : S1024x2048.BroadcastsInDim S1024x2048x1 (![0, 1] : Fin 2 → Fin S1024x2048x1.rank)
  bcast_S_S1024x2048x1 : S_.BroadcastsInDim S1024x2048x1 (![] : Fin 0 → Fin S1024x2048x1.rank)
  bcast_S1_S1x1x1_2 : S1.BroadcastsInDim S1x1x1 (![2] : Fin 1 → Fin S1x1x1.rank)
  bcast_S1x1x1_S1024x2048x1_0_1_2 : S1x1x1.BroadcastsInDim S1024x2048x1 (![0, 1, 2] : Fin 3 → Fin S1024x2048x1.rank)
  reducesTo_S1024x2048x1_S1024x2048_d2 : S1024x2048x1.ReducesTo [2] S1024x2048
  h_S_ : 0 < S_.numel
  bcast_S1024x2048_S1024x2048x64_0_1 : S1024x2048.BroadcastsInDim S1024x2048x64 (![0, 1] : Fin 2 → Fin S1024x2048x64.rank)
  bcast_S_S1024x2048x64 : S_.BroadcastsInDim S1024x2048x64 (![] : Fin 0 → Fin S1024x2048x64.rank)
  transposes_S1024x2048x64_S1024x64x2048_0_2_1 : S1024x2048x64.Transposes [0, 2, 1] S1024x64x2048
  gather_S8x64_S1024x2048x1_S1024x2048x64_2_0_n_n_0_2_164_wf : GatherDims.WF S8x64 S1024x2048x1 S1024x2048x64 [2] [0] [] [0] [] 2 ![1, 64]

variable [Facts₀]

def gather_S8x64_S1024x2048x1_S1024x2048x64_2_0_n_n_0_2_164 : GatherDims S8x64 S1024x2048x1 S1024x2048x64 where
  offsetDims := [2]
  collapsedSliceDims := [0]
  operandBatchingDims := []
  startIndicesBatchingDims := []
  startIndexMap := [0]
  indexVectorDim := 2
  sliceSizes := ![1, 64]
  wf := gather_S8x64_S1024x2048x1_S1024x2048x64_2_0_n_n_0_2_164_wf

class Facts : Prop extends Facts₀ where

variable [Facts]
-- ==== Proof.Lookup.lean ====
/-
  The one whole-array function both programs compute: an embedding lookup, transposed. For an index array
  `x : [1024, 2048]` of row numbers and a table `t : [8, 64]`, the result `[1024, 64, 2048]` has at `(b, d, l)` the
  table's entry `(x[b, l], d)`. A word names a row through `rowOf` (its value modulo the number of rows; on words
  between 0 and 7, the only ones the certificate's precondition admits, this is the word itself).
-/
import Idealize.ShloMosaic.Lib.ValueIdx

noncomputable section

namespace Cert.Lookup

open Idealize.ShloMosaic Idealize.ShloMosaic.ValueIdx

/-- The index array's, the table's and the result's shapes. -/
abbrev SX : Shape := ⟨2, ![1024, 2048]⟩
abbrev ST : Shape := ⟨2, ![8, 64]⟩
abbrev SO : Shape := ⟨3, ![1024, 64, 2048]⟩

/-- The table row a word names. -/
def rowOf (w : BitVec 32) : Fin 8 := ⟨w.toNat % 8, Nat.mod_lt _ (by decide)⟩

theorem rowOf_val_of_lt {w : BitVec 32} (h : w.toNat < 8) : (rowOf w).val = w.toNat := Nat.mod_eq_of_lt h

/-- The looked-up array, transposed: entry `(b, d, l)` is the table's entry `(x[b, l], d)`. -/
def gathered {E : Type} (x : SX.Idx → BitVec 32) (t : ST.Idx → E) : SO.Idx → E :=
  fun j => t (ix2 (n0 := 8) (n1 := 64) (rowOf (x (ix2 (n0 := 1024) (n1 := 2048) (j 0) (j 2)))) (j 1))

theorem gathered_ix3 {E : Type} (x : SX.Idx → BitVec 32) (t : ST.Idx → E) (b : Fin 1024) (d : Fin 64) (l : Fin 2048) :
    gathered x t (ix3 b d l) = t (ix2 (rowOf (x (ix2 b l))) d) := rfl

end Cert.Lookup

end
-- ==== Proof.IndexRange.lean ====
/-
  The certificate's precondition, read back on the index array. The precondition is the conjunction of two whole-array
  tests, each an `and`-reduction over both axes of an elementwise predicate, started from 1: every table entry is finite
  (`|t| < +inf`), and every index word `v` satisfies `(v ≥ 0) & (v ≤ 7)`, both comparisons signed. When the conjunction is
  1, the second reduction is 1, hence each of its elements is 1; and a 32-bit word that is between 0 and 7 as a signed
  word has unsigned value below 8.
-/
import proofs.«205739_g2190433321788_cont_8to1_543_10_alg».proof.Pre_input_domain
import proofs.«205739_g2190433321788_cont_8to1_543_10_alg».proof.Proof.Gen.Pre_input_domain
import Idealize.ShloMosaic.Lib.ReduceAll
import Idealize.ShloMosaic.Lib.ValueIdx

noncomputable section

namespace Cert.Pre_input_domain.Hand

open Idealize.ShloMosaic

/-- The rank-0 shape has one index. -/
instance subsingleton_S_ : Subsingleton S_.Idx := ⟨fun a b => funext fun d => d.elim0⟩

/-- A word that tests `0 ≤ v` and `v ≤ 7`, signed, has unsigned value below 8: a word whose signed value is
    nonnegative reads the same signed and unsigned. -/
theorem toNat_lt_eight (v : BitVec 32)
    (e : IntOp.andi (IntOp.cmpi .sge v 0#32) (IntOp.cmpi .sle v 7#32) = 1#1) : v.toNat < 8 := by
  rw [IntOp.andi_eq_one, IntOp.cmpi_sge, IntOp.cmpi_sle] at e
  obtain ⟨h0, h7⟩ := e
  have z : (0#32 : BitVec 32).toInt = 0 := by decide
  have s : (7#32 : BitVec 32).toInt = 7 := by decide
  rw [z] at h0
  rw [s] at h7
  rw [BitVec.toInt_eq_toNat_cond] at h0 h7
  have hv := v.isLt
  split at h0 <;> omega

/-- The precondition gives: every index word is below 8, unsigned. -/
theorem lt_eight_of_pre {F : FTy → Type} [FloatOps F] (x : IVec S1024x2048 32) (t : FVec F S8x64 .f32)
    (h : fn (F := F) x t = fun _ => 1#1) : ∀ i : S1024x2048.Idx, (x i).toNat < 8 := by
  intro i
  have e := congrFun h ValueIdx.ix0
  dsimp only [fn] at e
  -- the final conjunction: its second operand, the reduction over the index array, is 1
  have e2 := (IntOp.andi_eq_one.1 e).2
  -- hence each element of the reduced predicate is 1
  have ei := Host.reduce_andi_all _ _ _ _ _ e2 i
  exact toNat_lt_eight (x i) ei

end Cert.Pre_input_domain.Hand

end
-- ==== Proof.RefValue.lean ====
/-
  The reference's composed host term, read at an index. Under the hypothesis that every index word is below 8 as a
  natural number: the wrap of negative entries (select(x < 0, x + 8, x)) is the identity, the in-range mask
  (0 ≤ start ≤ 7, reduced by "and" over the unit axis) is all ones, so the final select keeps the gathered value;
  the gather of the [8, 64] table at start index x[b, l] (no clamping happens) reads row x[b, l]; and the transpose
  [0, 2, 1] puts table[x[b, l], d] at (b, d, l): the looked-up array of Lookup.lean.
-/
import proofs.«205739_g2190433321788_cont_8to1_543_10_alg».proof.Proof.Gen.ReferenceIdeal
import proofs.«205739_g2190433321788_cont_8to1_543_10_alg».proof.Proof.Lookup
import Idealize.ShloMosaic.Lib.ValueLayout
import Idealize.ShloMosaic.Lib.IdealHost
import Idealize.ShloMosaic.Lib.ReduceAll
import Idealize.ShloMosaic.PureOps.Reduce

noncomputable section

namespace Cert.ReferenceIdeal.Hand

open Cert.ReferenceIdeal Cert.ReferenceIdeal.Gen Idealize.ShloMosaic Idealize.ShloMosaic.ValueIdx

variable {α : Type}

/-! ## The composed term, stage by stage -/

/-- The index array after the wrap of negative entries: select(x < 0, x + 8, x). -/
def wrap (x : IVec S1024x2048 32) : IVec S1024x2048 32 :=
  select (cmpi .slt x (broadcastInDim S1024x2048 ![] bcast_S_S1024x2048 (constantI S_ 32 0#32)))
    (addi x (broadcastInDim S1024x2048 ![] bcast_S_S1024x2048 (constantI S_ 32 8#32))) x

/-- The gather's start indices: the wrapped index array with a trailing unit axis. -/
def starts (x : IVec S1024x2048 32) : IVec S1024x2048x1 32 :=
  broadcastInDim S1024x2048x1 ![0, 1] bcast_S1024x2048_S1024x2048x1_0_1 (wrap x)

/-- The per-element test 0 ≤ start ∧ start ≤ 7. -/
def inRangeElt (x : IVec S1024x2048 32) : IVec S1024x2048x1 1 :=
  andi (cmpi .sge (starts x) (broadcastInDim S1024x2048x1 ![] bcast_S_S1024x2048x1 (constantI S_ 32 0#32)))
    (cmpi .sle (starts x) (broadcastInDim S1024x2048x1 ![0, 1, 2] bcast_S1x1x1_S1024x2048x1_0_1_2
      (broadcastInDim S1x1x1 ![2] bcast_S1_S1x1x1_2 (constantI S1 32 7#32))))

/-- The in-range mask: that test reduced by "and" over the unit axis. -/
def inRange (x : IVec S1024x2048 32) : IVec S1024x2048 1 :=
  Host.reduce IntOp.andi (inRangeElt x) (constantI S_ 1 1#1) reducesTo_S1024x2048x1_S1024x2048_d2 h_S_

/-- The reference's result: the gathered rows where the mask holds and `fill` elsewhere, transposed. -/
def refOut (x : IVec S1024x2048 32) (t : S8x64.Idx → α) (fill : S1024x2048x64.Idx → α) : S1024x64x2048.Idx → α :=
  transpose S1024x64x2048 [0, 2, 1]
    (select (broadcastInDim S1024x2048x64 ![0, 1] bcast_S1024x2048_S1024x2048x64_0_1 (inRange x))
      (Host.gather gather_S8x64_S1024x2048x1_S1024x2048x64_2_0_n_n_0_2_164 t (starts x)) fill)
    transposes_S1024x2048x64_S1024x64x2048_0_2_1

/-! ## Words below 8 -/

/-- A word below 8 as a natural number reads as that number when read signed. -/
theorem toInt_of_lt {w : BitVec 32} (h : w.toNat < 8) : w.toInt = (w.toNat : Int) := by
  have e := BitVec.toInt_eq_toNat_cond w
  omega

/-- On words below 8 the wrap of negative entries is the identity. -/
theorem wrap_eq (x : IVec S1024x2048 32) (hx : ∀ i, (x i).toNat < 8) : wrap x = x := by
  funext i
  show Scalar.select (IntOp.cmpi .slt (x i) 0#32) (IntOp.addi (x i) 8#32) (x i) = x i
  have hn : ¬ IntOp.cmpi .slt (x i) 0#32 = 1#1 := by
    rw [IntOp.cmpi_slt, toInt_of_lt (hx i), show (0#32 : BitVec 32).toInt = 0 from by decide]
    omega
  unfold Scalar.select
  exact if_neg hn

/-- Every start index is below 8. -/
theorem starts_lt (x : IVec S1024x2048 32) (hx : ∀ i, (x i).toNat < 8) (k : S1024x2048x1.Idx) : (starts x k).toNat < 8 := by
  unfold starts
  rw [wrap_eq x hx]
  unfold broadcastInDim
  exact hx _

/-- The start index at (b, l, 0) is the index word at (b, l). -/
theorem starts_ix3 (x : IVec S1024x2048 32) (hx : ∀ i, (x i).toNat < 8) (b : Fin 1024) (l : Fin 2048) (u : Fin 1) :
    starts x (ix3 b l u) = x (ix2 b l) := by
  unfold starts
  rw [wrap_eq x hx]
  exact broadcastInDim_apply _ _ x _ (ix2 b l) fun a => match a with | ⟨0, _⟩ => rfl | ⟨1, _⟩ => rfl

/-- The per-element test holds everywhere. -/
theorem inRangeElt_eq (x : IVec S1024x2048 32) (hx : ∀ i, (x i).toNat < 8) (k : S1024x2048x1.Idx) : inRangeElt x k = 1#1 := by
  show IntOp.andi (IntOp.cmpi .sge (starts x k) 0#32) (IntOp.cmpi .sle (starts x k) 7#32) = 1#1
  have h := starts_lt x hx k
  rw [IntOp.andi_eq_one, IntOp.cmpi_sge, IntOp.cmpi_sle, toInt_of_lt h, show (0#32 : BitVec 32).toInt = 0 from by decide,
    show (7#32 : BitVec 32).toInt = 7 from by decide]
  omega

/-- A left fold by "and" from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- The in-range mask is all ones. -/
theorem inRange_eq (x : IVec S1024x2048 32) (hx : ∀ i, (x i).toNat < 8) (j : S1024x2048.Idx) : inRange x j = 1#1 := by
  unfold inRange
  rw [Host.reduce_eq_foldl]
  exact foldl_andi_ones _ (inRangeElt_eq x hx) _

/-! ## The gather at an index -/

/-- The gather of the [8, 64] table at start indices [1024, 2048, 1] (one collapsed row axis, the columns as offset
    axis), read at (b, l, d): the table at row start[b, l, 0], read signed and clamped into [0, 7], column d. -/
theorem gather_apply (t : S8x64.Idx → α) (idx : IVec S1024x2048x1 32) (b : Fin 1024) (l : Fin 2048) (d : Fin 64) :
    Host.gather gather_S8x64_S1024x2048x1_S1024x2048x64_2_0_n_n_0_2_164 t idx (ix3 b l d)
      = t (ix2 (n0 := 8) (n1 := 64) ⟨min (idx (ix3 b l (0 : Fin 1))).toInt.toNat 7, by omega⟩ d) := by
  unfold Host.gather
  congr 1
  funext a
  refine Fin.ext ?_
  match a with
  | ⟨0, _⟩ =>
    show gather_S8x64_S1024x2048x1_S1024x2048x64_2_0_n_n_0_2_164.start (ix3 b l d) idx 0
      + gather_S8x64_S1024x2048x1_S1024x2048x64_2_0_n_n_0_2_164.batchCoord (ix3 b l d) 0
      + gather_S8x64_S1024x2048x1_S1024x2048x64_2_0_n_n_0_2_164.offCoord (ix3 b l d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8x64_S1024x2048x1_S1024x2048x64_2_0_n_n_0_2_164.startIndexMap from List.mem_singleton.mpr rfl)]
    have hsi : gather_S8x64_S1024x2048x1_S1024x2048x64_2_0_n_n_0_2_164.siIdx (ix3 b l d)
        ⟨List.idxOf (0 : Fin 2) gather_S8x64_S1024x2048x1_S1024x2048x64_2_0_n_n_0_2_164.startIndexMap,
          List.idxOf_lt_length_iff.2 (List.mem_singleton.mpr rfl)⟩ = ix3 b l (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S8x64_S1024x2048x1_S1024x2048x64_2_0_n_n_0_2_164.start (ix3 b l d) idx 1
      + gather_S8x64_S1024x2048x1_S1024x2048x64_2_0_n_n_0_2_164.batchCoord (ix3 b l d) 1
      + gather_S8x64_S1024x2048x1_S1024x2048x64_2_0_n_n_0_2_164.offCoord (ix3 b l d) 1 = d.val
    rw [GatherDims.batchCoord_eq_zero _ _ _ List.not_mem_nil]
    unfold GatherDims.start
    rw [dif_neg (show ¬ (1 : Fin 2) ∈ gather_S8x64_S1024x2048x1_S1024x2048x64_2_0_n_n_0_2_164.startIndexMap from by decide)]
    simp only [Nat.add_zero, Nat.zero_add]
    unfold GatherDims.offCoord
    rw [dif_pos (show (1 : Fin 2) ∈ gather_S8x64_S1024x2048x1_S1024x2048x64_2_0_n_n_0_2_164.sKept from by decide)]
    rfl

/-! ## The result -/

/-- Under the hypothesis that every index word is below 8, the reference's result is the looked-up array, whatever
    the fill value. -/
theorem refOut_eq (x : IVec S1024x2048 32) (hx : ∀ i, (x i).toNat < 8) (t : S8x64.Idx → α) (fill : S1024x2048x64.Idx → α) :
    refOut x t fill = Cert.Lookup.gathered x t := by
  funext j
  obtain ⟨b, d, l, rfl⟩ : ∃ b d l, j = ix3 b d l := ⟨j 0, j 1, j 2, eq_ix3 j⟩
  unfold refOut
  rw [transpose_ix3_021_apply, select_apply]
  have hm : broadcastInDim S1024x2048x64 ![0, 1] bcast_S1024x2048_S1024x2048x64_0_1 (inRange x) (ix3 b l d) = 1#1 := by
    unfold broadcastInDim
    exact inRange_eq x hx _
  rw [hm, select_one, gather_apply, Cert.Lookup.gathered_ix3]
  refine congrArg (fun r : Fin 8 => t (ix2 (n0 := 8) (n1 := 64) r d)) (Fin.ext ?_)
  show min (starts x (ix3 b l (0 : Fin 1))).toInt.toNat 7 = (x (ix2 b l)).toNat % 8
  have h := hx (ix2 b l)
  rw [starts_ix3 x hx, toInt_of_lt h]
  omega

end Cert.ReferenceIdeal.Hand

end
-- ==== Proof.RefRun.lean ====
/-
  The reference program's run, written by hand: @main as the list of its 24 host operations — the outlined lookup
  function's 22 with, in place among them, the one select of the function it calls in turn (at that call's buffer),
  then the transpose — and its run read back: every weakly fair execution terminates with the result buffer at the
  operations' composed term of the arguments' launch contents, the arguments unchanged. Under the hypothesis that
  every index word is below 8, that term is the looked-up array of Lookup.lean (RefValue.lean).
-/
import proofs.«205739_g2190433321788_cont_8to1_543_10_alg».proof.Proof.RefValue
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 24 operations in order, the calls unfolded: the lookup function's constants, the wrap of negative entries
    (the comparison with zero, the sum with 8, and the select — the one operation of the function it calls in turn,
    into that call's buffer), the start indices, the in-range mask (two comparisons, their "and", its reduction over
    the unit axis), the gather, the mask and the fill value broadcast, the final select into the call's result; then
    @main's own transpose. Each operation is stated at its buffers directly: a typed reference built from a literal
    buffer moves contents along an equation that is the identity. -/
abbrev ops : List (HloOp τ sig (Elt F)) :=
  [ nullary main_call0_c (constantI S_ 32 0#32),
    unary main_call0_c main_call0_v0 (broadcastInDim S1024x2048 ![] bcast_S_S1024x2048),
    binary main_arg0 main_call0_v0 main_call0_v1 (cmpi .slt),
    nullary main_call0_c_0 (constantI S_ 32 8#32),
    unary main_call0_c_0 main_call0_v2 (broadcastInDim S1024x2048 ![] bcast_S_S1024x2048),
    binary main_arg0 main_call0_v2 main_call0_v3 addi,
    ternary main_call0_v1 main_call0_v3 main_arg0 main_call0_v4 select,
    unary main_call0_v4 main_call0_v5 (broadcastInDim S1024x2048x1 ![0, 1] bcast_S1024x2048_S1024x2048x1_0_1),
    nullary main_call0_c_1 (constantI S1 32 7#32),
    nullary main_call0_c_2 (constantI S_ 32 0#32),
    unary main_call0_c_2 main_call0_v6 (broadcastInDim S1024x2048x1 ![] bcast_S_S1024x2048x1),
    binary main_call0_v5 main_call0_v6 main_call0_v7 (cmpi .sge),
    unary main_call0_c_1 main_call0_v8 (broadcastInDim S1x1x1 ![2] bcast_S1_S1x1x1_2),
    unary main_call0_v8 main_call0_v9 (broadcastInDim S1024x2048x1 ![0, 1, 2] bcast_S1x1x1_S1024x2048x1_0_1_2),
    binary main_call0_v5 main_call0_v9 main_call0_v10 (cmpi .sle),
    binary main_call0_v7 main_call0_v10 main_call0_v11 andi,
    nullary main_call0_c_3 (constantI S_ 1 1#1),
    binary main_call0_v11 main_call0_c_3 main_call0_v12 (fun x v => Host.reduce IntOp.andi x v reducesTo_S1024x2048x1_S1024x2048_d2 h_S_),
    binary main_arg1 main_call0_v5 main_call0_v13 (fun x i => Host.gather gather_S8x64_S1024x2048x1_S1024x2048x64_2_0_n_n_0_2_164 x i),
    unary main_call0_v12 main_call0_v14 (broadcastInDim S1024x2048x64 ![0, 1] bcast_S1024x2048_S1024x2048x64_0_1),
    nullary main_call0_cst (constant S_ .f32 0x7FC00000#32),
    unary main_call0_cst main_call0_v15 (broadcastInDim S1024x2048x64 ![] bcast_S_S1024x2048x64),
    ternary main_call0_v14 main_call0_v13 main_call0_v15 main_v0 select,
    unary main_v0 main_v1 ((transpose S1024x64x2048 [0, 2, 1] · transposes_S1024x2048x64_S1024x64x2048_0_2_1) : (⟨S1024x2048x64, .f32⟩ : BufTy).Contents (Elt F) → (⟨S1024x64x2048, .f32⟩ : BufTy).Contents (Elt F)) ]

attribute [local irreducible] Host.reduce Host.gather in
set_option maxRecDepth 2048 in
/-- @main is that straight line: the two functions' definitions unfolded at their calls and the records at their
    fields, both sides are one chain of host steps once sequencing is reassociated; operation by operation the typed
    builders at literal buffers are the plain ones, by computation (the reduction and the gather kept folded meanwhile:
    the comparison never looks inside them). -/
theorem main_eq (c : Dev nD) : main (F := F) c = seq ops := by
  simp only [main, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..⟩

/-- What the result buffer holds after the line: the composed term of RefValue.lean over the two arguments' contents,
    its fill value the broadcast quiet-NaN constant. Each operation's result at its own buffer is its function's
    value, and at any other buffer what was there. -/
theorem out_eq (V : Valuation τ sig (Elt F)) :
    after ops V (main_v1 : DevRef τ sig)
      = refOut (V (main_arg0 : DevRef τ sig)) (V (main_arg1 : DevRef τ sig))
          (broadcastInDim S1024x2048x64 ![] bcast_S_S1024x2048x64 (constant S_ .f32 0x7FC00000#32)) := by
  after_results
  unfold refOut inRange inRangeElt starts wrap
  rfl

/-- No operation writes the first argument's buffer. -/
theorem arg0_eq (V : Valuation τ sig (Elt F)) : after ops V (main_arg0 : DevRef τ sig) = V (main_arg0 : DevRef τ sig) := by
  after_results

/-- No operation writes the second argument's buffer. -/
theorem arg1_eq (V : Valuation τ sig (Elt F)) : after ops V (main_arg1 : DevRef τ sig) = V (main_arg1 : DevRef τ sig) := by
  after_results

/-- On every device, from any memory with zero counters whose index words are all below 8: every weakly fair
    execution of @main terminates with the result buffer at the looked-up array of the two arguments' launch contents
    and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg)
    (hx : ∀ (c : Dev Cert.ReferenceIdeal.nD) (i : Cert.ReferenceIdeal.S1024x2048.Idx), (m ((c.tc : Thread Cert.ReferenceIdeal.nD Cert.ReferenceIdeal.τ).loc Cert.ReferenceIdeal.main_arg0) i).toNat < 8) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v1) = Cert.Lookup.gathered (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run defs _ _).mono (fun _ h c =>
      ⟨(h c main_v1).trans ((out_eq (launchContents m c)).trans (refOut_eq _ (hx c) _ _)),
        (h c main_arg0).trans (arg0_eq (launchContents m c)),
        (h c main_arg1).trans (arg1_eq (launchContents m c))⟩)
    (run_seq scopedRefs_eq scopedSems_eq defs main (fun _ => ops) main_eq (fun _ => ops_sub) m ρ)

end Cert.ReferenceIdeal.Hand

end
-- ==== Proof.OnKernel.Setup.lean ====
/-
  The lookup kernel as the SparseCore launch theorem sees it: its one call (a task on each of the 2 × 16 vector
  subcores), the ghost state (the launch handshakes' rounds beside the local transfers' counters), the arrays @main
  computes before the call as functions of the two arguments, and what the handshakes carry: every task READS the
  flattened index array, the lane-replicated table and the lane numbers (a share of each, whole), and OWNS the 32
  batch rows of the result it fills — task `(c, s)` the rows `64 s + 32 c + t`, `t < 32` —, which it hands back at
  the looked-up array `Cert.Lookup.gathered`.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205739_g2190433321788_cont_8to1_543_10_alg».proof.Proof.Gen.Kernel
import proofs.«205739_g2190433321788_cont_8to1_543_10_alg».proof.Proof.Gen.Kernel.Skeleton
import proofs.«205739_g2190433321788_cont_8to1_543_10_alg».proof.Proof.Lookup

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays and what @main computes before the call -/

variable (m : (ℓ : Loc nD τ sig) → Buf (Elt F) ℓ) (ρ : Dev nD → PrngReg)

/-- The index array and the table (the arguments); the flattened index array, the lane-replicated table, the lane
    numbers (computed by @main); the result. As locations of device `d`. -/
abbrev xLoc (d : Dev nD) : Loc nD τ sig := (SparseCore.T d).loc main_arg0
abbrev tLoc (d : Dev nD) : Loc nD τ sig := (SparseCore.T d).loc main_arg1
abbrev fLoc (d : Dev nD) : Loc nD τ sig := (SparseCore.T d).loc main_v6
abbrev rLoc (d : Dev nD) : Loc nD τ sig := (SparseCore.T d).loc main_v4
abbrev iLoc (d : Dev nD) : Loc nD τ sig := (SparseCore.T d).loc main_v5
abbrev oLoc (d : Dev nD) : Loc nD τ sig := (SparseCore.T d).loc main_v7

variable [FloatOps F]

/-- The flattened index array: the index array read row by row. -/
def flatV (d : Dev nD) : Buf (Elt F) (fLoc d) := shapeCast S2097152 (m (xLoc d)) shapeCasts_S1024x2048_S2097152
/-- The table with every entry repeated over sixteen lanes, flat: entry `16 k + lane` is the table's `k`-th. -/
def repV (d : Dev nD) : Buf (Elt F) (rLoc d) :=
  shapeCast S8192 (shapeCast S512x16 (broadcastInDim S1x512x16x1 ![0, 1, 2, 3] bcast_S1x512x1x1_S1x512x16x1_0_1_2_3
    (shapeCast S1x512x1x1 (shapeCast S512x1 (m (tLoc d)) shapeCasts_S8x64_S512x1) shapeCasts_S512x1_S1x512x1x1)) shapeCasts_S1x512x16x1_S512x16) shapeCasts_S512x16_S8192
/-- The lane numbers 0 … 15. -/
def iotV (d : Dev nD) : Buf (Elt F) (iLoc d) := iotaInDim S16 32 0
/-- The result: the looked-up array. -/
def outV (d : Dev nD) : Buf (Elt F) (oLoc d) := Cert.Lookup.gathered (m (xLoc d)) (m (tLoc d))

/-- What the proof asks of the launch memory: every index word names a table row. -/
def PreOK : Prop := ∀ (d : Dev nD) (i : S1024x2048.Idx), (m (xLoc d) i).toNat < 8

/-! ## Who owns which rows of the result -/

/-- The batch rows task `(c, s)` fills: `b / 32 = 2 s + c`. -/
def tileSet (c : Fin 2) (s : Fin 16) : Finset S1024x64x2048.Idx :=
  Finset.univ.filter fun j => (j 0).val / 32 = 2 * s.val + c.val
/-- The rows the tasks of SparseCore `c` fill. -/
def coreSet (c : Fin 2) : Finset S1024x64x2048.Idx :=
  Finset.univ.filter fun j => (j 0).val / 32 % 2 = c.val

/-- The read share SparseCore `c` gets of an array every task reads, and task `(c, s)`'s of that. -/
abbrev qCore (c : Fin 2) : PosShare TreeShare := Transfers.shareTok fullShare 2 c
abbrev qTile (c : Fin 2) (s : Fin 16) : PosShare TreeShare := Transfers.shareTok (qCore c) 16 s

/-! ## What the handshakes carry -/

/-- The three arrays every task reads, at share `q`. -/
abbrev readPts (d : Dev nD) (q : PosShare TreeShare) : sProp 𝕄 :=
  iprop((fLoc d ↦{q} flatV m d) ∗ (rLoc d ↦{q} repV m d) ∗ (iLoc d ↦{q} iotV (F := F) d))

def P : (K (F := F)).Pay (nD := nD) (Val := Elt F) (Name := ℕ) (U := UU) where
  st := fun q d c => match q with | 0 => iprop(readPts m d (qCore (Fin.cast nCore_zero c)) ∗ oLoc d ↦[coreSet (Fin.cast nCore_zero c)]{fullShare} m (oLoc d))
  dn := fun q d c => match q with | 0 => iprop(readPts m d (qCore (Fin.cast nCore_zero c)) ∗ oLoc d ↦[coreSet (Fin.cast nCore_zero c)]{fullShare} outV m d)
  go := fun q d c i => match q with | 0 => iprop(readPts m d (qTile (Fin.cast nCore_zero c) (Fin.cast nSub_zero i)) ∗ oLoc d ↦[tileSet (Fin.cast nCore_zero c) (Fin.cast nSub_zero i)]{fullShare} m (oLoc d))
  td := fun q d c i => match q with | 0 => iprop(readPts m d (qTile (Fin.cast nCore_zero c) (Fin.cast nSub_zero i)) ∗ oLoc d ↦[tileSet (Fin.cast nCore_zero c) (Fin.cast nSub_zero i)]{fullShare} outV m d)
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Kernel.Hand

end
-- ==== Proof.OnKernel.Dispatch.lean ====
/-
  The launch of the lookup kernel: how the call's operands for a SparseCore split among its sixteen tasks and the
  tasks' results gather (the three arrays every task reads as read shares of one points-to; the result's rows by
  which task fills them), the launch element of the ghost state, @main on the TensorCore (the seven host operations
  that flatten the index array, replicate the table over sixteen lanes and number the lanes; then the call, which
  hands each SparseCore its share of the three read arrays and its half of the result's rows and takes the rows
  back at the looked-up array), how the final memory reads the claim, and the run of the whole program from the
  proof of one task.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Transfers
import Idealize.ShloMosaic.Lib.Tactic
import proofs.«205739_g2190433321788_cont_8to1_543_10_alg».proof.Proof.Gen.Kernel
import proofs.«205739_g2190433321788_cont_8to1_543_10_alg».proof.Proof.Gen.Kernel.Skeleton
import proofs.«205739_g2190433321788_cont_8to1_543_10_alg».proof.Proof.Lookup
import proofs.«205739_g2190433321788_cont_8to1_543_10_alg».proof.Proof.OnKernel.Setup

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

variable [FloatOps F]

namespace Dispatch

/-! ## The rows of the result: which task fills which -/

/-- A batch row's number is below 1024. -/
theorem row_lt (j : S1024x64x2048.Idx) : (j 0).val < 1024 := (j 0).isLt

theorem mem_tileSet (c : Fin 2) (s : Fin 16) (j : S1024x64x2048.Idx) : j ∈ tileSet c s ↔ (j 0).val / 32 = 2 * s.val + c.val := by
  unfold tileSet; rw [Finset.mem_filter]; exact ⟨fun h => h.2, fun h => ⟨Finset.mem_univ _, h⟩⟩

theorem mem_coreSet (c : Fin 2) (j : S1024x64x2048.Idx) : j ∈ coreSet c ↔ (j 0).val / 32 % 2 = c.val := by
  unfold coreSet; rw [Finset.mem_filter]; exact ⟨fun h => h.2, fun h => ⟨Finset.mem_univ _, h⟩⟩

/-- The rows of a SparseCore are its sixteen tasks' rows: row `b` with `b / 32` of parity `c` is task `b / 64`'s. -/
theorem tiles_cover (c : Fin 2) : (Finset.univ : Finset (Fin 16)).biUnion (tileSet c) = coreSet c := by
  ext j
  have hj := row_lt j
  have hc := c.isLt
  rw [Finset.mem_biUnion, mem_coreSet]
  constructor
  · rintro ⟨s, -, hs⟩
    rw [mem_tileSet] at hs
    omega
  · intro h
    refine ⟨⟨(j 0).val / 64, by omega⟩, Finset.mem_univ _, ?_⟩
    rw [mem_tileSet]
    show (j 0).val / 32 = 2 * ((j 0).val / 64) + c.val
    omega

/-- Two tasks of one SparseCore fill different rows. -/
theorem tiles_disjoint (c : Fin 2) :
    ∀ s ∈ (Finset.univ : Finset (Fin 16)), ∀ s' ∈ (Finset.univ : Finset (Fin 16)), s ≠ s' → Disjoint (tileSet c s) (tileSet c s') := by
  intro s _ s' _ hne
  rw [Finset.disjoint_left]
  intro j h1 h2
  rw [mem_tileSet] at h1 h2
  exact hne (Fin.ext (by omega))

/-- Every row is one of the two SparseCores'. -/
theorem cores_cover : (Finset.univ : Finset S1024x64x2048.Idx) = coreSet 0 ∪ coreSet 1 := by
  ext j
  rw [Finset.mem_union, mem_coreSet, mem_coreSet]
  have e0 : ((0 : Fin 2) : ℕ) = 0 := rfl
  have e1 : ((1 : Fin 2) : ℕ) = 1 := rfl
  rw [e0, e1]
  constructor
  · intro _; omega
  · intro _; exact Finset.mem_univ _

theorem cores_disjoint : Disjoint (coreSet 0) (coreSet 1) := by
  rw [Finset.disjoint_left]
  intro j h0 h1
  rw [mem_coreSet] at h0 h1
  have e0 : ((0 : Fin 2) : ℕ) = 0 := rfl
  have e1 : ((1 : Fin 2) : ℕ) = 1 := rfl
  omega

/-! ## The result's rows and the read shares as points-to -/

/-- A SparseCore's rows of the result are its tasks' rows, task by task. -/
theorem oPts_tiles (d : Dev nD) (c : Fin 2) (f : Buf (Elt F) (oLoc d)) :
    (oLoc d ↦[coreSet c]{fullShare} f : sProp 𝕄) = bigSep Finset.univ fun s : Fin 16 => oLoc d ↦[tileSet c s]{fullShare} f := by
  rw [← pointsTo_biUnion Finset.univ (ℓ := oLoc d) (tileSet c) (tiles_disjoint c), tiles_cover]

/-- The whole result is the two SparseCores' rows. -/
theorem oPts_cores (d : Dev nD) (f : Buf (Elt F) (oLoc d)) :
    (oLoc d ↦{fullShare} f : sProp 𝕄) ⊣⊢ iprop((oLoc d ↦[coreSet 0]{fullShare} f) ∗ oLoc d ↦[coreSet 1]{fullShare} f) := by
  have h : (oLoc d ↦[coreSet 0 ∪ coreSet 1]{fullShare} f : sProp 𝕄) ⊣⊢ iprop((oLoc d ↦[coreSet 0]{fullShare} f) ∗ oLoc d ↦[coreSet 1]{fullShare} f) :=
    pointsTo_union cores_disjoint
  have e : (oLoc d ↦{fullShare} f : sProp 𝕄) = (oLoc d ↦[coreSet 0 ∪ coreSet 1]{fullShare} f) :=
    congrArg (fun I : Finset S1024x64x2048.Idx => (oLoc d ↦[I]{fullShare} f : sProp 𝕄)) cores_cover
  rw [e]; exact h

/-! ## The arrays every task reads: a share split into tokens, and joined back -/

/-- The three read arrays at share `q` are what remains after `n` tokens and the `n` tokens. -/
theorem read_split (d : Dev nD) (q : PosShare TreeShare) (n : ℕ) :
    readPts m d q ⊢ iprop(readPts m d (Transfers.shareDrop q n) ∗ bigSep Finset.univ fun i : Fin n => readPts m d (Transfers.shareTok q n i)) := by
  unfold readPts
  rw [bigSep_sep', bigSep_sep']
  iintro ⟨Hf, Hr, Hi⟩
  ihave Hf' := (Transfers.pointsTo_toks_split (ℓ := fLoc d) (S := Finset.univ) (f := flatV m d) q n) $$ Hf
  ihave Hr' := (Transfers.pointsTo_toks_split (ℓ := rLoc d) (S := Finset.univ) (f := repV m d) q n) $$ Hr
  ihave Hi' := (Transfers.pointsTo_toks_split (ℓ := iLoc d) (S := Finset.univ) (f := iotV (F := F) d) q n) $$ Hi
  icases Hf' with ⟨Hfd, Hft⟩
  icases Hr' with ⟨Hrd, Hrt⟩
  icases Hi' with ⟨Hid, Hit⟩
  isplitl [Hfd Hrd Hid]
  · isplitl [Hfd]; · iexact Hfd
    isplitl [Hrd]; · iexact Hrd
    iexact Hid
  isplitl [Hft]; · iexact Hft
  isplitl [Hrt]; · iexact Hrt
  iexact Hit

theorem read_join (d : Dev nD) (q : PosShare TreeShare) (n : ℕ) :
    iprop(readPts m d (Transfers.shareDrop q n) ∗ bigSep Finset.univ fun i : Fin n => readPts m d (Transfers.shareTok q n i)) ⊢ readPts m d q := by
  unfold readPts
  rw [bigSep_sep', bigSep_sep']
  iintro ⟨⟨Hfd, Hrd, Hid⟩, Hft, Hrt, Hit⟩
  isplitl [Hfd Hft]
  · iapply (Transfers.pointsTo_toks_join (ℓ := fLoc d) (S := Finset.univ) (f := flatV m d) q n)
    isplitl [Hfd]; · iexact Hfd
    iexact Hft
  isplitl [Hrd Hrt]
  · iapply (Transfers.pointsTo_toks_join (ℓ := rLoc d) (S := Finset.univ) (f := repV m d) q n)
    isplitl [Hrd]; · iexact Hrd
    iexact Hrt
  iapply (Transfers.pointsTo_toks_join (ℓ := iLoc d) (S := Finset.univ) (f := iotV (F := F) d) q n)
  isplitl [Hid]; · iexact Hid
  iexact Hit

/-! ## A SparseCore's operands among its sixteen tasks -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- SparseCore `c`'s share of the read arrays goes out as sixteen tokens (what remains of it stays behind, and comes
    back with them), its rows of the result task by task. -/
theorem vecSplit_core (d : Dev nD) (c : Fin 2) :
    iprop(readPts m d (qCore c) ∗ oLoc d ↦[coreSet c]{fullShare} m (oLoc d)) ⊢ |={Set.univ}=> iprop(
      (bigSep Finset.univ fun s : Fin 16 => iprop(readPts m d (qTile c s) ∗ oLoc d ↦[tileSet c s]{fullShare} m (oLoc d)))
      ∗ ((bigSep Finset.univ fun s : Fin 16 => iprop(readPts m d (qTile c s) ∗ oLoc d ↦[tileSet c s]{fullShare} outV m d))
          -∗ iprop(readPts m d (qCore c) ∗ oLoc d ↦[coreSet c]{fullShare} outV m d))) := by
  rw [bigSep_sep' Finset.univ (fun s : Fin 16 => readPts m d (qTile c s)) (fun s : Fin 16 => oLoc d ↦[tileSet c s]{fullShare} m (oLoc d)),
    bigSep_sep' Finset.univ (fun s : Fin 16 => readPts m d (qTile c s)) (fun s : Fin 16 => oLoc d ↦[tileSet c s]{fullShare} outV m d),
    oPts_tiles, oPts_tiles]
  iintro ⟨Hr, Ho⟩
  ihave Hr' := (read_split m d (qCore c) 16) $$ Hr
  icases Hr' with ⟨Hd, Ht⟩
  imodintro
  isplitl [Ht Ho]
  · isplitl [Ht]; · iexact Ht
    iexact Ho
  iintro ⟨Ht, Ho⟩
  isplitl [Hd Ht]
  · iapply (read_join m d (qCore c) 16)
    isplitl [Hd]; · iexact Hd
    iexact Ht
  iexact Ho

theorem bigSep_emp' {I : Type} (s : Finset I) : (bigSep s fun _ => iprop(emp)) = (iprop(emp) : sProp 𝕄) := bigSep_emp_const s

/-! ## @main on the TensorCore -/

abbrev x' : DevRef τ sig := Proc.devRef .tc (main_arg0 : Ref sig .tc)
abbrev t' : DevRef τ sig := Proc.devRef .tc (main_arg1 : Ref sig .tc)
abbrev a0' : DevRef τ sig := Proc.devRef .tc (main_v0 : Ref sig .tc)
abbrev a1' : DevRef τ sig := Proc.devRef .tc (main_v1 : Ref sig .tc)
abbrev a2' : DevRef τ sig := Proc.devRef .tc (main_v2 : Ref sig .tc)
abbrev a3' : DevRef τ sig := Proc.devRef .tc (main_v3 : Ref sig .tc)
abbrev r' : DevRef τ sig := Proc.devRef .tc (main_v4 : Ref sig .tc)
abbrev i' : DevRef τ sig := Proc.devRef .tc (main_v5 : Ref sig .tc)
abbrev f' : DevRef τ sig := Proc.devRef .tc (main_v6 : Ref sig .tc)
abbrev o' : DevRef τ sig := Proc.devRef .tc (main_v7 : Ref sig .tc)

/-- The seven host operations before the call: the table flattened to a column, given two unit axes, repeated over
    sixteen lanes, and flattened again in two steps; the lane numbers; the index array flattened. -/
abbrev op0 : HloOp τ sig (Elt F) := StableHlo.reshape main_arg1 main_v0 rfl shapeCasts_S8x64_S512x1
abbrev op1 : HloOp τ sig (Elt F) := StableHlo.reshape main_v0 main_v1 rfl shapeCasts_S512x1_S1x512x1x1
abbrev op2 : HloOp τ sig (Elt F) := StableHlo.unary main_v1 main_v2
  (broadcastInDim S1x512x16x1 ![0, 1, 2, 3] bcast_S1x512x1x1_S1x512x16x1_0_1_2_3 : (⟨S1x512x1x1, .f32⟩ : BufTy).Contents (Elt F) → (⟨S1x512x16x1, .f32⟩ : BufTy).Contents (Elt F))
abbrev op3 : HloOp τ sig (Elt F) := StableHlo.reshape main_v2 main_v3 rfl shapeCasts_S1x512x16x1_S512x16
abbrev op4 : HloOp τ sig (Elt F) := StableHlo.reshape main_v3 main_v4 rfl shapeCasts_S512x16_S8192
abbrev op5 : HloOp τ sig (Elt F) := StableHlo.nullary main_v5 (iotaInDim S16 32 0)
abbrev op6 : HloOp τ sig (Elt F) := StableHlo.reshape main_arg0 main_v6 rfl shapeCasts_S1024x2048_S2097152

/-- The TensorCore's arrays, all unscoped. -/
abbrev S10 : Finset (DevRef τ sig) := {x', t', a0', a1', a2', a3', r', i', f', o'}

theorem held_S10 (d : Dev nD) (W : Valuation τ sig (Elt F)) :
    (held (T d) S10 W : sProp 𝕄)
      = iprop((xLoc d ↦{fullShare} W x') ∗ (tLoc d ↦{fullShare} W t') ∗ ((SparseCore.T d).loc main_v0 ↦{fullShare} W a0')
          ∗ ((SparseCore.T d).loc main_v1 ↦{fullShare} W a1') ∗ ((SparseCore.T d).loc main_v2 ↦{fullShare} W a2')
          ∗ ((SparseCore.T d).loc main_v3 ↦{fullShare} W a3') ∗ (rLoc d ↦{fullShare} W r') ∗ (iLoc d ↦{fullShare} W i')
          ∗ (fLoc d ↦{fullShare} W f') ∗ oLoc d ↦{fullShare} W o') := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((xLoc d ↦{fullShare} W main_arg0) ∗ (tLoc d ↦{fullShare} W main_arg1) ∗ ((SparseCore.T d).loc main_v0 ↦{fullShare} W main_v0)
          ∗ ((SparseCore.T d).loc main_v1 ↦{fullShare} W main_v1) ∗ ((SparseCore.T d).loc main_v2 ↦{fullShare} W main_v2)
          ∗ ((SparseCore.T d).loc main_v3 ↦{fullShare} W main_v3) ∗ (rLoc d ↦{fullShare} W main_v4) ∗ (iLoc d ↦{fullShare} W main_v5)
          ∗ (fLoc d ↦{fullShare} W main_v6) ∗ oLoc d ↦{fullShare} W main_v7) := by
  unfold unscopedBufs
  rw [show (Finset.univ.filter fun b : Ref sig .tc => ¬ b.isScoped)
      = {main_arg0, main_arg1, main_v0, main_v1, main_v2, main_v3, main_v4, main_v5, main_v6, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and the valuation at the call: the seven operations' results. -/
def V0 (d : Dev nD) : Valuation τ sig (Elt F) := fun b => m (d, b)
abbrev ops7 : List (HloOp τ sig (Elt F)) := [op0, op1, op2, op3, op4, op5, op6]
def V7 (d : Dev nD) : Valuation τ sig (Elt F) := StableHlo.after ops7 (V0 m d)

theorem unscoped_held (d : Dev nD) : (unscopedBufs d (fun b => m ((SparseCore.T d).loc b)) : sProp 𝕄) = held (T d) S10 (V0 m d) := by
  rw [unscopedBufs_eq, held_S10]; rfl

theorem V7_x (d : Dev nD) : V7 m d x' = m (xLoc d) := by
  unfold V7 ops7; after_results; rfl
theorem V7_t (d : Dev nD) : V7 m d t' = m (tLoc d) := by
  unfold V7 ops7; after_results; rfl
theorem V7_o (d : Dev nD) : V7 m d o' = m (oLoc d) := by
  unfold V7 ops7; after_results; rfl
theorem V7_f (d : Dev nD) : V7 m d f' = flatV m d := by
  unfold V7 ops7; after_results; rfl
theorem V7_i (d : Dev nD) : V7 m d i' = iotV (F := F) d := by
  unfold V7 ops7; after_results; rfl
theorem V7_r (d : Dev nD) : V7 m d r' = repV m d := by
  unfold V7 ops7; after_results; rfl

/-- The ten arrays at the call: the arguments and the result at their launch contents, the flattened index array,
    the lane-replicated table and the lane numbers computed. -/
theorem held_V7 (d : Dev nD) :
    (held (T d) S10 ((op6 (F := F)).result ((op5 (F := F)).result ((op4 (F := F)).result ((op3 (F := F)).result
        ((op2 (F := F)).result ((op1 (F := F)).result ((op0 (F := F)).result (V0 m d)))))))) : sProp 𝕄)
      = iprop((xLoc d ↦{fullShare} m (xLoc d)) ∗ (tLoc d ↦{fullShare} m (tLoc d)) ∗ ((SparseCore.T d).loc main_v0 ↦{fullShare} V7 m d a0')
          ∗ ((SparseCore.T d).loc main_v1 ↦{fullShare} V7 m d a1') ∗ ((SparseCore.T d).loc main_v2 ↦{fullShare} V7 m d a2')
          ∗ ((SparseCore.T d).loc main_v3 ↦{fullShare} V7 m d a3') ∗ (rLoc d ↦{fullShare} repV m d) ∗ (iLoc d ↦{fullShare} iotV (F := F) d)
          ∗ (fLoc d ↦{fullShare} flatV m d) ∗ oLoc d ↦{fullShare} m (oLoc d)) := by
  show held (SparseCore.T d) S10 (V7 m d) = _
  rw [held_S10, V7_x, V7_t, V7_r, V7_i, V7_f, V7_o]

theorem h0 : (op0 (F := F)).bufs ⊆ S10 := show ({t', a0'} : Finset (DevRef τ sig)) ⊆ S10 by decide
theorem h1 : (op1 (F := F)).bufs ⊆ S10 := show ({a0', a1'} : Finset (DevRef τ sig)) ⊆ S10 by decide
theorem h2 : (op2 (F := F)).bufs ⊆ S10 := show ({a1', a2'} : Finset (DevRef τ sig)) ⊆ S10 by decide
theorem h3 : (op3 (F := F)).bufs ⊆ S10 := show ({a2', a3'} : Finset (DevRef τ sig)) ⊆ S10 by decide
theorem h4 : (op4 (F := F)).bufs ⊆ S10 := show ({a3', r'} : Finset (DevRef τ sig)) ⊆ S10 by decide
theorem h5 : (op5 (F := F)).bufs ⊆ S10 := show ({i'} : Finset (DevRef τ sig)) ⊆ S10 by decide
theorem h6 : (op6 (F := F)).bufs ⊆ S10 := show ({x', f'} : Finset (DevRef τ sig)) ⊆ S10 by decide

/-- What the call takes for the two SparseCores, and what it hands back. -/
theorem st0_eq (d : Dev nD) : (bigSep Finset.univ fun c : Fin ((K (F := F)).nCore 0) => (P m).st 0 d c)
    = iprop((readPts m d (qCore 0) ∗ oLoc d ↦[coreSet 0]{fullShare} m (oLoc d)) ∗ (readPts m d (qCore 1) ∗ oLoc d ↦[coreSet 1]{fullShare} m (oLoc d))) := by
  show (bigSep (Finset.univ : Finset (Fin 2)) fun c => iprop(readPts m d (qCore c) ∗ oLoc d ↦[coreSet c]{fullShare} m (oLoc d))) = _
  rw [bigSep_univ_two]
theorem dn0_eq (d : Dev nD) : (bigSep Finset.univ fun c : Fin ((K (F := F)).nCore 0) => (P m).dn 0 d c)
    = iprop((readPts m d (qCore 0) ∗ oLoc d ↦[coreSet 0]{fullShare} outV m d) ∗ (readPts m d (qCore 1) ∗ oLoc d ↦[coreSet 1]{fullShare} outV m d)) := by
  show (bigSep (Finset.univ : Finset (Fin 2)) fun c => iprop(readPts m d (qCore c) ∗ oLoc d ↦[coreSet c]{fullShare} outV m d)) = _
  rw [bigSep_univ_two]

/-- The read arrays whole go out as one token per SparseCore (what remains is set aside), the result as the two
    SparseCores' rows. -/
theorem cores_split (d : Dev nD) (g : Buf (Elt F) (oLoc d)) :
    iprop(readPts m d fullShare ∗ oLoc d ↦{fullShare} g)
      ⊢ iprop((readPts m d (qCore 0) ∗ oLoc d ↦[coreSet 0]{fullShare} g) ∗ (readPts m d (qCore 1) ∗ oLoc d ↦[coreSet 1]{fullShare} g)) := by
  iintro ⟨Hr, Ho⟩
  ihave Hr' := (read_split m d fullShare 2) $$ Hr
  rw [bigSep_univ_two]
  icases Hr' with ⟨-, Hr0, Hr1⟩
  ihave Ho' := ((oPts_cores (F := F) d g).1) $$ Ho
  icases Ho' with ⟨Ho0, Ho1⟩
  isplitl [Hr0 Ho0]
  · isplitl [Hr0]; · iexact Hr0
    iexact Ho0
  isplitl [Hr1]; · iexact Hr1
  iexact Ho1

/-- The two SparseCores' rows of the result, back at one array, are the result whole. -/
theorem cores_join (d : Dev nD) (g : Buf (Elt F) (oLoc d)) :
    iprop((readPts m d (qCore 0) ∗ oLoc d ↦[coreSet 0]{fullShare} g) ∗ (readPts m d (qCore 1) ∗ oLoc d ↦[coreSet 1]{fullShare} g))
      ⊢ (oLoc d ↦{fullShare} g : sProp 𝕄) := by
  iintro ⟨⟨-, Ho0⟩, -, Ho1⟩
  iapply ((oPts_cores (F := F) d g).2)
  isplitl [Ho0]; · iexact Ho0
  iexact Ho1

end Dispatch

open Dispatch
theorem vecSplit : (K (F := F)).VecSplit' (P m) 0 := by
  intro d c
  show iprop(readPts m d (qCore (Fin.cast nCore_zero c)) ∗ oLoc d ↦[coreSet (Fin.cast nCore_zero c)]{fullShare} m (oLoc d)) ⊢ |={Set.univ}=> iprop(
      (bigSep Finset.univ fun i : Fin ((K (F := F)).nSub 0) =>
        iprop(readPts m d (qTile (Fin.cast nCore_zero c) (Fin.cast nSub_zero i)) ∗ oLoc d ↦[tileSet (Fin.cast nCore_zero c) (Fin.cast nSub_zero i)]{fullShare} m (oLoc d)))
      ∗ ((bigSep Finset.univ fun i : Fin ((K (F := F)).nSub 0) =>
          iprop(readPts m d (qTile (Fin.cast nCore_zero c) (Fin.cast nSub_zero i)) ∗ oLoc d ↦[tileSet (Fin.cast nCore_zero c) (Fin.cast nSub_zero i)]{fullShare} outV m d))
          -∗ iprop(readPts m d (qCore (Fin.cast nCore_zero c)) ∗ oLoc d ↦[coreSet (Fin.cast nCore_zero c)]{fullShare} outV m d)))
  rw [bigSep_tasks (F := F) (fun s => iprop(readPts m d (qTile (Fin.cast nCore_zero c) s) ∗ oLoc d ↦[tileSet (Fin.cast nCore_zero c) s]{fullShare} m (oLoc d))),
    bigSep_tasks (F := F) (fun s => iprop(readPts m d (qTile (Fin.cast nCore_zero c) s) ∗ oLoc d ↦[tileSet (Fin.cast nCore_zero c) s]{fullShare} outV m d))]
  exact vecSplit_core m d (Fin.cast nCore_zero c)

/-! ## The launch element: the handshakes' rounds; the kernel's transfers keep their own counters -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- What @main leaves the claim: the result at the looked-up array, the arguments at their launch contents. -/
abbrev FIN (d : Dev nD) : sProp 𝕄 :=
  iprop((oLoc d ↦{fullShare} outV m d) ∗ (xLoc d ↦{fullShare} m (xLoc d)) ∗ (tLoc d ↦{fullShare} m (tLoc d)))

/-- @main on device `d`'s TensorCore: the seven host operations over the ten arrays held whole, then the call, from
    the three computed arrays (a token each per SparseCore) and the result (each SparseCore its rows); the result comes
    back at the looked-up array; the arguments were never lent. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := op0) (S := S10) h0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S10) h1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := S10) h2 (V := (op1 (F := F)).result ((op0 (F := F)).result (V0 m d)))) $$ [Hb Hheld]
  · isplitl [Hb] <;> iassumption
  iintro ⟨Hb, Hheld⟩
  rw [wp_ret]; imodintro
  iapply (wp_hlo_within 𝒱 (SparseCore.T d) none Set.univ (op := op3) (S := S10) h3
    (V := (op2 (F := F)).result ((op1 (F := F)).result ((op0 (F := F)).result (V0 m d))))) $$ [Hb Hheld]
  · isplitl [Hb] <;> iassumption
  iintro ⟨Hb, Hheld⟩
  rw [wp_ret]; imodintro
  iapply (wp_hlo_within 𝒱 (SparseCore.T d) none Set.univ (op := op4) (S := S10) h4
    (V := (op3 (F := F)).result ((op2 (F := F)).result ((op1 (F := F)).result ((op0 (F := F)).result (V0 m d)))))) $$ [Hb Hheld]
  · isplitl [Hb] <;> iassumption
  iintro ⟨Hb, Hheld⟩
  rw [wp_ret]; imodintro
  iapply (wp_hlo_within 𝒱 (SparseCore.T d) none Set.univ (op := op5) (S := S10) h5
    (V := (op4 (F := F)).result ((op3 (F := F)).result ((op2 (F := F)).result ((op1 (F := F)).result ((op0 (F := F)).result (V0 m d))))))) $$ [Hb Hheld]
  · isplitl [Hb] <;> iassumption
  iintro ⟨Hb, Hheld⟩
  rw [wp_ret]; imodintro
  iapply (wp_hlo_within 𝒱 (SparseCore.T d) none Set.univ (op := op6) (S := S10) h6
    (V := (op5 (F := F)).result ((op4 (F := F)).result ((op3 (F := F)).result ((op2 (F := F)).result ((op1 (F := F)).result ((op0 (F := F)).result (V0 m d)))))))) $$ [Hb Hheld]
  · isplitl [Hb] <;> iassumption
  iintro ⟨Hb, Hheld⟩
  rw [wp_ret]; imodintro
  -- the call: a token of each read array and its rows of the result to each SparseCore, and back
  ihave Hh := (Entails.of_eq (held_V7 (F := F) m d)) $$ Hheld
  icases Hh with ⟨Hx, Ht, -, -, -, -, Hr, Hi, Hf, Ho⟩
  iapply ((K (F := F)).wp_run (D (F := F)) 𝒱 (EH := EH) (P := P m) κ d 0) $$ [Hst Hx Ht Hr Hi Hf Ho]
  isplitr; · iexact Hctx
  isplitl [Hst]; · iexact Hst
  isplitl [Hr Hi Hf Ho]
  · rw [st0_eq]
    iapply (cores_split m d (m (oLoc d)))
    isplitl [Hf Hr Hi]
    · isplitl [Hf]; · iexact Hf
      isplitl [Hr]; · iexact Hr
      iexact Hi
    iexact Ho
  iintro ⟨Hst, Hdn⟩
  ihave Hdn' := (Entails.of_eq (dn0_eq m d)) $$ Hdn
  ihave Ho := (cores_join m d (outV m d)) $$ Hdn'
  imodintro
  isplitl [Hst]; · iexact Hst
  isplitl [Ho]; · iexact Ho
  isplitl [Hx]; · iexact Hx
  iexact Ht

def fq (d : Dev nD) (s' : Phys nD τ sig (Elt F)) : Prop :=
  s'.mem.mem (oLoc d) = outV m d ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Ho, Hx, Ht⟩, HSI⟩
  ihave H := (persistent_entails_right (SI_pointsTo_agree (st := s') (ℓ := oLoc d) (I := Finset.univ) (q := fullShare) (f := outV m d))) $$ [HSI Ho]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := tLoc d) (I := Finset.univ) (q := fullShare) (f := m (tLoc d))) $$ [HSI Ht]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩
      (fun r => ∀ c : Dev nD, r.2.mem (oLoc c) = outV m c ∧ r.2.mem (xLoc c) = m (xLoc c) ∧ r.2.mem (tLoc c) = m (tLoc c)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m)
    (fun r => ∀ c : Dev nD, r.2.mem (oLoc c) = outV m c ∧ r.2.mem (xLoc c) = m (xLoc c) ∧ r.2.mem (tLoc c) = m (tLoc c)) (fun _ h => h)

end Cert.Kernel.Hand

end
-- ==== Proof.OnKernel.Regions.lean ====
/-
  The regions of the result a vector subcore's task passes through, as sets of indices, and how a points-to over one of
  them splits. A task owns 32 batch rows of the `[1024, 64, 2048]` result, rows `base … base + 31`. It fills them one
  quarter-row at a time — a block: the 16 features `16 q … 16 q + 15` of one batch row, all 2048 positions. After `k`
  steps the rows still to fill are `base + k … base + 31` (`todo`); the part already written back (`landed`) trails
  by half a row: all of the rows before `base + k - 1` and the first 32 features of row `base + k - 1`. Each statement
  is an equation between index sets — a membership computation on the three coordinates — carried to the points-to by
  the rule that a points-to over a disjoint union is the separating conjunction of the points-to's over the parts.
  The index scratch of 4096 words is used as two halves of 2048, half `p % 2` at step `p`.
-/
import proofs.«205739_g2190433321788_cont_8to1_543_10_alg».proof.Proof.OnKernel.Setup

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## The index sets -/

/-- A block: the 16 features `16 q … 16 q + 15` of batch row `b`, every position. -/
def blkSet (b q : ℕ) : Finset S1024x64x2048.Idx := Finset.univ.filter fun j => (j 0).val = b ∧ (j 1).val / 16 = q
/-- Written back after `k` steps: the rows from `base` to before `base + k - 1`, and the first 32 features of row `base + k - 1`. -/
def landed (base k : ℕ) : Finset S1024x64x2048.Idx :=
  Finset.univ.filter fun j => base ≤ (j 0).val ∧ ((j 0).val + 1 < base + k ∨ ((j 0).val + 1 = base + k ∧ (j 1).val < 32))
/-- Still to fill after `k` steps: the rows `base + k … base + 31`. -/
def todo (base k : ℕ) : Finset S1024x64x2048.Idx := Finset.univ.filter fun j => base + k ≤ (j 0).val ∧ (j 0).val < base + 32
/-- Half `p % 2` of the 4096-word index scratch. -/
def halfSet (p : ℕ) : Finset S4096.Idx := Finset.univ.filter fun j => (j 0).val / 2048 = p % 2

theorem mem_blkSet {b q : ℕ} {j : S1024x64x2048.Idx} : j ∈ blkSet b q ↔ (j 0).val = b ∧ (j 1).val / 16 = q := by
  simp only [blkSet, Finset.mem_filter, Finset.mem_univ, true_and]
theorem mem_landed {base k : ℕ} {j : S1024x64x2048.Idx} :
    j ∈ landed base k ↔ base ≤ (j 0).val ∧ ((j 0).val + 1 < base + k ∨ ((j 0).val + 1 = base + k ∧ (j 1).val < 32)) := by
  simp only [landed, Finset.mem_filter, Finset.mem_univ, true_and]
theorem mem_todo {base k : ℕ} {j : S1024x64x2048.Idx} : j ∈ todo base k ↔ base + k ≤ (j 0).val ∧ (j 0).val < base + 32 := by
  simp only [todo, Finset.mem_filter, Finset.mem_univ, true_and]
theorem mem_halfSet {p : ℕ} {j : S4096.Idx} : j ∈ halfSet p ↔ (j 0).val / 2048 = p % 2 := by
  simp only [halfSet, Finset.mem_filter, Finset.mem_univ, true_and]
theorem mem_tileSet {c : Fin 2} {s : Fin 16} {j : S1024x64x2048.Idx} : j ∈ tileSet c s ↔ (j 0).val / 32 = 2 * s.val + c.val := by
  simp only [tileSet, Finset.mem_filter, Finset.mem_univ, true_and]

/-- A feature coordinate is below 64. -/
theorem feat_lt (j : S1024x64x2048.Idx) : (j 1).val < 64 := (j 1).isLt

/-! ## A points-to over a disjoint union -/

section Split
variable {ℓ : Loc nD τ sig} {q : PosShare TreeShare} {f : Buf (Elt F) ℓ}

/-- A points-to over a set that is the disjoint union of two sets is the two points-to's. -/
theorem pts_split {I A B : Finset (Idx ℓ)} (h : ∀ j, j ∈ I ↔ (j ∈ A ∨ j ∈ B)) (hd : ∀ j, j ∈ A → j ∈ B → False) :
    (ℓ ↦[I]{q} f : sProp 𝕄) = iprop((ℓ ↦[A]{q} f) ∗ ℓ ↦[B]{q} f) := by
  have e : I = A ∪ B := Finset.ext fun j => by rw [h j, Finset.mem_union]
  have d : Disjoint A B := Finset.disjoint_left.mpr fun j ha hb => hd j ha hb
  rw [e]
  exact BI.equiv_iff.mp ⟨(pointsTo_union d).1, (pointsTo_union d).2⟩

/-- A points-to over a set with no element is `emp`. -/
theorem pts_none {I : Finset (Idx ℓ)} (h : ∀ j, j ∈ I → False) : (ℓ ↦[I]{q} f : sProp 𝕄) = iprop(emp) := by
  have e : I = ∅ := Finset.eq_empty_of_forall_notMem fun j hj => h j hj
  rw [e]
  exact pointsTo_empty

end Split

/-! ## The rows a task owns -/

/-- Task `(c, s)`'s rows are the 32 rows from `64 s + 32 c`. -/
theorem tile_eq_todo (c : Fin 2) (s : Fin 16) : tileSet c s = todo (64 * s.val + 32 * c.val) 0 := by
  ext j
  rw [mem_tileSet, mem_todo]
  omega

/-- The rows to fill from step `k`, with row `base + k` from its `i`-th block on. -/
def todoFrom (base k i : ℕ) : Finset S1024x64x2048.Idx :=
  Finset.univ.filter fun j => ((j 0).val = base + k ∧ i ≤ (j 1).val / 16) ∨ (base + k + 1 ≤ (j 0).val ∧ (j 0).val < base + 32)
theorem mem_todoFrom {base k i : ℕ} {j : S1024x64x2048.Idx} :
    j ∈ todoFrom base k i ↔ ((j 0).val = base + k ∧ i ≤ (j 1).val / 16) ∨ (base + k + 1 ≤ (j 0).val ∧ (j 0).val < base + 32) := by
  simp only [todoFrom, Finset.mem_filter, Finset.mem_univ, true_and]

variable (d : Dev nD)

theorem todoFrom_step (base k i : ℕ) (f : Buf (Elt F) (oLoc d)) :
    (oLoc d ↦[todoFrom base k i]{fullShare} f : sProp 𝕄)
      = iprop((oLoc d ↦[blkSet (base + k) i]{fullShare} f) ∗ (oLoc d ↦[todoFrom base k (i + 1)]{fullShare} f)) := by
  refine pts_split (fun j => ?_) (fun j => ?_)
  · rw [mem_todoFrom, mem_todoFrom, mem_blkSet]; omega
  · rw [mem_todoFrom, mem_blkSet]; omega

/-- Step `k` takes the four blocks of row `base + k` out of the rows still to fill. -/
theorem todo_split (base k : ℕ) (hk : k < 32) (hb : base + 32 ≤ 1024) (f : Buf (Elt F) (oLoc d)) :
    (oLoc d ↦[todo base k]{fullShare} f : sProp 𝕄)
      ⊣⊢ iprop((oLoc d ↦[blkSet (base + k) 0]{fullShare} f) ∗ (oLoc d ↦[blkSet (base + k) 1]{fullShare} f)
          ∗ (oLoc d ↦[blkSet (base + k) 2]{fullShare} f) ∗ (oLoc d ↦[blkSet (base + k) 3]{fullShare} f)
          ∗ (oLoc d ↦[todo base (k + 1)]{fullShare} f)) := by
  have e0 : todo base k = todoFrom base k 0 := by
    ext j; rw [mem_todo, mem_todoFrom]; omega
  have e4 : todoFrom base k 4 = todo base (k + 1) := by
    ext j; rw [mem_todo, mem_todoFrom]; have := feat_lt j; omega
  rw [e0, todoFrom_step, todoFrom_step, todoFrom_step, todoFrom_step, e4]

/-! ## What has been written back -/

/-- Nothing has been written back before the first step. -/
theorem landed_zero (base : ℕ) (f : Buf (Elt F) (oLoc d)) :
    (oLoc d ↦[landed base 0]{fullShare} f : sProp 𝕄) ⊣⊢ iprop(emp) :=
  BiEntails.of_eq (pts_none fun j hj => by rw [mem_landed] at hj; omega)

/-- From step `k` to step `k + 1` the second half of row `base + k - 1` and the first half of row `base + k` land. -/
theorem landed_succ_eq (base k : ℕ) (hk : 0 < k) (f : Buf (Elt F) (oLoc d)) :
    (oLoc d ↦[landed base (k + 1)]{fullShare} f : sProp 𝕄)
      = iprop((oLoc d ↦[landed base k]{fullShare} f) ∗ (oLoc d ↦[blkSet (base + k - 1) 2]{fullShare} f)
          ∗ (oLoc d ↦[blkSet (base + k - 1) 3]{fullShare} f) ∗ (oLoc d ↦[blkSet (base + k) 0]{fullShare} f)
          ∗ (oLoc d ↦[blkSet (base + k) 1]{fullShare} f)) := by
  -- the set grows by one block at a time: `landed base k` with `i` more blocks, in the order 2, 3 of the old row, 0, 1 of the new
  let R1 : Finset S1024x64x2048.Idx := Finset.univ.filter fun j =>
    ((j 0).val = base + k - 1 ∧ (j 1).val / 16 = 3) ∨ ((j 0).val = base + k ∧ (j 1).val / 16 ≤ 1)
  let R2 : Finset S1024x64x2048.Idx := Finset.univ.filter fun j => (j 0).val = base + k ∧ (j 1).val / 16 ≤ 1
  let R3 : Finset S1024x64x2048.Idx := Finset.univ.filter fun j =>
    ((j 0).val = base + k - 1 ∧ 2 ≤ (j 1).val / 16) ∨ ((j 0).val = base + k ∧ (j 1).val / 16 ≤ 1)
  have m1 : ∀ j, j ∈ R1 ↔ ((j 0).val = base + k - 1 ∧ (j 1).val / 16 = 3) ∨ ((j 0).val = base + k ∧ (j 1).val / 16 ≤ 1) :=
    fun j => by simp only [R1, Finset.mem_filter, Finset.mem_univ, true_and]
  have m2 : ∀ j, j ∈ R2 ↔ (j 0).val = base + k ∧ (j 1).val / 16 ≤ 1 :=
    fun j => by simp only [R2, Finset.mem_filter, Finset.mem_univ, true_and]
  have m3 : ∀ j, j ∈ R3 ↔ ((j 0).val = base + k - 1 ∧ 2 ≤ (j 1).val / 16) ∨ ((j 0).val = base + k ∧ (j 1).val / 16 ≤ 1) :=
    fun j => by simp only [R3, Finset.mem_filter, Finset.mem_univ, true_and]
  have s0 : (oLoc d ↦[landed base (k + 1)]{fullShare} f : sProp 𝕄)
      = iprop((oLoc d ↦[landed base k]{fullShare} f) ∗ (oLoc d ↦[R3]{fullShare} f)) :=
    pts_split (fun j => by rw [mem_landed, mem_landed, m3]; have := feat_lt j; omega)
      (fun j => by rw [mem_landed, m3]; omega)
  have s1 : (oLoc d ↦[R3]{fullShare} f : sProp 𝕄)
      = iprop((oLoc d ↦[blkSet (base + k - 1) 2]{fullShare} f) ∗ (oLoc d ↦[R1]{fullShare} f)) :=
    pts_split (fun j => by rw [m3, m1, mem_blkSet]; have := feat_lt j; omega)
      (fun j => by rw [m1, mem_blkSet]; omega)
  have s2 : (oLoc d ↦[R1]{fullShare} f : sProp 𝕄)
      = iprop((oLoc d ↦[blkSet (base + k - 1) 3]{fullShare} f) ∗ (oLoc d ↦[R2]{fullShare} f)) :=
    pts_split (fun j => by rw [m1, m2, mem_blkSet])
      (fun j => by rw [m2, mem_blkSet]; omega)
  have s3 : (oLoc d ↦[R2]{fullShare} f : sProp 𝕄)
      = iprop((oLoc d ↦[blkSet (base + k) 0]{fullShare} f) ∗ (oLoc d ↦[blkSet (base + k) 1]{fullShare} f)) :=
    pts_split (fun j => by rw [m2, mem_blkSet, mem_blkSet]; omega)
      (fun j => by rw [mem_blkSet, mem_blkSet]; omega)
  rw [s0, s1, s2, s3]

theorem landed_step (base k : ℕ) (hk : 0 < k) (f : Buf (Elt F) (oLoc d)) :
    iprop((oLoc d ↦[landed base k]{fullShare} f) ∗ (oLoc d ↦[blkSet (base + k - 1) 2]{fullShare} f)
        ∗ (oLoc d ↦[blkSet (base + k - 1) 3]{fullShare} f) ∗ (oLoc d ↦[blkSet (base + k) 0]{fullShare} f)
        ∗ (oLoc d ↦[blkSet (base + k) 1]{fullShare} f))
      ⊢ (oLoc d ↦[landed base (k + 1)]{fullShare} f : sProp 𝕄) :=
  Entails.of_eq (landed_succ_eq d base k hk f).symm

/-- After the first step the first half of row `base` has landed. -/
theorem landed_first (base : ℕ) (f : Buf (Elt F) (oLoc d)) :
    iprop((oLoc d ↦[blkSet base 0]{fullShare} f) ∗ (oLoc d ↦[blkSet base 1]{fullShare} f))
      ⊢ (oLoc d ↦[landed base 1]{fullShare} f : sProp 𝕄) := by
  have e : (oLoc d ↦[landed base 1]{fullShare} f : sProp 𝕄)
      = iprop((oLoc d ↦[blkSet base 0]{fullShare} f) ∗ (oLoc d ↦[blkSet base 1]{fullShare} f)) :=
    pts_split (fun j => by rw [mem_landed, mem_blkSet, mem_blkSet]; omega)
      (fun j => by rw [mem_blkSet, mem_blkSet]; omega)
  exact Entails.of_eq e.symm

/-- After the last step, the second half of row `base + 31` completes the task's 32 rows. -/
theorem landed_last (base : ℕ) (hb : base + 32 ≤ 1024) (f : Buf (Elt F) (oLoc d)) :
    iprop((oLoc d ↦[landed base 32]{fullShare} f) ∗ (oLoc d ↦[blkSet (base + 31) 2]{fullShare} f)
        ∗ (oLoc d ↦[blkSet (base + 31) 3]{fullShare} f))
      ⊢ (oLoc d ↦[todo base 0]{fullShare} f : sProp 𝕄) := by
  let R : Finset S1024x64x2048.Idx := Finset.univ.filter fun j => (j 0).val = base + 31 ∧ 2 ≤ (j 1).val / 16
  have mR : ∀ j, j ∈ R ↔ (j 0).val = base + 31 ∧ 2 ≤ (j 1).val / 16 :=
    fun j => by simp only [R, Finset.mem_filter, Finset.mem_univ, true_and]
  have s0 : (oLoc d ↦[todo base 0]{fullShare} f : sProp 𝕄)
      = iprop((oLoc d ↦[landed base 32]{fullShare} f) ∗ (oLoc d ↦[R]{fullShare} f)) :=
    pts_split (fun j => by rw [mem_todo, mem_landed, mR]; omega)
      (fun j => by rw [mem_landed, mR]; omega)
  have s1 : (oLoc d ↦[R]{fullShare} f : sProp 𝕄)
      = iprop((oLoc d ↦[blkSet (base + 31) 2]{fullShare} f) ∗ (oLoc d ↦[blkSet (base + 31) 3]{fullShare} f)) :=
    pts_split (fun j => by rw [mR, mem_blkSet, mem_blkSet]; have := feat_lt j; omega)
      (fun j => by rw [mem_blkSet, mem_blkSet]; omega)
  rw [s0, s1]

/-- After 32 steps no row is left to fill. -/
theorem todo_end (base : ℕ) (f : Buf (Elt F) (oLoc d)) :
    (oLoc d ↦[todo base 32]{fullShare} f : sProp 𝕄) ⊣⊢ iprop(emp) :=
  BiEntails.of_eq (pts_none fun j hj => by rw [mem_todo] at hj; omega)

/-! ## The kernel's slices as index sets -/

/-- The block at offsets `(b, 16 q, 0)`, of sizes `(1, 16, 2048)`, with its unit axis dropped: block `q` of batch row `b`. -/
theorem set_blk (off : Fin 3 → ℕ) (inb : ∀ a, off a + S1x16x2048.size a ≤ S1024x64x2048.size a) (b q : ℕ)
    (h : off = ![b, 16 * q, 0]) :
    (((Memref.whole main_v7_scv : Memref sig .scVector .hbm S1024x64x2048 .f32).slice
        (Rect.unit (s := S1024x64x2048) off S1x16x2048.size inb) (fun _ => rfl)).squeeze S16x2048
          squeezes_S1x16x2048_S16x2048).view.set = blkSet b q := by
  -- dropping the unit axis keeps the elements; a slice of the whole buffer has the rectangle's elements
  refine ((View.set_reshape _ _).trans (View.set_slice_whole main_v7_scv _)).trans ?_
  subst h
  ext j
  rw [Rect.mem_set_unit, mem_blkSet]
  have h2 : (j 2).val < 2048 := (j 2).isLt
  constructor
  · intro hj
    have h0 := hj 0
    have h1 := hj 1
    change b ≤ (j 0).val ∧ (j 0).val < b + 1 at h0
    change 16 * q ≤ (j 1).val ∧ (j 1).val < 16 * q + 16 at h1
    omega
  · intro e a
    match a with
    | ⟨0, _⟩ => show b ≤ (j 0).val ∧ (j 0).val < b + 1; omega
    | ⟨1, _⟩ => show 16 * q ≤ (j 1).val ∧ (j 1).val < 16 * q + 16; omega
    | ⟨2, _⟩ => show 0 ≤ (j 2).val ∧ (j 2).val < 0 + 2048; omega

/-- The 2048 words of the index scratch from `2048 (p % 2)`: half `p % 2`. -/
theorem set_half (off : Fin 1 → ℕ) (inb : ∀ a, off a + S2048.size a ≤ S4096.size a) (p : ℕ)
    (h : off = ![2048 * (p % 2)]) :
    ((Memref.whole cc0_scratch0 : Memref sig .scVector .vmem S4096 .i32).slice
        (Rect.unit (s := S4096) off S2048.size inb) (fun _ => rfl)).view.set = halfSet p := by
  refine (View.set_slice_whole cc0_scratch0 _).trans ?_
  subst h
  ext j
  rw [Rect.mem_set_unit, mem_halfSet]
  have hj0 : (j 0).val < 4096 := (j 0).isLt
  constructor
  · intro hj
    have h0 := hj 0
    change 2048 * (p % 2) ≤ (j 0).val ∧ (j 0).val < 2048 * (p % 2) + 2048 at h0
    omega
  · intro e a
    match a with
    | ⟨0, _⟩ => show 2048 * (p % 2) ≤ (j 0).val ∧ (j 0).val < 2048 * (p % 2) + 2048; omega

/-- The index scratch is its two halves. -/
theorem halves (c : Fin τ.nSC) (s : Fin τ.nSub) (f : Buf (Elt F) ((V d c s).loc cc0_scratch0)) :
    ((V d c s).loc cc0_scratch0 ↦{fullShare} f : sProp 𝕄)
      ⊣⊢ iprop(((V d c s).loc cc0_scratch0 ↦[halfSet 0]{fullShare} f) ∗ ((V d c s).loc cc0_scratch0 ↦[halfSet 1]{fullShare} f)) :=
  BiEntails.of_eq (pts_split
    (fun j => by
      have hj0 : (j 0).val < 4096 := (j 0).isLt
      rw [mem_halfSet, mem_halfSet]
      simp only [Finset.mem_univ, true_iff]
      omega)
    (fun j => by rw [mem_halfSet, mem_halfSet]; omega))

/-- The halves alternate with period two … -/
theorem halfSet_succ (p : ℕ) : halfSet (p + 2) = halfSet p := by
  ext j
  rw [mem_halfSet, mem_halfSet]
  omega

/-- … and consecutive steps use different halves. -/
theorem halfSet_disjoint (p : ℕ) : Disjoint (halfSet p) (halfSet (p + 1)) :=
  Finset.disjoint_left.mpr fun j h1 h2 => by
    rw [mem_halfSet] at h1 h2
    omega

/-! ## A chunk of the flattened index array -/

/-- Chunk `n` of the flat index array: the 2048 words from `2048 n`. -/
def chunkSet (n : ℕ) : Finset S2097152.Idx := Finset.univ.filter fun i => (i 0).val / 2048 = n
theorem mem_chunkSet {n : ℕ} {i : S2097152.Idx} : i ∈ chunkSet n ↔ (i 0).val / 2048 = n := by
  simp only [chunkSet, Finset.mem_filter, Finset.mem_univ, true_and]

/-- The 2048 words of the flat index array from `2048 n`: chunk `n`. -/
theorem set_chunk (off : Fin 1 → ℕ) (inb : ∀ a, off a + S2048.size a ≤ S2097152.size a) (n : ℕ)
    (h : off = ![2048 * n]) :
    ((Memref.whole main_v6_scv : Memref sig .scVector .hbm S2097152 .i32).slice
        (Rect.unit (s := S2097152) off S2048.size inb) (fun _ => rfl)).view.set = chunkSet n := by
  refine (View.set_slice_whole main_v6_scv _).trans ?_
  subst h
  ext j
  rw [Rect.mem_set_unit, mem_chunkSet]
  constructor
  · intro hj
    have h0 := hj 0
    change 2048 * n ≤ (j 0).val ∧ (j 0).val < 2048 * n + 2048 at h0
    omega
  · intro e a
    match a with
    | ⟨0, _⟩ => show 2048 * n ≤ (j 0).val ∧ (j 0).val < 2048 * n + 2048; omega

/-- A chunk carved out of the whole flat index array, at any share, and put back. -/
theorem chunk_split (q : PosShare TreeShare) (n : ℕ) (f : Buf (Elt F) (fLoc d)) :
    (fLoc d ↦{q} f : sProp 𝕄)
      ⊣⊢ iprop((fLoc d ↦[chunkSet n]{q} f) ∗ (fLoc d ↦[Finset.univ \ chunkSet n]{q} f)) :=
  pointsTo_split_subset (Finset.subset_univ _)

/-! ## One step of the write-back, the first included -/

/-- Block `q` of the row before `base + k`, or nothing at the first step. -/
def optBlk (base k q : ℕ) : Finset S1024x64x2048.Idx := if 0 < k then blkSet (base + k - 1) q else ∅

/-- From step `k` to step `k + 1`: the second half of the previous row, if there is one, and the first half of row `base + k` land. -/
theorem landed_next (base k : ℕ) (f : Buf (Elt F) (oLoc d)) :
    iprop((oLoc d ↦[landed base k]{fullShare} f) ∗ (oLoc d ↦[optBlk base k 2]{fullShare} f)
        ∗ (oLoc d ↦[optBlk base k 3]{fullShare} f) ∗ (oLoc d ↦[blkSet (base + k) 0]{fullShare} f)
        ∗ (oLoc d ↦[blkSet (base + k) 1]{fullShare} f))
      ⊢ (oLoc d ↦[landed base (k + 1)]{fullShare} f : sProp 𝕄) := by
  rcases Nat.eq_zero_or_pos k with rfl | hk
  · simp only [Nat.add_zero, Nat.zero_add]
    iintro ⟨-, -, -, H0, H1⟩
    iapply (landed_first d base f)
    isplitl [H0]
    · iexact H0
    · iexact H1
  · rw [show optBlk base k 2 = blkSet (base + k - 1) 2 from if_pos hk,
      show optBlk base k 3 = blkSet (base + k - 1) 3 from if_pos hk]
    exact landed_step d base k hk f

end Cert.Kernel.Hand

end
-- ==== Proof.OnKernel.RowFun.lean ====
/-
  The function a row buffer holds while a chunk of the index array is worked: row `dd`, column `l` of quarter `q` is the
  table scratch's entry `1024 · word + lane + 256 q + 16 dd`, the word the index scratch's at column `l` of the half of
  parity `p`, the lane `l % 16`.
-/
import proofs.«205739_g2190433321788_cont_8to1_543_10_alg».proof.Proof.OnKernel.Regions

noncomputable section

namespace Cert.Kernel.Hand

open Cert.Kernel Cert.Kernel.Gen
open Idealize.ShloMosaic

/-- Position `n` of the index scratch, of the table scratch (folded into range). -/
def at4096 (n : ℕ) : S4096.Idx := ValueIdx.ix1 (⟨n % 4096, Nat.mod_lt _ (by decide)⟩ : Fin 4096)
def at8192 (n : ℕ) : S8192.Idx := ValueIdx.ix1 (⟨n % 8192, Nat.mod_lt _ (by decide)⟩ : Fin 8192)

theorem at4096_mem_half (p n : ℕ) (h1 : 2048 * (p % 2) ≤ n) (h2 : n < 2048 * (p % 2) + 2048) : at4096 n ∈ halfSet p := by
  refine Finset.mem_filter.mpr ⟨Finset.mem_univ _, ?_⟩
  show (n % 4096) / 2048 = p % 2
  omega

/-- What the row buffer of quarter `q` holds at row `dd`, column `l`, while the chunk of parity `p` is worked. -/
def rowG {E : Type} (q p : ℕ) (X : S4096.Idx → BitVec 32) (TB : S8192.Idx → E) (y : S16x2048.Idx) : E :=
  TB (at8192 (1024 * (X (at4096 (2048 * (p % 2) + (y 1).val))).toNat + (y 1).val % 16 + 256 * q + 16 * (y 0).val))

end Cert.Kernel.Hand

end
-- ==== Proof.LaneIndex.lean ====
/-
  The word arithmetic of the gather indices. A lane `a` of 16 forms the word `1024 · r + a + c + e` from a row number
  `r < 8`, its own number `a`, and two offsets `c ≤ 768` and `e ≤ 240`. The sum is at most
  `1024 · 7 + 15 + 768 + 240 = 8191`, far below `2 ^ 32`, so the 32-bit product and sums never wrap and the word's
  value is the sum of the values. With `c = 256 · q` (`q < 4`) and `e = 16 · d` (`d < 16`), dividing the sum by 1024
  gives back the row `r`, and dividing by 16 and reducing modulo 64 gives `16 · q + d`.
-/
import Idealize.ShloMosaic.PureOps
import Idealize.ShloMosaic.Lib.ValueIdx

noncomputable section

namespace Cert.Lookup.Lane

open Idealize.ShloMosaic Idealize.ShloMosaic.ValueIdx

abbrev S16 : Shape := ⟨1, ![16]⟩

/-- The index vector: `v76 · 1024 + v2 + c + e`, lane by lane, in 32-bit words. -/
def idxVec (v2 v76 : IVec S16 32) (c e : BitVec 32) : IVec S16 32 :=
  addi (addi (addi (muli v76 (broadcast S16 1024#32)) v2) (broadcast S16 c)) (broadcast S16 e)

/-- The index vector at a lane, as words. -/
theorem idxVec_apply (v2 v76 : IVec S16 32) (c e : BitVec 32) (x : S16.Idx) :
    idxVec v2 v76 c e x = v76 x * 1024#32 + v2 x + c + e := rfl

/-- No wrap-around: the value of lane `a`'s word is `1024 · r + a + c + e`. -/
theorem idxVec_toNat (v2 v76 : IVec S16 32) (c e : BitVec 32)
    (hv2 : ∀ a : Fin 16, v2 (ix1 a) = BitVec.ofNat 32 a.val) (h76 : ∀ a : Fin 16, (v76 (ix1 a)).toNat < 8)
    (hc : c.toNat ≤ 768) (he : e.toNat ≤ 240) (a : Fin 16) :
    (idxVec v2 v76 c e (ix1 a)).toNat = 1024 * (v76 (ix1 a)).toNat + a.val + c.toNat + e.toNat := by
  have hr := h76 a
  have ha := a.isLt
  rw [idxVec_apply, hv2 a]
  simp only [BitVec.toNat_add, BitVec.toNat_mul, BitVec.toNat_ofNat]
  omega

/-- Every lane's word is below 8192. -/
theorem idxVec_lt (v2 v76 : IVec S16 32) (c e : BitVec 32)
    (hv2 : ∀ a : Fin 16, v2 (ix1 a) = BitVec.ofNat 32 a.val) (h76 : ∀ a : Fin 16, (v76 (ix1 a)).toNat < 8)
    (hc : c.toNat ≤ 768) (he : e.toNat ≤ 240) : ∀ x : S16.Idx, (idxVec v2 v76 c e x).toNat < 8192 := by
  intro x
  obtain ⟨a, rfl⟩ : ∃ a : Fin 16, x = ix1 a := ⟨x 0, eq_ix1 x⟩
  rw [idxVec_toNat v2 v76 c e hv2 h76 hc he a]
  have hr := h76 a
  have ha := a.isLt
  omega

/-- The row: the sum divided by 1024. -/
theorem div_1024 (x a q dd : ℕ) (hx : x < 8) (ha : a < 16) (hq : q < 4) (hd : dd < 16) :
    (1024 * x + a + 256 * q + 16 * dd) / 1024 = x := by omega

/-- The column: the sum divided by 16, modulo 64. -/
theorem div_16_mod_64 (x a q dd : ℕ) (hx : x < 8) (ha : a < 16) (hq : q < 4) (hd : dd < 16) :
    (1024 * x + a + 256 * q + 16 * dd) / 16 % 64 = 16 * q + dd := by omega

end Cert.Lookup.Lane

end
-- ==== Proof.RowStores.lean ====
/-
  A [16, 2048] buffer after sixteen stores of 16-lane rows. Store dd writes the row vector r dd, cast to one row
  [1, 16], into row dd at columns 16 j … 16 j + 15. If the buffer read one function G below column 16 j before, and
  r dd lane a is G at (dd, 16 j + a), then after the sixteen stores it reads G wherever the column is below
  16 (j + 1): an element left of column 16 j lies under no store and keeps what it held; an element at a column from
  16 j on lies under the store of its own row, and every store's payload agrees with G on the elements it covers.
-/
import Idealize.ShloMosaic.Lib.Writes
import Idealize.ShloMosaic.Lib.ValueIdx
import Idealize.ShloMosaic.Lib.ValueLayout
import Idealize.ShloMosaic.Lib.Pipeline.Value
import Idealize.ShloMosaic.PureOps

noncomputable section

namespace Cert.Lookup.Rows

open Idealize.ShloMosaic Idealize.ShloMosaic.ValueIdx

/-- The buffer's shape, one stored row's as the store sees it, and a row vector's. -/
abbrev S16x2048 : Shape := ⟨2, ![16, 2048]⟩
abbrev S1x16 : Shape := ⟨2, ![1, 16]⟩
abbrev S16 : Shape := ⟨1, ![16]⟩

section

variable {Val : EltTy → Type} (G : S16x2048.Idx → Val EltTy.f32)
  (j : ℕ) (hj : j < 128) (off : Fin 16 → Fin 2 → ℕ) (inb : ∀ dd a, off dd a + S1x16.size a ≤ S16x2048.size a)
  (hoff : ∀ dd : Fin 16, off dd = ![dd.val, 16 * j])
  (r : Fin 16 → S16.Idx → Val EltTy.f32) (hsc : S16.ShapeCasts S1x16)
  (hr : ∀ (dd a : Fin 16), r dd (ix1 a) = G (ix2 dd (⟨16 * j + a.val, by omega⟩ : Fin 2048)))

/-- Store dd: the unit-stride rectangle of one row and sixteen columns at (dd, 16 j), and the row vector as one row. -/
abbrev piece (dd : Fin 16) : View.Piece Val S16x2048 EltTy.f32 :=
  ⟨Rect.unit (off dd) S1x16.size (inb dd), shapeCast S1x16 (r dd) hsc⟩

include hoff in
/-- The rectangle of store dd starts at row dd … -/
theorem off_row (dd : Fin 16) : off dd 0 = dd.val := by rw [hoff dd]; rfl

include hoff in
/-- … and at column 16 j. -/
theorem off_col (dd : Fin 16) : off dd 1 = 16 * j := by rw [hoff dd]; rfl

include hj hoff hr in
/-- Store dd's payload at its own index is G at the element that index covers: the cast to one row keeps the lane,
    and the rectangle places lane a of its one row at (dd, 16 j + a). -/
theorem piece_agrees (dd : Fin 16) (x : (piece off inb r hsc dd).1.shape.Idx) :
    (piece off inb r hsc dd).2 x = G ((piece off inb r hsc dd).1.emb x) := by
  have h0 : (x 0).val < 1 := (x 0).isLt
  have h1 : (x 1).val < 16 := (x 1).isLt
  have hx : (x : S1x16.Idx) = ix2 (n0 := 1) (n1 := 16) (x 0) (x 1) := eq_ix2 (n0 := 1) (n1 := 16) x
  have hp : shapeCast S1x16 (r dd) hsc x = r dd (ix1 (n := 16) (x 1)) := by
    rw [hx]; exact shapeCast_a_1a_apply (r dd) hsc (x 0) (x 1)
  have hemb : (piece off inb r hsc dd).1.emb x = ix2 (n0 := 16) (n1 := 2048) dd (⟨16 * j + (x 1).val, by omega⟩ : Fin 2048) := by
    funext a
    refine Fin.ext ?_
    match a with
    | ⟨0, _⟩ =>
      show off dd 0 + 1 * (x 0).val = dd.val
      rw [off_row j off hoff dd]; omega
    | ⟨1, _⟩ =>
      show off dd 1 + 1 * (x 1).val = 16 * j + (x 1).val
      rw [off_col j off hoff dd]; omega
  show shapeCast S1x16 (r dd) hsc x = G ((piece off inb r hsc dd).1.emb x)
  rw [hp, hemb]
  exact hr dd (x 1)

include hoff in
/-- An element left of column 16 j lies under no store. -/
theorem not_mem_of_lt (dd : Fin 16) (y : S16x2048.Idx) (hc : (y 1).val < 16 * j) :
    y ∉ (piece off inb r hsc dd).1.set := by
  intro hm
  have h := ((Rect.mem_set_unit (inb := inb dd)).mp hm 1).1
  rw [off_col j off hoff dd] at h
  omega

include hoff in
/-- An element at a column from 16 j up to 16 j + 15 lies under the store of its own row. -/
theorem mem_of_le (y : S16x2048.Idx) (hc : 16 * j ≤ (y 1).val) (hy : (y 1).val < 16 * (j + 1)) :
    y ∈ (piece off inb r hsc (y 0)).1.set := by
  refine (Rect.mem_set_unit (inb := inb (y 0))).mpr fun a => ?_
  match a with
  | ⟨0, _⟩ =>
    show off (y 0) 0 ≤ (y 0).val ∧ (y 0).val < off (y 0) 0 + 1
    rw [off_row j off hoff (y 0)]; omega
  | ⟨1, _⟩ =>
    show off (y 0) 1 ≤ (y 1).val ∧ (y 1).val < off (y 0) 1 + 16
    rw [off_col j off hoff (y 0)]; omega

variable {sig : RefSig} {κ : Kind} {sp : Space} (v : View sig κ sp S16x2048 EltTy.f32) (f : v.ty.Contents Val)
  (hf : ∀ y : S16x2048.Idx, (y 1).val < 16 * j → v.read Val f y = G y)

include hj hoff hr hf in
/-- The stores of any list of rows that holds the element's own row whenever its column is from 16 j on: the buffer
    then reads G at every element whose column is below 16 (j + 1). -/
theorem read_rows (ds : List (Fin 16)) (y : S16x2048.Idx) (hy : (y 1).val < 16 * (j + 1))
    (hd : 16 * j ≤ (y 1).val → y 0 ∈ ds) :
    v.read Val (v.writes Val f (ds.map (piece off inb r hsc))) y = G y := by
  by_cases hc : (y 1).val < 16 * j
  · rw [View.read_writes_apply_of_forall_not_mem v f y _ (fun p hp => by
      obtain ⟨dd, -, rfl⟩ := List.mem_map.mp hp
      exact not_mem_of_lt j off inb hoff r hsc dd y hc)]
    exact hf y hc
  · have hc' : 16 * j ≤ (y 1).val := by omega
    refine View.read_writes_apply_of_pieces v f G _ (fun p hp x => ?_) y
      ⟨piece off inb r hsc (y 0), List.mem_map_of_mem (hd hc'), mem_of_le j off inb hoff r hsc y hc' hy⟩
    obtain ⟨dd, -, rfl⟩ := List.mem_map.mp hp
    exact piece_agrees G j hj off inb hoff r hsc hr dd x

end

/-- Every row number is in the list of the sixteen, last first. -/
theorem mem_rows (d : Fin 16) : d ∈ ([15, 14, 13, 12, 11, 10, 9, 8, 7, 6, 5, 4, 3, 2, 1, 0] : List (Fin 16)) := by
  revert d; decide

/-- THE SIXTEEN STORES: after store 0, then 1, … then 15 (the list holds the last store first), the buffer reads G at
    every element whose column is below 16 (j + 1). -/
theorem read_rows16 {sig : RefSig} {κ : Kind} {sp : Space} {Val : EltTy → Type} (v : View sig κ sp S16x2048 EltTy.f32) (f : v.ty.Contents Val) (G : S16x2048.Idx → Val EltTy.f32)
    (j : ℕ) (hj : j < 128) (off : Fin 16 → Fin 2 → ℕ) (inb : ∀ dd a, off dd a + S1x16.size a ≤ S16x2048.size a) (hoff : ∀ dd : Fin 16, off dd = ![dd.val, 16 * j])
    (r : Fin 16 → S16.Idx → Val EltTy.f32) (hsc : S16.ShapeCasts S1x16)
    (hr : ∀ (dd a : Fin 16), r dd (ix1 a) = G (ix2 dd (⟨16 * j + a.val, by omega⟩ : Fin 2048)))
    (hf : ∀ y : S16x2048.Idx, (y 1).val < 16 * j → v.read Val f y = G y)
    (y : S16x2048.Idx) (hy : (y 1).val < 16 * (j + 1)) :
    v.read Val (v.writes Val f
      [⟨Rect.unit (off 15) S1x16.size (inb 15), shapeCast S1x16 (r 15) hsc⟩,
        ⟨Rect.unit (off 14) S1x16.size (inb 14), shapeCast S1x16 (r 14) hsc⟩,
        ⟨Rect.unit (off 13) S1x16.size (inb 13), shapeCast S1x16 (r 13) hsc⟩,
        ⟨Rect.unit (off 12) S1x16.size (inb 12), shapeCast S1x16 (r 12) hsc⟩,
        ⟨Rect.unit (off 11) S1x16.size (inb 11), shapeCast S1x16 (r 11) hsc⟩,
        ⟨Rect.unit (off 10) S1x16.size (inb 10), shapeCast S1x16 (r 10) hsc⟩,
        ⟨Rect.unit (off 9) S1x16.size (inb 9), shapeCast S1x16 (r 9) hsc⟩,
        ⟨Rect.unit (off 8) S1x16.size (inb 8), shapeCast S1x16 (r 8) hsc⟩,
        ⟨Rect.unit (off 7) S1x16.size (inb 7), shapeCast S1x16 (r 7) hsc⟩,
        ⟨Rect.unit (off 6) S1x16.size (inb 6), shapeCast S1x16 (r 6) hsc⟩,
        ⟨Rect.unit (off 5) S1x16.size (inb 5), shapeCast S1x16 (r 5) hsc⟩,
        ⟨Rect.unit (off 4) S1x16.size (inb 4), shapeCast S1x16 (r 4) hsc⟩,
        ⟨Rect.unit (off 3) S1x16.size (inb 3), shapeCast S1x16 (r 3) hsc⟩,
        ⟨Rect.unit (off 2) S1x16.size (inb 2), shapeCast S1x16 (r 2) hsc⟩,
        ⟨Rect.unit (off 1) S1x16.size (inb 1), shapeCast S1x16 (r 1) hsc⟩,
        ⟨Rect.unit (off 0) S1x16.size (inb 0), shapeCast S1x16 (r 0) hsc⟩]) y = G y :=
  read_rows G j hj off inb hoff r hsc hr v f hf [15, 14, 13, 12, 11, 10, 9, 8, 7, 6, 5, 4, 3, 2, 1, 0] y hy (fun _ => mem_rows (y 0))

end Cert.Lookup.Rows

end
-- ==== Proof.OnKernel.Quarter.lean ====
/-
  One chunk of one quarter of a batch row. A task fills a batch row of the result in four quarters of sixteen
  features; a quarter is gathered into a [16, 2048] row buffer sixteen positions at a time: sixteen index words are read
  off the index scratch, each is turned into sixteen lane addresses `1024 · word + lane + 256 q + 16 dd` of the
  lane-replicated table scratch (one address vector per feature `dd` of the quarter), the table is gathered at them,
  and the sixteen gathered rows are stored into columns `16 j … 16 j + 15` of the row buffer. Under the index words
  being below 8 the addresses are in range, and after chunk `j` the row buffer reads the quarter's function `rowG` in every
  column below `16 (j + 1)`.
-/
import proofs.«205739_g2190433321788_cont_8to1_543_10_alg».proof.Proof.OnKernel.RowFun
import proofs.«205739_g2190433321788_cont_8to1_543_10_alg».proof.Proof.LaneIndex
import proofs.«205739_g2190433321788_cont_8to1_543_10_alg».proof.Proof.RowStores

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Tile

variable (d : Dev nD) (L : grid0.Coords)

abbrev cV (L : grid0.Coords) : Fin τ.nSC := (L 0).castLE hcore0
abbrev jV (L : grid0.Coords) : Fin τ.nSub := (L 1).castLE hsub0

-- the kernel's memrefs, spelt as the body table passes them
local notation "fW" => (Memref.whole Cert.Kernel.main_v6_scv : Memref Cert.Kernel.sig Kind.scVector Space.hbm Cert.Kernel.S2097152 EltTy.i32)
local notation "rW" => (Memref.whole Cert.Kernel.main_v4_scv : Memref Cert.Kernel.sig Kind.scVector Space.hbm Cert.Kernel.S8192 EltTy.f32)
local notation "iW" => (Memref.whole Cert.Kernel.main_v5_scv : Memref Cert.Kernel.sig Kind.scVector Space.hbm Cert.Kernel.S16 EltTy.i32)
local notation "oW" => (Memref.whole Cert.Kernel.main_v7_scv : Memref Cert.Kernel.sig Kind.scVector Space.hbm Cert.Kernel.S1024x64x2048 EltTy.f32)
local notation "xS" => (Memref.whole Cert.Kernel.cc0_scratch0 : Memref Cert.Kernel.sig Kind.scVector Space.vmem Cert.Kernel.S4096 EltTy.i32)
local notation "tS" => (Memref.whole Cert.Kernel.cc0_scratch1 : Memref Cert.Kernel.sig Kind.scVector Space.vmem Cert.Kernel.S8192 EltTy.f32)
local notation "nS" => (Memref.whole Cert.Kernel.cc0_scratch2 : Memref Cert.Kernel.sig Kind.scVector Space.vmem Cert.Kernel.S16 EltTy.i32)
local notation "aS" => (Memref.whole Cert.Kernel.cc0_scratch3 : Memref Cert.Kernel.sig Kind.scVector Space.vmem Cert.Kernel.S16x2048 EltTy.f32)
local notation "bS" => (Memref.whole Cert.Kernel.cc0_scratch4 : Memref Cert.Kernel.sig Kind.scVector Space.vmem Cert.Kernel.S16x2048 EltTy.f32)
local notation "thr" => (V d (cV L) (jV L))

/-! ### Quarter 0: features 0 … 15, gathered into the row buffer chunk by chunk -/

theorem k0_off4_eq : ∀ (k : Fin k0_t1_loop.trips) (j : Fin k0_t2_loop.trips), k0_off4 k j = ![2048 * (k.val % 2) + 16 * j.val] := by decide +kernel

omit [FloatOps F] in
theorem load_qa_sub (k : Fin k0_t1_loop.trips) (j : Fin k0_t2_loop.trips) :
    (xS).view.setOn (Rect.unit (s := S4096) (k0_off4 k j) S16.size (k0_off4_inb k j)).toLoadRect.set ⊆ halfSet k.val := by
  intro i hi
  obtain ⟨y, hy, rfl⟩ := Finset.mem_map.mp hi
  have h := (Rect.mem_set_unit.mp hy) 0
  rw [k0_off4_eq] at h
  refine Finset.mem_filter.mpr ⟨Finset.mem_univ _, ?_⟩
  have hj : j.val < 128 := j.isLt
  show (y 0).val / 2048 = k.val % 2
  simp only [Matrix.cons_val_zero] at h
  have : (S16.size 0) = 16 := rfl
  omega

omit [FloatOps F] in
theorem words_qa (k : Fin k0_t1_loop.trips) (j : Fin k0_t2_loop.trips) (X : Buf (Elt F) ((xS).view.loc thr)) (a : Fin 16) :
    (xS).view.readAt (Elt F) (Rect.unit (s := S4096) (k0_off4 k j) S16.size (k0_off4_inb k j)).toLoadRect X (ValueIdx.ix1 a)
      = X (at4096 (2048 * (k.val % 2) + 16 * j.val + a.val)) := by
  have hj : j.val < 128 := j.isLt
  rw [View.readAt_apply]
  show X _ = X _
  congr 1
  funext b
  have hb0 : b.val = 0 := by have := b.isLt; change b.val < 1 at this; omega
  obtain rfl : b = ⟨0, by decide⟩ := Fin.ext hb0
  apply Fin.ext
  show (k0_off4 k j) 0 + 1 * a.val = (2048 * (k.val % 2) + 16 * j.val + a.val) % 4096
  rw [k0_off4_eq]
  simp only [Matrix.cons_val_zero]
  omega

set_option maxHeartbeats 4000000 in
/-- One chunk of quarter 0: sixteen words of the index chunk, sixteen gathers of the table's lanes at them, sixteen row
    stores; the row buffer then reads the quarter's rows up to the chunk's last column. -/
theorem trip_qa (k : Fin k0_t1_loop.trips) (j : Fin k0_t2_loop.trips) (v1 v30 arg14 : BitVec 32) (v2 : Vec F S16 .i32)
    (hv2 : ∀ a : Fin 16, v2 (ValueIdx.ix1 a) = BitVec.ofNat 32 a.val)
    (X : Buf (Elt F) ((xS).view.loc thr)) (hX : ∀ i ∈ halfSet k.val, (X i).toNat < 8)
    (TB : Buf (Elt F) ((tS).view.loc thr)) (g : Buf (Elt F) ((aS).view.loc thr))
    (hg : ∀ y : S16x2048.Idx, (y 1).val < 16 * j.val → g y = rowG 0 k.val X TB y) :
    (iprop(((xS).view.loc thr ↦[halfSet k.val]{fullShare} X) ∗ ((tS).view.loc thr ↦{fullShare} TB) ∗ ((aS).view.loc thr ↦{fullShare} g)) : sProp 𝕄)
      ⊢ wp frame (wpE (defs₀ (F := F)) 𝒱₀ thr none) Set.univ
          (k0_t2_body L fW (Memref.isWhole_whole _) rW (Memref.isWhole_whole _) iW (Memref.isWhole_whole _) oW (Memref.isWhole_whole _)
            xS (Memref.isWhole_whole _) tS (Memref.isWhole_whole _) nS (Memref.isWhole_whole _) aS (Memref.isWhole_whole _) bS (Memref.isWhole_whole _)
            cc0_scratch5 cc0_scratch6 cc0_scratch7 cc0_scoped0 cc0_scoped1 v1 v2 0#32 1#32 k v30 j ())
          fun _ => iprop(((xS).view.loc thr ↦[halfSet k.val]{fullShare} X) ∗ ((tS).view.loc thr ↦{fullShare} TB)
            ∗ ∃ g' : Buf (Elt F) ((aS).view.loc thr), ((aS).view.loc thr ↦{fullShare} g') ∗ ⌜∀ y : S16x2048.Idx, (y 1).val < 16 * (j.val + 1) → g' y = rowG 0 k.val X TB y⌝) := by
  have hj : j.val < 128 := j.isLt
  have h76 : ∀ a : Fin 16, ((xS).view.readAt (Elt F) (Rect.unit (s := S4096) (k0_off4 k j) S16.size (k0_off4_inb k j)).toLoadRect X (ValueIdx.ix1 a)).toNat < 8 := by
    intro a
    rw [words_qa]
    exact hX _ (at4096_mem_half _ _ (by omega) (by omega))
  have hchk : ∀ (e : BitVec 32), e.toNat ≤ 240 → ∀ (a : Fin 1) (x : S16.Idx),
      ((![Cert.Lookup.Lane.idxVec v2 ((xS).view.readAt (Elt F) (Rect.unit (s := S4096) (k0_off4 k j) S16.size (k0_off4_inb k j)).toLoadRect X) 0#32 e] : Fin 1 → IVec S16 32) a x).toNat < S8192.size a := by
    intro e he a x
    obtain rfl : a = 0 := Subsingleton.elim _ _
    exact Cert.Lookup.Lane.idxVec_lt v2 _ 0#32 e hv2 h76 (by decide) he x
  unfold k0_t2_body
  iintro ⟨Hxs, Hts, Hrow⟩
  sl_exec
  iapply (wp_load 𝒱₀ thr none Set.univ (m := xS) (S := halfSet k.val) (hS := load_qa_sub k j)) $$ Hxs; iintro Hxs
  sl_exec (disch := (first | exact hchk _ (by decide)))
  iterate 16 (rw [SparseCore.vectorLoadIdx_bind (c := thr)]; sl_exec (disch := (first | exact hchk _ (by decide))))
  sl_step
  isplitl [Hxs]; · iexact Hxs
  isplitl [Hts]; · iexact Hts
  iexists _
  isplitl [Hrow]; · iexact Hrow
  ipureintro
  intro y hy
  refine Cert.Lookup.Rows.read_rows16 (aS).view g (rowG 0 k.val X TB) j.val hj
    ![k0_off5 j, k0_off6 j, k0_off7 j, k0_off8 j, k0_off9 j, k0_off10 j, k0_off11 j, k0_off12 j, k0_off13 j, k0_off14 j, k0_off15 j, k0_off16 j, k0_off17 j, k0_off18 j, k0_off19 j, k0_off20 j]
    (fun dd => match dd with | ⟨0, _⟩ => k0_off5_inb j | ⟨1, _⟩ => k0_off6_inb j | ⟨2, _⟩ => k0_off7_inb j | ⟨3, _⟩ => k0_off8_inb j | ⟨4, _⟩ => k0_off9_inb j | ⟨5, _⟩ => k0_off10_inb j | ⟨6, _⟩ => k0_off11_inb j | ⟨7, _⟩ => k0_off12_inb j | ⟨8, _⟩ => k0_off13_inb j | ⟨9, _⟩ => k0_off14_inb j | ⟨10, _⟩ => k0_off15_inb j | ⟨11, _⟩ => k0_off16_inb j | ⟨12, _⟩ => k0_off17_inb j | ⟨13, _⟩ => k0_off18_inb j | ⟨14, _⟩ => k0_off19_inb j | ⟨15, _⟩ => k0_off20_inb j | ⟨n + 16, h⟩ => absurd h (by omega))
    (fun dd => match dd with | ⟨0, _⟩ => k0_off5_eq j | ⟨1, _⟩ => k0_off6_eq j | ⟨2, _⟩ => k0_off7_eq j | ⟨3, _⟩ => k0_off8_eq j | ⟨4, _⟩ => k0_off9_eq j | ⟨5, _⟩ => k0_off10_eq j | ⟨6, _⟩ => k0_off11_eq j | ⟨7, _⟩ => k0_off12_eq j | ⟨8, _⟩ => k0_off13_eq j | ⟨9, _⟩ => k0_off14_eq j | ⟨10, _⟩ => k0_off15_eq j | ⟨11, _⟩ => k0_off16_eq j | ⟨12, _⟩ => k0_off17_eq j | ⟨13, _⟩ => k0_off18_eq j | ⟨14, _⟩ => k0_off19_eq j | ⟨15, _⟩ => k0_off20_eq j | ⟨n + 16, h⟩ => absurd h (by omega))
    ![trip_qa.sl.r d L k j v2 X TB hchk, trip_qa.sl.r_1 d L k j v2 X TB hchk, trip_qa.sl.r_2 d L k j v2 X TB hchk, trip_qa.sl.r_3 d L k j v2 X TB hchk, trip_qa.sl.r_4 d L k j v2 X TB hchk, trip_qa.sl.r_5 d L k j v2 X TB hchk, trip_qa.sl.r_6 d L k j v2 X TB hchk, trip_qa.sl.r_7 d L k j v2 X TB hchk, trip_qa.sl.r_8 d L k j v2 X TB hchk, trip_qa.sl.r_9 d L k j v2 X TB hchk, trip_qa.sl.r_10 d L k j v2 X TB hchk, trip_qa.sl.r_11 d L k j v2 X TB hchk, trip_qa.sl.r_12 d L k j v2 X TB hchk, trip_qa.sl.r_13 d L k j v2 X TB hchk, trip_qa.sl.r_14 d L k j v2 X TB hchk, trip_qa.sl.r_15 d L k j v2 X TB hchk]
    shapeCasts_S16_S1x16 ?_ (fun y hy => hg y hy) y hy
  have key : ∀ (dd a : Fin 16) (e : BitVec 32) (he : e.toNat = 16 * dd.val) (h),
      loadIdx (View.readAt (Elt F) (tS).view (LoadRect.whole S8192) TB)
        ![Cert.Lookup.Lane.idxVec v2 ((xS).view.readAt (Elt F) (Rect.unit (s := S4096) (k0_off4 k j) S16.size (k0_off4_inb k j)).toLoadRect X) 0#32 e] h (ValueIdx.ix1 a)
      = rowG 0 k.val X TB (ValueIdx.ix2 dd (⟨16 * j.val + a.val, by omega⟩ : Fin 2048)) := by
    intro dd a e he h
    have hd : dd.val < 16 := dd.isLt
    have ha : a.val < 16 := a.isLt
    show TB _ = TB _
    congr 1
    funext b
    have hb0 : b.val = 0 := by have := b.isLt; change b.val < 1 at this; omega
    obtain rfl : b = ⟨0, by decide⟩ := Fin.ext hb0
    apply Fin.ext
    show 0 + 1 * (Cert.Lookup.Lane.idxVec v2 _ 0#32 e (ValueIdx.ix1 a)).toNat = _
    rw [Nat.zero_add, Nat.one_mul, Cert.Lookup.Lane.idxVec_toNat v2 _ 0#32 e hv2 h76 (by decide) (by omega) a, words_qa, he]
    show _ = (1024 * (X (at4096 (2048 * (k.val % 2) + (16 * j.val + a.val)))).toNat + (16 * j.val + a.val) % 16 + 256 * 0 + 16 * dd.val) % 8192
    have hx8 := hX _ (at4096_mem_half k.val (2048 * (k.val % 2) + 16 * j.val + a.val) (by omega) (by omega))
    rw [show 2048 * (k.val % 2) + (16 * j.val + a.val) = 2048 * (k.val % 2) + 16 * j.val + a.val by omega]
    have : (0#32 : BitVec 32).toNat = 256 * 0 := by decide
    omega
  intro dd a
  match dd with
  | ⟨0, hd⟩ => exact key ⟨0, hd⟩ a 0#32 rfl _
  | ⟨1, hd⟩ => exact key ⟨1, hd⟩ a 16#32 rfl _
  | ⟨2, hd⟩ => exact key ⟨2, hd⟩ a 32#32 rfl _
  | ⟨3, hd⟩ => exact key ⟨3, hd⟩ a 48#32 rfl _
  | ⟨4, hd⟩ => exact key ⟨4, hd⟩ a 64#32 rfl _
  | ⟨5, hd⟩ => exact key ⟨5, hd⟩ a 80#32 rfl _
  | ⟨6, hd⟩ => exact key ⟨6, hd⟩ a 96#32 rfl _
  | ⟨7, hd⟩ => exact key ⟨7, hd⟩ a 112#32 rfl _
  | ⟨8, hd⟩ => exact key ⟨8, hd⟩ a 128#32 rfl _
  | ⟨9, hd⟩ => exact key ⟨9, hd⟩ a 144#32 rfl _
  | ⟨10, hd⟩ => exact key ⟨10, hd⟩ a 160#32 rfl _
  | ⟨11, hd⟩ => exact key ⟨11, hd⟩ a 176#32 rfl _
  | ⟨12, hd⟩ => exact key ⟨12, hd⟩ a 192#32 rfl _
  | ⟨13, hd⟩ => exact key ⟨13, hd⟩ a 208#32 rfl _
  | ⟨14, hd⟩ => exact key ⟨14, hd⟩ a 224#32 rfl _
  | ⟨15, hd⟩ => exact key ⟨15, hd⟩ a 240#32 rfl _
  | ⟨n + 16, h⟩ => exact absurd h (by omega)

/-! ### Quarter 1: features 16 … 31, gathered into the row buffer chunk by chunk -/

theorem k0_off22_eq : ∀ (k : Fin k0_t1_loop.trips) (j : Fin k0_t3_loop.trips), k0_off22 k j = ![2048 * (k.val % 2) + 16 * j.val] := by decide +kernel

omit [FloatOps F] in
theorem load_qb_sub (k : Fin k0_t1_loop.trips) (j : Fin k0_t3_loop.trips) :
    (xS).view.setOn (Rect.unit (s := S4096) (k0_off22 k j) S16.size (k0_off22_inb k j)).toLoadRect.set ⊆ halfSet k.val := by
  intro i hi
  obtain ⟨y, hy, rfl⟩ := Finset.mem_map.mp hi
  have h := (Rect.mem_set_unit.mp hy) 0
  rw [k0_off22_eq] at h
  refine Finset.mem_filter.mpr ⟨Finset.mem_univ _, ?_⟩
  have hj : j.val < 128 := j.isLt
  show (y 0).val / 2048 = k.val % 2
  simp only [Matrix.cons_val_zero] at h
  have : (S16.size 0) = 16 := rfl
  omega

omit [FloatOps F] in
theorem words_qb (k : Fin k0_t1_loop.trips) (j : Fin k0_t3_loop.trips) (X : Buf (Elt F) ((xS).view.loc thr)) (a : Fin 16) :
    (xS).view.readAt (Elt F) (Rect.unit (s := S4096) (k0_off22 k j) S16.size (k0_off22_inb k j)).toLoadRect X (ValueIdx.ix1 a)
      = X (at4096 (2048 * (k.val % 2) + 16 * j.val + a.val)) := by
  have hj : j.val < 128 := j.isLt
  rw [View.readAt_apply]
  show X _ = X _
  congr 1
  funext b
  have hb0 : b.val = 0 := by have := b.isLt; change b.val < 1 at this; omega
  obtain rfl : b = ⟨0, by decide⟩ := Fin.ext hb0
  apply Fin.ext
  show (k0_off22 k j) 0 + 1 * a.val = (2048 * (k.val % 2) + 16 * j.val + a.val) % 4096
  rw [k0_off22_eq]
  simp only [Matrix.cons_val_zero]
  omega

set_option maxHeartbeats 4000000 in
/-- One chunk of quarter 1: sixteen words of the index chunk, sixteen gathers of the table's lanes at them, sixteen row
    stores; the row buffer then reads the quarter's rows up to the chunk's last column. -/
theorem trip_qb (k : Fin k0_t1_loop.trips) (j : Fin k0_t3_loop.trips) (v1 v30 arg14 : BitVec 32) (v2 : Vec F S16 .i32)
    (hv2 : ∀ a : Fin 16, v2 (ValueIdx.ix1 a) = BitVec.ofNat 32 a.val)
    (X : Buf (Elt F) ((xS).view.loc thr)) (hX : ∀ i ∈ halfSet k.val, (X i).toNat < 8)
    (TB : Buf (Elt F) ((tS).view.loc thr)) (g : Buf (Elt F) ((bS).view.loc thr))
    (hg : ∀ y : S16x2048.Idx, (y 1).val < 16 * j.val → g y = rowG 1 k.val X TB y) :
    (iprop(((xS).view.loc thr ↦[halfSet k.val]{fullShare} X) ∗ ((tS).view.loc thr ↦{fullShare} TB) ∗ ((bS).view.loc thr ↦{fullShare} g)) : sProp 𝕄)
      ⊢ wp frame (wpE (defs₀ (F := F)) 𝒱₀ thr none) Set.univ
          (k0_t3_body L fW (Memref.isWhole_whole _) rW (Memref.isWhole_whole _) iW (Memref.isWhole_whole _) oW (Memref.isWhole_whole _)
            xS (Memref.isWhole_whole _) tS (Memref.isWhole_whole _) nS (Memref.isWhole_whole _) aS (Memref.isWhole_whole _) bS (Memref.isWhole_whole _)
            cc0_scratch5 cc0_scratch6 cc0_scratch7 cc0_scoped0 cc0_scoped1 v2 k arg14 v30 j ())
          fun _ => iprop(((xS).view.loc thr ↦[halfSet k.val]{fullShare} X) ∗ ((tS).view.loc thr ↦{fullShare} TB)
            ∗ ∃ g' : Buf (Elt F) ((bS).view.loc thr), ((bS).view.loc thr ↦{fullShare} g') ∗ ⌜∀ y : S16x2048.Idx, (y 1).val < 16 * (j.val + 1) → g' y = rowG 1 k.val X TB y⌝) := by
  have hj : j.val < 128 := j.isLt
  have h76 : ∀ a : Fin 16, ((xS).view.readAt (Elt F) (Rect.unit (s := S4096) (k0_off22 k j) S16.size (k0_off22_inb k j)).toLoadRect X (ValueIdx.ix1 a)).toNat < 8 := by
    intro a
    rw [words_qb]
    exact hX _ (at4096_mem_half _ _ (by omega) (by omega))
  have hchk : ∀ (e : BitVec 32), e.toNat ≤ 240 → ∀ (a : Fin 1) (x : S16.Idx),
      ((![Cert.Lookup.Lane.idxVec v2 ((xS).view.readAt (Elt F) (Rect.unit (s := S4096) (k0_off22 k j) S16.size (k0_off22_inb k j)).toLoadRect X) 256#32 e] : Fin 1 → IVec S16 32) a x).toNat < S8192.size a := by
    intro e he a x
    obtain rfl : a = 0 := Subsingleton.elim _ _
    exact Cert.Lookup.Lane.idxVec_lt v2 _ 256#32 e hv2 h76 (by decide) he x
  unfold k0_t3_body
  iintro ⟨Hxs, Hts, Hrow⟩
  sl_exec
  iapply (wp_load 𝒱₀ thr none Set.univ (m := xS) (S := halfSet k.val) (hS := load_qb_sub k j)) $$ Hxs; iintro Hxs
  sl_exec (disch := (first | exact hchk _ (by decide)))
  iterate 16 (rw [SparseCore.vectorLoadIdx_bind (c := thr)]; sl_exec (disch := (first | exact hchk _ (by decide))))
  sl_step
  isplitl [Hxs]; · iexact Hxs
  isplitl [Hts]; · iexact Hts
  iexists _
  isplitl [Hrow]; · iexact Hrow
  ipureintro
  intro y hy
  refine Cert.Lookup.Rows.read_rows16 (bS).view g (rowG 1 k.val X TB) j.val hj
    ![k0_off23 j, k0_off24 j, k0_off25 j, k0_off26 j, k0_off27 j, k0_off28 j, k0_off29 j, k0_off30 j, k0_off31 j, k0_off32 j, k0_off33 j, k0_off34 j, k0_off35 j, k0_off36 j, k0_off37 j, k0_off38 j]
    (fun dd => match dd with | ⟨0, _⟩ => k0_off23_inb j | ⟨1, _⟩ => k0_off24_inb j | ⟨2, _⟩ => k0_off25_inb j | ⟨3, _⟩ => k0_off26_inb j | ⟨4, _⟩ => k0_off27_inb j | ⟨5, _⟩ => k0_off28_inb j | ⟨6, _⟩ => k0_off29_inb j | ⟨7, _⟩ => k0_off30_inb j | ⟨8, _⟩ => k0_off31_inb j | ⟨9, _⟩ => k0_off32_inb j | ⟨10, _⟩ => k0_off33_inb j | ⟨11, _⟩ => k0_off34_inb j | ⟨12, _⟩ => k0_off35_inb j | ⟨13, _⟩ => k0_off36_inb j | ⟨14, _⟩ => k0_off37_inb j | ⟨15, _⟩ => k0_off38_inb j | ⟨n + 16, h⟩ => absurd h (by omega))
    (fun dd => match dd with | ⟨0, _⟩ => k0_off23_eq j | ⟨1, _⟩ => k0_off24_eq j | ⟨2, _⟩ => k0_off25_eq j | ⟨3, _⟩ => k0_off26_eq j | ⟨4, _⟩ => k0_off27_eq j | ⟨5, _⟩ => k0_off28_eq j | ⟨6, _⟩ => k0_off29_eq j | ⟨7, _⟩ => k0_off30_eq j | ⟨8, _⟩ => k0_off31_eq j | ⟨9, _⟩ => k0_off32_eq j | ⟨10, _⟩ => k0_off33_eq j | ⟨11, _⟩ => k0_off34_eq j | ⟨12, _⟩ => k0_off35_eq j | ⟨13, _⟩ => k0_off36_eq j | ⟨14, _⟩ => k0_off37_eq j | ⟨15, _⟩ => k0_off38_eq j | ⟨n + 16, h⟩ => absurd h (by omega))
    ![trip_qb.sl.r d L k j v2 X TB hchk, trip_qb.sl.r_1 d L k j v2 X TB hchk, trip_qb.sl.r_2 d L k j v2 X TB hchk, trip_qb.sl.r_3 d L k j v2 X TB hchk, trip_qb.sl.r_4 d L k j v2 X TB hchk, trip_qb.sl.r_5 d L k j v2 X TB hchk, trip_qb.sl.r_6 d L k j v2 X TB hchk, trip_qb.sl.r_7 d L k j v2 X TB hchk, trip_qb.sl.r_8 d L k j v2 X TB hchk, trip_qb.sl.r_9 d L k j v2 X TB hchk, trip_qb.sl.r_10 d L k j v2 X TB hchk, trip_qb.sl.r_11 d L k j v2 X TB hchk, trip_qb.sl.r_12 d L k j v2 X TB hchk, trip_qb.sl.r_13 d L k j v2 X TB hchk, trip_qb.sl.r_14 d L k j v2 X TB hchk, trip_qb.sl.r_15 d L k j v2 X TB hchk]
    shapeCasts_S16_S1x16 ?_ (fun y hy => hg y hy) y hy
  have key : ∀ (dd a : Fin 16) (e : BitVec 32) (he : e.toNat = 16 * dd.val) (h),
      loadIdx (View.readAt (Elt F) (tS).view (LoadRect.whole S8192) TB)
        ![Cert.Lookup.Lane.idxVec v2 ((xS).view.readAt (Elt F) (Rect.unit (s := S4096) (k0_off22 k j) S16.size (k0_off22_inb k j)).toLoadRect X) 256#32 e] h (ValueIdx.ix1 a)
      = rowG 1 k.val X TB (ValueIdx.ix2 dd (⟨16 * j.val + a.val, by omega⟩ : Fin 2048)) := by
    intro dd a e he h
    have hd : dd.val < 16 := dd.isLt
    have ha : a.val < 16 := a.isLt
    show TB _ = TB _
    congr 1
    funext b
    have hb0 : b.val = 0 := by have := b.isLt; change b.val < 1 at this; omega
    obtain rfl : b = ⟨0, by decide⟩ := Fin.ext hb0
    apply Fin.ext
    show 0 + 1 * (Cert.Lookup.Lane.idxVec v2 _ 256#32 e (ValueIdx.ix1 a)).toNat = _
    rw [Nat.zero_add, Nat.one_mul, Cert.Lookup.Lane.idxVec_toNat v2 _ 256#32 e hv2 h76 (by decide) (by omega) a, words_qb, he]
    show _ = (1024 * (X (at4096 (2048 * (k.val % 2) + (16 * j.val + a.val)))).toNat + (16 * j.val + a.val) % 16 + 256 * 1 + 16 * dd.val) % 8192
    have hx8 := hX _ (at4096_mem_half k.val (2048 * (k.val % 2) + 16 * j.val + a.val) (by omega) (by omega))
    rw [show 2048 * (k.val % 2) + (16 * j.val + a.val) = 2048 * (k.val % 2) + 16 * j.val + a.val by omega]
    have : (256#32 : BitVec 32).toNat = 256 * 1 := by decide
    omega
  intro dd a
  match dd with
  | ⟨0, hd⟩ => exact key ⟨0, hd⟩ a 0#32 rfl _
  | ⟨1, hd⟩ => exact key ⟨1, hd⟩ a 16#32 rfl _
  | ⟨2, hd⟩ => exact key ⟨2, hd⟩ a 32#32 rfl _
  | ⟨3, hd⟩ => exact key ⟨3, hd⟩ a 48#32 rfl _
  | ⟨4, hd⟩ => exact key ⟨4, hd⟩ a 64#32 rfl _
  | ⟨5, hd⟩ => exact key ⟨5, hd⟩ a 80#32 rfl _
  | ⟨6, hd⟩ => exact key ⟨6, hd⟩ a 96#32 rfl _
  | ⟨7, hd⟩ => exact key ⟨7, hd⟩ a 112#32 rfl _
  | ⟨8, hd⟩ => exact key ⟨8, hd⟩ a 128#32 rfl _
  | ⟨9, hd⟩ => exact key ⟨9, hd⟩ a 144#32 rfl _
  | ⟨10, hd⟩ => exact key ⟨10, hd⟩ a 160#32 rfl _
  | ⟨11, hd⟩ => exact key ⟨11, hd⟩ a 176#32 rfl _
  | ⟨12, hd⟩ => exact key ⟨12, hd⟩ a 192#32 rfl _
  | ⟨13, hd⟩ => exact key ⟨13, hd⟩ a 208#32 rfl _
  | ⟨14, hd⟩ => exact key ⟨14, hd⟩ a 224#32 rfl _
  | ⟨15, hd⟩ => exact key ⟨15, hd⟩ a 240#32 rfl _
  | ⟨n + 16, h⟩ => exact absurd h (by omega)

/-! ### Quarter 2: features 32 … 47, gathered into the row buffer chunk by chunk -/

theorem k0_off40_eq : ∀ (k : Fin k0_t1_loop.trips) (j : Fin k0_t4_loop.trips), k0_off40 k j = ![2048 * (k.val % 2) + 16 * j.val] := by decide +kernel

omit [FloatOps F] in
theorem load_qc_sub (k : Fin k0_t1_loop.trips) (j : Fin k0_t4_loop.trips) :
    (xS).view.setOn (Rect.unit (s := S4096) (k0_off40 k j) S16.size (k0_off40_inb k j)).toLoadRect.set ⊆ halfSet k.val := by
  intro i hi
  obtain ⟨y, hy, rfl⟩ := Finset.mem_map.mp hi
  have h := (Rect.mem_set_unit.mp hy) 0
  rw [k0_off40_eq] at h
  refine Finset.mem_filter.mpr ⟨Finset.mem_univ _, ?_⟩
  have hj : j.val < 128 := j.isLt
  show (y 0).val / 2048 = k.val % 2
  simp only [Matrix.cons_val_zero] at h
  have : (S16.size 0) = 16 := rfl
  omega

omit [FloatOps F] in
theorem words_qc (k : Fin k0_t1_loop.trips) (j : Fin k0_t4_loop.trips) (X : Buf (Elt F) ((xS).view.loc thr)) (a : Fin 16) :
    (xS).view.readAt (Elt F) (Rect.unit (s := S4096) (k0_off40 k j) S16.size (k0_off40_inb k j)).toLoadRect X (ValueIdx.ix1 a)
      = X (at4096 (2048 * (k.val % 2) + 16 * j.val + a.val)) := by
  have hj : j.val < 128 := j.isLt
  rw [View.readAt_apply]
  show X _ = X _
  congr 1
  funext b
  have hb0 : b.val = 0 := by have := b.isLt; change b.val < 1 at this; omega
  obtain rfl : b = ⟨0, by decide⟩ := Fin.ext hb0
  apply Fin.ext
  show (k0_off40 k j) 0 + 1 * a.val = (2048 * (k.val % 2) + 16 * j.val + a.val) % 4096
  rw [k0_off40_eq]
  simp only [Matrix.cons_val_zero]
  omega

set_option maxHeartbeats 4000000 in
/-- One chunk of quarter 2: sixteen words of the index chunk, sixteen gathers of the table's lanes at them, sixteen row
    stores; the row buffer then reads the quarter's rows up to the chunk's last column. -/
theorem trip_qc (k : Fin k0_t1_loop.trips) (j : Fin k0_t4_loop.trips) (v1 v30 arg14 : BitVec 32) (v2 : Vec F S16 .i32)
    (hv2 : ∀ a : Fin 16, v2 (ValueIdx.ix1 a) = BitVec.ofNat 32 a.val)
    (X : Buf (Elt F) ((xS).view.loc thr)) (hX : ∀ i ∈ halfSet k.val, (X i).toNat < 8)
    (TB : Buf (Elt F) ((tS).view.loc thr)) (g : Buf (Elt F) ((aS).view.loc thr))
    (hg : ∀ y : S16x2048.Idx, (y 1).val < 16 * j.val → g y = rowG 2 k.val X TB y) :
    (iprop(((xS).view.loc thr ↦[halfSet k.val]{fullShare} X) ∗ ((tS).view.loc thr ↦{fullShare} TB) ∗ ((aS).view.loc thr ↦{fullShare} g)) : sProp 𝕄)
      ⊢ wp frame (wpE (defs₀ (F := F)) 𝒱₀ thr none) Set.univ
          (k0_t4_body L fW (Memref.isWhole_whole _) rW (Memref.isWhole_whole _) iW (Memref.isWhole_whole _) oW (Memref.isWhole_whole _)
            xS (Memref.isWhole_whole _) tS (Memref.isWhole_whole _) nS (Memref.isWhole_whole _) aS (Memref.isWhole_whole _) bS (Memref.isWhole_whole _)
            cc0_scratch5 cc0_scratch6 cc0_scratch7 cc0_scoped0 cc0_scoped1 v2 k arg14 v30 j ())
          fun _ => iprop(((xS).view.loc thr ↦[halfSet k.val]{fullShare} X) ∗ ((tS).view.loc thr ↦{fullShare} TB)
            ∗ ∃ g' : Buf (Elt F) ((aS).view.loc thr), ((aS).view.loc thr ↦{fullShare} g') ∗ ⌜∀ y : S16x2048.Idx, (y 1).val < 16 * (j.val + 1) → g' y = rowG 2 k.val X TB y⌝) := by
  have hj : j.val < 128 := j.isLt
  have h76 : ∀ a : Fin 16, ((xS).view.readAt (Elt F) (Rect.unit (s := S4096) (k0_off40 k j) S16.size (k0_off40_inb k j)).toLoadRect X (ValueIdx.ix1 a)).toNat < 8 := by
    intro a
    rw [words_qc]
    exact hX _ (at4096_mem_half _ _ (by omega) (by omega))
  have hchk : ∀ (e : BitVec 32), e.toNat ≤ 240 → ∀ (a : Fin 1) (x : S16.Idx),
      ((![Cert.Lookup.Lane.idxVec v2 ((xS).view.readAt (Elt F) (Rect.unit (s := S4096) (k0_off40 k j) S16.size (k0_off40_inb k j)).toLoadRect X) 512#32 e] : Fin 1 → IVec S16 32) a x).toNat < S8192.size a := by
    intro e he a x
    obtain rfl : a = 0 := Subsingleton.elim _ _
    exact Cert.Lookup.Lane.idxVec_lt v2 _ 512#32 e hv2 h76 (by decide) he x
  unfold k0_t4_body
  iintro ⟨Hxs, Hts, Hrow⟩
  sl_exec
  iapply (wp_load 𝒱₀ thr none Set.univ (m := xS) (S := halfSet k.val) (hS := load_qc_sub k j)) $$ Hxs; iintro Hxs
  sl_exec (disch := (first | exact hchk _ (by decide)))
  iterate 16 (rw [SparseCore.vectorLoadIdx_bind (c := thr)]; sl_exec (disch := (first | exact hchk _ (by decide))))
  sl_step
  isplitl [Hxs]; · iexact Hxs
  isplitl [Hts]; · iexact Hts
  iexists _
  isplitl [Hrow]; · iexact Hrow
  ipureintro
  intro y hy
  refine Cert.Lookup.Rows.read_rows16 (aS).view g (rowG 2 k.val X TB) j.val hj
    ![k0_off41 j, k0_off42 j, k0_off43 j, k0_off44 j, k0_off45 j, k0_off46 j, k0_off47 j, k0_off48 j, k0_off49 j, k0_off50 j, k0_off51 j, k0_off52 j, k0_off53 j, k0_off54 j, k0_off55 j, k0_off56 j]
    (fun dd => match dd with | ⟨0, _⟩ => k0_off41_inb j | ⟨1, _⟩ => k0_off42_inb j | ⟨2, _⟩ => k0_off43_inb j | ⟨3, _⟩ => k0_off44_inb j | ⟨4, _⟩ => k0_off45_inb j | ⟨5, _⟩ => k0_off46_inb j | ⟨6, _⟩ => k0_off47_inb j | ⟨7, _⟩ => k0_off48_inb j | ⟨8, _⟩ => k0_off49_inb j | ⟨9, _⟩ => k0_off50_inb j | ⟨10, _⟩ => k0_off51_inb j | ⟨11, _⟩ => k0_off52_inb j | ⟨12, _⟩ => k0_off53_inb j | ⟨13, _⟩ => k0_off54_inb j | ⟨14, _⟩ => k0_off55_inb j | ⟨15, _⟩ => k0_off56_inb j | ⟨n + 16, h⟩ => absurd h (by omega))
    (fun dd => match dd with | ⟨0, _⟩ => k0_off41_eq j | ⟨1, _⟩ => k0_off42_eq j | ⟨2, _⟩ => k0_off43_eq j | ⟨3, _⟩ => k0_off44_eq j | ⟨4, _⟩ => k0_off45_eq j | ⟨5, _⟩ => k0_off46_eq j | ⟨6, _⟩ => k0_off47_eq j | ⟨7, _⟩ => k0_off48_eq j | ⟨8, _⟩ => k0_off49_eq j | ⟨9, _⟩ => k0_off50_eq j | ⟨10, _⟩ => k0_off51_eq j | ⟨11, _⟩ => k0_off52_eq j | ⟨12, _⟩ => k0_off53_eq j | ⟨13, _⟩ => k0_off54_eq j | ⟨14, _⟩ => k0_off55_eq j | ⟨15, _⟩ => k0_off56_eq j | ⟨n + 16, h⟩ => absurd h (by omega))
    ![trip_qc.sl.r d L k j v2 X TB hchk, trip_qc.sl.r_1 d L k j v2 X TB hchk, trip_qc.sl.r_2 d L k j v2 X TB hchk, trip_qc.sl.r_3 d L k j v2 X TB hchk, trip_qc.sl.r_4 d L k j v2 X TB hchk, trip_qc.sl.r_5 d L k j v2 X TB hchk, trip_qc.sl.r_6 d L k j v2 X TB hchk, trip_qc.sl.r_7 d L k j v2 X TB hchk, trip_qc.sl.r_8 d L k j v2 X TB hchk, trip_qc.sl.r_9 d L k j v2 X TB hchk, trip_qc.sl.r_10 d L k j v2 X TB hchk, trip_qc.sl.r_11 d L k j v2 X TB hchk, trip_qc.sl.r_12 d L k j v2 X TB hchk, trip_qc.sl.r_13 d L k j v2 X TB hchk, trip_qc.sl.r_14 d L k j v2 X TB hchk, trip_qc.sl.r_15 d L k j v2 X TB hchk]
    shapeCasts_S16_S1x16 ?_ (fun y hy => hg y hy) y hy
  have key : ∀ (dd a : Fin 16) (e : BitVec 32) (he : e.toNat = 16 * dd.val) (h),
      loadIdx (View.readAt (Elt F) (tS).view (LoadRect.whole S8192) TB)
        ![Cert.Lookup.Lane.idxVec v2 ((xS).view.readAt (Elt F) (Rect.unit (s := S4096) (k0_off40 k j) S16.size (k0_off40_inb k j)).toLoadRect X) 512#32 e] h (ValueIdx.ix1 a)
      = rowG 2 k.val X TB (ValueIdx.ix2 dd (⟨16 * j.val + a.val, by omega⟩ : Fin 2048)) := by
    intro dd a e he h
    have hd : dd.val < 16 := dd.isLt
    have ha : a.val < 16 := a.isLt
    show TB _ = TB _
    congr 1
    funext b
    have hb0 : b.val = 0 := by have := b.isLt; change b.val < 1 at this; omega
    obtain rfl : b = ⟨0, by decide⟩ := Fin.ext hb0
    apply Fin.ext
    show 0 + 1 * (Cert.Lookup.Lane.idxVec v2 _ 512#32 e (ValueIdx.ix1 a)).toNat = _
    rw [Nat.zero_add, Nat.one_mul, Cert.Lookup.Lane.idxVec_toNat v2 _ 512#32 e hv2 h76 (by decide) (by omega) a, words_qc, he]
    show _ = (1024 * (X (at4096 (2048 * (k.val % 2) + (16 * j.val + a.val)))).toNat + (16 * j.val + a.val) % 16 + 256 * 2 + 16 * dd.val) % 8192
    have hx8 := hX _ (at4096_mem_half k.val (2048 * (k.val % 2) + 16 * j.val + a.val) (by omega) (by omega))
    rw [show 2048 * (k.val % 2) + (16 * j.val + a.val) = 2048 * (k.val % 2) + 16 * j.val + a.val by omega]
    have : (512#32 : BitVec 32).toNat = 256 * 2 := by decide
    omega
  intro dd a
  match dd with
  | ⟨0, hd⟩ => exact key ⟨0, hd⟩ a 0#32 rfl _
  | ⟨1, hd⟩ => exact key ⟨1, hd⟩ a 16#32 rfl _
  | ⟨2, hd⟩ => exact key ⟨2, hd⟩ a 32#32 rfl _
  | ⟨3, hd⟩ => exact key ⟨3, hd⟩ a 48#32 rfl _
  | ⟨4, hd⟩ => exact key ⟨4, hd⟩ a 64#32 rfl _
  | ⟨5, hd⟩ => exact key ⟨5, hd⟩ a 80#32 rfl _
  | ⟨6, hd⟩ => exact key ⟨6, hd⟩ a 96#32 rfl _
  | ⟨7, hd⟩ => exact key ⟨7, hd⟩ a 112#32 rfl _
  | ⟨8, hd⟩ => exact key ⟨8, hd⟩ a 128#32 rfl _
  | ⟨9, hd⟩ => exact key ⟨9, hd⟩ a 144#32 rfl _
  | ⟨10, hd⟩ => exact key ⟨10, hd⟩ a 160#32 rfl _
  | ⟨11, hd⟩ => exact key ⟨11, hd⟩ a 176#32 rfl _
  | ⟨12, hd⟩ => exact key ⟨12, hd⟩ a 192#32 rfl _
  | ⟨13, hd⟩ => exact key ⟨13, hd⟩ a 208#32 rfl _
  | ⟨14, hd⟩ => exact key ⟨14, hd⟩ a 224#32 rfl _
  | ⟨15, hd⟩ => exact key ⟨15, hd⟩ a 240#32 rfl _
  | ⟨n + 16, h⟩ => exact absurd h (by omega)

/-! ### Quarter 3: features 48 … 63, gathered into the row buffer chunk by chunk -/

theorem k0_off58_eq : ∀ (k : Fin k0_t1_loop.trips) (j : Fin k0_t5_loop.trips), k0_off58 k j = ![2048 * (k.val % 2) + 16 * j.val] := by decide +kernel

omit [FloatOps F] in
theorem load_qd_sub (k : Fin k0_t1_loop.trips) (j : Fin k0_t5_loop.trips) :
    (xS).view.setOn (Rect.unit (s := S4096) (k0_off58 k j) S16.size (k0_off58_inb k j)).toLoadRect.set ⊆ halfSet k.val := by
  intro i hi
  obtain ⟨y, hy, rfl⟩ := Finset.mem_map.mp hi
  have h := (Rect.mem_set_unit.mp hy) 0
  rw [k0_off58_eq] at h
  refine Finset.mem_filter.mpr ⟨Finset.mem_univ _, ?_⟩
  have hj : j.val < 128 := j.isLt
  show (y 0).val / 2048 = k.val % 2
  simp only [Matrix.cons_val_zero] at h
  have : (S16.size 0) = 16 := rfl
  omega

omit [FloatOps F] in
theorem words_qd (k : Fin k0_t1_loop.trips) (j : Fin k0_t5_loop.trips) (X : Buf (Elt F) ((xS).view.loc thr)) (a : Fin 16) :
    (xS).view.readAt (Elt F) (Rect.unit (s := S4096) (k0_off58 k j) S16.size (k0_off58_inb k j)).toLoadRect X (ValueIdx.ix1 a)
      = X (at4096 (2048 * (k.val % 2) + 16 * j.val + a.val)) := by
  have hj : j.val < 128 := j.isLt
  rw [View.readAt_apply]
  show X _ = X _
  congr 1
  funext b
  have hb0 : b.val = 0 := by have := b.isLt; change b.val < 1 at this; omega
  obtain rfl : b = ⟨0, by decide⟩ := Fin.ext hb0
  apply Fin.ext
  show (k0_off58 k j) 0 + 1 * a.val = (2048 * (k.val % 2) + 16 * j.val + a.val) % 4096
  rw [k0_off58_eq]
  simp only [Matrix.cons_val_zero]
  omega

set_option maxHeartbeats 4000000 in
/-- One chunk of quarter 3: sixteen words of the index chunk, sixteen gathers of the table's lanes at them, sixteen row
    stores; the row buffer then reads the quarter's rows up to the chunk's last column. -/
theorem trip_qd (k : Fin k0_t1_loop.trips) (j : Fin k0_t5_loop.trips) (v1 v30 arg14 : BitVec 32) (v2 : Vec F S16 .i32)
    (hv2 : ∀ a : Fin 16, v2 (ValueIdx.ix1 a) = BitVec.ofNat 32 a.val)
    (X : Buf (Elt F) ((xS).view.loc thr)) (hX : ∀ i ∈ halfSet k.val, (X i).toNat < 8)
    (TB : Buf (Elt F) ((tS).view.loc thr)) (g : Buf (Elt F) ((bS).view.loc thr))
    (hg : ∀ y : S16x2048.Idx, (y 1).val < 16 * j.val → g y = rowG 3 k.val X TB y) :
    (iprop(((xS).view.loc thr ↦[halfSet k.val]{fullShare} X) ∗ ((tS).view.loc thr ↦{fullShare} TB) ∗ ((bS).view.loc thr ↦{fullShare} g)) : sProp 𝕄)
      ⊢ wp frame (wpE (defs₀ (F := F)) 𝒱₀ thr none) Set.univ
          (k0_t5_body L fW (Memref.isWhole_whole _) rW (Memref.isWhole_whole _) iW (Memref.isWhole_whole _) oW (Memref.isWhole_whole _)
            xS (Memref.isWhole_whole _) tS (Memref.isWhole_whole _) nS (Memref.isWhole_whole _) aS (Memref.isWhole_whole _) bS (Memref.isWhole_whole _)
            cc0_scratch5 cc0_scratch6 cc0_scratch7 cc0_scoped0 cc0_scoped1 v2 k v30 j ())
          fun _ => iprop(((xS).view.loc thr ↦[halfSet k.val]{fullShare} X) ∗ ((tS).view.loc thr ↦{fullShare} TB)
            ∗ ∃ g' : Buf (Elt F) ((bS).view.loc thr), ((bS).view.loc thr ↦{fullShare} g') ∗ ⌜∀ y : S16x2048.Idx, (y 1).val < 16 * (j.val + 1) → g' y = rowG 3 k.val X TB y⌝) := by
  have hj : j.val < 128 := j.isLt
  have h76 : ∀ a : Fin 16, ((xS).view.readAt (Elt F) (Rect.unit (s := S4096) (k0_off58 k j) S16.size (k0_off58_inb k j)).toLoadRect X (ValueIdx.ix1 a)).toNat < 8 := by
    intro a
    rw [words_qd]
    exact hX _ (at4096_mem_half _ _ (by omega) (by omega))
  have hchk : ∀ (e : BitVec 32), e.toNat ≤ 240 → ∀ (a : Fin 1) (x : S16.Idx),
      ((![Cert.Lookup.Lane.idxVec v2 ((xS).view.readAt (Elt F) (Rect.unit (s := S4096) (k0_off58 k j) S16.size (k0_off58_inb k j)).toLoadRect X) 768#32 e] : Fin 1 → IVec S16 32) a x).toNat < S8192.size a := by
    intro e he a x
    obtain rfl : a = 0 := Subsingleton.elim _ _
    exact Cert.Lookup.Lane.idxVec_lt v2 _ 768#32 e hv2 h76 (by decide) he x
  unfold k0_t5_body
  iintro ⟨Hxs, Hts, Hrow⟩
  sl_exec
  iapply (wp_load 𝒱₀ thr none Set.univ (m := xS) (S := halfSet k.val) (hS := load_qd_sub k j)) $$ Hxs; iintro Hxs
  sl_exec (disch := (first | exact hchk _ (by decide)))
  iterate 16 (rw [SparseCore.vectorLoadIdx_bind (c := thr)]; sl_exec (disch := (first | exact hchk _ (by decide))))
  sl_step
  isplitl [Hxs]; · iexact Hxs
  isplitl [Hts]; · iexact Hts
  iexists _
  isplitl [Hrow]; · iexact Hrow
  ipureintro
  intro y hy
  refine Cert.Lookup.Rows.read_rows16 (bS).view g (rowG 3 k.val X TB) j.val hj
    ![k0_off59 j, k0_off60 j, k0_off61 j, k0_off62 j, k0_off63 j, k0_off64 j, k0_off65 j, k0_off66 j, k0_off67 j, k0_off68 j, k0_off69 j, k0_off70 j, k0_off71 j, k0_off72 j, k0_off73 j, k0_off74 j]
    (fun dd => match dd with | ⟨0, _⟩ => k0_off59_inb j | ⟨1, _⟩ => k0_off60_inb j | ⟨2, _⟩ => k0_off61_inb j | ⟨3, _⟩ => k0_off62_inb j | ⟨4, _⟩ => k0_off63_inb j | ⟨5, _⟩ => k0_off64_inb j | ⟨6, _⟩ => k0_off65_inb j | ⟨7, _⟩ => k0_off66_inb j | ⟨8, _⟩ => k0_off67_inb j | ⟨9, _⟩ => k0_off68_inb j | ⟨10, _⟩ => k0_off69_inb j | ⟨11, _⟩ => k0_off70_inb j | ⟨12, _⟩ => k0_off71_inb j | ⟨13, _⟩ => k0_off72_inb j | ⟨14, _⟩ => k0_off73_inb j | ⟨15, _⟩ => k0_off74_inb j | ⟨n + 16, h⟩ => absurd h (by omega))
    (fun dd => match dd with | ⟨0, _⟩ => k0_off59_eq j | ⟨1, _⟩ => k0_off60_eq j | ⟨2, _⟩ => k0_off61_eq j | ⟨3, _⟩ => k0_off62_eq j | ⟨4, _⟩ => k0_off63_eq j | ⟨5, _⟩ => k0_off64_eq j | ⟨6, _⟩ => k0_off65_eq j | ⟨7, _⟩ => k0_off66_eq j | ⟨8, _⟩ => k0_off67_eq j | ⟨9, _⟩ => k0_off68_eq j | ⟨10, _⟩ => k0_off69_eq j | ⟨11, _⟩ => k0_off70_eq j | ⟨12, _⟩ => k0_off71_eq j | ⟨13, _⟩ => k0_off72_eq j | ⟨14, _⟩ => k0_off73_eq j | ⟨15, _⟩ => k0_off74_eq j | ⟨n + 16, h⟩ => absurd h (by omega))
    ![trip_qd.sl.r d L k j v2 X TB hchk, trip_qd.sl.r_1 d L k j v2 X TB hchk, trip_qd.sl.r_2 d L k j v2 X TB hchk, trip_qd.sl.r_3 d L k j v2 X TB hchk, trip_qd.sl.r_4 d L k j v2 X TB hchk, trip_qd.sl.r_5 d L k j v2 X TB hchk, trip_qd.sl.r_6 d L k j v2 X TB hchk, trip_qd.sl.r_7 d L k j v2 X TB hchk, trip_qd.sl.r_8 d L k j v2 X TB hchk, trip_qd.sl.r_9 d L k j v2 X TB hchk, trip_qd.sl.r_10 d L k j v2 X TB hchk, trip_qd.sl.r_11 d L k j v2 X TB hchk, trip_qd.sl.r_12 d L k j v2 X TB hchk, trip_qd.sl.r_13 d L k j v2 X TB hchk, trip_qd.sl.r_14 d L k j v2 X TB hchk, trip_qd.sl.r_15 d L k j v2 X TB hchk]
    shapeCasts_S16_S1x16 ?_ (fun y hy => hg y hy) y hy
  have key : ∀ (dd a : Fin 16) (e : BitVec 32) (he : e.toNat = 16 * dd.val) (h),
      loadIdx (View.readAt (Elt F) (tS).view (LoadRect.whole S8192) TB)
        ![Cert.Lookup.Lane.idxVec v2 ((xS).view.readAt (Elt F) (Rect.unit (s := S4096) (k0_off58 k j) S16.size (k0_off58_inb k j)).toLoadRect X) 768#32 e] h (ValueIdx.ix1 a)
      = rowG 3 k.val X TB (ValueIdx.ix2 dd (⟨16 * j.val + a.val, by omega⟩ : Fin 2048)) := by
    intro dd a e he h
    have hd : dd.val < 16 := dd.isLt
    have ha : a.val < 16 := a.isLt
    show TB _ = TB _
    congr 1
    funext b
    have hb0 : b.val = 0 := by have := b.isLt; change b.val < 1 at this; omega
    obtain rfl : b = ⟨0, by decide⟩ := Fin.ext hb0
    apply Fin.ext
    show 0 + 1 * (Cert.Lookup.Lane.idxVec v2 _ 768#32 e (ValueIdx.ix1 a)).toNat = _
    rw [Nat.zero_add, Nat.one_mul, Cert.Lookup.Lane.idxVec_toNat v2 _ 768#32 e hv2 h76 (by decide) (by omega) a, words_qd, he]
    show _ = (1024 * (X (at4096 (2048 * (k.val % 2) + (16 * j.val + a.val)))).toNat + (16 * j.val + a.val) % 16 + 256 * 3 + 16 * dd.val) % 8192
    have hx8 := hX _ (at4096_mem_half k.val (2048 * (k.val % 2) + 16 * j.val + a.val) (by omega) (by omega))
    rw [show 2048 * (k.val % 2) + (16 * j.val + a.val) = 2048 * (k.val % 2) + 16 * j.val + a.val by omega]
    have : (768#32 : BitVec 32).toNat = 256 * 3 := by decide
    omega
  intro dd a
  match dd with
  | ⟨0, hd⟩ => exact key ⟨0, hd⟩ a 0#32 rfl _
  | ⟨1, hd⟩ => exact key ⟨1, hd⟩ a 16#32 rfl _
  | ⟨2, hd⟩ => exact key ⟨2, hd⟩ a 32#32 rfl _
  | ⟨3, hd⟩ => exact key ⟨3, hd⟩ a 48#32 rfl _
  | ⟨4, hd⟩ => exact key ⟨4, hd⟩ a 64#32 rfl _
  | ⟨5, hd⟩ => exact key ⟨5, hd⟩ a 80#32 rfl _
  | ⟨6, hd⟩ => exact key ⟨6, hd⟩ a 96#32 rfl _
  | ⟨7, hd⟩ => exact key ⟨7, hd⟩ a 112#32 rfl _
  | ⟨8, hd⟩ => exact key ⟨8, hd⟩ a 128#32 rfl _
  | ⟨9, hd⟩ => exact key ⟨9, hd⟩ a 144#32 rfl _
  | ⟨10, hd⟩ => exact key ⟨10, hd⟩ a 160#32 rfl _
  | ⟨11, hd⟩ => exact key ⟨11, hd⟩ a 176#32 rfl _
  | ⟨12, hd⟩ => exact key ⟨12, hd⟩ a 192#32 rfl _
  | ⟨13, hd⟩ => exact key ⟨13, hd⟩ a 208#32 rfl _
  | ⟨14, hd⟩ => exact key ⟨14, hd⟩ a 224#32 rfl _
  | ⟨15, hd⟩ => exact key ⟨15, hd⟩ a 240#32 rfl _
  | ⟨n + 16, h⟩ => exact absurd h (by omega)

end Tile

end Cert.Kernel.Hand

end
-- ==== Proof.HostTable.lean ====
/-
  What the host operations ahead of the kernel call compute, read at an index. The table `t : [8, 64]` is flattened to
  512 entries, each entry repeated 16 times in a row, and the rows flattened again to 8192 entries: entry `k` of the
  result is entry `k / 16` of the flattened table, that is the table's entry `(k / 1024, (k / 16) % 64)`. The iota of
  length 16 has `j` at `j`. The index array `x : [1024, 2048]` is flattened: entry `k` is `x[k / 2048, k % 2048]`.
  A reshape keeps the row-major position of every element, so each step is read off by naming the operand index with
  the same row-major position; the broadcast along the new axis of length 16 reads the operand at coordinate 0 there.
-/
import Idealize.ShloMosaic.Lib.ValueIdx
import Idealize.ShloMosaic.Lib.ValueLayout
import Idealize.ShloMosaic.Lib.Pipeline.Value
import Idealize.ShloMosaic.PureOps

noncomputable section

namespace Cert.Lookup.Host

open Idealize.ShloMosaic Idealize.ShloMosaic.ValueIdx

abbrev S8x64 : Shape := ⟨2, ![8, 64]⟩
abbrev S512x1 : Shape := ⟨2, ![512, 1]⟩
abbrev S1x512x1x1 : Shape := ⟨4, ![1, 512, 1, 1]⟩
abbrev S1x512x16x1 : Shape := ⟨4, ![1, 512, 16, 1]⟩
abbrev S512x16 : Shape := ⟨2, ![512, 16]⟩
abbrev S8192 : Shape := ⟨1, ![8192]⟩
abbrev S16 : Shape := ⟨1, ![16]⟩
abbrev S1024x2048 : Shape := ⟨2, ![1024, 2048]⟩
abbrev S2097152 : Shape := ⟨1, ![2097152]⟩

/-- The replicated table: entry `k` of the flat `[8192]` array is the table's entry `(k / 1024, (k / 16) % 64)`. -/
theorem tabRep_apply {α : Type} (t : S8x64.Idx → α)
    (h1 : S8x64.ShapeCasts S512x1) (h2 : S512x1.ShapeCasts S1x512x1x1)
    (hb : S1x512x1x1.BroadcastsInDim S1x512x16x1 ![0, 1, 2, 3])
    (h3 : S1x512x16x1.ShapeCasts S512x16) (h4 : S512x16.ShapeCasts S8192) (k : Fin 8192) :
    shapeCast S8192 (shapeCast S512x16 (broadcastInDim S1x512x16x1 ![0, 1, 2, 3] hb
        (shapeCast S1x512x1x1 (shapeCast S512x1 t h1) h2)) h3) h4 (ix1 k)
      = t (ix2 (⟨k.val / 1024, by omega⟩ : Fin 8) (⟨k.val / 16 % 64, by omega⟩ : Fin 64)) := by
  have hk := k.isLt
  -- [8192] ← [512, 16]: position k is row k / 16, column k % 16
  refine (shapeCast_apply _ h4 (ix1 k)
    (ix2 (⟨k.val / 16, by omega⟩ : Fin 512) (⟨k.val % 16, by omega⟩ : Fin 16)) ?_).trans ?_
  · rw [Shape.rowMajor_val_two, Shape.rowMajor_val_one]
    show k.val / 16 * 16 + k.val % 16 = k.val
    omega
  -- [512, 16] ← [1, 512, 16, 1]: the same two coordinates between two unit axes
  refine (shapeCast_apply _ h3 _
    (ix4 (⟨0, by omega⟩ : Fin 1) (⟨k.val / 16, by omega⟩ : Fin 512) (⟨k.val % 16, by omega⟩ : Fin 16) (⟨0, by omega⟩ : Fin 1)) ?_).trans ?_
  · rw [Shape.rowMajor_val_four, Shape.rowMajor_val_two]
    show ((0 * 512 + k.val / 16) * 16 + k.val % 16) * 1 + 0 = k.val / 16 * 16 + k.val % 16
    omega
  -- the broadcast along the axis of length 16 reads coordinate 0 there
  refine (broadcastInDim_apply _ hb _ _
    (ix4 (⟨0, by omega⟩ : Fin 1) (⟨k.val / 16, by omega⟩ : Fin 512) (⟨0, by omega⟩ : Fin 1) (⟨0, by omega⟩ : Fin 1)) ?_).trans ?_
  · intro a
    match a with
    | ⟨0, _⟩ => rfl
    | ⟨1, _⟩ => rfl
    | ⟨2, _⟩ => rfl
    | ⟨3, _⟩ => rfl
  -- [1, 512, 1, 1] ← [512, 1]
  refine (shapeCast_apply _ h2 _
    (ix2 (⟨k.val / 16, by omega⟩ : Fin 512) (⟨0, by omega⟩ : Fin 1)) ?_).trans ?_
  · rw [Shape.rowMajor_val_four, Shape.rowMajor_val_two]
    show k.val / 16 * 1 + 0 = ((0 * 512 + k.val / 16) * 1 + 0) * 1 + 0
    omega
  -- [512, 1] ← [8, 64]: flat position r = k / 16 is row r / 64, column r % 64
  refine shapeCast_apply _ h1 _ _ ?_
  rw [Shape.rowMajor_val_two, Shape.rowMajor_val_two]
  show k.val / 1024 * 64 + k.val / 16 % 64 = k.val / 16 * 1 + 0
  omega

/-- The iota of length 16 has `j` at `j`. -/
theorem iota_apply (j : Fin 16) : iotaInDim S16 32 0 (ix1 j) = BitVec.ofNat 32 j.val := rfl

/-- The flattened index array: entry `k` is `x[k / 2048, k % 2048]`. -/
theorem flat_apply {α : Type} (x : S1024x2048.Idx → α) (h : S1024x2048.ShapeCasts S2097152) (k : Fin 2097152) :
    shapeCast S2097152 x h (ix1 k)
      = x (ix2 (⟨k.val / 2048, by omega⟩ : Fin 1024) (⟨k.val % 2048, Nat.mod_lt _ (by decide)⟩ : Fin 2048)) := by
  refine shapeCast_apply _ h _ _ ?_
  rw [Shape.rowMajor_val_two, Shape.rowMajor_val_one]
  show k.val / 2048 * 2048 + k.val % 2048 = k.val
  omega

end Cert.Lookup.Host

end
-- ==== Proof.OnKernel.Bridge.lean ====
/-
  The value bridge between the kernel's row buffers and the looked-up array. While batch row b is worked, the half of
  parity p of the index scratch holds chunk b of the flattened index array — the words x[b, 0 … 2047] — and the table
  scratch holds the lane-replicated table. The row buffer of quarter q then holds, at row dd and column l, the table
  scratch's entry 1024 · x[b, l] + l % 16 + 256 q + 16 dd. Entry k of the replicated table is the table's entry
  (k / 1024, (k / 16) % 64); with x[b, l] below 8 the position is below 8192, dividing it by 1024 gives back x[b, l]
  and dividing it by 16 modulo 64 gives 16 q + dd. So the row buffer holds table[x[b, l], 16 q + dd]: the looked-up
  array's entry at batch row b, feature 16 q + dd, position l.
-/
import proofs.«205739_g2190433321788_cont_8to1_543_10_alg».proof.Proof.OnKernel.RowFun
import proofs.«205739_g2190433321788_cont_8to1_543_10_alg».proof.Proof.HostTable
import proofs.«205739_g2190433321788_cont_8to1_543_10_alg».proof.Proof.LaneIndex

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

variable (m : (ℓ : Loc nD τ sig) → Buf (Elt F) ℓ)

variable [FloatOps F]

/-! ## The arrays computed ahead of the call, read at an index -/

/-- The flattened index array at position 2048 n + l is the index array's entry (n, l). -/
theorem flatV_apply (d : Dev nD) (n : ℕ) (hn : n < 1024) (l : Fin 2048) :
    flatV m d (ValueIdx.ix1 (⟨(2048 * n + l.val) % 2097152, Nat.mod_lt _ (by decide)⟩ : Fin 2097152))
      = (m (xLoc d) : S1024x2048.Idx → BitVec 32) (ValueIdx.ix2 (⟨n, hn⟩ : Fin 1024) l) := by
  have hl := l.isLt
  unfold flatV
  refine (Cert.Lookup.Host.flat_apply (m (xLoc d) : S1024x2048.Idx → BitVec 32) shapeCasts_S1024x2048_S2097152 _).trans ?_
  refine congrArg (m (xLoc d) : S1024x2048.Idx → BitVec 32) (funext fun a => ?_)
  match a with
  | ⟨0, _⟩ => exact Fin.ext (show (2048 * n + l.val) % 2097152 / 2048 = n by omega)
  | ⟨1, _⟩ => exact Fin.ext (show (2048 * n + l.val) % 2097152 % 2048 = l.val by omega)

/-- The lane-replicated table at position N (folded into range) is the table's entry (N / 1024, (N / 16) % 64). -/
theorem repV_apply (d : Dev nD) (N : ℕ) :
    repV m d (at8192 N)
      = (m (tLoc d) : S8x64.Idx → Elt F .f32) (ValueIdx.ix2 (⟨N % 8192 / 1024, by omega⟩ : Fin 8) (⟨N % 8192 / 16 % 64, by omega⟩ : Fin 64)) := by
  unfold repV at8192
  exact Cert.Lookup.Host.tabRep_apply (m (tLoc d) : S8x64.Idx → Elt F .f32) shapeCasts_S8x64_S512x1 shapeCasts_S512x1_S1x512x1x1
    bcast_S1x512x1x1_S1x512x16x1_0_1_2_3 shapeCasts_S1x512x16x1_S512x16 shapeCasts_S512x16_S8192 (⟨N % 8192, Nat.mod_lt _ (by decide)⟩ : Fin 8192)

/-- The lane numbers: lane a holds a. -/
theorem iota_lane (d : Dev nD) (a : Fin 16) : iotV (F := F) d (ValueIdx.ix1 a) = BitVec.ofNat 32 a.val :=
  Cert.Lookup.Host.iota_apply a

/-! ## A chunk of the index array in a half of the index scratch -/

/-- Half p % 2 of the index scratch holds chunk n of the flattened index array: column l of the half is the
    flattened array's word 2048 n + l. -/
def HoldsChunk (d : Dev nD) (n p : ℕ) (Xk : S4096.Idx → BitVec 32) : Prop :=
  ∀ l : Fin 2048, Xk (at4096 (2048 * (p % 2) + l.val)) = flatV m d (ValueIdx.ix1 (⟨(2048 * n + l.val) % 2097152, Nat.mod_lt _ (by decide)⟩ : Fin 2097152))

/-- Every word of a half that holds a chunk names a table row: an index of the half is column l = i % 2048 of it, the
    word there is the index array's entry (n, l), and the precondition bounds it. -/
theorem words_lt (d : Dev nD) (hpre : PreOK m) (n p : ℕ) (hn : n < 1024) (Xk : S4096.Idx → BitVec 32) (hXk : HoldsChunk m d n p Xk) :
    ∀ i ∈ halfSet p, (Xk i).toNat < 8 := by
  intro i hi
  have hh : (i 0).val / 2048 = p % 2 := mem_halfSet.mp hi
  have hi0 : (i 0).val < 4096 := (i 0).isLt
  have hl : (i 0).val % 2048 < 2048 := Nat.mod_lt _ (by decide)
  have e : at4096 (2048 * (p % 2) + (i 0).val % 2048) = i := by
    funext a
    match a with
    | ⟨0, _⟩ => exact Fin.ext (show (2048 * (p % 2) + (i 0).val % 2048) % 4096 = (i 0).val by omega)
  rw [← e, hXk ⟨(i 0).val % 2048, hl⟩, flatV_apply m d n hn]
  exact hpre d _

/-! ## The row buffer holds the looked-up array -/

/-- While batch row b is worked from a half that holds its chunk and a table scratch that holds the replicated table,
    the row buffer of quarter q holds, at (dd, l), the looked-up array's entry (b, 16 q + dd, l). -/
theorem row_is_out (d : Dev nD) (hpre : PreOK m) (b : Fin 1024) (q : Fin 4) (p : ℕ) (Xk : S4096.Idx → BitVec 32)
    (hXk : HoldsChunk m d b.val p Xk) (TB : S8192.Idx → Elt F .f32) (hTB : ∀ i, TB i = repV m d i) (y : S16x2048.Idx) :
    rowG q.val p Xk TB y = outV m d (ValueIdx.ix3 b (⟨16 * q.val + (y 0).val, by have := (y 0).isLt; have := q.isLt; change (y 0).val < 16 at *; omega⟩ : Fin 64) (⟨(y 1).val, (y 1).isLt⟩ : Fin 2048)) := by
  have h0 : (y 0).val < 16 := (y 0).isLt
  have h1 : (y 1).val < 2048 := (y 1).isLt
  have hq : q.val < 4 := q.isLt
  -- the word at column l of the half is the index array's entry (b, l), below 8
  have hw : Xk (at4096 (2048 * (p % 2) + (y 1).val))
      = (m (xLoc d) : S1024x2048.Idx → BitVec 32) (ValueIdx.ix2 b (⟨(y 1).val, h1⟩ : Fin 2048)) :=
    (hXk ⟨(y 1).val, h1⟩).trans (flatV_apply m d b.val b.isLt ⟨(y 1).val, h1⟩)
  have hlt : ((m (xLoc d) : S1024x2048.Idx → BitVec 32) (ValueIdx.ix2 b (⟨(y 1).val, h1⟩ : Fin 2048))).toNat < 8 := hpre d _
  unfold rowG
  rw [hw, hTB, repV_apply]
  -- the looked-up array's entry is the table's at the row the word names
  show (m (tLoc d) : S8x64.Idx → Elt F .f32) _
    = (m (tLoc d) : S8x64.Idx → Elt F .f32) (ValueIdx.ix2 (Cert.Lookup.rowOf ((m (xLoc d) : S1024x2048.Idx → BitVec 32) (ValueIdx.ix2 b (⟨(y 1).val, h1⟩ : Fin 2048))))
        (⟨16 * q.val + (y 0).val, by omega⟩ : Fin 64))
  refine congrArg (m (tLoc d) : S8x64.Idx → Elt F .f32) (funext fun a => ?_)
  generalize ((m (xLoc d) : S1024x2048.Idx → BitVec 32) (ValueIdx.ix2 b (⟨(y 1).val, h1⟩ : Fin 2048))) = W at hlt ⊢
  match a with
  | ⟨0, _⟩ =>
    refine Fin.ext ?_
    show (1024 * W.toNat + (y 1).val % 16 + 256 * q.val + 16 * (y 0).val) % 8192 / 1024 = W.toNat % 8
    omega
  | ⟨1, _⟩ =>
    refine Fin.ext ?_
    show (1024 * W.toNat + (y 1).val % 16 + 256 * q.val + 16 * (y 0).val) % 8192 / 16 % 64 = 16 * q.val + (y 0).val
    omega

end Cert.Kernel.Hand

end
-- ==== Proof.OnKernel.SliceIdx.lean ====
/-
  Where the kernel's slices put an index. A slice of a whole buffer puts index `y` at `off + y`, axis by axis; a slice
  with its leading axis of extent one dropped puts `(y₀, y₁)` where the slice puts `(0, y₀, y₁)`, the index with the
  same row-major position (an axis of extent one contributes nothing to the position). And a view's element set is
  the image of its placement.
-/
import proofs.«205739_g2190433321788_cont_8to1_543_10_alg».proof.Proof.OnKernel.Regions

noncomputable section

namespace Cert.Kernel.Hand

open Cert.Kernel Cert.Kernel.Gen

open Idealize.ShloMosaic

/-- A view's elements are the images of its indices. -/
theorem mem_view_set {κ : Kind} {sp : Space} {s : Shape} {e : EltTy} (v : View sig κ sp s e) (i : v.ty.Idx) :
    i ∈ v.set ↔ ∃ y, v.emb y = i := by
  simp only [View.set, Finset.mem_map, Finset.mem_univ, true_and]

/-- The block at offsets `(b, 16 q, 0)` puts `(y₀, y₁)` at `(b, 16 q + y₀, y₁)`. -/
theorem blk_emb (off : Fin 3 → ℕ) (inb : ∀ a, off a + S1x16x2048.size a ≤ S1024x64x2048.size a) (b q : ℕ)
    (hb : b < 1024) (hq : q < 4) (h : off = ![b, 16 * q, 0]) (y : S16x2048.Idx) :
    (((Memref.whole main_v7_scv : Memref sig .scVector .hbm S1024x64x2048 .f32).slice
        (Rect.unit (s := S1024x64x2048) off S1x16x2048.size inb) (fun _ => rfl)).squeeze S16x2048
          squeezes_S1x16x2048_S16x2048).view.emb y
      = ValueIdx.ix3 (⟨b, hb⟩ : Fin 1024)
          (⟨16 * q + (y 0).val, by have := (y 0).isLt; change (y 0).val < 16 at this; omega⟩ : Fin 64)
          (⟨(y 1).val, (y 1).isLt⟩ : Fin 2048) := by
  subst h
  have hy0 : (y 0).val < 16 := (y 0).isLt
  have hy1 : (y 1).val < 2048 := (y 1).isLt
  -- the index of the `[1, 16, 2048]` slice with the row-major position of `(y₀, y₁)`
  have e : Shape.reshapeEquiv squeezes_S1x16x2048_S16x2048.numel_eq y
      = (ValueIdx.ix3 (⟨0, Nat.one_pos⟩ : Fin 1) (⟨(y 0).val, hy0⟩ : Fin 16) (⟨(y 1).val, hy1⟩ : Fin 2048) : S1x16x2048.Idx) := by
    apply Shape.reshapeEquiv_eq_of_rowMajor
    rw [Shape.rowMajor_val_three, Shape.rowMajor_val_two]
    show (0 * 16 + (y 0).val) * 2048 + (y 1).val = (y 0).val * 2048 + (y 1).val
    omega
  show (Rect.unit (s := S1024x64x2048) ![b, 16 * q, 0] S1x16x2048.size inb).emb
      (Shape.reshapeEquiv squeezes_S1x16x2048_S16x2048.numel_eq y) = _
  rw [e]
  funext a
  match a with
  | ⟨0, _⟩ => exact Fin.ext (by show b + 1 * 0 = b; omega)
  | ⟨1, _⟩ => exact Fin.ext (by show 16 * q + 1 * (y 0).val = 16 * q + (y 0).val; omega)
  | ⟨2, _⟩ => exact Fin.ext (by show 0 + 1 * (y 1).val = (y 1).val; omega)

/-- A 2048-word slice of the index scratch puts `y` at `off + y`. -/
theorem half_emb (off : Fin 1 → ℕ) (inb : ∀ a, off a + S2048.size a ≤ S4096.size a) (y : S2048.Idx) :
    ((Memref.whole cc0_scratch0 : Memref sig .scVector .vmem S4096 .i32).slice
        (Rect.unit (s := S4096) off S2048.size inb) (fun _ => rfl)).view.emb y
      = ValueIdx.ix1 (⟨off 0 + (y 0).val, by
          have h0 := inb 0; have hy := (y 0).isLt
          change (y 0).val < 2048 at hy; change off 0 + 2048 ≤ 4096 at h0; omega⟩ : Fin 4096) := by
  show (Rect.unit (s := S4096) off S2048.size inb).emb y = _
  funext a
  match a with
  | ⟨0, _⟩ => exact Fin.ext (by show off 0 + 1 * (y 0).val = off 0 + (y 0).val; omega)

/-- A 2048-word slice of the flat index array puts `y` at `off + y`. -/
theorem chunk_emb (off : Fin 1 → ℕ) (inb : ∀ a, off a + S2048.size a ≤ S2097152.size a) (y : S2048.Idx) :
    ((Memref.whole main_v6_scv : Memref sig .scVector .hbm S2097152 .i32).slice
        (Rect.unit (s := S2097152) off S2048.size inb) (fun _ => rfl)).view.emb y
      = ValueIdx.ix1 (⟨off 0 + (y 0).val, by
          have h0 := inb 0; have hy := (y 0).isLt
          change (y 0).val < 2048 at hy; change off 0 + 2048 ≤ 2097152 at h0; omega⟩ : Fin 2097152) := by
  show (Rect.unit (s := S2097152) off S2048.size inb).emb y = _
  funext a
  match a with
  | ⟨0, _⟩ => exact Fin.ext (by show off 0 + 1 * (y 0).val = off 0 + (y 0).val; omega)

end Cert.Kernel.Hand

end
-- ==== Proof.OnKernel.Landing.lean ====
/-
  What a landed copy leaves. A copy into a view leaves the view's buffer written through one piece that covers the
  whole view: the buffer then holds, at the place the view puts index y, the copied value at y, and elsewhere what it
  held. A chunk of the flattened index array copied into a half of the index scratch makes the half hold the chunk;
  a row buffer that holds the looked-up array's block, copied into that block of the result, makes the result hold
  the looked-up array on the block.
-/
import proofs.«205739_g2190433321788_cont_8to1_543_10_alg».proof.Proof.OnKernel.Bridge
import proofs.«205739_g2190433321788_cont_8to1_543_10_alg».proof.Proof.OnKernel.SliceIdx

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

variable (m : (ℓ : Loc nD τ sig) → Buf (Elt F) ℓ)

variable [FloatOps F]

/-! ## One piece covering the whole view -/

/-- Moving a value along an equation of types and back. -/
theorem eq_cast_symm_of_cast_eq {α β : Type} (h : α = β) (a : α) (b : β) (e : cast h a = b) : a = cast h.symm b := by
  subst h; exact e

/-- After one write of w through the whole of a view, the buffer holds, at the place the view puts y, the value w y
    (moved to the buffer's element type, which is the view's). -/
theorem whole_write_at {κ : Kind} {sp : Space} {s : Shape} {e : EltTy} {Val : EltTy → Type} (v : View sig κ sp s e)
    (f : v.ty.Contents Val) (w : s.Idx → Val e) (y : s.Idx) :
    (v.writes Val f [⟨Rect.whole s, w⟩]) (v.emb y) = cast (congrArg Val v.elt_eq).symm (w y) := by
  have h := View.read_writes_cons_emb v f (Rect.whole s) w [] y
  rw [Rect.emb_whole_apply, View.read_apply] at h
  exact eq_cast_symm_of_cast_eq _ _ _ h

/-! ## A chunk of the index array lands in a half of the index scratch -/

/-- The 2048 words copied from offset 2048 n of the flattened index array into the index scratch at offset
    2048 (p % 2): the half then holds chunk n. Position 2048 (p % 2) + l of the scratch is where the destination
    slice puts l, the source slice puts l at position 2048 n + l of the flattened array. -/
theorem lands (d : Dev nD) (offd : Fin 1 → ℕ) (inbd : ∀ a, offd a + S2048.size a ≤ S4096.size a)
    (offs : Fin 1 → ℕ) (inbs : ∀ a, offs a + S2048.size a ≤ S2097152.size a) (p n : ℕ)
    (hd : offd = ![2048 * (p % 2)]) (hs : offs = ![2048 * n]) (hn : n < 1024)
    (g : S4096.Idx → BitVec 32) (w : S2048.Idx → BitVec 32)
    (hw : ∀ y, w y = flatV m d (((Memref.whole main_v6_scv : Memref sig .scVector .hbm S2097152 .i32).slice
      (Rect.unit (s := S2097152) offs S2048.size inbs) (fun _ => rfl)).view.emb y)) :
    HoldsChunk m d n p (((Memref.whole cc0_scratch0 : Memref sig .scVector .vmem S4096 .i32).slice
      (Rect.unit (s := S4096) offd S2048.size inbd) (fun _ => rfl)).view.writes (Elt F) g
        [⟨Rect.whole (Rect.unit (s := S4096) offd S2048.size inbd).shape, w⟩]) := by
  subst hd
  subst hs
  intro l
  have hl := l.isLt
  -- the scratch position is where the destination slice puts l
  have hpos : at4096 (2048 * (p % 2) + l.val)
      = ((Memref.whole cc0_scratch0 : Memref sig .scVector .vmem S4096 .i32).slice
          (Rect.unit (s := S4096) ![2048 * (p % 2)] S2048.size inbd) (fun _ => rfl)).view.emb (ValueIdx.ix1 l) := by
    rw [half_emb]
    exact congrArg ValueIdx.ix1 (Fin.ext (show (2048 * (p % 2) + l.val) % 4096 = 2048 * (p % 2) + l.val by omega))
  -- there the written buffer holds the copied word
  rw [hpos]
  refine (whole_write_at (Val := Elt F) ((Memref.whole cc0_scratch0 : Memref sig .scVector .vmem S4096 .i32).slice
      (Rect.unit (s := S4096) ![2048 * (p % 2)] S2048.size inbd) (fun _ => rfl)).view g w (ValueIdx.ix1 l)).trans ?_
  refine (show cast _ (w (ValueIdx.ix1 l)) = w (ValueIdx.ix1 l) from rfl).trans ?_
  -- and the copied word is the flattened array's at 2048 n + l
  rw [hw, chunk_emb]
  exact congrArg (flatV m d) (congrArg ValueIdx.ix1 (Fin.ext (show 2048 * n + l.val = (2048 * n + l.val) % 2097152 by omega)))

/-! ## A row buffer lands in its block of the result -/

/-- Block q of batch row b of the result, as the kernel addresses it: the slice at offsets (b, 16 q, 0) of sizes
    (1, 16, 2048), its unit axis dropped. -/
abbrev blkM (off : Fin 3 → ℕ) (inb : ∀ a, off a + S1x16x2048.size a ≤ S1024x64x2048.size a) :
    Memref sig .scVector .hbm S16x2048 .f32 :=
  ((Memref.whole main_v7_scv : Memref sig .scVector .hbm S1024x64x2048 .f32).slice
    (Rect.unit (s := S1024x64x2048) off S1x16x2048.size inb) (fun _ => rfl)).squeeze S16x2048 squeezes_S1x16x2048_S16x2048

/-- A row buffer holding the looked-up array's block (b, q), copied into that block: the result then holds the
    looked-up array at every element of the block. Every element of the block is where the block's view puts some
    (dd, l), namely (b, 16 q + dd, l). -/
theorem blk_lands (d : Dev nD) (off : Fin 3 → ℕ) (inb : ∀ a, off a + S1x16x2048.size a ≤ S1024x64x2048.size a) (b q : ℕ)
    (hb : b < 1024) (hq : q < 4) (h : off = ![b, 16 * q, 0]) (f0 : S1024x64x2048.Idx → Elt F .f32) (w : S16x2048.Idx → Elt F .f32)
    (hw : ∀ y : S16x2048.Idx, w y = outV m d (ValueIdx.ix3 (⟨b, hb⟩ : Fin 1024)
      (⟨16 * q + (y 0).val, by have := (y 0).isLt; change (y 0).val < 16 at this; omega⟩ : Fin 64) (⟨(y 1).val, (y 1).isLt⟩ : Fin 2048))) :
    ∀ i ∈ blkSet b q, ((blkM off inb).view.writes (Elt F) f0 [⟨Rect.whole S16x2048, w⟩]) i = outV m d i := by
  intro i hi
  rw [← set_blk off inb b q h] at hi
  obtain ⟨y, rfl⟩ := (mem_view_set (blkM off inb).view i).mp hi
  refine (whole_write_at (Val := Elt F) (blkM off inb).view f0 w y).trans ?_
  refine (show cast _ (w y) = w y from rfl).trans ?_
  rw [hw y, blk_emb off inb b q hb hq h y]

end Cert.Kernel.Hand

end
-- ==== Proof.OnKernel.Body.lean ====
/-
  One task of the lookup kernel: vector subcore `s` of SparseCore `c` fills the 32 batch rows `64 s + 32 c + t` of the
  result. It first copies the lane numbers and the lane-replicated table into its tile memory, and starts fetching the
  first row's 2048 index words into one half of a double-buffered index scratch. Trip `t` then waits for its words,
  starts fetching the next row's into the other half, and fills the row in four quarters of sixteen features: a quarter is
  gathered into one of two [16, 2048] row buffers (one chunk of sixteen positions at a time) and written back to its block of the result while
  the next quarter is gathered into the other buffer; before a buffer is reused its earlier write-back is awaited. Between
  trips, therefore, two write-backs (quarters 2 and 3 of the row just done) and one fetch are in flight: the loop's
  invariant carries them as flights whose deliveries are stated at the looked-up array `outV` — the row buffer's function
  `rowG` is the table at the row's index words (by the host's replication of the table and flattening of the index array) — and at the chunk of index words the half will hold.
  After the last trip the two write-backs are awaited and every row of the task is at the looked-up array.
-/
import proofs.«205739_g2190433321788_cont_8to1_543_10_alg».proof.Proof.OnKernel.Quarter
import proofs.«205739_g2190433321788_cont_8to1_543_10_alg».proof.Proof.OnKernel.Bridge
import proofs.«205739_g2190433321788_cont_8to1_543_10_alg».proof.Proof.OnKernel.Landing

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Tile

variable (d : Dev nD) (L : grid0.Coords)

omit [FloatOps F] in
theorem bound_zero : grid0.bound 0 = 2 := rfl
omit [FloatOps F] in
theorem bound_one : grid0.bound 1 = 16 := rfl
abbrev cL (L : grid0.Coords) : Fin 2 := Fin.cast bound_zero (L 0)
abbrev sL (L : grid0.Coords) : Fin 16 := Fin.cast bound_one (L 1)

-- the kernel's memrefs, spelt as the body table passes them
local notation "fW" => (Memref.whole Cert.Kernel.main_v6_scv : Memref Cert.Kernel.sig Kind.scVector Space.hbm Cert.Kernel.S2097152 EltTy.i32)
local notation "rW" => (Memref.whole Cert.Kernel.main_v4_scv : Memref Cert.Kernel.sig Kind.scVector Space.hbm Cert.Kernel.S8192 EltTy.f32)
local notation "iW" => (Memref.whole Cert.Kernel.main_v5_scv : Memref Cert.Kernel.sig Kind.scVector Space.hbm Cert.Kernel.S16 EltTy.i32)
local notation "oW" => (Memref.whole Cert.Kernel.main_v7_scv : Memref Cert.Kernel.sig Kind.scVector Space.hbm Cert.Kernel.S1024x64x2048 EltTy.f32)
local notation "xS" => (Memref.whole Cert.Kernel.cc0_scratch0 : Memref Cert.Kernel.sig Kind.scVector Space.vmem Cert.Kernel.S4096 EltTy.i32)
local notation "tS" => (Memref.whole Cert.Kernel.cc0_scratch1 : Memref Cert.Kernel.sig Kind.scVector Space.vmem Cert.Kernel.S8192 EltTy.f32)
local notation "nS" => (Memref.whole Cert.Kernel.cc0_scratch2 : Memref Cert.Kernel.sig Kind.scVector Space.vmem Cert.Kernel.S16 EltTy.i32)
local notation "aS" => (Memref.whole Cert.Kernel.cc0_scratch3 : Memref Cert.Kernel.sig Kind.scVector Space.vmem Cert.Kernel.S16x2048 EltTy.f32)
local notation "bS" => (Memref.whole Cert.Kernel.cc0_scratch4 : Memref Cert.Kernel.sig Kind.scVector Space.vmem Cert.Kernel.S16x2048 EltTy.f32)
local notation "thd" => (V d (cV L) (jV L))

omit [FloatOps F] in
theorem cond1_iff : ∀ k : Fin k0_t1_loop.trips, k0_cond1 k = 1#1 ↔ k.val + 1 < 32 := by decide +kernel
omit [FloatOps F] in
theorem cond2_iff : ∀ k : Fin k0_t1_loop.trips,
    Scalar.cmpi .ne (Scalar.extui (Scalar.cmpi .sgt (Scf.iv 0#32 1#32 k) 0#32) : BitVec 32) 0#32 = 1#1 ↔ 0 < k.val := by decide +kernel
omit [FloatOps F] in
theorem k0_off2_eq : ∀ k : Fin k0_t1_loop.trips, k0_off2 k = ![2048 * ((k.val + 1) % 2)] := by decide +kernel

omit [FloatOps F] in
theorem pts_hbm_f (q : PosShare TreeShare) (f : Buf (Elt F) (fLoc d)) :
    ((fW).view.loc thd ↦{q} f : sProp 𝕄) = fLoc d ↦{q} f := by
  simp only [Memref.view_whole, View.set_whole]
omit [FloatOps F] in
theorem pts_hbm_r (q : PosShare TreeShare) (f : Buf (Elt F) (rLoc d)) :
    ((rW).view.loc thd ↦{q} f : sProp 𝕄) = rLoc d ↦{q} f := by
  simp only [Memref.view_whole, View.set_whole]
omit [FloatOps F] in
theorem pts_hbm_i (q : PosShare TreeShare) (f : Buf (Elt F) (iLoc d)) :
    ((iW).view.loc thd ↦{q} f : sProp 𝕄) = iLoc d ↦{q} f := by
  simp only [Memref.view_whole, View.set_whole]

abbrev baseRow (L : grid0.Coords) : ℕ := 64 * (L 1).val + 32 * (L 0).val

omit [FloatOps F] in
theorem baseRow_le : baseRow L + 32 ≤ 1024 := by
  have h0 : (L 0).val < 2 := (L 0).isLt
  have h1 : (L 1).val < 16 := (L 1).isLt
  unfold baseRow; omega

abbrev qT (L : grid0.Coords) : PosShare TreeShare := qTile (cL L) (sL L)

/-- The index fetch between trips: before trip `k < 32` the chunk of batch row `base + k` is in flight into the half of
    parity `k` of the index scratch; after the last trip nothing is. -/
def IdxPart (k : ℕ) : sProp 𝕄 :=
  if k < 32 then
    iprop(Transfers.Flight countersEmb thd (SemLoc.dma cc0_scratch7.sem) (default : HIx 1) 65536
        iprop((∃ Xk : Buf (Elt F) ((xS).view.loc thd), ((xS).view.loc thd ↦[halfSet k]{fullShare} Xk) ∗ ⌜HoldsChunk m d (baseRow L + k) k Xk⌝)
          ∗ ((fW).view.loc thd ↦[chunkSet (baseRow L + k)]{qT L} flatV m d))
      ∗ ((fW).view.loc thd ↦[Finset.univ \ chunkSet (baseRow L + k)]{qT L} flatV m d))
  else iprop(semVal (thd, SemLoc.dma cc0_scratch7.sem) 0 ∗ ((fW).view.loc thd ↦{qT L} flatV m d)
      ∗ ∃ g : Buf (Elt F) ((xS).view.loc thd), (xS).view.loc thd ↦[halfSet k]{fullShare} g)

/-- The two row buffers between trips: before the first trip they and their semaphores are at rest; before trip `k > 0`
    quarters 2 and 3 of batch row `base + k - 1` are in flight out of them. -/
def BufPart (k : ℕ) : sProp 𝕄 :=
  if 0 < k then
    iprop(∃ (gA : Buf (Elt F) ((aS).view.loc thd)) (gB : Buf (Elt F) ((bS).view.loc thd)),
      Transfers.Flight countersEmb thd (SemLoc.dma cc0_scratch5.sem) (default : HIx 1) 1048576
        iprop((oLoc d ↦[blkSet (baseRow L + k - 1) 2]{fullShare} outV m d) ∗ ((aS).view.loc thd ↦{fullShare} gA))
      ∗ Transfers.Flight countersEmb thd (SemLoc.dma cc0_scratch6.sem) (default : HIx 1) 1048576
        iprop((oLoc d ↦[blkSet (baseRow L + k - 1) 3]{fullShare} outV m d) ∗ ((bS).view.loc thd ↦{fullShare} gB)))
  else iprop(semVal (thd, SemLoc.dma cc0_scratch5.sem) 0 ∗ semVal (thd, SemLoc.dma cc0_scratch6.sem) 0
      ∗ (∃ g : Buf (Elt F) ((aS).view.loc thd), (aS).view.loc thd ↦{fullShare} g) ∗ ∃ g : Buf (Elt F) ((bS).view.loc thd), (bS).view.loc thd ↦{fullShare} g)

/-- Before trip `k`: the table scratch at the replicated table, the index fetch, the rows landed so far at the looked-up
    array, the rows still to do untouched, the row buffers, and what the task owes. -/
def invO (O : CellTallies nD τ sig (HIx 1)) (W : Waits sig (HIx 1)) (TB : Buf (Elt F) ((tS).view.loc thd)) (k : ℕ) (_ : PUnit) : sProp 𝕄 :=
  iprop(Transfers.MayWaits thd (none : HIx 1) O ∗ ((tS).view.loc thd ↦{fullShare} TB)
    ∗ IdxPart m d L k ∗ (∃ g : Buf (Elt F) ((xS).view.loc thd), (xS).view.loc thd ↦[halfSet (k + 1)]{fullShare} g) ∗ (oLoc d ↦[landed (baseRow L) k]{fullShare} outV m d) ∗ (oLoc d ↦[todo (baseRow L) k]{fullShare} m (oLoc d))
    ∗ BufPart m d L k
    ∗ ∃ W', ⌜∀ p ∈ W', p ∈ W ∨ p.2 = none⌝ ∗ owes thd O W')

omit [FloatOps F] in
theorem cell_ne {a b : DmaSem sig} (h : a ≠ b) : (((V d (cV L) (jV L)), SemLoc.dma a) : GSem nD τ sig) ≠ ((V d (cV L) (jV L)), SemLoc.dma b) := by
  intro e; exact h (SemLoc.dma.inj (Prod.mk.inj e).2)

omit [FloatOps F] in
/-- The five DMA semaphores are among the subcore's own cells. -/
theorem ownSems0_V :
    (ownSems0 (V d (cV L) (jV L)) : sProp 𝕄)
      = iprop(semVal ((V d (cV L) (jV L)), SemLoc.dma cc0_scratch5.sem) 0 ∗ semVal ((V d (cV L) (jV L)), SemLoc.dma cc0_scratch6.sem) 0 ∗ semVal ((V d (cV L) (jV L)), SemLoc.dma cc0_scratch7.sem) 0 ∗ semVal ((V d (cV L) (jV L)), SemLoc.dma cc0_scoped0.sem) 0 ∗ semVal ((V d (cV L) (jV L)), SemLoc.dma cc0_scoped1.sem) 0
          ∗ bigSep ((((((ownCells (V d (cV L) (jV L))).erase (((V d (cV L) (jV L)), SemLoc.dma cc0_scratch5.sem) : GSem nD τ sig)).erase (((V d (cV L) (jV L)), SemLoc.dma cc0_scratch6.sem) : GSem nD τ sig)).erase (((V d (cV L) (jV L)), SemLoc.dma cc0_scratch7.sem) : GSem nD τ sig)).erase (((V d (cV L) (jV L)), SemLoc.dma cc0_scoped0.sem) : GSem nD τ sig)).erase (((V d (cV L) (jV L)), SemLoc.dma cc0_scoped1.sem) : GSem nD τ sig)) fun g => semVal g 0) := by
  unfold SparseCore.Cfg.ownSems0
  rw [SparseCore.bigSep_erase' ((mem_ownCells (g := (((V d (cV L) (jV L)), SemLoc.dma cc0_scratch5.sem) : GSem nD τ sig))).mpr ⟨rfl, by show (SemLoc.dma cc0_scratch5.sem : SemLoc sig).isScoped .scVector = true; decide⟩),
    SparseCore.bigSep_erase' (Finset.mem_erase.mpr ⟨cell_ne d L (show (cc0_scratch6.sem : DmaSem sig) ≠ cc0_scratch5.sem by decide), (mem_ownCells (g := (((V d (cV L) (jV L)), SemLoc.dma cc0_scratch6.sem) : GSem nD τ sig))).mpr ⟨rfl, by show (SemLoc.dma cc0_scratch6.sem : SemLoc sig).isScoped .scVector = true; decide⟩⟩),
    SparseCore.bigSep_erase' (Finset.mem_erase.mpr ⟨cell_ne d L (show (cc0_scratch7.sem : DmaSem sig) ≠ cc0_scratch6.sem by decide), Finset.mem_erase.mpr ⟨cell_ne d L (show (cc0_scratch7.sem : DmaSem sig) ≠ cc0_scratch5.sem by decide), (mem_ownCells (g := (((V d (cV L) (jV L)), SemLoc.dma cc0_scratch7.sem) : GSem nD τ sig))).mpr ⟨rfl, by show (SemLoc.dma cc0_scratch7.sem : SemLoc sig).isScoped .scVector = true; decide⟩⟩⟩),
    SparseCore.bigSep_erase' (Finset.mem_erase.mpr ⟨cell_ne d L (show (cc0_scoped0.sem : DmaSem sig) ≠ cc0_scratch7.sem by decide), Finset.mem_erase.mpr ⟨cell_ne d L (show (cc0_scoped0.sem : DmaSem sig) ≠ cc0_scratch6.sem by decide), Finset.mem_erase.mpr ⟨cell_ne d L (show (cc0_scoped0.sem : DmaSem sig) ≠ cc0_scratch5.sem by decide), (mem_ownCells (g := (((V d (cV L) (jV L)), SemLoc.dma cc0_scoped0.sem) : GSem nD τ sig))).mpr ⟨rfl, by show (SemLoc.dma cc0_scoped0.sem : SemLoc sig).isScoped .scVector = true; decide⟩⟩⟩⟩),
    SparseCore.bigSep_erase' (Finset.mem_erase.mpr ⟨cell_ne d L (show (cc0_scoped1.sem : DmaSem sig) ≠ cc0_scoped0.sem by decide), Finset.mem_erase.mpr ⟨cell_ne d L (show (cc0_scoped1.sem : DmaSem sig) ≠ cc0_scratch7.sem by decide), Finset.mem_erase.mpr ⟨cell_ne d L (show (cc0_scoped1.sem : DmaSem sig) ≠ cc0_scratch6.sem by decide), Finset.mem_erase.mpr ⟨cell_ne d L (show (cc0_scoped1.sem : DmaSem sig) ≠ cc0_scratch5.sem by decide), (mem_ownCells (g := (((V d (cV L) (jV L)), SemLoc.dma cc0_scoped1.sem) : GSem nD τ sig))).mpr ⟨rfl, by show (SemLoc.dma cc0_scoped1.sem : SemLoc sig).isScoped .scVector = true; decide⟩⟩⟩⟩⟩)]

omit [FloatOps F] in
/-- The five scratch buffers are among the subcore's own: they are them, at some contents, and the rest. -/
theorem ownBufs_V :
    (ownBufs (V d (cV L) (jV L)) : sProp 𝕄)
      = iprop((∃ f, (Memref.whole cc0_scratch0 : Memref sig .scVector .vmem S4096 .i32).view.loc (V d (cV L) (jV L)) ↦{fullShare} f) ∗ (∃ f, (Memref.whole cc0_scratch1 : Memref sig .scVector .vmem S8192 .f32).view.loc (V d (cV L) (jV L)) ↦{fullShare} f) ∗ (∃ f, (Memref.whole cc0_scratch2 : Memref sig .scVector .vmem S16 .i32).view.loc (V d (cV L) (jV L)) ↦{fullShare} f) ∗ (∃ f, (Memref.whole cc0_scratch3 : Memref sig .scVector .vmem S16x2048 .f32).view.loc (V d (cV L) (jV L)) ↦{fullShare} f) ∗ (∃ f, (Memref.whole cc0_scratch4 : Memref sig .scVector .vmem S16x2048 .f32).view.loc (V d (cV L) (jV L)) ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩)]

omit [FloatOps F] in
theorem off3_chunk (k : Fin k0_t1_loop.trips) : k0_off3 L k = ![2048 * (baseRow L + k.val + 1)] := by
  rw [k0_off3_eq]; exact congrArg (fun x => ![x]) (by unfold baseRow; omega)
omit [FloatOps F] in
theorem off1_chunk : k0_off1 L = ![2048 * (baseRow L + 0)] := by
  rw [k0_off1_eq]; exact congrArg (fun x => ![x]) (by unfold baseRow; omega)

/-- Quarter `q` of batch row `base + k` of the result, as the kernel slices it for its write-back. -/
abbrev blkA (k : Fin k0_t1_loop.trips) : Memref sig .scVector .hbm S16x2048 .f32 :=
  ((oW).slice (Rect.unit (s := S1024x64x2048) (k0_off21 L k) S1x16x2048.size (k0_off21_inb L k)) (fun _ => rfl)).squeeze S16x2048 squeezes_S1x16x2048_S16x2048
abbrev blkB (k : Fin k0_t1_loop.trips) : Memref sig .scVector .hbm S16x2048 .f32 :=
  ((oW).slice (Rect.unit (s := S1024x64x2048) (k0_off39 L k) S1x16x2048.size (k0_off39_inb L k)) (fun _ => rfl)).squeeze S16x2048 squeezes_S1x16x2048_S16x2048
abbrev blkC (k : Fin k0_t1_loop.trips) : Memref sig .scVector .hbm S16x2048 .f32 :=
  ((oW).slice (Rect.unit (s := S1024x64x2048) (k0_off57 L k) S1x16x2048.size (k0_off57_inb L k)) (fun _ => rfl)).squeeze S16x2048 squeezes_S1x16x2048_S16x2048
abbrev blkD (k : Fin k0_t1_loop.trips) : Memref sig .scVector .hbm S16x2048 .f32 :=
  ((oW).slice (Rect.unit (s := S1024x64x2048) (k0_off75 L k) S1x16x2048.size (k0_off75_inb L k)) (fun _ => rfl)).squeeze S16x2048 squeezes_S1x16x2048_S16x2048

omit [FloatOps F] in
theorem set_blkA (k : Fin k0_t1_loop.trips) : (blkA L k).view.set = blkSet (baseRow L + k.val) 0 := set_blk _ _ _ _ (k0_off21_eq L k)
omit [FloatOps F] in
theorem set_blkB (k : Fin k0_t1_loop.trips) : (blkB L k).view.set = blkSet (baseRow L + k.val) 1 := set_blk _ _ _ _ (k0_off39_eq L k)
omit [FloatOps F] in
theorem set_blkC (k : Fin k0_t1_loop.trips) : (blkC L k).view.set = blkSet (baseRow L + k.val) 2 := set_blk _ _ _ _ (k0_off57_eq L k)
omit [FloatOps F] in
theorem set_blkD (k : Fin k0_t1_loop.trips) : (blkD L k).view.set = blkSet (baseRow L + k.val) 3 := set_blk _ _ _ _ (k0_off75_eq L k)

omit [FloatOps F] in
theorem pts_blkA (k : Fin k0_t1_loop.trips) (f : Buf (Elt F) (oLoc d)) :
    (oLoc d ↦[blkSet (baseRow L + k.val) 0]{fullShare} f : sProp 𝕄) = (blkA L k).view.loc thd ↦[(blkA L k).view.set]{fullShare} f := by rw [set_blkA]
omit [FloatOps F] in
theorem pts_blkB (k : Fin k0_t1_loop.trips) (f : Buf (Elt F) (oLoc d)) :
    (oLoc d ↦[blkSet (baseRow L + k.val) 1]{fullShare} f : sProp 𝕄) = (blkB L k).view.loc thd ↦[(blkB L k).view.set]{fullShare} f := by rw [set_blkB]
omit [FloatOps F] in
theorem pts_blkC (k : Fin k0_t1_loop.trips) (f : Buf (Elt F) (oLoc d)) :
    (oLoc d ↦[blkSet (baseRow L + k.val) 2]{fullShare} f : sProp 𝕄) = (blkC L k).view.loc thd ↦[(blkC L k).view.set]{fullShare} f := by rw [set_blkC]
omit [FloatOps F] in
theorem pts_blkD (k : Fin k0_t1_loop.trips) (f : Buf (Elt F) (oLoc d)) :
    (oLoc d ↦[blkSet (baseRow L + k.val) 3]{fullShare} f : sProp 𝕄) = (blkD L k).view.loc thd ↦[(blkD L k).view.set]{fullShare} f := by rw [set_blkD]

omit [FloatOps F] in
theorem pts_oth (k : Fin k0_t1_loop.trips) (hc1 : k0_cond1 k = 1#1) (g : Buf (Elt F) ((xS).view.loc thd)) :
    ((xS).view.loc thd ↦[halfSet (k.val + 1)]{fullShare} g : sProp 𝕄)
      = ((xS).slice (Rect.unit (s := S4096) (k0_off2 k) S2048.size (k0_off2_inb k hc1)) (fun _ => rfl)).view.loc thd
          ↦[((xS).slice (Rect.unit (s := S4096) (k0_off2 k) S2048.size (k0_off2_inb k hc1)) (fun _ => rfl)).view.set]{fullShare} g := by
  rw [set_half (k0_off2 k) (k0_off2_inb k hc1) (k.val + 1) (k0_off2_eq k)]

/-- While quarter `q` of a batch row is gathered: the index half, the table scratch, and the row buffer right below
    column `16 j`. -/
def invQa (k : ℕ) (q : ℕ) (X : Buf (Elt F) ((xS).view.loc thd)) (TB : Buf (Elt F) ((tS).view.loc thd)) (j : ℕ) (_ : PUnit) : sProp 𝕄 :=
  iprop(((xS).view.loc thd ↦[halfSet k]{fullShare} X) ∗ ((tS).view.loc thd ↦{fullShare} TB)
    ∗ ∃ g : Buf (Elt F) ((aS).view.loc thd), ((aS).view.loc thd ↦{fullShare} g) ∗ ⌜∀ y : S16x2048.Idx, (y 1).val < 16 * j → g y = rowG q k X TB y⌝)
def invQb (k : ℕ) (q : ℕ) (X : Buf (Elt F) ((xS).view.loc thd)) (TB : Buf (Elt F) ((tS).view.loc thd)) (j : ℕ) (_ : PUnit) : sProp 𝕄 :=
  iprop(((xS).view.loc thd ↦[halfSet k]{fullShare} X) ∗ ((tS).view.loc thd ↦{fullShare} TB)
    ∗ ∃ g : Buf (Elt F) ((bS).view.loc thd), ((bS).view.loc thd ↦{fullShare} g) ∗ ⌜∀ y : S16x2048.Idx, (y 1).val < 16 * j → g y = rowG q k X TB y⌝)
omit [FloatOps F] in
theorem IdxPart_lt {k : ℕ} (h : k < 32) : IdxPart m d L k = iprop(Transfers.Flight countersEmb thd (SemLoc.dma cc0_scratch7.sem) (default : HIx 1) 65536
        iprop((∃ Xk : Buf (Elt F) ((xS).view.loc thd), ((xS).view.loc thd ↦[halfSet k]{fullShare} Xk) ∗ ⌜HoldsChunk m d (baseRow L + k) k Xk⌝)
          ∗ ((fW).view.loc thd ↦[chunkSet (baseRow L + k)]{qT L} flatV m d))
      ∗ ((fW).view.loc thd ↦[Finset.univ \ chunkSet (baseRow L + k)]{qT L} flatV m d)) := if_pos h
omit [FloatOps F] in
theorem BufPart_pos {k : ℕ} (h : 0 < k) : BufPart m d L k = iprop(∃ (gA : Buf (Elt F) ((aS).view.loc thd)) (gB : Buf (Elt F) ((bS).view.loc thd)),
      Transfers.Flight countersEmb thd (SemLoc.dma cc0_scratch5.sem) (default : HIx 1) 1048576
        iprop((oLoc d ↦[blkSet (baseRow L + k - 1) 2]{fullShare} outV m d) ∗ ((aS).view.loc thd ↦{fullShare} gA))
      ∗ Transfers.Flight countersEmb thd (SemLoc.dma cc0_scratch6.sem) (default : HIx 1) 1048576
        iprop((oLoc d ↦[blkSet (baseRow L + k - 1) 3]{fullShare} outV m d) ∗ ((bS).view.loc thd ↦{fullShare} gB))) := if_pos h

omit [FloatOps F] in
theorem IdxPart_ge {k : ℕ} (h : ¬ k < 32) : IdxPart m d L k = iprop(semVal (thd, SemLoc.dma cc0_scratch7.sem) 0 ∗ ((fW).view.loc thd ↦{qT L} flatV m d)
      ∗ ∃ g : Buf (Elt F) ((xS).view.loc thd), (xS).view.loc thd ↦[halfSet k]{fullShare} g) := if_neg h
omit [FloatOps F] in
theorem BufPart_zero {k : ℕ} (h : ¬ 0 < k) : BufPart m d L k = iprop(semVal (thd, SemLoc.dma cc0_scratch5.sem) 0 ∗ semVal (thd, SemLoc.dma cc0_scratch6.sem) 0
      ∗ (∃ g : Buf (Elt F) ((aS).view.loc thd), (aS).view.loc thd ↦{fullShare} g) ∗ ∃ g : Buf (Elt F) ((bS).view.loc thd), (bS).view.loc thd ↦{fullShare} g) := if_neg h

omit [FloatOps F] in
theorem trips_t2 : Scf.trips k0_t2_loop.lb k0_t2_loop.ub k0_t2_loop.st = 128 := by decide
omit [FloatOps F] in
theorem trips_t3 : Scf.trips k0_t3_loop.lb k0_t3_loop.ub k0_t3_loop.st = 128 := by decide
omit [FloatOps F] in
theorem trips_t4 : Scf.trips k0_t4_loop.lb k0_t4_loop.ub k0_t4_loop.st = 128 := by decide
omit [FloatOps F] in
theorem trips_t5 : Scf.trips k0_t5_loop.lb k0_t5_loop.ub k0_t5_loop.st = 128 := by decide
omit [FloatOps F] in
theorem col_lt (y : S16x2048.Idx) {n : ℕ} (hn : n = 128) : (y 1).val < 16 * n := by
  have h := (y 1).isLt; change (y 1).val < 2048 at h; omega

/-- A landed write-back: the block of the result holds the looked-up array. -/
theorem pts_landed (off : Fin 3 → ℕ) (inb : ∀ a, off a + S1x16x2048.size a ≤ S1024x64x2048.size a) (b q : ℕ) (hb : b < 1024) (hq : q < 4) (h : off = ![b, 16 * q, 0])
    (f0 : Buf (Elt F) (oLoc d)) (w : S16x2048.Idx → Elt F .f32)
    (hw : ∀ y : S16x2048.Idx, w y = outV m d (ValueIdx.ix3 (⟨b, hb⟩ : Fin 1024) (⟨16 * q + (y 0).val, by have := (y 0).isLt; change (y 0).val < 16 at this; omega⟩ : Fin 64) (⟨(y 1).val, (y 1).isLt⟩ : Fin 2048))) :
    ((blkM off inb).view.loc thd ↦[(blkM off inb).view.set]{fullShare} (blkM off inb).view.writes (Elt F) f0 [⟨Rect.whole S16x2048, w⟩] : sProp 𝕄)
      = oLoc d ↦[blkSet b q]{fullShare} outV m d := by
  rw [set_blk off inb b q h]
  exact pointsTo_congr (blk_lands m d off inb b q hb hq h f0 w hw)

/-- A write-back in flight delivers its block at the looked-up array and its row buffer back. -/
theorem flight_done (sm sm' : SemLoc sig) (hsm : sm = sm') (off : Fin 3 → ℕ) (inb : ∀ a, off a + S1x16x2048.size a ≤ S1024x64x2048.size a) (b q : ℕ) (hb : b < 1024) (hq : q < 4) (h : off = ![b, 16 * q, 0])
    (f0 : Buf (Elt F) (oLoc d)) (w : S16x2048.Idx → Elt F .f32)
    (hw : ∀ y : S16x2048.Idx, w y = outV m d (ValueIdx.ix3 (⟨b, hb⟩ : Fin 1024) (⟨16 * q + (y 0).val, by have := (y 0).isLt; change (y 0).val < 16 at this; omega⟩ : Fin 64) (⟨(y 1).val, (y 1).isLt⟩ : Fin 2048)))
    (B : Memref sig .scVector .vmem S16x2048 .f32) (hB : B.view.set = Finset.univ) (g : Buf (Elt F) (B.view.loc thd)) :
    (Transfers.Flight countersEmb thd sm (default : HIx 1) 1048576
        iprop(((blkM off inb).view.loc thd ↦[(blkM off inb).view.set]{fullShare} (blkM off inb).view.writes (Elt F) f0 [⟨Rect.whole S16x2048, w⟩])
          ∗ (B.view.loc thd ↦[B.view.set]{fullShare} g)) : sProp 𝕄)
      ⊢ Transfers.Flight countersEmb thd sm' (default : HIx 1) 1048576 iprop((oLoc d ↦[blkSet b q]{fullShare} outV m d) ∗ (B.view.loc thd ↦{fullShare} g)) := by
  subst hsm
  rw [pts_landed m d L off inb b q hb hq h f0 w hw, hB]

omit [FloatOps F] in
theorem off3_chunk' (k : Fin k0_t1_loop.trips) : k0_off3 L k = ![2048 * (baseRow L + (k.val + 1))] := by
  rw [k0_off3_eq]; exact congrArg (fun x => ![x]) (by unfold baseRow; omega)

/-- The next chunk's fetch in flight delivers the other half holding that chunk. -/
theorem flight_idx (sm : SemLoc sig) (hsm : sm = SemLoc.dma cc0_scratch7.sem) (k : Fin k0_t1_loop.trips) (hc1 : k0_cond1 k = 1#1) (h1 : k.val + 1 < 32) (gh : Buf (Elt F) ((xS).view.loc thd)) (w : S2048.Idx → BitVec 32)
    (hw : ∀ y, w y = flatV m d (((fW).slice (Rect.unit (s := S2097152) (k0_off3 L k) S2048.size (k0_off3_inb L k hc1)) (fun _ => rfl)).view.emb y)) :
    (Transfers.Flight countersEmb thd sm (default : HIx 1) 65536
        iprop((((xS).slice (Rect.unit (s := S4096) (k0_off2 k) S2048.size (k0_off2_inb k hc1)) (fun _ => rfl)).view.loc thd
              ↦[((xS).slice (Rect.unit (s := S4096) (k0_off2 k) S2048.size (k0_off2_inb k hc1)) (fun _ => rfl)).view.set]{fullShare}
              ((xS).slice (Rect.unit (s := S4096) (k0_off2 k) S2048.size (k0_off2_inb k hc1)) (fun _ => rfl)).view.writes (Elt F) gh
                [⟨Rect.whole (Rect.unit (s := S4096) (k0_off2 k) S2048.size (k0_off2_inb k hc1)).shape, w⟩])
          ∗ ((fW).view.loc thd ↦[((fW).slice (Rect.unit (s := S2097152) (k0_off3 L k) S2048.size (k0_off3_inb L k hc1)) (fun _ => rfl)).view.set]{qT L} flatV m d)) : sProp 𝕄)
      ⊢ Transfers.Flight countersEmb thd (SemLoc.dma cc0_scratch7.sem) (default : HIx 1) 65536
        iprop((∃ Xk : Buf (Elt F) ((xS).view.loc thd), ((xS).view.loc thd ↦[halfSet (k.val + 1)]{fullShare} Xk) ∗ ⌜HoldsChunk m d (baseRow L + (k.val + 1)) (k.val + 1) Xk⌝)
          ∗ ((fW).view.loc thd ↦[chunkSet (baseRow L + (k.val + 1))]{qT L} flatV m d)) := by
  have hb := baseRow_le L
  have hD : (iprop((((xS).slice (Rect.unit (s := S4096) (k0_off2 k) S2048.size (k0_off2_inb k hc1)) (fun _ => rfl)).view.loc thd
              ↦[((xS).slice (Rect.unit (s := S4096) (k0_off2 k) S2048.size (k0_off2_inb k hc1)) (fun _ => rfl)).view.set]{fullShare}
              ((xS).slice (Rect.unit (s := S4096) (k0_off2 k) S2048.size (k0_off2_inb k hc1)) (fun _ => rfl)).view.writes (Elt F) gh
                [⟨Rect.whole (Rect.unit (s := S4096) (k0_off2 k) S2048.size (k0_off2_inb k hc1)).shape, w⟩])
          ∗ ((fW).view.loc thd ↦[((fW).slice (Rect.unit (s := S2097152) (k0_off3 L k) S2048.size (k0_off3_inb L k hc1)) (fun _ => rfl)).view.set]{qT L} flatV m d)) : sProp 𝕄)
      ⊢ iprop((∃ Xk : Buf (Elt F) ((xS).view.loc thd), ((xS).view.loc thd ↦[halfSet (k.val + 1)]{fullShare} Xk) ∗ ⌜HoldsChunk m d (baseRow L + (k.val + 1)) (k.val + 1) Xk⌝)
          ∗ ((fW).view.loc thd ↦[chunkSet (baseRow L + (k.val + 1))]{qT L} flatV m d)) := by
    rw [← pts_oth d L k hc1, set_chunk _ _ _ (off3_chunk' L k)]
    iintro ⟨H1, H2⟩
    isplitl [H1]
    · iexists _
      isplitl [H1]; · iexact H1
      ipureintro
      exact lands m d _ _ _ _ (k.val + 1) (baseRow L + (k.val + 1)) (k0_off2_eq k) (off3_chunk' L k) (by omega) gh w hw
    · iexact H2
  subst hsm
  exact Transfers.Flight_mono _ _ hD

omit [FloatOps F] in
theorem pts_frest (k : Fin k0_t1_loop.trips) (hc1 : k0_cond1 k = 1#1) (q : PosShare TreeShare) (f : Buf (Elt F) ((fW).view.loc thd)) :
    ((fW).view.loc thd ↦[Finset.univ \ ((fW).slice (Rect.unit (s := S2097152) (k0_off3 L k) S2048.size (k0_off3_inb L k hc1)) (fun _ => rfl)).view.set]{q} f : sProp 𝕄)
      = (fW).view.loc thd ↦[Finset.univ \ chunkSet (baseRow L + (k.val + 1))]{q} f := by
  rw [set_chunk _ _ _ (off3_chunk' L k)]

omit [FloatOps F] in
theorem set_bufA : (aS).view.set = Finset.univ := by simp only [Memref.view_whole, View.set_whole]
omit [FloatOps F] in
theorem set_bufB : (bS).view.set = Finset.univ := by simp only [Memref.view_whole, View.set_whole]

set_option maxHeartbeats 8000000 in
theorem trip_mid (hpre : PreOK m) (O : CellTallies nD τ sig (HIx 1)) (W : Waits sig (HIx 1)) (TB : Buf (Elt F) ((tS).view.loc thd)) (hTB : ∀ i, TB i = repV m d i)
    (v1 : BitVec 32) (v2 : Vec F S16 .i32) (hv2 : ∀ a : Fin 16, v2 (ValueIdx.ix1 a) = BitVec.ofNat 32 a.val)
    (k : Fin k0_t1_loop.trips) (h0 : 0 < k.val) (h1 : k.val + 1 < 32) :
    invO m d L O W TB k.val ()
      ⊢ wp frame (wpE (defs₀ (F := F)) 𝒱₀ thd none) Set.univ
          (k0_t1_body L fW (Memref.isWhole_whole _) rW (Memref.isWhole_whole _) iW (Memref.isWhole_whole _) oW (Memref.isWhole_whole _)
            xS (Memref.isWhole_whole _) tS (Memref.isWhole_whole _) nS (Memref.isWhole_whole _) aS (Memref.isWhole_whole _) bS (Memref.isWhole_whole _)
            cc0_scratch5 cc0_scratch6 cc0_scratch7 cc0_scoped0 cc0_scoped1 v1 v2 k ())
          fun _ => invO m d L O W TB (k.val + 1) () := by
  have hk : k.val < 32 := k.isLt
  have hbase := baseRow_le L
  have hb : baseRow L + k.val < 1024 := by omega
  have hc1 : k0_cond1 k = 1#1 := (cond1_iff k).mpr h1
  have hc2 : Scalar.cmpi .ne (Scalar.extui (Scalar.cmpi .sgt (Scf.iv 0#32 1#32 k) 0#32) : BitVec 32) 0#32 = 1#1 := (cond2_iff k).mpr h0
  unfold invO
  rw [IdxPart_lt m d L hk, BufPart_pos m d L h0]
  unfold k0_t1_body
  rw [k0_part13_eq_skeleton, k0_part14_eq_skeleton]
  iintro ⟨Hmw, Hts, ⟨Hfl, Hfrest⟩, ⟨%gh, Hoth⟩, Hland, Htodo, ⟨%gA0, %gB0, HflA, HflB⟩, %W', %hW', HO⟩
  -- the other half as the next fetch's target; the four quarters of this trip's batch row as the write-backs' targets
  ihave Hoth' := (Entails.of_eq (pts_oth (F := F) d L k hc1 gh)) $$ Hoth
  ihave Hsp := (todo_split (F := F) d (baseRow L) k.val hk hbase (m (oLoc d))).1 $$ Htodo
  icases Hsp with ⟨HbA, HbB, HbC, HbD, Htodo⟩
  ihave HbA' := (Entails.of_eq (pts_blkA (F := F) d L k _)) $$ HbA
  ihave HbB' := (Entails.of_eq (pts_blkB (F := F) d L k _)) $$ HbB
  ihave HbC' := (Entails.of_eq (pts_blkC (F := F) d L k _)) $$ HbC
  ihave HbD' := (Entails.of_eq (pts_blkD (F := F) d L k _)) $$ HbD
  sl_exec (disch := (first | exact hc2 | exact hc1))
  icases Hfl_dst with ⟨%Xk, Hcur, %hXk⟩
  have hX8 := words_lt m d hpre (baseRow L + k.val) k.val (by omega) Xk hXk
  icases HflA_dst with Hdone2
  -- quarter 0 into row buffer A, then out to its block
  sl_for (invQa d L k.val 0 Xk TB) $$ [Hcur Hts HflA_src]
  case region =>
    intro j _
    unfold invQa
    iintro ⟨Hx, Ht, %g, Hb, %hg⟩
    iapply (trip_qa (F := F) d L k j v1 _ 0#32 v2 hv2 Xk hX8 TB g hg)
    isplitl [Hx]; · iexact Hx
    isplitl [Ht]; · iexact Ht
    iexact Hb
  · unfold invQa
    isplitl [Hcur]; · iexact Hcur
    isplitl [Hts]; · iexact Hts
    iexists _; isplitl [HflA_src]; · iexact HflA_src
    ipureintro; intro y hy; exact absurd hy (by omega)
  iintro %_ HI
  unfold invQa
  icases HI with ⟨Hcur, Hts, %gA, Has, %hgA⟩
  sl_exec (disch := (first | exact hc2 | exact hc1))
  icases HflB_dst with Hdone3
  -- quarter 1 into row buffer B
  sl_for (invQb d L k.val 1 Xk TB) $$ [Hcur Hts HflB_src]
  case region =>
    intro j _
    unfold invQb
    iintro ⟨Hx, Ht, %g, Hb, %hg⟩
    iapply (trip_qb (F := F) d L k j v1 _ _ v2 hv2 Xk hX8 TB g hg)
    isplitl [Hx]; · iexact Hx
    isplitl [Ht]; · iexact Ht
    iexact Hb
  · unfold invQb
    isplitl [Hcur]; · iexact Hcur
    isplitl [Hts]; · iexact Hts
    iexists _; isplitl [HflB_src]; · iexact HflB_src
    ipureintro; intro y hy; exact absurd hy (by omega)
  iintro %_ HI
  unfold invQb
  icases HI with ⟨Hcur, Hts, %gB, Hbs, %hgB⟩
  sl_exec
  -- quarter 2 into row buffer A again
  sl_for (invQa d L k.val 2 Xk TB) $$ [Hcur Hts Has]
  case region =>
    intro j _
    unfold invQa
    iintro ⟨Hx, Ht, %g, Hb, %hg⟩
    iapply (trip_qc (F := F) d L k j v1 _ _ v2 hv2 Xk hX8 TB g hg)
    isplitl [Hx]; · iexact Hx
    isplitl [Ht]; · iexact Ht
    iexact Hb
  · unfold invQa
    isplitl [Hcur]; · iexact Hcur
    isplitl [Hts]; · iexact Hts
    iexists _; isplitl [Has]; · iexact Has
    ipureintro; intro y hy; exact absurd hy (by omega)
  iintro %_ HI
  unfold invQa
  icases HI with ⟨Hcur, Hts, %gA2, Has, %hgA2⟩
  sl_exec
  -- quarter 3 into row buffer B again
  sl_for (invQb d L k.val 3 Xk TB) $$ [Hcur Hts Hbs]
  case region =>
    intro j _
    unfold invQb
    iintro ⟨Hx, Ht, %g, Hb, %hg⟩
    iapply (trip_qd (F := F) d L k j v1 _ 0#32 v2 hv2 Xk hX8 TB g hg)
    isplitl [Hx]; · iexact Hx
    isplitl [Ht]; · iexact Ht
    iexact Hb
  · unfold invQb
    isplitl [Hcur]; · iexact Hcur
    isplitl [Hts]; · iexact Hts
    iexists _; isplitl [Hbs]; · iexact Hbs
    ipureintro; intro y hy; exact absurd hy (by omega)
  iintro %_ HI
  unfold invQb
  icases HI with ⟨Hcur, Hts, %gB2, Hbs, %hgB2⟩
  sl_exec
  sl_step
  sl_unfold_run_names
  -- what landed and what is in flight, at the looked-up array
  ihave HdA := (Entails.of_eq (pts_landed m d L (k0_off21 L k) (k0_off21_inb L k) (baseRow L + k.val) 0 hb (by decide) (k0_off21_eq L k) _ (ReadAs.same.apply (View.read (Elt F) (aS).view gA))
    (fun y => (hgA y (col_lt y trips_t2)).trans (row_is_out m d hpre ⟨_, hb⟩ 0 k.val Xk hXk TB hTB y)))) $$ HbA'
  ihave HdB := (Entails.of_eq (pts_landed m d L (k0_off39 L k) (k0_off39_inb L k) (baseRow L + k.val) 1 hb (by decide) (k0_off39_eq L k) _ (ReadAs.same.apply (View.read (Elt F) (bS).view gB))
    (fun y => (hgB y (col_lt y trips_t3)).trans (row_is_out m d hpre ⟨_, hb⟩ 1 k.val Xk hXk TB hTB y)))) $$ HbB'
  ihave HflA' := (flight_done m d L (SemLoc.dma (⟨0, _⟩ : DmaSem sig)) (SemLoc.dma cc0_scratch5.sem) rfl (k0_off57 L k) (k0_off57_inb L k) (baseRow L + k.val) 2 hb (by decide) (k0_off57_eq L k) _ (ReadAs.same.apply (View.read (Elt F) (aS).view gA2))
    (fun y => (hgA2 y (col_lt y trips_t4)).trans (row_is_out m d hpre ⟨_, hb⟩ 2 k.val Xk hXk TB hTB y)) aS set_bufA gA2) $$ HflA
  ihave HflB' := (flight_done m d L (SemLoc.dma (⟨1, _⟩ : DmaSem sig)) (SemLoc.dma cc0_scratch6.sem) rfl (k0_off75 L k) (k0_off75_inb L k) (baseRow L + k.val) 3 hb (by decide) (k0_off75_eq L k) _ (ReadAs.same.apply (View.read (Elt F) (bS).view gB2))
    (fun y => (hgB2 y (col_lt y trips_t5)).trans (row_is_out m d hpre ⟨_, hb⟩ 3 k.val Xk hXk TB hTB y)) bS set_bufB gB2) $$ HflB
  ihave Hl := (landed_next (F := F) d (baseRow L) k.val (outV m d)) $$ [Hland Hdone2 Hdone3 HdA HdB]
  · isplitl [Hland]; · iexact Hland
    rw [show optBlk (baseRow L) k.val 2 = blkSet (baseRow L + k.val - 1) 2 from if_pos h0, show optBlk (baseRow L) k.val 3 = blkSet (baseRow L + k.val - 1) 3 from if_pos h0]
    isplitl [Hdone2]; · iexact Hdone2
    isplitl [Hdone3]; · iexact Hdone3
    isplitl [HdA]; · iexact HdA
    iexact HdB
  ihave Hfl' := (flight_idx m d L (SemLoc.dma (⟨2, _⟩ : DmaSem sig)) rfl k hc1 h1 gh (ReadAs.same.apply (View.read (Elt F) ((fW).slice (Rect.unit (s := S2097152) (k0_off3 L k) S2048.size (k0_off3_inb L k hc1)) (fun _ => rfl)).view (flatV m d))) (fun y => (View.read_apply _ _).trans (cast_eq _ _))) $$ Hfl
  ihave Hfrest' := (Entails.of_eq (pts_frest (F := F) d L k hc1 _ _)) $$ Hfrest
  rw [IdxPart_lt m d L h1, BufPart_pos m d L (Nat.succ_pos k.val), show baseRow L + (k.val + 1) - 1 = baseRow L + k.val from by omega,
    show halfSet (k.val + 1 + 1) = halfSet k.val from halfSet_succ k.val]
  isplitl [Hmw]; · iexact Hmw
  isplitl [Hts]; · iexact Hts
  isplitl [Hfl' Hfrest']
  · isplitl [Hfl']; · iexact Hfl'
    iexact Hfrest'
  isplitl [Hcur]; · iexists _; iexact Hcur
  isplitl [Hl]; · iexact Hl
  isplitl [Htodo]; · iexact Htodo
  isplitl [HflA' HflB']
  · iexists gA2, gB2
    isplitl [HflA']; · iexact HflA'
    iexact HflB'
  iexists _
  isplitr
  rotate_left
  · iexact HO
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp

set_option maxHeartbeats 8000000 in
theorem trip_first (hpre : PreOK m) (O : CellTallies nD τ sig (HIx 1)) (W : Waits sig (HIx 1)) (TB : Buf (Elt F) ((tS).view.loc thd)) (hTB : ∀ i, TB i = repV m d i)
    (v1 : BitVec 32) (v2 : Vec F S16 .i32) (hv2 : ∀ a : Fin 16, v2 (ValueIdx.ix1 a) = BitVec.ofNat 32 a.val)
    (k : Fin k0_t1_loop.trips) (h0 : ¬ 0 < k.val) (h1 : k.val + 1 < 32) :
    invO m d L O W TB k.val ()
      ⊢ wp frame (wpE (defs₀ (F := F)) 𝒱₀ thd none) Set.univ
          (k0_t1_body L fW (Memref.isWhole_whole _) rW (Memref.isWhole_whole _) iW (Memref.isWhole_whole _) oW (Memref.isWhole_whole _)
            xS (Memref.isWhole_whole _) tS (Memref.isWhole_whole _) nS (Memref.isWhole_whole _) aS (Memref.isWhole_whole _) bS (Memref.isWhole_whole _)
            cc0_scratch5 cc0_scratch6 cc0_scratch7 cc0_scoped0 cc0_scoped1 v1 v2 k ())
          fun _ => invO m d L O W TB (k.val + 1) () := by
  have hk : k.val < 32 := k.isLt
  have hbase := baseRow_le L
  have hb : baseRow L + k.val < 1024 := by omega
  have hc1 : k0_cond1 k = 1#1 := (cond1_iff k).mpr h1
  have hc2 : ¬ Scalar.cmpi .ne (Scalar.extui (Scalar.cmpi .sgt (Scf.iv 0#32 1#32 k) 0#32) : BitVec 32) 0#32 = 1#1 := fun h => h0 ((cond2_iff k).mp h)
  unfold invO
  rw [IdxPart_lt m d L hk, BufPart_zero m d L h0]
  unfold k0_t1_body
  rw [k0_part13_eq_skeleton, k0_part14_eq_skeleton]
  iintro ⟨Hmw, Hts, ⟨Hfl, Hfrest⟩, ⟨%gh, Hoth⟩, Hland, Htodo, ⟨HflA, HflB, ⟨%gA0, HflA_src⟩, ⟨%gB0, HflB_src⟩⟩, %W', %hW', HO⟩
  -- the other half as the next fetch's target; the four quarters of this trip's batch row as the write-backs' targets
  ihave Hoth' := (Entails.of_eq (pts_oth (F := F) d L k hc1 gh)) $$ Hoth
  ihave Hsp := (todo_split (F := F) d (baseRow L) k.val hk hbase (m (oLoc d))).1 $$ Htodo
  icases Hsp with ⟨HbA, HbB, HbC, HbD, Htodo⟩
  ihave HbA' := (Entails.of_eq (pts_blkA (F := F) d L k _)) $$ HbA
  ihave HbB' := (Entails.of_eq (pts_blkB (F := F) d L k _)) $$ HbB
  ihave HbC' := (Entails.of_eq (pts_blkC (F := F) d L k _)) $$ HbC
  ihave HbD' := (Entails.of_eq (pts_blkD (F := F) d L k _)) $$ HbD
  sl_exec (disch := (first | exact hc2 | exact hc1))
  icases Hfl_dst with ⟨%Xk, Hcur, %hXk⟩
  have hX8 := words_lt m d hpre (baseRow L + k.val) k.val (by omega) Xk hXk
  -- quarter 0 into row buffer A, then out to its block
  sl_for (invQa d L k.val 0 Xk TB) $$ [Hcur Hts HflA_src]
  case region =>
    intro j _
    unfold invQa
    iintro ⟨Hx, Ht, %g, Hb, %hg⟩
    iapply (trip_qa (F := F) d L k j v1 _ 0#32 v2 hv2 Xk hX8 TB g hg)
    isplitl [Hx]; · iexact Hx
    isplitl [Ht]; · iexact Ht
    iexact Hb
  · unfold invQa
    isplitl [Hcur]; · iexact Hcur
    isplitl [Hts]; · iexact Hts
    iexists _; isplitl [HflA_src]; · iexact HflA_src
    ipureintro; intro y hy; exact absurd hy (by omega)
  iintro %_ HI
  unfold invQa
  icases HI with ⟨Hcur, Hts, %gA, Has, %hgA⟩
  sl_exec (disch := (first | exact hc2 | exact hc1))
  -- quarter 1 into row buffer B
  sl_for (invQb d L k.val 1 Xk TB) $$ [Hcur Hts HflB_src]
  case region =>
    intro j _
    unfold invQb
    iintro ⟨Hx, Ht, %g, Hb, %hg⟩
    iapply (trip_qb (F := F) d L k j v1 _ _ v2 hv2 Xk hX8 TB g hg)
    isplitl [Hx]; · iexact Hx
    isplitl [Ht]; · iexact Ht
    iexact Hb
  · unfold invQb
    isplitl [Hcur]; · iexact Hcur
    isplitl [Hts]; · iexact Hts
    iexists _; isplitl [HflB_src]; · iexact HflB_src
    ipureintro; intro y hy; exact absurd hy (by omega)
  iintro %_ HI
  unfold invQb
  icases HI with ⟨Hcur, Hts, %gB, Hbs, %hgB⟩
  sl_exec
  -- quarter 2 into row buffer A again
  sl_for (invQa d L k.val 2 Xk TB) $$ [Hcur Hts Has]
  case region =>
    intro j _
    unfold invQa
    iintro ⟨Hx, Ht, %g, Hb, %hg⟩
    iapply (trip_qc (F := F) d L k j v1 _ _ v2 hv2 Xk hX8 TB g hg)
    isplitl [Hx]; · iexact Hx
    isplitl [Ht]; · iexact Ht
    iexact Hb
  · unfold invQa
    isplitl [Hcur]; · iexact Hcur
    isplitl [Hts]; · iexact Hts
    iexists _; isplitl [Has]; · iexact Has
    ipureintro; intro y hy; exact absurd hy (by omega)
  iintro %_ HI
  unfold invQa
  icases HI with ⟨Hcur, Hts, %gA2, Has, %hgA2⟩
  sl_exec
  -- quarter 3 into row buffer B again
  sl_for (invQb d L k.val 3 Xk TB) $$ [Hcur Hts Hbs]
  case region =>
    intro j _
    unfold invQb
    iintro ⟨Hx, Ht, %g, Hb, %hg⟩
    iapply (trip_qd (F := F) d L k j v1 _ 0#32 v2 hv2 Xk hX8 TB g hg)
    isplitl [Hx]; · iexact Hx
    isplitl [Ht]; · iexact Ht
    iexact Hb
  · unfold invQb
    isplitl [Hcur]; · iexact Hcur
    isplitl [Hts]; · iexact Hts
    iexists _; isplitl [Hbs]; · iexact Hbs
    ipureintro; intro y hy; exact absurd hy (by omega)
  iintro %_ HI
  unfold invQb
  icases HI with ⟨Hcur, Hts, %gB2, Hbs, %hgB2⟩
  sl_exec
  sl_step
  sl_unfold_run_names
  -- what landed and what is in flight, at the looked-up array
  ihave HdA := (Entails.of_eq (pts_landed m d L (k0_off21 L k) (k0_off21_inb L k) (baseRow L + k.val) 0 hb (by decide) (k0_off21_eq L k) _ (ReadAs.same.apply (View.read (Elt F) (aS).view gA))
    (fun y => (hgA y (col_lt y trips_t2)).trans (row_is_out m d hpre ⟨_, hb⟩ 0 k.val Xk hXk TB hTB y)))) $$ HbA'
  ihave HdB := (Entails.of_eq (pts_landed m d L (k0_off39 L k) (k0_off39_inb L k) (baseRow L + k.val) 1 hb (by decide) (k0_off39_eq L k) _ (ReadAs.same.apply (View.read (Elt F) (bS).view gB))
    (fun y => (hgB y (col_lt y trips_t3)).trans (row_is_out m d hpre ⟨_, hb⟩ 1 k.val Xk hXk TB hTB y)))) $$ HbB'
  ihave HflA' := (flight_done m d L (SemLoc.dma (⟨0, _⟩ : DmaSem sig)) (SemLoc.dma cc0_scratch5.sem) rfl (k0_off57 L k) (k0_off57_inb L k) (baseRow L + k.val) 2 hb (by decide) (k0_off57_eq L k) _ (ReadAs.same.apply (View.read (Elt F) (aS).view gA2))
    (fun y => (hgA2 y (col_lt y trips_t4)).trans (row_is_out m d hpre ⟨_, hb⟩ 2 k.val Xk hXk TB hTB y)) aS set_bufA gA2) $$ HflA
  ihave HflB' := (flight_done m d L (SemLoc.dma (⟨1, _⟩ : DmaSem sig)) (SemLoc.dma cc0_scratch6.sem) rfl (k0_off75 L k) (k0_off75_inb L k) (baseRow L + k.val) 3 hb (by decide) (k0_off75_eq L k) _ (ReadAs.same.apply (View.read (Elt F) (bS).view gB2))
    (fun y => (hgB2 y (col_lt y trips_t5)).trans (row_is_out m d hpre ⟨_, hb⟩ 3 k.val Xk hXk TB hTB y)) bS set_bufB gB2) $$ HflB
  ihave Hdone2 := (Entails.of_eq (pointsTo_empty (ℓ := oLoc d) (q := fullShare) (f := outV m d)).symm) $$ []
  · iempintro
  ihave Hdone3 := (Entails.of_eq (pointsTo_empty (ℓ := oLoc d) (q := fullShare) (f := outV m d)).symm) $$ []
  · iempintro
  ihave Hl := (landed_next (F := F) d (baseRow L) k.val (outV m d)) $$ [Hland Hdone2 Hdone3 HdA HdB]
  · isplitl [Hland]; · iexact Hland
    rw [show optBlk (baseRow L) k.val 2 = ∅ from if_neg h0, show optBlk (baseRow L) k.val 3 = ∅ from if_neg h0]
    isplitl [Hdone2]; · iexact Hdone2
    isplitl [Hdone3]; · iexact Hdone3
    isplitl [HdA]; · iexact HdA
    iexact HdB
  ihave Hfl' := (flight_idx m d L (SemLoc.dma (⟨2, _⟩ : DmaSem sig)) rfl k hc1 h1 gh (ReadAs.same.apply (View.read (Elt F) ((fW).slice (Rect.unit (s := S2097152) (k0_off3 L k) S2048.size (k0_off3_inb L k hc1)) (fun _ => rfl)).view (flatV m d))) (fun y => (View.read_apply _ _).trans (cast_eq _ _))) $$ Hfl
  ihave Hfrest' := (Entails.of_eq (pts_frest (F := F) d L k hc1 _ _)) $$ Hfrest
  rw [IdxPart_lt m d L h1, BufPart_pos m d L (Nat.succ_pos k.val), show baseRow L + (k.val + 1) - 1 = baseRow L + k.val from by omega,
    show halfSet (k.val + 1 + 1) = halfSet k.val from halfSet_succ k.val]
  isplitl [Hmw]; · iexact Hmw
  isplitl [Hts]; · iexact Hts
  isplitl [Hfl' Hfrest']
  · isplitl [Hfl']; · iexact Hfl'
    iexact Hfrest'
  isplitl [Hcur]; · iexists _; iexact Hcur
  isplitl [Hl]; · iexact Hl
  isplitl [Htodo]; · iexact Htodo
  isplitl [HflA' HflB']
  · iexists gA2, gB2
    isplitl [HflA']; · iexact HflA'
    iexact HflB'
  iexists _
  isplitr
  rotate_left
  · iexact HO
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    exact hW' p hp

set_option maxHeartbeats 8000000 in
theorem trip_last (hpre : PreOK m) (O : CellTallies nD τ sig (HIx 1)) (W : Waits sig (HIx 1)) (TB : Buf (Elt F) ((tS).view.loc thd)) (hTB : ∀ i, TB i = repV m d i)
    (v1 : BitVec 32) (v2 : Vec F S16 .i32) (hv2 : ∀ a : Fin 16, v2 (ValueIdx.ix1 a) = BitVec.ofNat 32 a.val)
    (k : Fin k0_t1_loop.trips) (h0 : 0 < k.val) (h1 : ¬ k.val + 1 < 32) :
    invO m d L O W TB k.val ()
      ⊢ wp frame (wpE (defs₀ (F := F)) 𝒱₀ thd none) Set.univ
          (k0_t1_body L fW (Memref.isWhole_whole _) rW (Memref.isWhole_whole _) iW (Memref.isWhole_whole _) oW (Memref.isWhole_whole _)
            xS (Memref.isWhole_whole _) tS (Memref.isWhole_whole _) nS (Memref.isWhole_whole _) aS (Memref.isWhole_whole _) bS (Memref.isWhole_whole _)
            cc0_scratch5 cc0_scratch6 cc0_scratch7 cc0_scoped0 cc0_scoped1 v1 v2 k ())
          fun _ => invO m d L O W TB (k.val + 1) () := by
  have hk : k.val < 32 := k.isLt
  have hbase := baseRow_le L
  have hb : baseRow L + k.val < 1024 := by omega
  have hc1 : ¬ k0_cond1 k = 1#1 := fun h => h1 ((cond1_iff k).mp h)
  have hc2 : Scalar.cmpi .ne (Scalar.extui (Scalar.cmpi .sgt (Scf.iv 0#32 1#32 k) 0#32) : BitVec 32) 0#32 = 1#1 := (cond2_iff k).mpr h0
  unfold invO
  rw [IdxPart_lt m d L hk, BufPart_pos m d L h0]
  unfold k0_t1_body
  rw [k0_part13_eq_skeleton, k0_part14_eq_skeleton]
  iintro ⟨Hmw, Hts, ⟨Hfl, Hfrest⟩, ⟨%gh, Hoth⟩, Hland, Htodo, ⟨%gA0, %gB0, HflA, HflB⟩, %W', %hW', HO⟩
  -- no chunk is left to fetch; the four quarters of this trip's batch row as the write-backs' targets
  ihave Hsp := (todo_split (F := F) d (baseRow L) k.val hk hbase (m (oLoc d))).1 $$ Htodo
  icases Hsp with ⟨HbA, HbB, HbC, HbD, Htodo⟩
  ihave HbA' := (Entails.of_eq (pts_blkA (F := F) d L k _)) $$ HbA
  ihave HbB' := (Entails.of_eq (pts_blkB (F := F) d L k _)) $$ HbB
  ihave HbC' := (Entails.of_eq (pts_blkC (F := F) d L k _)) $$ HbC
  ihave HbD' := (Entails.of_eq (pts_blkD (F := F) d L k _)) $$ HbD
  sl_exec (disch := (first | exact hc2 | exact hc1))
  icases Hfl_dst with ⟨%Xk, Hcur, %hXk⟩
  have hX8 := words_lt m d hpre (baseRow L + k.val) k.val (by omega) Xk hXk
  icases HflA_dst with Hdone2
  -- quarter 0 into row buffer A, then out to its block
  sl_for (invQa d L k.val 0 Xk TB) $$ [Hcur Hts HflA_src]
  case region =>
    intro j _
    unfold invQa
    iintro ⟨Hx, Ht, %g, Hb, %hg⟩
    iapply (trip_qa (F := F) d L k j v1 _ 0#32 v2 hv2 Xk hX8 TB g hg)
    isplitl [Hx]; · iexact Hx
    isplitl [Ht]; · iexact Ht
    iexact Hb
  · unfold invQa
    isplitl [Hcur]; · iexact Hcur
    isplitl [Hts]; · iexact Hts
    iexists _; isplitl [HflA_src]; · iexact HflA_src
    ipureintro; intro y hy; exact absurd hy (by omega)
  iintro %_ HI
  unfold invQa
  icases HI with ⟨Hcur, Hts, %gA, Has, %hgA⟩
  sl_exec (disch := (first | exact hc2 | exact hc1))
  icases HflB_dst with Hdone3
  -- quarter 1 into row buffer B
  sl_for (invQb d L k.val 1 Xk TB) $$ [Hcur Hts HflB_src]
  case region =>
    intro j _
    unfold invQb
    iintro ⟨Hx, Ht, %g, Hb, %hg⟩
    iapply (trip_qb (F := F) d L k j v1 _ _ v2 hv2 Xk hX8 TB g hg)
    isplitl [Hx]; · iexact Hx
    isplitl [Ht]; · iexact Ht
    iexact Hb
  · unfold invQb
    isplitl [Hcur]; · iexact Hcur
    isplitl [Hts]; · iexact Hts
    iexists _; isplitl [HflB_src]; · iexact HflB_src
    ipureintro; intro y hy; exact absurd hy (by omega)
  iintro %_ HI
  unfold invQb
  icases HI with ⟨Hcur, Hts, %gB, Hbs, %hgB⟩
  sl_exec
  -- quarter 2 into row buffer A again
  sl_for (invQa d L k.val 2 Xk TB) $$ [Hcur Hts Has]
  case region =>
    intro j _
    unfold invQa
    iintro ⟨Hx, Ht, %g, Hb, %hg⟩
    iapply (trip_qc (F := F) d L k j v1 _ _ v2 hv2 Xk hX8 TB g hg)
    isplitl [Hx]; · iexact Hx
    isplitl [Ht]; · iexact Ht
    iexact Hb
  · unfold invQa
    isplitl [Hcur]; · iexact Hcur
    isplitl [Hts]; · iexact Hts
    iexists _; isplitl [Has]; · iexact Has
    ipureintro; intro y hy; exact absurd hy (by omega)
  iintro %_ HI
  unfold invQa
  icases HI with ⟨Hcur, Hts, %gA2, Has, %hgA2⟩
  sl_exec
  -- quarter 3 into row buffer B again
  sl_for (invQb d L k.val 3 Xk TB) $$ [Hcur Hts Hbs]
  case region =>
    intro j _
    unfold invQb
    iintro ⟨Hx, Ht, %g, Hb, %hg⟩
    iapply (trip_qd (F := F) d L k j v1 _ 0#32 v2 hv2 Xk hX8 TB g hg)
    isplitl [Hx]; · iexact Hx
    isplitl [Ht]; · iexact Ht
    iexact Hb
  · unfold invQb
    isplitl [Hcur]; · iexact Hcur
    isplitl [Hts]; · iexact Hts
    iexists _; isplitl [Hbs]; · iexact Hbs
    ipureintro; intro y hy; exact absurd hy (by omega)
  iintro %_ HI
  unfold invQb
  icases HI with ⟨Hcur, Hts, %gB2, Hbs, %hgB2⟩
  sl_exec
  sl_step
  sl_unfold_run_names
  -- what landed and what is in flight, at the looked-up array
  ihave HdA := (Entails.of_eq (pts_landed m d L (k0_off21 L k) (k0_off21_inb L k) (baseRow L + k.val) 0 hb (by decide) (k0_off21_eq L k) _ (ReadAs.same.apply (View.read (Elt F) (aS).view gA))
    (fun y => (hgA y (col_lt y trips_t2)).trans (row_is_out m d hpre ⟨_, hb⟩ 0 k.val Xk hXk TB hTB y)))) $$ HbA'
  ihave HdB := (Entails.of_eq (pts_landed m d L (k0_off39 L k) (k0_off39_inb L k) (baseRow L + k.val) 1 hb (by decide) (k0_off39_eq L k) _ (ReadAs.same.apply (View.read (Elt F) (bS).view gB))
    (fun y => (hgB y (col_lt y trips_t3)).trans (row_is_out m d hpre ⟨_, hb⟩ 1 k.val Xk hXk TB hTB y)))) $$ HbB'
  ihave HflA' := (flight_done m d L (SemLoc.dma (⟨0, _⟩ : DmaSem sig)) (SemLoc.dma cc0_scratch5.sem) rfl (k0_off57 L k) (k0_off57_inb L k) (baseRow L + k.val) 2 hb (by decide) (k0_off57_eq L k) _ (ReadAs.same.apply (View.read (Elt F) (aS).view gA2))
    (fun y => (hgA2 y (col_lt y trips_t4)).trans (row_is_out m d hpre ⟨_, hb⟩ 2 k.val Xk hXk TB hTB y)) aS set_bufA gA2) $$ HflA
  ihave HflB' := (flight_done m d L (SemLoc.dma (⟨1, _⟩ : DmaSem sig)) (SemLoc.dma cc0_scratch6.sem) rfl (k0_off75 L k) (k0_off75_inb L k) (baseRow L + k.val) 3 hb (by decide) (k0_off75_eq L k) _ (ReadAs.same.apply (View.read (Elt F) (bS).view gB2))
    (fun y => (hgB2 y (col_lt y trips_t5)).trans (row_is_out m d hpre ⟨_, hb⟩ 3 k.val Xk hXk TB hTB y)) bS set_bufB gB2) $$ HflB
  ihave Hl := (landed_next (F := F) d (baseRow L) k.val (outV m d)) $$ [Hland Hdone2 Hdone3 HdA HdB]
  · isplitl [Hland]; · iexact Hland
    rw [show optBlk (baseRow L) k.val 2 = blkSet (baseRow L + k.val - 1) 2 from if_pos h0, show optBlk (baseRow L) k.val 3 = blkSet (baseRow L + k.val - 1) 3 from if_pos h0]
    isplitl [Hdone2]; · iexact Hdone2
    isplitl [Hdone3]; · iexact Hdone3
    isplitl [HdA]; · iexact HdA
    iexact HdB
  rw [IdxPart_ge m d L h1, BufPart_pos m d L (Nat.succ_pos k.val), show baseRow L + (k.val + 1) - 1 = baseRow L + k.val from by omega,
    show halfSet (k.val + 1 + 1) = halfSet k.val from halfSet_succ k.val]
  isplitl [Hmw]; · iexact Hmw
  isplitl [Hts]; · iexact Hts
  isplitl [Hfl Hfrest Hoth]
  · isplitl [Hfl]; · iexact Hfl
    isplitl [Hfrest]; · iexact Hfrest
    iexists _; iexact Hoth
  isplitl [Hcur]; · iexists _; iexact Hcur
  isplitl [Hl]; · iexact Hl
  isplitl [Htodo]; · iexact Htodo
  isplitl [HflA' HflB']
  · iexists gA2, gB2
    isplitl [HflA']; · iexact HflA'
    iexact HflB'
  iexists _
  isplitr
  rotate_left
  · iexact HO
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp

omit [FloatOps F] in
theorem trips_t1 : Scf.trips k0_t1_loop.lb k0_t1_loop.ub k0_t1_loop.st = 32 := by decide

omit [FloatOps F] in
theorem lane_idx (j : S16.Idx) : (Rect.unit (s := S16) ![0] S16.size inb_S16_S16_0).toLoadRect.idx j = j := by
  funext a; apply Fin.ext
  rw [LoadRect.idx_apply]
  have ha : a = 0 := Subsingleton.elim _ _
  subst ha
  show 0 + 1 * (j 0).val = (j 0).val
  omega

/-- The first chunk's fetch in flight delivers the first half holding that chunk. -/
theorem flight_idx0 (sm : SemLoc sig) (hsm : sm = SemLoc.dma cc0_scratch7.sem) (p4) (gx : Buf (Elt F) ((xS).view.loc thd)) (w : S2048.Idx → BitVec 32)
    (hw : ∀ y, w y = flatV m d (((fW).slice (Rect.unit (s := S2097152) (k0_off1 L) S2048.size (k0_off1_inb L)) (fun _ => rfl)).view.emb y)) :
    (Transfers.Flight countersEmb thd sm (default : HIx 1) 65536
        iprop((((xS).slice (Rect.unit (s := S4096) ![0] S2048.size inb_S4096_S2048_0) p4).view.loc thd
              ↦[((xS).slice (Rect.unit (s := S4096) ![0] S2048.size inb_S4096_S2048_0) p4).view.set]{fullShare}
              ((xS).slice (Rect.unit (s := S4096) ![0] S2048.size inb_S4096_S2048_0) p4).view.writes (Elt F) gx
                [⟨Rect.whole (Rect.unit (s := S4096) ![0] S2048.size inb_S4096_S2048_0).shape, w⟩])
          ∗ ((fW).view.loc thd ↦[((fW).slice (Rect.unit (s := S2097152) (k0_off1 L) S2048.size (k0_off1_inb L)) (fun _ => rfl)).view.set]{qT L} flatV m d)) : sProp 𝕄)
      ⊢ Transfers.Flight countersEmb thd (SemLoc.dma cc0_scratch7.sem) (default : HIx 1) 65536
        iprop((∃ Xk : Buf (Elt F) ((xS).view.loc thd), ((xS).view.loc thd ↦[halfSet 0]{fullShare} Xk) ∗ ⌜HoldsChunk m d (baseRow L + 0) 0 Xk⌝)
          ∗ ((fW).view.loc thd ↦[chunkSet (baseRow L + 0)]{qT L} flatV m d)) := by
  have hb := baseRow_le L
  have hD : (iprop((((xS).slice (Rect.unit (s := S4096) ![0] S2048.size inb_S4096_S2048_0) p4).view.loc thd
              ↦[((xS).slice (Rect.unit (s := S4096) ![0] S2048.size inb_S4096_S2048_0) p4).view.set]{fullShare}
              ((xS).slice (Rect.unit (s := S4096) ![0] S2048.size inb_S4096_S2048_0) p4).view.writes (Elt F) gx
                [⟨Rect.whole (Rect.unit (s := S4096) ![0] S2048.size inb_S4096_S2048_0).shape, w⟩])
          ∗ ((fW).view.loc thd ↦[((fW).slice (Rect.unit (s := S2097152) (k0_off1 L) S2048.size (k0_off1_inb L)) (fun _ => rfl)).view.set]{qT L} flatV m d)) : sProp 𝕄)
      ⊢ iprop((∃ Xk : Buf (Elt F) ((xS).view.loc thd), ((xS).view.loc thd ↦[halfSet 0]{fullShare} Xk) ∗ ⌜HoldsChunk m d (baseRow L + 0) 0 Xk⌝)
          ∗ ((fW).view.loc thd ↦[chunkSet (baseRow L + 0)]{qT L} flatV m d)) := by
    rw [set_half ![0] inb_S4096_S2048_0 0 rfl, set_chunk _ _ _ (off1_chunk L)]
    iintro ⟨H1, H2⟩
    isplitl [H1]
    · iexists _
      isplitl [H1]; · iexact H1
      ipureintro
      exact lands m d ![0] inb_S4096_S2048_0 _ _ 0 (baseRow L + 0) rfl (off1_chunk L) (by omega) gx w hw
    · iexact H2
  subst hsm
  exact Transfers.Flight_mono _ _ hD

omit [FloatOps F] in
theorem pts_frest0 (q : PosShare TreeShare) (f : Buf (Elt F) ((fW).view.loc thd)) :
    ((fW).view.loc thd ↦[Finset.univ \ ((fW).slice (Rect.unit (s := S2097152) (k0_off1 L) S2048.size (k0_off1_inb L)) (fun _ => rfl)).view.set]{q} f : sProp 𝕄)
      = (fW).view.loc thd ↦[Finset.univ \ chunkSet (baseRow L + 0)]{q} f := by
  rw [set_chunk _ _ _ (off1_chunk L)]

omit [FloatOps F] in
/-- The index scratch's two halves, at whatever each holds, are the scratch at some contents. -/
theorem halves_any (g0 g1 : Buf (Elt F) ((xS).view.loc thd)) :
    iprop(((xS).view.loc thd ↦[halfSet 0]{fullShare} g0) ∗ ((xS).view.loc thd ↦[halfSet 1]{fullShare} g1))
      ⊢ (iprop(∃ f : Buf (Elt F) ((xS).view.loc thd), (xS).view.loc thd ↦{fullShare} f) : sProp 𝕄) := by
  have hd : Disjoint (halfSet 0) (halfSet (0 + 1)) := halfSet_disjoint 0
  rw [pointsTo_congr (f := g0) (g := (halfSet 1).piecewise g1 g0) (I := halfSet 0) (fun i hi => by
        rw [Finset.piecewise_eq_of_notMem _ _ _ (Finset.disjoint_left.mp hd hi)]),
    pointsTo_congr (f := g1) (g := (halfSet 1).piecewise g1 g0) (I := halfSet 1) (fun i hi => by
        rw [Finset.piecewise_eq_of_mem _ _ _ hi])]
  iintro H
  iexists _
  iapply (halves (F := F) d (cV L) (jV L) _).2
  iexact H

set_option maxHeartbeats 8000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (readPts m d (qTile (cL L) (sL L)) ∗ oLoc d ↦[tileSet (cL L) (sL L)]{fullShare} m (oLoc d))
        ∗ scopedBufs thd ∗ scopedSems0 thd ∗ owes thd O W)
      ⊢ wp frame (wpE (defs₀ (F := F)) 𝒱₀ thd none) Set.univ
          (cc0_sc_embed L fW (Memref.isWhole_whole _) rW (Memref.isWhole_whole _) iW (Memref.isWhole_whole _) oW (Memref.isWhole_whole _)
            xS (Memref.isWhole_whole _) tS (Memref.isWhole_whole _) nS (Memref.isWhole_whole _) aS (Memref.isWhole_whole _) bS (Memref.isWhole_whole _)
            cc0_scratch5 cc0_scratch6 cc0_scratch7 cc0_scoped0 cc0_scoped1)
          fun _ => iprop((readPts m d (qTile (cL L) (sL L)) ∗ oLoc d ↦[tileSet (cL L) (sL L)]{fullShare} outV m d)
            ∗ scopedBufs thd ∗ scopedSems0 thd
            ∗ ∃ W', ⌜∀ p ∈ W', p ∈ W ∨ p.2 = none⌝ ∗ owes thd O W') := by
  have hb := baseRow_le L
  simp only [cc0_sc_embed_eq_skeleton]; unfold cc0_sc_embed_skel
  rw [(K (F := F)).scopedBufs_V hF d (cV L) (jV L), SparseCore.Cfg.scopedSems0_V (Val := Elt F) d (cV L) (jV L), ownSems0_V, ownBufs_V]
  iintro ⟨#Hlv, -, ⟨⟨Hf, Hr, Hi⟩, Ho⟩, ⟨⟨%gx, Hxs⟩, ⟨%gt, Hts⟩, ⟨%gn, Hns⟩, ⟨%ga, Has⟩, ⟨%gb, Hbs⟩, Hbufs⟩, ⟨Hsa, Hsb, Hsx, Hsn, Hst, Hsems⟩, HO⟩
  ihave Hmw := ((K (F := F)).mayWaits_none (thr := thd) hO) $$ Hlv
  ihave Hf' := (Entails.of_eq (pts_hbm_f (F := F) d L _ _).symm) $$ Hf
  ihave Hr' := (Entails.of_eq (pts_hbm_r (F := F) d L _ _).symm) $$ Hr
  ihave Hi' := (Entails.of_eq (pts_hbm_i (F := F) d L _ _).symm) $$ Hi
  -- the index scratch in its two halves, the first spelt as the first fetch's target
  ihave Hh := (halves (F := F) d (cV L) (jV L) gx).1 $$ Hxs
  icases Hh with ⟨Hx0, Hx1⟩
  ihave Hx0' := (Entails.of_eq (show ((V d (cV L) (jV L)).loc cc0_scratch0 ↦[halfSet 0]{fullShare} gx : sProp 𝕄)
      = ((xS).slice (Rect.unit (s := S4096) ![0] S2048.size inb_S4096_S2048_0) (fun _ => rfl)).view.loc thd
          ↦[((xS).slice (Rect.unit (s := S4096) ![0] S2048.size inb_S4096_S2048_0) (fun _ => rfl)).view.set]{fullShare} gx from by
    rw [set_half ![0] inb_S4096_S2048_0 0 rfl])) $$ Hx0
  sl_exec
  sl_unfold_run_names
  -- the table scratch holds the replicated table, the lane register the lane numbers
  ihave Hts' := (Entails.of_eq (congrArg (fun c => ((tS).view.loc thd ↦{fullShare} c : sProp 𝕄))
    (show View.write (Elt F) (tS).view gt (ReadAs.same.apply (View.read (Elt F) (rW).view (repV m d))) Finset.univ = repV m d from View.write_whole_univ _ _ _))) $$ Hts
  have hv2 : ∀ a : Fin 16, (View.readAt (Elt F) (nS).view (Rect.unit (s := S16) ![0] S16.size inb_S16_S16_0).toLoadRect
      (View.write (Elt F) (nS).view gn (ReadAs.same.apply (View.read (Elt F) (iW).view (iotV (F := F) d))) Finset.univ)) (ValueIdx.ix1 a) = BitVec.ofNat 32 a.val := by
    intro a
    rw [View.readAt_apply, lane_idx, show View.write (Elt F) (nS).view gn (ReadAs.same.apply (View.read (Elt F) (iW).view (iotV (F := F) d))) Finset.univ = iotV (F := F) d from View.write_whole_univ _ _ _]
    exact iota_lane d a
  ihave Hsx' := (flight_idx0 m d L (SemLoc.dma (⟨2, _⟩ : DmaSem sig)) rfl _ gx
    (ReadAs.same.apply (View.read (Elt F) ((fW).slice (Rect.unit (s := S2097152) (k0_off1 L) S2048.size (k0_off1_inb L)) (fun _ => rfl)).view (flatV m d)))
    (fun y => (View.read_apply _ _).trans (cast_eq _ _))) $$ Hsx
  ihave Hf'' := (Entails.of_eq (pts_frest0 (F := F) d L _ _)) $$ Hf'
  ihave Hl0 := ((landed_zero (F := F) d (baseRow L) (outV m d)).2) $$ []
  · iempintro
  ihave Ho' := (Entails.of_eq (congrArg (fun S => (oLoc d ↦[S]{fullShare} m (oLoc d) : sProp 𝕄)) (tile_eq_todo (cL L) (sL L)))) $$ Ho
  sl_for (invO m d L O W (repV m d)) $$ [Hmw Hts' Hsx' Hf'' Hx1 Hl0 Ho' Hsa Hsb Has Hbs HO]
  case region =>
    intro k _
    by_cases h0 : 0 < k.val
    · by_cases h1 : k.val + 1 < 32
      · exact trip_mid m d L hpre O W _ (fun _ => rfl) _ _ hv2 k h0 h1
      · exact trip_last m d L hpre O W _ (fun _ => rfl) _ _ hv2 k h0 h1
    · exact trip_first m d L hpre O W _ (fun _ => rfl) _ _ hv2 k h0 (by omega)
  · unfold invO
    rw [IdxPart_lt m d L (by decide : 0 < 32), BufPart_zero m d L (Nat.lt_irrefl 0)]
    isplitl [Hmw]; · iexact Hmw
    isplitl [Hts']; · iexact Hts'
    isplitl [Hsx' Hf'']
    · isplitl [Hsx']; · iexact Hsx'
      iexact Hf''
    isplitl [Hx1]; · iexists _; iexact Hx1
    isplitl [Hl0]; · iexact Hl0
    isplitl [Ho']; · iexact Ho'
    isplitl [Hsa Hsb Has Hbs]
    · isplitl [Hsa]; · iexact Hsa
      isplitl [Hsb]; · iexact Hsb
      isplitl [Has]; · iexists _; iexact Has
      iexists _; iexact Hbs
    iexists _
    isplitr
    rotate_left
    · iexact HO
    · ipureintro
      intro p hp
      rcases Finset.mem_insert.mp hp with rfl | hp
      · exact .inr rfl
      rcases Finset.mem_insert.mp hp with rfl | hp
      · exact .inr rfl
      exact .inl hp
  iintro %_ HI
  rw [trips_t1]
  unfold invO
  rw [IdxPart_ge m d L (by decide : ¬ 32 < 32), BufPart_pos m d L (by decide : 0 < 32), show baseRow L + 32 - 1 = baseRow L + 31 from by omega]
  icases HI with ⟨-, Hts, ⟨Hsx, Hf, ⟨%gx0, Hx0⟩⟩, ⟨%gx1, Hx1⟩, Hland, Htodo, ⟨%gA, %gB, HflA, HflB⟩, %W', %hW', HO⟩
  sl_exec
  sl_step
  -- every batch row of the task has landed; the index scratch is whole again
  ihave Hout := (landed_last (F := F) d (baseRow L) hb (outV m d)) $$ [Hland HflA_dst HflB_dst]
  · isplitl [Hland]; · iexact Hland
    isplitl [HflA_dst]; · iexact HflA_dst
    iexact HflB_dst
  ihave Hout' := (Entails.of_eq (show (oLoc d ↦[todo (baseRow L) 0]{fullShare} outV m d : sProp 𝕄) = oLoc d ↦[tileSet (cL L) (sL L)]{fullShare} outV m d from
    congrArg (fun S => (oLoc d ↦[S]{fullShare} outV m d : sProp 𝕄)) (tile_eq_todo (cL L) (sL L)).symm)) $$ Hout
  ihave Hxs := (halves_any (F := F) d L gx0 gx1) $$ [Hx0 Hx1]
  · isplitl [Hx0]; · iexact Hx0
    iexact Hx1
  isplitl [Hf Hr' Hi' Hout']
  · isplitl [Hf Hr' Hi']
    · isplitl [Hf]; · iapply (Entails.of_eq (pts_hbm_f (F := F) d L _ _)); iexact Hf
      isplitl [Hr']; · iapply (Entails.of_eq (pts_hbm_r (F := F) d L _ _)); iexact Hr'
      iapply (Entails.of_eq (pts_hbm_i (F := F) d L _ _)); iexact Hi'
    · iexact Hout'
  isplitl [Hxs Hts Hns HflA_src HflB_src Hbufs]
  · isplitl [Hxs]; · iexact Hxs
    isplitl [Hts]; · iexists _; iexact Hts
    isplitl [Hns]; · iexists _; iexact Hns
    isplitl [HflA_src]; · iexists _; iexact HflA_src
    isplitl [HflB_src]; · iexists _; iexact HflB_src
    iexact Hbufs
  isplitl [HflA HflB Hsx Hsn Hst Hsems]
  · isplitl [HflA]; · iexact HflA
    isplitl [HflB]; · iexact HflB
    isplitl [Hsx]; · iexact Hsx
    isplitl [Hsn]; · iexact Hsn
    isplitl [Hst]; · iexact Hst
    iexact Hsems
  iexists _
  isplitr
  rotate_left
  · iexact HO
  · ipureintro
    intro p hp
    rcases Finset.mem_insert.mp hp with rfl | hp
    · exact .inr rfl
    rcases Finset.mem_insert.mp hp with rfl | hp
    · exact .inr rfl
    exact hW' p hp

end Tile

end Cert.Kernel.Hand

end
-- ==== Proof.OnKernel.Task.lean ====
/-
  From one task to the launch theorem's obligation. The body table runs the kernel function, on vector subcore `s` of
  SparseCore `c` of the call's grid, at the coordinates `(c, s)` over the four arrays whole and the subcore's own scratch;
  the proof of that function at a symbolic coordinate pair is the obligation once the pair is the subcore's: what the
  handshake hands the task — a token of each array every task reads and the thirty-two batch rows
  `64 s + 32 c + t`, `t < 32`, of the result — is what the proof takes, and what the proof gives back, those rows at the
  looked-up array, is what the handshake carries back. The kernel waits only on its own transfers, which leaves the
  waits it records at the index the obligation allows.
-/
import Idealize.ShloMosaic.Lib.SparseCore.Launch
import Idealize.ShloMosaic.Lib.SparseCore.Ops
import Idealize.ShloMosaic.Lib.Pipeline.Kit
import Idealize.ShloMosaic.Lib.Tactic
import proofs.«205739_g2190433321788_cont_8to1_543_10_alg».proof.Proof.OnKernel.Setup
import proofs.«205739_g2190433321788_cont_8to1_543_10_alg».proof.Proof.OnKernel.Body

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
variable [FloatOps F]

-- the kernel's memrefs, spelt as the body table passes them
local notation "fW" => (Memref.whole Cert.Kernel.main_v6_scv : Memref Cert.Kernel.sig Kind.scVector Space.hbm Cert.Kernel.S2097152 EltTy.i32)
local notation "rW" => (Memref.whole Cert.Kernel.main_v4_scv : Memref Cert.Kernel.sig Kind.scVector Space.hbm Cert.Kernel.S8192 EltTy.f32)
local notation "iW" => (Memref.whole Cert.Kernel.main_v5_scv : Memref Cert.Kernel.sig Kind.scVector Space.hbm Cert.Kernel.S16 EltTy.i32)
local notation "oW" => (Memref.whole Cert.Kernel.main_v7_scv : Memref Cert.Kernel.sig Kind.scVector Space.hbm Cert.Kernel.S1024x64x2048 EltTy.f32)
local notation "xS" => (Memref.whole Cert.Kernel.cc0_scratch0 : Memref Cert.Kernel.sig Kind.scVector Space.vmem Cert.Kernel.S4096 EltTy.i32)
local notation "tS" => (Memref.whole Cert.Kernel.cc0_scratch1 : Memref Cert.Kernel.sig Kind.scVector Space.vmem Cert.Kernel.S8192 EltTy.f32)
local notation "nS" => (Memref.whole Cert.Kernel.cc0_scratch2 : Memref Cert.Kernel.sig Kind.scVector Space.vmem Cert.Kernel.S16 EltTy.i32)
local notation "aS" => (Memref.whole Cert.Kernel.cc0_scratch3 : Memref Cert.Kernel.sig Kind.scVector Space.vmem Cert.Kernel.S16x2048 EltTy.f32)
local notation "bS" => (Memref.whole Cert.Kernel.cc0_scratch4 : Memref Cert.Kernel.sig Kind.scVector Space.vmem Cert.Kernel.S16x2048 EltTy.f32)

/-- The coordinates of vector subcore `s` of SparseCore `c` in the call's grid. -/
def coordsV (c : Fin (grid0.bound 0)) (s : Fin (grid0.bound 1)) : grid0.Coords :=
  fun | 0 => c | 1 => s | ⟨_ + 2, h⟩ => absurd h (Nat.not_lt.2 (Nat.le_add_left _ _))

/-- What the body table runs on a vector subcore: the kernel function at the subcore's coordinates. -/
theorem defs₀_vector (c : Fin τ.nSC) (s : Fin τ.nSub) :
    defs₀ (F := F) (.scVector c s) 0 ()
      = SparseCore.onTile hcore0 hsub0 (fun c s => cc0_sc_embed (coordsV c s)
          fW (Memref.isWhole_whole _) rW (Memref.isWhole_whole _) iW (Memref.isWhole_whole _) oW (Memref.isWhole_whole _)
          xS (Memref.isWhole_whole _) tS (Memref.isWhole_whole _) nS (Memref.isWhole_whole _) aS (Memref.isWhole_whole _) bS (Memref.isWhole_whole _)
          cc0_scratch5 cc0_scratch6 cc0_scratch7 cc0_scoped0 cc0_scoped1) ⟨⟩ c s := rfl

/-- Waits recorded at no call's index are among those the obligation allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task obligation of the call: on every vector subcore of the grid, the kernel function's proof at that
    subcore's coordinates. -/
theorem tileObl (hpre : PreOK m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts hpre O W hO).trans (wp_mono frame _ _ fun _ => obl_post)

end Cert.Kernel.Hand

end
-- ==== Proof.OnKernelIdeal.Setup.lean ====
/-
  The lookup kernel as the SparseCore launch theorem sees it: its one call (a task on each of the 2 × 16 vector
  subcores), the ghost state (the launch handshakes' rounds beside the local transfers' counters), the arrays @main
  computes before the call as functions of the two arguments, and what the handshakes carry: every task READS the
  flattened index array, the lane-replicated table and the lane numbers (a share of each, whole), and OWNS the 32
  batch rows of the result it fills — task `(c, s)` the rows `64 s + 32 c + t`, `t < 32` —, which it hands back at
  the looked-up array `Cert.Lookup.gathered`.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205739_g2190433321788_cont_8to1_543_10_alg».proof.Proof.Gen.KernelIdeal
import proofs.«205739_g2190433321788_cont_8to1_543_10_alg».proof.Proof.Gen.KernelIdeal.Skeleton
import proofs.«205739_g2190433321788_cont_8to1_543_10_alg».proof.Proof.Lookup

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays and what @main computes before the call -/

variable (m : (ℓ : Loc nD τ sig) → Buf (Elt F) ℓ) (ρ : Dev nD → PrngReg)

/-- The index array and the table (the arguments); the flattened index array, the lane-replicated table, the lane
    numbers (computed by @main); the result. As locations of device `d`. -/
abbrev xLoc (d : Dev nD) : Loc nD τ sig := (SparseCore.T d).loc main_arg0
abbrev tLoc (d : Dev nD) : Loc nD τ sig := (SparseCore.T d).loc main_arg1
abbrev fLoc (d : Dev nD) : Loc nD τ sig := (SparseCore.T d).loc main_v6
abbrev rLoc (d : Dev nD) : Loc nD τ sig := (SparseCore.T d).loc main_v4
abbrev iLoc (d : Dev nD) : Loc nD τ sig := (SparseCore.T d).loc main_v5
abbrev oLoc (d : Dev nD) : Loc nD τ sig := (SparseCore.T d).loc main_v7

variable [FloatOps F]

/-- The flattened index array: the index array read row by row. -/
def flatV (d : Dev nD) : Buf (Elt F) (fLoc d) := shapeCast S2097152 (m (xLoc d)) shapeCasts_S1024x2048_S2097152
/-- The table with every entry repeated over sixteen lanes, flat: entry `16 k + lane` is the table's `k`-th. -/
def repV (d : Dev nD) : Buf (Elt F) (rLoc d) :=
  shapeCast S8192 (shapeCast S512x16 (broadcastInDim S1x512x16x1 ![0, 1, 2, 3] bcast_S1x512x1x1_S1x512x16x1_0_1_2_3
    (shapeCast S1x512x1x1 (shapeCast S512x1 (m (tLoc d)) shapeCasts_S8x64_S512x1) shapeCasts_S512x1_S1x512x1x1)) shapeCasts_S1x512x16x1_S512x16) shapeCasts_S512x16_S8192
/-- The lane numbers 0 … 15. -/
def iotV (d : Dev nD) : Buf (Elt F) (iLoc d) := iotaInDim S16 32 0
/-- The result: the looked-up array. -/
def outV (d : Dev nD) : Buf (Elt F) (oLoc d) := Cert.Lookup.gathered (m (xLoc d)) (m (tLoc d))

/-- What the proof asks of the launch memory: every index word names a table row. -/
def PreOK : Prop := ∀ (d : Dev nD) (i : S1024x2048.Idx), (m (xLoc d) i).toNat < 8

/-! ## Who owns which rows of the result -/

/-- The batch rows task `(c, s)` fills: `b / 32 = 2 s + c`. -/
def tileSet (c : Fin 2) (s : Fin 16) : Finset S1024x64x2048.Idx :=
  Finset.univ.filter fun j => (j 0).val / 32 = 2 * s.val + c.val
/-- The rows the tasks of SparseCore `c` fill. -/
def coreSet (c : Fin 2) : Finset S1024x64x2048.Idx :=
  Finset.univ.filter fun j => (j 0).val / 32 % 2 = c.val

/-- The read share SparseCore `c` gets of an array every task reads, and task `(c, s)`'s of that. -/
abbrev qCore (c : Fin 2) : PosShare TreeShare := Transfers.shareTok fullShare 2 c
abbrev qTile (c : Fin 2) (s : Fin 16) : PosShare TreeShare := Transfers.shareTok (qCore c) 16 s

/-! ## What the handshakes carry -/

/-- The three arrays every task reads, at share `q`. -/
abbrev readPts (d : Dev nD) (q : PosShare TreeShare) : sProp 𝕄 :=
  iprop((fLoc d ↦{q} flatV m d) ∗ (rLoc d ↦{q} repV m d) ∗ (iLoc d ↦{q} iotV (F := F) d))

def P : (K (F := F)).Pay (nD := nD) (Val := Elt F) (Name := ℕ) (U := UU) where
  st := fun q d c => match q with | 0 => iprop(readPts m d (qCore (Fin.cast nCore_zero c)) ∗ oLoc d ↦[coreSet (Fin.cast nCore_zero c)]{fullShare} m (oLoc d))
  dn := fun q d c => match q with | 0 => iprop(readPts m d (qCore (Fin.cast nCore_zero c)) ∗ oLoc d ↦[coreSet (Fin.cast nCore_zero c)]{fullShare} outV m d)
  go := fun q d c i => match q with | 0 => iprop(readPts m d (qTile (Fin.cast nCore_zero c) (Fin.cast nSub_zero i)) ∗ oLoc d ↦[tileSet (Fin.cast nCore_zero c) (Fin.cast nSub_zero i)]{fullShare} m (oLoc d))
  td := fun q d c i => match q with | 0 => iprop(readPts m d (qTile (Fin.cast nCore_zero c) (Fin.cast nSub_zero i)) ∗ oLoc d ↦[tileSet (Fin.cast nCore_zero c) (Fin.cast nSub_zero i)]{fullShare} outV m d)
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.KernelIdeal.Hand

end
-- ==== Proof.OnKernelIdeal.Dispatch.lean ====
/-
  The launch of the lookup kernel: how the call's operands for a SparseCore split among its sixteen tasks and the
  tasks' results gather (the three arrays every task reads as read shares of one points-to; the result's rows by
  which task fills them), the launch element of the ghost state, @main on the TensorCore (the seven host operations
  that flatten the index array, replicate the table over sixteen lanes and number the lanes; then the call, which
  hands each SparseCore its share of the three read arrays and its half of the result's rows and takes the rows
  back at the looked-up array), how the final memory reads the claim, and the run of the whole program from the
  proof of one task.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Transfers
import Idealize.ShloMosaic.Lib.Tactic
import proofs.«205739_g2190433321788_cont_8to1_543_10_alg».proof.Proof.Gen.KernelIdeal
import proofs.«205739_g2190433321788_cont_8to1_543_10_alg».proof.Proof.Gen.KernelIdeal.Skeleton
import proofs.«205739_g2190433321788_cont_8to1_543_10_alg».proof.Proof.Lookup
import proofs.«205739_g2190433321788_cont_8to1_543_10_alg».proof.Proof.OnKernelIdeal.Setup

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

variable [FloatOps F]

namespace Dispatch

/-! ## The rows of the result: which task fills which -/

/-- A batch row's number is below 1024. -/
theorem row_lt (j : S1024x64x2048.Idx) : (j 0).val < 1024 := (j 0).isLt

theorem mem_tileSet (c : Fin 2) (s : Fin 16) (j : S1024x64x2048.Idx) : j ∈ tileSet c s ↔ (j 0).val / 32 = 2 * s.val + c.val := by
  unfold tileSet; rw [Finset.mem_filter]; exact ⟨fun h => h.2, fun h => ⟨Finset.mem_univ _, h⟩⟩

theorem mem_coreSet (c : Fin 2) (j : S1024x64x2048.Idx) : j ∈ coreSet c ↔ (j 0).val / 32 % 2 = c.val := by
  unfold coreSet; rw [Finset.mem_filter]; exact ⟨fun h => h.2, fun h => ⟨Finset.mem_univ _, h⟩⟩

/-- The rows of a SparseCore are its sixteen tasks' rows: row `b` with `b / 32` of parity `c` is task `b / 64`'s. -/
theorem tiles_cover (c : Fin 2) : (Finset.univ : Finset (Fin 16)).biUnion (tileSet c) = coreSet c := by
  ext j
  have hj := row_lt j
  have hc := c.isLt
  rw [Finset.mem_biUnion, mem_coreSet]
  constructor
  · rintro ⟨s, -, hs⟩
    rw [mem_tileSet] at hs
    omega
  · intro h
    refine ⟨⟨(j 0).val / 64, by omega⟩, Finset.mem_univ _, ?_⟩
    rw [mem_tileSet]
    show (j 0).val / 32 = 2 * ((j 0).val / 64) + c.val
    omega

/-- Two tasks of one SparseCore fill different rows. -/
theorem tiles_disjoint (c : Fin 2) :
    ∀ s ∈ (Finset.univ : Finset (Fin 16)), ∀ s' ∈ (Finset.univ : Finset (Fin 16)), s ≠ s' → Disjoint (tileSet c s) (tileSet c s') := by
  intro s _ s' _ hne
  rw [Finset.disjoint_left]
  intro j h1 h2
  rw [mem_tileSet] at h1 h2
  exact hne (Fin.ext (by omega))

/-- Every row is one of the two SparseCores'. -/
theorem cores_cover : (Finset.univ : Finset S1024x64x2048.Idx) = coreSet 0 ∪ coreSet 1 := by
  ext j
  rw [Finset.mem_union, mem_coreSet, mem_coreSet]
  have e0 : ((0 : Fin 2) : ℕ) = 0 := rfl
  have e1 : ((1 : Fin 2) : ℕ) = 1 := rfl
  rw [e0, e1]
  constructor
  · intro _; omega
  · intro _; exact Finset.mem_univ _

theorem cores_disjoint : Disjoint (coreSet 0) (coreSet 1) := by
  rw [Finset.disjoint_left]
  intro j h0 h1
  rw [mem_coreSet] at h0 h1
  have e0 : ((0 : Fin 2) : ℕ) = 0 := rfl
  have e1 : ((1 : Fin 2) : ℕ) = 1 := rfl
  omega

/-! ## The result's rows and the read shares as points-to -/

/-- A SparseCore's rows of the result are its tasks' rows, task by task. -/
theorem oPts_tiles (d : Dev nD) (c : Fin 2) (f : Buf (Elt F) (oLoc d)) :
    (oLoc d ↦[coreSet c]{fullShare} f : sProp 𝕄) = bigSep Finset.univ fun s : Fin 16 => oLoc d ↦[tileSet c s]{fullShare} f := by
  rw [← pointsTo_biUnion Finset.univ (ℓ := oLoc d) (tileSet c) (tiles_disjoint c), tiles_cover]

/-- The whole result is the two SparseCores' rows. -/
theorem oPts_cores (d : Dev nD) (f : Buf (Elt F) (oLoc d)) :
    (oLoc d ↦{fullShare} f : sProp 𝕄) ⊣⊢ iprop((oLoc d ↦[coreSet 0]{fullShare} f) ∗ oLoc d ↦[coreSet 1]{fullShare} f) := by
  have h : (oLoc d ↦[coreSet 0 ∪ coreSet 1]{fullShare} f : sProp 𝕄) ⊣⊢ iprop((oLoc d ↦[coreSet 0]{fullShare} f) ∗ oLoc d ↦[coreSet 1]{fullShare} f) :=
    pointsTo_union cores_disjoint
  have e : (oLoc d ↦{fullShare} f : sProp 𝕄) = (oLoc d ↦[coreSet 0 ∪ coreSet 1]{fullShare} f) :=
    congrArg (fun I : Finset S1024x64x2048.Idx => (oLoc d ↦[I]{fullShare} f : sProp 𝕄)) cores_cover
  rw [e]; exact h

/-! ## The arrays every task reads: a share split into tokens, and joined back -/

/-- The three read arrays at share `q` are what remains after `n` tokens and the `n` tokens. -/
theorem read_split (d : Dev nD) (q : PosShare TreeShare) (n : ℕ) :
    readPts m d q ⊢ iprop(readPts m d (Transfers.shareDrop q n) ∗ bigSep Finset.univ fun i : Fin n => readPts m d (Transfers.shareTok q n i)) := by
  unfold readPts
  rw [bigSep_sep', bigSep_sep']
  iintro ⟨Hf, Hr, Hi⟩
  ihave Hf' := (Transfers.pointsTo_toks_split (ℓ := fLoc d) (S := Finset.univ) (f := flatV m d) q n) $$ Hf
  ihave Hr' := (Transfers.pointsTo_toks_split (ℓ := rLoc d) (S := Finset.univ) (f := repV m d) q n) $$ Hr
  ihave Hi' := (Transfers.pointsTo_toks_split (ℓ := iLoc d) (S := Finset.univ) (f := iotV (F := F) d) q n) $$ Hi
  icases Hf' with ⟨Hfd, Hft⟩
  icases Hr' with ⟨Hrd, Hrt⟩
  icases Hi' with ⟨Hid, Hit⟩
  isplitl [Hfd Hrd Hid]
  · isplitl [Hfd]; · iexact Hfd
    isplitl [Hrd]; · iexact Hrd
    iexact Hid
  isplitl [Hft]; · iexact Hft
  isplitl [Hrt]; · iexact Hrt
  iexact Hit

theorem read_join (d : Dev nD) (q : PosShare TreeShare) (n : ℕ) :
    iprop(readPts m d (Transfers.shareDrop q n) ∗ bigSep Finset.univ fun i : Fin n => readPts m d (Transfers.shareTok q n i)) ⊢ readPts m d q := by
  unfold readPts
  rw [bigSep_sep', bigSep_sep']
  iintro ⟨⟨Hfd, Hrd, Hid⟩, Hft, Hrt, Hit⟩
  isplitl [Hfd Hft]
  · iapply (Transfers.pointsTo_toks_join (ℓ := fLoc d) (S := Finset.univ) (f := flatV m d) q n)
    isplitl [Hfd]; · iexact Hfd
    iexact Hft
  isplitl [Hrd Hrt]
  · iapply (Transfers.pointsTo_toks_join (ℓ := rLoc d) (S := Finset.univ) (f := repV m d) q n)
    isplitl [Hrd]; · iexact Hrd
    iexact Hrt
  iapply (Transfers.pointsTo_toks_join (ℓ := iLoc d) (S := Finset.univ) (f := iotV (F := F) d) q n)
  isplitl [Hid]; · iexact Hid
  iexact Hit

/-! ## A SparseCore's operands among its sixteen tasks -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- SparseCore `c`'s share of the read arrays goes out as sixteen tokens (what remains of it stays behind, and comes
    back with them), its rows of the result task by task. -/
theorem vecSplit_core (d : Dev nD) (c : Fin 2) :
    iprop(readPts m d (qCore c) ∗ oLoc d ↦[coreSet c]{fullShare} m (oLoc d)) ⊢ |={Set.univ}=> iprop(
      (bigSep Finset.univ fun s : Fin 16 => iprop(readPts m d (qTile c s) ∗ oLoc d ↦[tileSet c s]{fullShare} m (oLoc d)))
      ∗ ((bigSep Finset.univ fun s : Fin 16 => iprop(readPts m d (qTile c s) ∗ oLoc d ↦[tileSet c s]{fullShare} outV m d))
          -∗ iprop(readPts m d (qCore c) ∗ oLoc d ↦[coreSet c]{fullShare} outV m d))) := by
  rw [bigSep_sep' Finset.univ (fun s : Fin 16 => readPts m d (qTile c s)) (fun s : Fin 16 => oLoc d ↦[tileSet c s]{fullShare} m (oLoc d)),
    bigSep_sep' Finset.univ (fun s : Fin 16 => readPts m d (qTile c s)) (fun s : Fin 16 => oLoc d ↦[tileSet c s]{fullShare} outV m d),
    oPts_tiles, oPts_tiles]
  iintro ⟨Hr, Ho⟩
  ihave Hr' := (read_split m d (qCore c) 16) $$ Hr
  icases Hr' with ⟨Hd, Ht⟩
  imodintro
  isplitl [Ht Ho]
  · isplitl [Ht]; · iexact Ht
    iexact Ho
  iintro ⟨Ht, Ho⟩
  isplitl [Hd Ht]
  · iapply (read_join m d (qCore c) 16)
    isplitl [Hd]; · iexact Hd
    iexact Ht
  iexact Ho

theorem bigSep_emp' {I : Type} (s : Finset I) : (bigSep s fun _ => iprop(emp)) = (iprop(emp) : sProp 𝕄) := bigSep_emp_const s

/-! ## @main on the TensorCore -/

abbrev x' : DevRef τ sig := Proc.devRef .tc (main_arg0 : Ref sig .tc)
abbrev t' : DevRef τ sig := Proc.devRef .tc (main_arg1 : Ref sig .tc)
abbrev a0' : DevRef τ sig := Proc.devRef .tc (main_v0 : Ref sig .tc)
abbrev a1' : DevRef τ sig := Proc.devRef .tc (main_v1 : Ref sig .tc)
abbrev a2' : DevRef τ sig := Proc.devRef .tc (main_v2 : Ref sig .tc)
abbrev a3' : DevRef τ sig := Proc.devRef .tc (main_v3 : Ref sig .tc)
abbrev r' : DevRef τ sig := Proc.devRef .tc (main_v4 : Ref sig .tc)
abbrev i' : DevRef τ sig := Proc.devRef .tc (main_v5 : Ref sig .tc)
abbrev f' : DevRef τ sig := Proc.devRef .tc (main_v6 : Ref sig .tc)
abbrev o' : DevRef τ sig := Proc.devRef .tc (main_v7 : Ref sig .tc)

/-- The seven host operations before the call: the table flattened to a column, given two unit axes, repeated over
    sixteen lanes, and flattened again in two steps; the lane numbers; the index array flattened. -/
abbrev op0 : HloOp τ sig (Elt F) := StableHlo.reshape main_arg1 main_v0 rfl shapeCasts_S8x64_S512x1
abbrev op1 : HloOp τ sig (Elt F) := StableHlo.reshape main_v0 main_v1 rfl shapeCasts_S512x1_S1x512x1x1
abbrev op2 : HloOp τ sig (Elt F) := StableHlo.unary main_v1 main_v2
  (broadcastInDim S1x512x16x1 ![0, 1, 2, 3] bcast_S1x512x1x1_S1x512x16x1_0_1_2_3 : (⟨S1x512x1x1, .f32⟩ : BufTy).Contents (Elt F) → (⟨S1x512x16x1, .f32⟩ : BufTy).Contents (Elt F))
abbrev op3 : HloOp τ sig (Elt F) := StableHlo.reshape main_v2 main_v3 rfl shapeCasts_S1x512x16x1_S512x16
abbrev op4 : HloOp τ sig (Elt F) := StableHlo.reshape main_v3 main_v4 rfl shapeCasts_S512x16_S8192
abbrev op5 : HloOp τ sig (Elt F) := StableHlo.nullary main_v5 (iotaInDim S16 32 0)
abbrev op6 : HloOp τ sig (Elt F) := StableHlo.reshape main_arg0 main_v6 rfl shapeCasts_S1024x2048_S2097152

/-- The TensorCore's arrays, all unscoped. -/
abbrev S10 : Finset (DevRef τ sig) := {x', t', a0', a1', a2', a3', r', i', f', o'}

theorem held_S10 (d : Dev nD) (W : Valuation τ sig (Elt F)) :
    (held (T d) S10 W : sProp 𝕄)
      = iprop((xLoc d ↦{fullShare} W x') ∗ (tLoc d ↦{fullShare} W t') ∗ ((SparseCore.T d).loc main_v0 ↦{fullShare} W a0')
          ∗ ((SparseCore.T d).loc main_v1 ↦{fullShare} W a1') ∗ ((SparseCore.T d).loc main_v2 ↦{fullShare} W a2')
          ∗ ((SparseCore.T d).loc main_v3 ↦{fullShare} W a3') ∗ (rLoc d ↦{fullShare} W r') ∗ (iLoc d ↦{fullShare} W i')
          ∗ (fLoc d ↦{fullShare} W f') ∗ oLoc d ↦{fullShare} W o') := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((xLoc d ↦{fullShare} W main_arg0) ∗ (tLoc d ↦{fullShare} W main_arg1) ∗ ((SparseCore.T d).loc main_v0 ↦{fullShare} W main_v0)
          ∗ ((SparseCore.T d).loc main_v1 ↦{fullShare} W main_v1) ∗ ((SparseCore.T d).loc main_v2 ↦{fullShare} W main_v2)
          ∗ ((SparseCore.T d).loc main_v3 ↦{fullShare} W main_v3) ∗ (rLoc d ↦{fullShare} W main_v4) ∗ (iLoc d ↦{fullShare} W main_v5)
          ∗ (fLoc d ↦{fullShare} W main_v6) ∗ oLoc d ↦{fullShare} W main_v7) := by
  unfold unscopedBufs
  rw [show (Finset.univ.filter fun b : Ref sig .tc => ¬ b.isScoped)
      = {main_arg0, main_arg1, main_v0, main_v1, main_v2, main_v3, main_v4, main_v5, main_v6, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and the valuation at the call: the seven operations' results. -/
def V0 (d : Dev nD) : Valuation τ sig (Elt F) := fun b => m (d, b)
abbrev ops7 : List (HloOp τ sig (Elt F)) := [op0, op1, op2, op3, op4, op5, op6]
def V7 (d : Dev nD) : Valuation τ sig (Elt F) := StableHlo.after ops7 (V0 m d)

theorem unscoped_held (d : Dev nD) : (unscopedBufs d (fun b => m ((SparseCore.T d).loc b)) : sProp 𝕄) = held (T d) S10 (V0 m d) := by
  rw [unscopedBufs_eq, held_S10]; rfl

theorem V7_x (d : Dev nD) : V7 m d x' = m (xLoc d) := by
  unfold V7 ops7; after_results; rfl
theorem V7_t (d : Dev nD) : V7 m d t' = m (tLoc d) := by
  unfold V7 ops7; after_results; rfl
theorem V7_o (d : Dev nD) : V7 m d o' = m (oLoc d) := by
  unfold V7 ops7; after_results; rfl
theorem V7_f (d : Dev nD) : V7 m d f' = flatV m d := by
  unfold V7 ops7; after_results; rfl
theorem V7_i (d : Dev nD) : V7 m d i' = iotV (F := F) d := by
  unfold V7 ops7; after_results; rfl
theorem V7_r (d : Dev nD) : V7 m d r' = repV m d := by
  unfold V7 ops7; after_results; rfl

/-- The ten arrays at the call: the arguments and the result at their launch contents, the flattened index array,
    the lane-replicated table and the lane numbers computed. -/
theorem held_V7 (d : Dev nD) :
    (held (T d) S10 ((op6 (F := F)).result ((op5 (F := F)).result ((op4 (F := F)).result ((op3 (F := F)).result
        ((op2 (F := F)).result ((op1 (F := F)).result ((op0 (F := F)).result (V0 m d)))))))) : sProp 𝕄)
      = iprop((xLoc d ↦{fullShare} m (xLoc d)) ∗ (tLoc d ↦{fullShare} m (tLoc d)) ∗ ((SparseCore.T d).loc main_v0 ↦{fullShare} V7 m d a0')
          ∗ ((SparseCore.T d).loc main_v1 ↦{fullShare} V7 m d a1') ∗ ((SparseCore.T d).loc main_v2 ↦{fullShare} V7 m d a2')
          ∗ ((SparseCore.T d).loc main_v3 ↦{fullShare} V7 m d a3') ∗ (rLoc d ↦{fullShare} repV m d) ∗ (iLoc d ↦{fullShare} iotV (F := F) d)
          ∗ (fLoc d ↦{fullShare} flatV m d) ∗ oLoc d ↦{fullShare} m (oLoc d)) := by
  show held (SparseCore.T d) S10 (V7 m d) = _
  rw [held_S10, V7_x, V7_t, V7_r, V7_i, V7_f, V7_o]

theorem h0 : (op0 (F := F)).bufs ⊆ S10 := show ({t', a0'} : Finset (DevRef τ sig)) ⊆ S10 by decide
theorem h1 : (op1 (F := F)).bufs ⊆ S10 := show ({a0', a1'} : Finset (DevRef τ sig)) ⊆ S10 by decide
theorem h2 : (op2 (F := F)).bufs ⊆ S10 := show ({a1', a2'} : Finset (DevRef τ sig)) ⊆ S10 by decide
theorem h3 : (op3 (F := F)).bufs ⊆ S10 := show ({a2', a3'} : Finset (DevRef τ sig)) ⊆ S10 by decide
theorem h4 : (op4 (F := F)).bufs ⊆ S10 := show ({a3', r'} : Finset (DevRef τ sig)) ⊆ S10 by decide
theorem h5 : (op5 (F := F)).bufs ⊆ S10 := show ({i'} : Finset (DevRef τ sig)) ⊆ S10 by decide
theorem h6 : (op6 (F := F)).bufs ⊆ S10 := show ({x', f'} : Finset (DevRef τ sig)) ⊆ S10 by decide

/-- What the call takes for the two SparseCores, and what it hands back. -/
theorem st0_eq (d : Dev nD) : (bigSep Finset.univ fun c : Fin ((K (F := F)).nCore 0) => (P m).st 0 d c)
    = iprop((readPts m d (qCore 0) ∗ oLoc d ↦[coreSet 0]{fullShare} m (oLoc d)) ∗ (readPts m d (qCore 1) ∗ oLoc d ↦[coreSet 1]{fullShare} m (oLoc d))) := by
  show (bigSep (Finset.univ : Finset (Fin 2)) fun c => iprop(readPts m d (qCore c) ∗ oLoc d ↦[coreSet c]{fullShare} m (oLoc d))) = _
  rw [bigSep_univ_two]
theorem dn0_eq (d : Dev nD) : (bigSep Finset.univ fun c : Fin ((K (F := F)).nCore 0) => (P m).dn 0 d c)
    = iprop((readPts m d (qCore 0) ∗ oLoc d ↦[coreSet 0]{fullShare} outV m d) ∗ (readPts m d (qCore 1) ∗ oLoc d ↦[coreSet 1]{fullShare} outV m d)) := by
  show (bigSep (Finset.univ : Finset (Fin 2)) fun c => iprop(readPts m d (qCore c) ∗ oLoc d ↦[coreSet c]{fullShare} outV m d)) = _
  rw [bigSep_univ_two]

/-- The read arrays whole go out as one token per SparseCore (what remains is set aside), the result as the two
    SparseCores' rows. -/
theorem cores_split (d : Dev nD) (g : Buf (Elt F) (oLoc d)) :
    iprop(readPts m d fullShare ∗ oLoc d ↦{fullShare} g)
      ⊢ iprop((readPts m d (qCore 0) ∗ oLoc d ↦[coreSet 0]{fullShare} g) ∗ (readPts m d (qCore 1) ∗ oLoc d ↦[coreSet 1]{fullShare} g)) := by
  iintro ⟨Hr, Ho⟩
  ihave Hr' := (read_split m d fullShare 2) $$ Hr
  rw [bigSep_univ_two]
  icases Hr' with ⟨-, Hr0, Hr1⟩
  ihave Ho' := ((oPts_cores (F := F) d g).1) $$ Ho
  icases Ho' with ⟨Ho0, Ho1⟩
  isplitl [Hr0 Ho0]
  · isplitl [Hr0]; · iexact Hr0
    iexact Ho0
  isplitl [Hr1]; · iexact Hr1
  iexact Ho1

/-- The two SparseCores' rows of the result, back at one array, are the result whole. -/
theorem cores_join (d : Dev nD) (g : Buf (Elt F) (oLoc d)) :
    iprop((readPts m d (qCore 0) ∗ oLoc d ↦[coreSet 0]{fullShare} g) ∗ (readPts m d (qCore 1) ∗ oLoc d ↦[coreSet 1]{fullShare} g))
      ⊢ (oLoc d ↦{fullShare} g : sProp 𝕄) := by
  iintro ⟨⟨-, Ho0⟩, -, Ho1⟩
  iapply ((oPts_cores (F := F) d g).2)
  isplitl [Ho0]; · iexact Ho0
  iexact Ho1

end Dispatch

open Dispatch
theorem vecSplit : (K (F := F)).VecSplit' (P m) 0 := by
  intro d c
  show iprop(readPts m d (qCore (Fin.cast nCore_zero c)) ∗ oLoc d ↦[coreSet (Fin.cast nCore_zero c)]{fullShare} m (oLoc d)) ⊢ |={Set.univ}=> iprop(
      (bigSep Finset.univ fun i : Fin ((K (F := F)).nSub 0) =>
        iprop(readPts m d (qTile (Fin.cast nCore_zero c) (Fin.cast nSub_zero i)) ∗ oLoc d ↦[tileSet (Fin.cast nCore_zero c) (Fin.cast nSub_zero i)]{fullShare} m (oLoc d)))
      ∗ ((bigSep Finset.univ fun i : Fin ((K (F := F)).nSub 0) =>
          iprop(readPts m d (qTile (Fin.cast nCore_zero c) (Fin.cast nSub_zero i)) ∗ oLoc d ↦[tileSet (Fin.cast nCore_zero c) (Fin.cast nSub_zero i)]{fullShare} outV m d))
          -∗ iprop(readPts m d (qCore (Fin.cast nCore_zero c)) ∗ oLoc d ↦[coreSet (Fin.cast nCore_zero c)]{fullShare} outV m d)))
  rw [bigSep_tasks (F := F) (fun s => iprop(readPts m d (qTile (Fin.cast nCore_zero c) s) ∗ oLoc d ↦[tileSet (Fin.cast nCore_zero c) s]{fullShare} m (oLoc d))),
    bigSep_tasks (F := F) (fun s => iprop(readPts m d (qTile (Fin.cast nCore_zero c) s) ∗ oLoc d ↦[tileSet (Fin.cast nCore_zero c) s]{fullShare} outV m d))]
  exact vecSplit_core m d (Fin.cast nCore_zero c)

/-! ## The launch element: the handshakes' rounds; the kernel's transfers keep their own counters -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- What @main leaves the claim: the result at the looked-up array, the arguments at their launch contents. -/
abbrev FIN (d : Dev nD) : sProp 𝕄 :=
  iprop((oLoc d ↦{fullShare} outV m d) ∗ (xLoc d ↦{fullShare} m (xLoc d)) ∗ (tLoc d ↦{fullShare} m (tLoc d)))

/-- @main on device `d`'s TensorCore: the seven host operations over the ten arrays held whole, then the call, from
    the three computed arrays (a token each per SparseCore) and the result (each SparseCore its rows); the result comes
    back at the looked-up array; the arguments were never lent. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := op0) (S := S10) h0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S10) h1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := S10) h2 (V := (op1 (F := F)).result ((op0 (F := F)).result (V0 m d)))) $$ [Hb Hheld]
  · isplitl [Hb] <;> iassumption
  iintro ⟨Hb, Hheld⟩
  rw [wp_ret]; imodintro
  iapply (wp_hlo_within 𝒱 (SparseCore.T d) none Set.univ (op := op3) (S := S10) h3
    (V := (op2 (F := F)).result ((op1 (F := F)).result ((op0 (F := F)).result (V0 m d))))) $$ [Hb Hheld]
  · isplitl [Hb] <;> iassumption
  iintro ⟨Hb, Hheld⟩
  rw [wp_ret]; imodintro
  iapply (wp_hlo_within 𝒱 (SparseCore.T d) none Set.univ (op := op4) (S := S10) h4
    (V := (op3 (F := F)).result ((op2 (F := F)).result ((op1 (F := F)).result ((op0 (F := F)).result (V0 m d)))))) $$ [Hb Hheld]
  · isplitl [Hb] <;> iassumption
  iintro ⟨Hb, Hheld⟩
  rw [wp_ret]; imodintro
  iapply (wp_hlo_within 𝒱 (SparseCore.T d) none Set.univ (op := op5) (S := S10) h5
    (V := (op4 (F := F)).result ((op3 (F := F)).result ((op2 (F := F)).result ((op1 (F := F)).result ((op0 (F := F)).result (V0 m d))))))) $$ [Hb Hheld]
  · isplitl [Hb] <;> iassumption
  iintro ⟨Hb, Hheld⟩
  rw [wp_ret]; imodintro
  iapply (wp_hlo_within 𝒱 (SparseCore.T d) none Set.univ (op := op6) (S := S10) h6
    (V := (op5 (F := F)).result ((op4 (F := F)).result ((op3 (F := F)).result ((op2 (F := F)).result ((op1 (F := F)).result ((op0 (F := F)).result (V0 m d)))))))) $$ [Hb Hheld]
  · isplitl [Hb] <;> iassumption
  iintro ⟨Hb, Hheld⟩
  rw [wp_ret]; imodintro
  -- the call: a token of each read array and its rows of the result to each SparseCore, and back
  ihave Hh := (Entails.of_eq (held_V7 (F := F) m d)) $$ Hheld
  icases Hh with ⟨Hx, Ht, -, -, -, -, Hr, Hi, Hf, Ho⟩
  iapply ((K (F := F)).wp_run (D (F := F)) 𝒱 (EH := EH) (P := P m) κ d 0) $$ [Hst Hx Ht Hr Hi Hf Ho]
  isplitr; · iexact Hctx
  isplitl [Hst]; · iexact Hst
  isplitl [Hr Hi Hf Ho]
  · rw [st0_eq]
    iapply (cores_split m d (m (oLoc d)))
    isplitl [Hf Hr Hi]
    · isplitl [Hf]; · iexact Hf
      isplitl [Hr]; · iexact Hr
      iexact Hi
    iexact Ho
  iintro ⟨Hst, Hdn⟩
  ihave Hdn' := (Entails.of_eq (dn0_eq m d)) $$ Hdn
  ihave Ho := (cores_join m d (outV m d)) $$ Hdn'
  imodintro
  isplitl [Hst]; · iexact Hst
  isplitl [Ho]; · iexact Ho
  isplitl [Hx]; · iexact Hx
  iexact Ht

def fq (d : Dev nD) (s' : Phys nD τ sig (Elt F)) : Prop :=
  s'.mem.mem (oLoc d) = outV m d ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Ho, Hx, Ht⟩, HSI⟩
  ihave H := (persistent_entails_right (SI_pointsTo_agree (st := s') (ℓ := oLoc d) (I := Finset.univ) (q := fullShare) (f := outV m d))) $$ [HSI Ho]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := tLoc d) (I := Finset.univ) (q := fullShare) (f := m (tLoc d))) $$ [HSI Ht]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩
      (fun r => ∀ c : Dev nD, r.2.mem (oLoc c) = outV m c ∧ r.2.mem (xLoc c) = m (xLoc c) ∧ r.2.mem (tLoc c) = m (tLoc c)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m)
    (fun r => ∀ c : Dev nD, r.2.mem (oLoc c) = outV m c ∧ r.2.mem (xLoc c) = m (xLoc c) ∧ r.2.mem (tLoc c) = m (tLoc c)) (fun _ h => h)

end Cert.KernelIdeal.Hand

end
-- ==== Proof.OnKernelIdeal.Regions.lean ====
/-
  The regions of the result a vector subcore's task passes through, as sets of indices, and how a points-to over one of
  them splits. A task owns 32 batch rows of the `[1024, 64, 2048]` result, rows `base … base + 31`. It fills them one
  quarter-row at a time — a block: the 16 features `16 q … 16 q + 15` of one batch row, all 2048 positions. After `k`
  steps the rows still to fill are `base + k … base + 31` (`todo`); the part already written back (`landed`) trails
  by half a row: all of the rows before `base + k - 1` and the first 32 features of row `base + k - 1`. Each statement
  is an equation between index sets — a membership computation on the three coordinates — carried to the points-to by
  the rule that a points-to over a disjoint union is the separating conjunction of the points-to's over the parts.
  The index scratch of 4096 words is used as two halves of 2048, half `p % 2` at step `p`.
-/
import proofs.«205739_g2190433321788_cont_8to1_543_10_alg».proof.Proof.OnKernelIdeal.Setup

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## The index sets -/

/-- A block: the 16 features `16 q … 16 q + 15` of batch row `b`, every position. -/
def blkSet (b q : ℕ) : Finset S1024x64x2048.Idx := Finset.univ.filter fun j => (j 0).val = b ∧ (j 1).val / 16 = q
/-- Written back after `k` steps: the rows from `base` to before `base + k - 1`, and the first 32 features of row `base + k - 1`. -/
def landed (base k : ℕ) : Finset S1024x64x2048.Idx :=
  Finset.univ.filter fun j => base ≤ (j 0).val ∧ ((j 0).val + 1 < base + k ∨ ((j 0).val + 1 = base + k ∧ (j 1).val < 32))
/-- Still to fill after `k` steps: the rows `base + k … base + 31`. -/
def todo (base k : ℕ) : Finset S1024x64x2048.Idx := Finset.univ.filter fun j => base + k ≤ (j 0).val ∧ (j 0).val < base + 32
/-- Half `p % 2` of the 4096-word index scratch. -/
def halfSet (p : ℕ) : Finset S4096.Idx := Finset.univ.filter fun j => (j 0).val / 2048 = p % 2

theorem mem_blkSet {b q : ℕ} {j : S1024x64x2048.Idx} : j ∈ blkSet b q ↔ (j 0).val = b ∧ (j 1).val / 16 = q := by
  simp only [blkSet, Finset.mem_filter, Finset.mem_univ, true_and]
theorem mem_landed {base k : ℕ} {j : S1024x64x2048.Idx} :
    j ∈ landed base k ↔ base ≤ (j 0).val ∧ ((j 0).val + 1 < base + k ∨ ((j 0).val + 1 = base + k ∧ (j 1).val < 32)) := by
  simp only [landed, Finset.mem_filter, Finset.mem_univ, true_and]
theorem mem_todo {base k : ℕ} {j : S1024x64x2048.Idx} : j ∈ todo base k ↔ base + k ≤ (j 0).val ∧ (j 0).val < base + 32 := by
  simp only [todo, Finset.mem_filter, Finset.mem_univ, true_and]
theorem mem_halfSet {p : ℕ} {j : S4096.Idx} : j ∈ halfSet p ↔ (j 0).val / 2048 = p % 2 := by
  simp only [halfSet, Finset.mem_filter, Finset.mem_univ, true_and]
theorem mem_tileSet {c : Fin 2} {s : Fin 16} {j : S1024x64x2048.Idx} : j ∈ tileSet c s ↔ (j 0).val / 32 = 2 * s.val + c.val := by
  simp only [tileSet, Finset.mem_filter, Finset.mem_univ, true_and]

/-- A feature coordinate is below 64. -/
theorem feat_lt (j : S1024x64x2048.Idx) : (j 1).val < 64 := (j 1).isLt

/-! ## A points-to over a disjoint union -/

section Split
variable {ℓ : Loc nD τ sig} {q : PosShare TreeShare} {f : Buf (Elt F) ℓ}

/-- A points-to over a set that is the disjoint union of two sets is the two points-to's. -/
theorem pts_split {I A B : Finset (Idx ℓ)} (h : ∀ j, j ∈ I ↔ (j ∈ A ∨ j ∈ B)) (hd : ∀ j, j ∈ A → j ∈ B → False) :
    (ℓ ↦[I]{q} f : sProp 𝕄) = iprop((ℓ ↦[A]{q} f) ∗ ℓ ↦[B]{q} f) := by
  have e : I = A ∪ B := Finset.ext fun j => by rw [h j, Finset.mem_union]
  have d : Disjoint A B := Finset.disjoint_left.mpr fun j ha hb => hd j ha hb
  rw [e]
  exact BI.equiv_iff.mp ⟨(pointsTo_union d).1, (pointsTo_union d).2⟩

/-- A points-to over a set with no element is `emp`. -/
theorem pts_none {I : Finset (Idx ℓ)} (h : ∀ j, j ∈ I → False) : (ℓ ↦[I]{q} f : sProp 𝕄) = iprop(emp) := by
  have e : I = ∅ := Finset.eq_empty_of_forall_notMem fun j hj => h j hj
  rw [e]
  exact pointsTo_empty

end Split

/-! ## The rows a task owns -/

/-- Task `(c, s)`'s rows are the 32 rows from `64 s + 32 c`. -/
theorem tile_eq_todo (c : Fin 2) (s : Fin 16) : tileSet c s = todo (64 * s.val + 32 * c.val) 0 := by
  ext j
  rw [mem_tileSet, mem_todo]
  omega

/-- The rows to fill from step `k`, with row `base + k` from its `i`-th block on. -/
def todoFrom (base k i : ℕ) : Finset S1024x64x2048.Idx :=
  Finset.univ.filter fun j => ((j 0).val = base + k ∧ i ≤ (j 1).val / 16) ∨ (base + k + 1 ≤ (j 0).val ∧ (j 0).val < base + 32)
theorem mem_todoFrom {base k i : ℕ} {j : S1024x64x2048.Idx} :
    j ∈ todoFrom base k i ↔ ((j 0).val = base + k ∧ i ≤ (j 1).val / 16) ∨ (base + k + 1 ≤ (j 0).val ∧ (j 0).val < base + 32) := by
  simp only [todoFrom, Finset.mem_filter, Finset.mem_univ, true_and]

variable (d : Dev nD)

theorem todoFrom_step (base k i : ℕ) (f : Buf (Elt F) (oLoc d)) :
    (oLoc d ↦[todoFrom base k i]{fullShare} f : sProp 𝕄)
      = iprop((oLoc d ↦[blkSet (base + k) i]{fullShare} f) ∗ (oLoc d ↦[todoFrom base k (i + 1)]{fullShare} f)) := by
  refine pts_split (fun j => ?_) (fun j => ?_)
  · rw [mem_todoFrom, mem_todoFrom, mem_blkSet]; omega
  · rw [mem_todoFrom, mem_blkSet]; omega

/-- Step `k` takes the four blocks of row `base + k` out of the rows still to fill. -/
theorem todo_split (base k : ℕ) (hk : k < 32) (hb : base + 32 ≤ 1024) (f : Buf (Elt F) (oLoc d)) :
    (oLoc d ↦[todo base k]{fullShare} f : sProp 𝕄)
      ⊣⊢ iprop((oLoc d ↦[blkSet (base + k) 0]{fullShare} f) ∗ (oLoc d ↦[blkSet (base + k) 1]{fullShare} f)
          ∗ (oLoc d ↦[blkSet (base + k) 2]{fullShare} f) ∗ (oLoc d ↦[blkSet (base + k) 3]{fullShare} f)
          ∗ (oLoc d ↦[todo base (k + 1)]{fullShare} f)) := by
  have e0 : todo base k = todoFrom base k 0 := by
    ext j; rw [mem_todo, mem_todoFrom]; omega
  have e4 : todoFrom base k 4 = todo base (k + 1) := by
    ext j; rw [mem_todo, mem_todoFrom]; have := feat_lt j; omega
  rw [e0, todoFrom_step, todoFrom_step, todoFrom_step, todoFrom_step, e4]

/-! ## What has been written back -/

/-- Nothing has been written back before the first step. -/
theorem landed_zero (base : ℕ) (f : Buf (Elt F) (oLoc d)) :
    (oLoc d ↦[landed base 0]{fullShare} f : sProp 𝕄) ⊣⊢ iprop(emp) :=
  BiEntails.of_eq (pts_none fun j hj => by rw [mem_landed] at hj; omega)

/-- From step `k` to step `k + 1` the second half of row `base + k - 1` and the first half of row `base + k` land. -/
theorem landed_succ_eq (base k : ℕ) (hk : 0 < k) (f : Buf (Elt F) (oLoc d)) :
    (oLoc d ↦[landed base (k + 1)]{fullShare} f : sProp 𝕄)
      = iprop((oLoc d ↦[landed base k]{fullShare} f) ∗ (oLoc d ↦[blkSet (base + k - 1) 2]{fullShare} f)
          ∗ (oLoc d ↦[blkSet (base + k - 1) 3]{fullShare} f) ∗ (oLoc d ↦[blkSet (base + k) 0]{fullShare} f)
          ∗ (oLoc d ↦[blkSet (base + k) 1]{fullShare} f)) := by
  -- the set grows by one block at a time: `landed base k` with `i` more blocks, in the order 2, 3 of the old row, 0, 1 of the new
  let R1 : Finset S1024x64x2048.Idx := Finset.univ.filter fun j =>
    ((j 0).val = base + k - 1 ∧ (j 1).val / 16 = 3) ∨ ((j 0).val = base + k ∧ (j 1).val / 16 ≤ 1)
  let R2 : Finset S1024x64x2048.Idx := Finset.univ.filter fun j => (j 0).val = base + k ∧ (j 1).val / 16 ≤ 1
  let R3 : Finset S1024x64x2048.Idx := Finset.univ.filter fun j =>
    ((j 0).val = base + k - 1 ∧ 2 ≤ (j 1).val / 16) ∨ ((j 0).val = base + k ∧ (j 1).val / 16 ≤ 1)
  have m1 : ∀ j, j ∈ R1 ↔ ((j 0).val = base + k - 1 ∧ (j 1).val / 16 = 3) ∨ ((j 0).val = base + k ∧ (j 1).val / 16 ≤ 1) :=
    fun j => by simp only [R1, Finset.mem_filter, Finset.mem_univ, true_and]
  have m2 : ∀ j, j ∈ R2 ↔ (j 0).val = base + k ∧ (j 1).val / 16 ≤ 1 :=
    fun j => by simp only [R2, Finset.mem_filter, Finset.mem_univ, true_and]
  have m3 : ∀ j, j ∈ R3 ↔ ((j 0).val = base + k - 1 ∧ 2 ≤ (j 1).val / 16) ∨ ((j 0).val = base + k ∧ (j 1).val / 16 ≤ 1) :=
    fun j => by simp only [R3, Finset.mem_filter, Finset.mem_univ, true_and]
  have s0 : (oLoc d ↦[landed base (k + 1)]{fullShare} f : sProp 𝕄)
      = iprop((oLoc d ↦[landed base k]{fullShare} f) ∗ (oLoc d ↦[R3]{fullShare} f)) :=
    pts_split (fun j => by rw [mem_landed, mem_landed, m3]; have := feat_lt j; omega)
      (fun j => by rw [mem_landed, m3]; omega)
  have s1 : (oLoc d ↦[R3]{fullShare} f : sProp 𝕄)
      = iprop((oLoc d ↦[blkSet (base + k - 1) 2]{fullShare} f) ∗ (oLoc d ↦[R1]{fullShare} f)) :=
    pts_split (fun j => by rw [m3, m1, mem_blkSet]; have := feat_lt j; omega)
      (fun j => by rw [m1, mem_blkSet]; omega)
  have s2 : (oLoc d ↦[R1]{fullShare} f : sProp 𝕄)
      = iprop((oLoc d ↦[blkSet (base + k - 1) 3]{fullShare} f) ∗ (oLoc d ↦[R2]{fullShare} f)) :=
    pts_split (fun j => by rw [m1, m2, mem_blkSet])
      (fun j => by rw [m2, mem_blkSet]; omega)
  have s3 : (oLoc d ↦[R2]{fullShare} f : sProp 𝕄)
      = iprop((oLoc d ↦[blkSet (base + k) 0]{fullShare} f) ∗ (oLoc d ↦[blkSet (base + k) 1]{fullShare} f)) :=
    pts_split (fun j => by rw [m2, mem_blkSet, mem_blkSet]; omega)
      (fun j => by rw [mem_blkSet, mem_blkSet]; omega)
  rw [s0, s1, s2, s3]

theorem landed_step (base k : ℕ) (hk : 0 < k) (f : Buf (Elt F) (oLoc d)) :
    iprop((oLoc d ↦[landed base k]{fullShare} f) ∗ (oLoc d ↦[blkSet (base + k - 1) 2]{fullShare} f)
        ∗ (oLoc d ↦[blkSet (base + k - 1) 3]{fullShare} f) ∗ (oLoc d ↦[blkSet (base + k) 0]{fullShare} f)
        ∗ (oLoc d ↦[blkSet (base + k) 1]{fullShare} f))
      ⊢ (oLoc d ↦[landed base (k + 1)]{fullShare} f : sProp 𝕄) :=
  Entails.of_eq (landed_succ_eq d base k hk f).symm

/-- After the first step the first half of row `base` has landed. -/
theorem landed_first (base : ℕ) (f : Buf (Elt F) (oLoc d)) :
    iprop((oLoc d ↦[blkSet base 0]{fullShare} f) ∗ (oLoc d ↦[blkSet base 1]{fullShare} f))
      ⊢ (oLoc d ↦[landed base 1]{fullShare} f : sProp 𝕄) := by
  have e : (oLoc d ↦[landed base 1]{fullShare} f : sProp 𝕄)
      = iprop((oLoc d ↦[blkSet base 0]{fullShare} f) ∗ (oLoc d ↦[blkSet base 1]{fullShare} f)) :=
    pts_split (fun j => by rw [mem_landed, mem_blkSet, mem_blkSet]; omega)
      (fun j => by rw [mem_blkSet, mem_blkSet]; omega)
  exact Entails.of_eq e.symm

/-- After the last step, the second half of row `base + 31` completes the task's 32 rows. -/
theorem landed_last (base : ℕ) (hb : base + 32 ≤ 1024) (f : Buf (Elt F) (oLoc d)) :
    iprop((oLoc d ↦[landed base 32]{fullShare} f) ∗ (oLoc d ↦[blkSet (base + 31) 2]{fullShare} f)
        ∗ (oLoc d ↦[blkSet (base + 31) 3]{fullShare} f))
      ⊢ (oLoc d ↦[todo base 0]{fullShare} f : sProp 𝕄) := by
  let R : Finset S1024x64x2048.Idx := Finset.univ.filter fun j => (j 0).val = base + 31 ∧ 2 ≤ (j 1).val / 16
  have mR : ∀ j, j ∈ R ↔ (j 0).val = base + 31 ∧ 2 ≤ (j 1).val / 16 :=
    fun j => by simp only [R, Finset.mem_filter, Finset.mem_univ, true_and]
  have s0 : (oLoc d ↦[todo base 0]{fullShare} f : sProp 𝕄)
      = iprop((oLoc d ↦[landed base 32]{fullShare} f) ∗ (oLoc d ↦[R]{fullShare} f)) :=
    pts_split (fun j => by rw [mem_todo, mem_landed, mR]; omega)
      (fun j => by rw [mem_landed, mR]; omega)
  have s1 : (oLoc d ↦[R]{fullShare} f : sProp 𝕄)
      = iprop((oLoc d ↦[blkSet (base + 31) 2]{fullShare} f) ∗ (oLoc d ↦[blkSet (base + 31) 3]{fullShare} f)) :=
    pts_split (fun j => by rw [mR, mem_blkSet, mem_blkSet]; have := feat_lt j; omega)
      (fun j => by rw [mem_blkSet, mem_blkSet]; omega)
  rw [s0, s1]

/-- After 32 steps no row is left to fill. -/
theorem todo_end (base : ℕ) (f : Buf (Elt F) (oLoc d)) :
    (oLoc d ↦[todo base 32]{fullShare} f : sProp 𝕄) ⊣⊢ iprop(emp) :=
  BiEntails.of_eq (pts_none fun j hj => by rw [mem_todo] at hj; omega)

/-! ## The kernel's slices as index sets -/

/-- The block at offsets `(b, 16 q, 0)`, of sizes `(1, 16, 2048)`, with its unit axis dropped: block `q` of batch row `b`. -/
theorem set_blk (off : Fin 3 → ℕ) (inb : ∀ a, off a + S1x16x2048.size a ≤ S1024x64x2048.size a) (b q : ℕ)
    (h : off = ![b, 16 * q, 0]) :
    (((Memref.whole main_v7_scv : Memref sig .scVector .hbm S1024x64x2048 .f32).slice
        (Rect.unit (s := S1024x64x2048) off S1x16x2048.size inb) (fun _ => rfl)).squeeze S16x2048
          squeezes_S1x16x2048_S16x2048).view.set = blkSet b q := by
  -- dropping the unit axis keeps the elements; a slice of the whole buffer has the rectangle's elements
  refine ((View.set_reshape _ _).trans (View.set_slice_whole main_v7_scv _)).trans ?_
  subst h
  ext j
  rw [Rect.mem_set_unit, mem_blkSet]
  have h2 : (j 2).val < 2048 := (j 2).isLt
  constructor
  · intro hj
    have h0 := hj 0
    have h1 := hj 1
    change b ≤ (j 0).val ∧ (j 0).val < b + 1 at h0
    change 16 * q ≤ (j 1).val ∧ (j 1).val < 16 * q + 16 at h1
    omega
  · intro e a
    match a with
    | ⟨0, _⟩ => show b ≤ (j 0).val ∧ (j 0).val < b + 1; omega
    | ⟨1, _⟩ => show 16 * q ≤ (j 1).val ∧ (j 1).val < 16 * q + 16; omega
    | ⟨2, _⟩ => show 0 ≤ (j 2).val ∧ (j 2).val < 0 + 2048; omega

/-- The 2048 words of the index scratch from `2048 (p % 2)`: half `p % 2`. -/
theorem set_half (off : Fin 1 → ℕ) (inb : ∀ a, off a + S2048.size a ≤ S4096.size a) (p : ℕ)
    (h : off = ![2048 * (p % 2)]) :
    ((Memref.whole cc0_scratch0 : Memref sig .scVector .vmem S4096 .i32).slice
        (Rect.unit (s := S4096) off S2048.size inb) (fun _ => rfl)).view.set = halfSet p := by
  refine (View.set_slice_whole cc0_scratch0 _).trans ?_
  subst h
  ext j
  rw [Rect.mem_set_unit, mem_halfSet]
  have hj0 : (j 0).val < 4096 := (j 0).isLt
  constructor
  · intro hj
    have h0 := hj 0
    change 2048 * (p % 2) ≤ (j 0).val ∧ (j 0).val < 2048 * (p % 2) + 2048 at h0
    omega
  · intro e a
    match a with
    | ⟨0, _⟩ => show 2048 * (p % 2) ≤ (j 0).val ∧ (j 0).val < 2048 * (p % 2) + 2048; omega

/-- The index scratch is its two halves. -/
theorem halves (c : Fin τ.nSC) (s : Fin τ.nSub) (f : Buf (Elt F) ((V d c s).loc cc0_scratch0)) :
    ((V d c s).loc cc0_scratch0 ↦{fullShare} f : sProp 𝕄)
      ⊣⊢ iprop(((V d c s).loc cc0_scratch0 ↦[halfSet 0]{fullShare} f) ∗ ((V d c s).loc cc0_scratch0 ↦[halfSet 1]{fullShare} f)) :=
  BiEntails.of_eq (pts_split
    (fun j => by
      have hj0 : (j 0).val < 4096 := (j 0).isLt
      rw [mem_halfSet, mem_halfSet]
      simp only [Finset.mem_univ, true_iff]
      omega)
    (fun j => by rw [mem_halfSet, mem_halfSet]; omega))

/-- The halves alternate with period two … -/
theorem halfSet_succ (p : ℕ) : halfSet (p + 2) = halfSet p := by
  ext j
  rw [mem_halfSet, mem_halfSet]
  omega

/-- … and consecutive steps use different halves. -/
theorem halfSet_disjoint (p : ℕ) : Disjoint (halfSet p) (halfSet (p + 1)) :=
  Finset.disjoint_left.mpr fun j h1 h2 => by
    rw [mem_halfSet] at h1 h2
    omega

/-! ## A chunk of the flattened index array -/

/-- Chunk `n` of the flat index array: the 2048 words from `2048 n`. -/
def chunkSet (n : ℕ) : Finset S2097152.Idx := Finset.univ.filter fun i => (i 0).val / 2048 = n
theorem mem_chunkSet {n : ℕ} {i : S2097152.Idx} : i ∈ chunkSet n ↔ (i 0).val / 2048 = n := by
  simp only [chunkSet, Finset.mem_filter, Finset.mem_univ, true_and]

/-- The 2048 words of the flat index array from `2048 n`: chunk `n`. -/
theorem set_chunk (off : Fin 1 → ℕ) (inb : ∀ a, off a + S2048.size a ≤ S2097152.size a) (n : ℕ)
    (h : off = ![2048 * n]) :
    ((Memref.whole main_v6_scv : Memref sig .scVector .hbm S2097152 .i32).slice
        (Rect.unit (s := S2097152) off S2048.size inb) (fun _ => rfl)).view.set = chunkSet n := by
  refine (View.set_slice_whole main_v6_scv _).trans ?_
  subst h
  ext j
  rw [Rect.mem_set_unit, mem_chunkSet]
  constructor
  · intro hj
    have h0 := hj 0
    change 2048 * n ≤ (j 0).val ∧ (j 0).val < 2048 * n + 2048 at h0
    omega
  · intro e a
    match a with
    | ⟨0, _⟩ => show 2048 * n ≤ (j 0).val ∧ (j 0).val < 2048 * n + 2048; omega

/-- A chunk carved out of the whole flat index array, at any share, and put back. -/
theorem chunk_split (q : PosShare TreeShare) (n : ℕ) (f : Buf (Elt F) (fLoc d)) :
    (fLoc d ↦{q} f : sProp 𝕄)
      ⊣⊢ iprop((fLoc d ↦[chunkSet n]{q} f) ∗ (fLoc d ↦[Finset.univ \ chunkSet n]{q} f)) :=
  pointsTo_split_subset (Finset.subset_univ _)

/-! ## One step of the write-back, the first included -/

/-- Block `q` of the row before `base + k`, or nothing at the first step. -/
def optBlk (base k q : ℕ) : Finset S1024x64x2048.Idx := if 0 < k then blkSet (base + k - 1) q else ∅

/-- From step `k` to step `k + 1`: the second half of the previous row, if there is one, and the first half of row `base + k` land. -/
theorem landed_next (base k : ℕ) (f : Buf (Elt F) (oLoc d)) :
    iprop((oLoc d ↦[landed base k]{fullShare} f) ∗ (oLoc d ↦[optBlk base k 2]{fullShare} f)
        ∗ (oLoc d ↦[optBlk base k 3]{fullShare} f) ∗ (oLoc d ↦[blkSet (base + k) 0]{fullShare} f)
        ∗ (oLoc d ↦[blkSet (base + k) 1]{fullShare} f))
      ⊢ (oLoc d ↦[landed base (k + 1)]{fullShare} f : sProp 𝕄) := by
  rcases Nat.eq_zero_or_pos k with rfl | hk
  · simp only [Nat.add_zero, Nat.zero_add]
    iintro ⟨-, -, -, H0, H1⟩
    iapply (landed_first d base f)
    isplitl [H0]
    · iexact H0
    · iexact H1
  · rw [show optBlk base k 2 = blkSet (base + k - 1) 2 from if_pos hk,
      show optBlk base k 3 = blkSet (base + k - 1) 3 from if_pos hk]
    exact landed_step d base k hk f

end Cert.KernelIdeal.Hand

end
-- ==== Proof.OnKernelIdeal.RowFun.lean ====
/-
  The function a row buffer holds while a chunk of the index array is worked: row `dd`, column `l` of quarter `q` is the
  table scratch's entry `1024 · word + lane + 256 q + 16 dd`, the word the index scratch's at column `l` of the half of
  parity `p`, the lane `l % 16`.
-/
import proofs.«205739_g2190433321788_cont_8to1_543_10_alg».proof.Proof.OnKernelIdeal.Regions

noncomputable section

namespace Cert.KernelIdeal.Hand

open Cert.KernelIdeal Cert.KernelIdeal.Gen
open Idealize.ShloMosaic

/-- Position `n` of the index scratch, of the table scratch (folded into range). -/
def at4096 (n : ℕ) : S4096.Idx := ValueIdx.ix1 (⟨n % 4096, Nat.mod_lt _ (by decide)⟩ : Fin 4096)
def at8192 (n : ℕ) : S8192.Idx := ValueIdx.ix1 (⟨n % 8192, Nat.mod_lt _ (by decide)⟩ : Fin 8192)

theorem at4096_mem_half (p n : ℕ) (h1 : 2048 * (p % 2) ≤ n) (h2 : n < 2048 * (p % 2) + 2048) : at4096 n ∈ halfSet p := by
  refine Finset.mem_filter.mpr ⟨Finset.mem_univ _, ?_⟩
  show (n % 4096) / 2048 = p % 2
  omega

/-- What the row buffer of quarter `q` holds at row `dd`, column `l`, while the chunk of parity `p` is worked. -/
def rowG {E : Type} (q p : ℕ) (X : S4096.Idx → BitVec 32) (TB : S8192.Idx → E) (y : S16x2048.Idx) : E :=
  TB (at8192 (1024 * (X (at4096 (2048 * (p % 2) + (y 1).val))).toNat + (y 1).val % 16 + 256 * q + 16 * (y 0).val))

end Cert.KernelIdeal.Hand

end
-- ==== Proof.OnKernelIdeal.Quarter.lean ====
/-
  One chunk of one quarter of a batch row. A task fills a batch row of the result in four quarters of sixteen
  features; a quarter is gathered into a [16, 2048] row buffer sixteen positions at a time: sixteen index words are read
  off the index scratch, each is turned into sixteen lane addresses `1024 · word + lane + 256 q + 16 dd` of the
  lane-replicated table scratch (one address vector per feature `dd` of the quarter), the table is gathered at them,
  and the sixteen gathered rows are stored into columns `16 j … 16 j + 15` of the row buffer. Under the index words
  being below 8 the addresses are in range, and after chunk `j` the row buffer reads the quarter's function `rowG` in every
  column below `16 (j + 1)`.
-/
import proofs.«205739_g2190433321788_cont_8to1_543_10_alg».proof.Proof.OnKernelIdeal.RowFun
import proofs.«205739_g2190433321788_cont_8to1_543_10_alg».proof.Proof.LaneIndex
import proofs.«205739_g2190433321788_cont_8to1_543_10_alg».proof.Proof.RowStores

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Tile

variable (d : Dev nD) (L : grid0.Coords)

abbrev cV (L : grid0.Coords) : Fin τ.nSC := (L 0).castLE hcore0
abbrev jV (L : grid0.Coords) : Fin τ.nSub := (L 1).castLE hsub0

-- the kernel's memrefs, spelt as the body table passes them
local notation "fW" => (Memref.whole Cert.KernelIdeal.main_v6_scv : Memref Cert.KernelIdeal.sig Kind.scVector Space.hbm Cert.KernelIdeal.S2097152 EltTy.i32)
local notation "rW" => (Memref.whole Cert.KernelIdeal.main_v4_scv : Memref Cert.KernelIdeal.sig Kind.scVector Space.hbm Cert.KernelIdeal.S8192 EltTy.f32)
local notation "iW" => (Memref.whole Cert.KernelIdeal.main_v5_scv : Memref Cert.KernelIdeal.sig Kind.scVector Space.hbm Cert.KernelIdeal.S16 EltTy.i32)
local notation "oW" => (Memref.whole Cert.KernelIdeal.main_v7_scv : Memref Cert.KernelIdeal.sig Kind.scVector Space.hbm Cert.KernelIdeal.S1024x64x2048 EltTy.f32)
local notation "xS" => (Memref.whole Cert.KernelIdeal.cc0_scratch0 : Memref Cert.KernelIdeal.sig Kind.scVector Space.vmem Cert.KernelIdeal.S4096 EltTy.i32)
local notation "tS" => (Memref.whole Cert.KernelIdeal.cc0_scratch1 : Memref Cert.KernelIdeal.sig Kind.scVector Space.vmem Cert.KernelIdeal.S8192 EltTy.f32)
local notation "nS" => (Memref.whole Cert.KernelIdeal.cc0_scratch2 : Memref Cert.KernelIdeal.sig Kind.scVector Space.vmem Cert.KernelIdeal.S16 EltTy.i32)
local notation "aS" => (Memref.whole Cert.KernelIdeal.cc0_scratch3 : Memref Cert.KernelIdeal.sig Kind.scVector Space.vmem Cert.KernelIdeal.S16x2048 EltTy.f32)
local notation "bS" => (Memref.whole Cert.KernelIdeal.cc0_scratch4 : Memref Cert.KernelIdeal.sig Kind.scVector Space.vmem Cert.KernelIdeal.S16x2048 EltTy.f32)
local notation "thr" => (V d (cV L) (jV L))

/-! ### Quarter 0: features 0 … 15, gathered into the row buffer chunk by chunk -/

theorem k0_off4_eq : ∀ (k : Fin k0_t1_loop.trips) (j : Fin k0_t2_loop.trips), k0_off4 k j = ![2048 * (k.val % 2) + 16 * j.val] := by decide +kernel

omit [FloatOps F] in
theorem load_qa_sub (k : Fin k0_t1_loop.trips) (j : Fin k0_t2_loop.trips) :
    (xS).view.setOn (Rect.unit (s := S4096) (k0_off4 k j) S16.size (k0_off4_inb k j)).toLoadRect.set ⊆ halfSet k.val := by
  intro i hi
  obtain ⟨y, hy, rfl⟩ := Finset.mem_map.mp hi
  have h := (Rect.mem_set_unit.mp hy) 0
  rw [k0_off4_eq] at h
  refine Finset.mem_filter.mpr ⟨Finset.mem_univ _, ?_⟩
  have hj : j.val < 128 := j.isLt
  show (y 0).val / 2048 = k.val % 2
  simp only [Matrix.cons_val_zero] at h
  have : (S16.size 0) = 16 := rfl
  omega

omit [FloatOps F] in
theorem words_qa (k : Fin k0_t1_loop.trips) (j : Fin k0_t2_loop.trips) (X : Buf (Elt F) ((xS).view.loc thr)) (a : Fin 16) :
    (xS).view.readAt (Elt F) (Rect.unit (s := S4096) (k0_off4 k j) S16.size (k0_off4_inb k j)).toLoadRect X (ValueIdx.ix1 a)
      = X (at4096 (2048 * (k.val % 2) + 16 * j.val + a.val)) := by
  have hj : j.val < 128 := j.isLt
  rw [View.readAt_apply]
  show X _ = X _
  congr 1
  funext b
  have hb0 : b.val = 0 := by have := b.isLt; change b.val < 1 at this; omega
  obtain rfl : b = ⟨0, by decide⟩ := Fin.ext hb0
  apply Fin.ext
  show (k0_off4 k j) 0 + 1 * a.val = (2048 * (k.val % 2) + 16 * j.val + a.val) % 4096
  rw [k0_off4_eq]
  simp only [Matrix.cons_val_zero]
  omega

set_option maxHeartbeats 4000000 in
/-- One chunk of quarter 0: sixteen words of the index chunk, sixteen gathers of the table's lanes at them, sixteen row
    stores; the row buffer then reads the quarter's rows up to the chunk's last column. -/
theorem trip_qa (k : Fin k0_t1_loop.trips) (j : Fin k0_t2_loop.trips) (v1 v30 arg14 : BitVec 32) (v2 : Vec F S16 .i32)
    (hv2 : ∀ a : Fin 16, v2 (ValueIdx.ix1 a) = BitVec.ofNat 32 a.val)
    (X : Buf (Elt F) ((xS).view.loc thr)) (hX : ∀ i ∈ halfSet k.val, (X i).toNat < 8)
    (TB : Buf (Elt F) ((tS).view.loc thr)) (g : Buf (Elt F) ((aS).view.loc thr))
    (hg : ∀ y : S16x2048.Idx, (y 1).val < 16 * j.val → g y = rowG 0 k.val X TB y) :
    (iprop(((xS).view.loc thr ↦[halfSet k.val]{fullShare} X) ∗ ((tS).view.loc thr ↦{fullShare} TB) ∗ ((aS).view.loc thr ↦{fullShare} g)) : sProp 𝕄)
      ⊢ wp frame (wpE (defs₀ (F := F)) 𝒱₀ thr none) Set.univ
          (k0_t2_body L fW (Memref.isWhole_whole _) rW (Memref.isWhole_whole _) iW (Memref.isWhole_whole _) oW (Memref.isWhole_whole _)
            xS (Memref.isWhole_whole _) tS (Memref.isWhole_whole _) nS (Memref.isWhole_whole _) aS (Memref.isWhole_whole _) bS (Memref.isWhole_whole _)
            cc0_scratch5 cc0_scratch6 cc0_scratch7 cc0_scoped0 cc0_scoped1 v1 v2 0#32 1#32 k v30 j ())
          fun _ => iprop(((xS).view.loc thr ↦[halfSet k.val]{fullShare} X) ∗ ((tS).view.loc thr ↦{fullShare} TB)
            ∗ ∃ g' : Buf (Elt F) ((aS).view.loc thr), ((aS).view.loc thr ↦{fullShare} g') ∗ ⌜∀ y : S16x2048.Idx, (y 1).val < 16 * (j.val + 1) → g' y = rowG 0 k.val X TB y⌝) := by
  have hj : j.val < 128 := j.isLt
  have h76 : ∀ a : Fin 16, ((xS).view.readAt (Elt F) (Rect.unit (s := S4096) (k0_off4 k j) S16.size (k0_off4_inb k j)).toLoadRect X (ValueIdx.ix1 a)).toNat < 8 := by
    intro a
    rw [words_qa]
    exact hX _ (at4096_mem_half _ _ (by omega) (by omega))
  have hchk : ∀ (e : BitVec 32), e.toNat ≤ 240 → ∀ (a : Fin 1) (x : S16.Idx),
      ((![Cert.Lookup.Lane.idxVec v2 ((xS).view.readAt (Elt F) (Rect.unit (s := S4096) (k0_off4 k j) S16.size (k0_off4_inb k j)).toLoadRect X) 0#32 e] : Fin 1 → IVec S16 32) a x).toNat < S8192.size a := by
    intro e he a x
    obtain rfl : a = 0 := Subsingleton.elim _ _
    exact Cert.Lookup.Lane.idxVec_lt v2 _ 0#32 e hv2 h76 (by decide) he x
  unfold k0_t2_body
  iintro ⟨Hxs, Hts, Hrow⟩
  sl_exec
  iapply (wp_load 𝒱₀ thr none Set.univ (m := xS) (S := halfSet k.val) (hS := load_qa_sub k j)) $$ Hxs; iintro Hxs
  sl_exec (disch := (first | exact hchk _ (by decide)))
  iterate 16 (rw [SparseCore.vectorLoadIdx_bind (c := thr)]; sl_exec (disch := (first | exact hchk _ (by decide))))
  sl_step
  isplitl [Hxs]; · iexact Hxs
  isplitl [Hts]; · iexact Hts
  iexists _
  isplitl [Hrow]; · iexact Hrow
  ipureintro
  intro y hy
  refine Cert.Lookup.Rows.read_rows16 (aS).view g (rowG 0 k.val X TB) j.val hj
    ![k0_off5 j, k0_off6 j, k0_off7 j, k0_off8 j, k0_off9 j, k0_off10 j, k0_off11 j, k0_off12 j, k0_off13 j, k0_off14 j, k0_off15 j, k0_off16 j, k0_off17 j, k0_off18 j, k0_off19 j, k0_off20 j]
    (fun dd => match dd with | ⟨0, _⟩ => k0_off5_inb j | ⟨1, _⟩ => k0_off6_inb j | ⟨2, _⟩ => k0_off7_inb j | ⟨3, _⟩ => k0_off8_inb j | ⟨4, _⟩ => k0_off9_inb j | ⟨5, _⟩ => k0_off10_inb j | ⟨6, _⟩ => k0_off11_inb j | ⟨7, _⟩ => k0_off12_inb j | ⟨8, _⟩ => k0_off13_inb j | ⟨9, _⟩ => k0_off14_inb j | ⟨10, _⟩ => k0_off15_inb j | ⟨11, _⟩ => k0_off16_inb j | ⟨12, _⟩ => k0_off17_inb j | ⟨13, _⟩ => k0_off18_inb j | ⟨14, _⟩ => k0_off19_inb j | ⟨15, _⟩ => k0_off20_inb j | ⟨n + 16, h⟩ => absurd h (by omega))
    (fun dd => match dd with | ⟨0, _⟩ => k0_off5_eq j | ⟨1, _⟩ => k0_off6_eq j | ⟨2, _⟩ => k0_off7_eq j | ⟨3, _⟩ => k0_off8_eq j | ⟨4, _⟩ => k0_off9_eq j | ⟨5, _⟩ => k0_off10_eq j | ⟨6, _⟩ => k0_off11_eq j | ⟨7, _⟩ => k0_off12_eq j | ⟨8, _⟩ => k0_off13_eq j | ⟨9, _⟩ => k0_off14_eq j | ⟨10, _⟩ => k0_off15_eq j | ⟨11, _⟩ => k0_off16_eq j | ⟨12, _⟩ => k0_off17_eq j | ⟨13, _⟩ => k0_off18_eq j | ⟨14, _⟩ => k0_off19_eq j | ⟨15, _⟩ => k0_off20_eq j | ⟨n + 16, h⟩ => absurd h (by omega))
    ![trip_qa.sl.r d L k j v2 X TB hchk, trip_qa.sl.r_1 d L k j v2 X TB hchk, trip_qa.sl.r_2 d L k j v2 X TB hchk, trip_qa.sl.r_3 d L k j v2 X TB hchk, trip_qa.sl.r_4 d L k j v2 X TB hchk, trip_qa.sl.r_5 d L k j v2 X TB hchk, trip_qa.sl.r_6 d L k j v2 X TB hchk, trip_qa.sl.r_7 d L k j v2 X TB hchk, trip_qa.sl.r_8 d L k j v2 X TB hchk, trip_qa.sl.r_9 d L k j v2 X TB hchk, trip_qa.sl.r_10 d L k j v2 X TB hchk, trip_qa.sl.r_11 d L k j v2 X TB hchk, trip_qa.sl.r_12 d L k j v2 X TB hchk, trip_qa.sl.r_13 d L k j v2 X TB hchk, trip_qa.sl.r_14 d L k j v2 X TB hchk, trip_qa.sl.r_15 d L k j v2 X TB hchk]
    shapeCasts_S16_S1x16 ?_ (fun y hy => hg y hy) y hy
  have key : ∀ (dd a : Fin 16) (e : BitVec 32) (he : e.toNat = 16 * dd.val) (h),
      loadIdx (View.readAt (Elt F) (tS).view (LoadRect.whole S8192) TB)
        ![Cert.Lookup.Lane.idxVec v2 ((xS).view.readAt (Elt F) (Rect.unit (s := S4096) (k0_off4 k j) S16.size (k0_off4_inb k j)).toLoadRect X) 0#32 e] h (ValueIdx.ix1 a)
      = rowG 0 k.val X TB (ValueIdx.ix2 dd (⟨16 * j.val + a.val, by omega⟩ : Fin 2048)) := by
    intro dd a e he h
    have hd : dd.val < 16 := dd.isLt
    have ha : a.val < 16 := a.isLt
    show TB _ = TB _
    congr 1
    funext b
    have hb0 : b.val = 0 := by have := b.isLt; change b.val < 1 at this; omega
    obtain rfl : b = ⟨0, by decide⟩ := Fin.ext hb0
    apply Fin.ext
    show 0 + 1 * (Cert.Lookup.Lane.idxVec v2 _ 0#32 e (ValueIdx.ix1 a)).toNat = _
    rw [Nat.zero_add, Nat.one_mul, Cert.Lookup.Lane.idxVec_toNat v2 _ 0#32 e hv2 h76 (by decide) (by omega) a, words_qa, he]
    show _ = (1024 * (X (at4096 (2048 * (k.val % 2) + (16 * j.val + a.val)))).toNat + (16 * j.val + a.val) % 16 + 256 * 0 + 16 * dd.val) % 8192
    have hx8 := hX _ (at4096_mem_half k.val (2048 * (k.val % 2) + 16 * j.val + a.val) (by omega) (by omega))
    rw [show 2048 * (k.val % 2) + (16 * j.val + a.val) = 2048 * (k.val % 2) + 16 * j.val + a.val by omega]
    have : (0#32 : BitVec 32).toNat = 256 * 0 := by decide
    omega
  intro dd a
  match dd with
  | ⟨0, hd⟩ => exact key ⟨0, hd⟩ a 0#32 rfl _
  | ⟨1, hd⟩ => exact key ⟨1, hd⟩ a 16#32 rfl _
  | ⟨2, hd⟩ => exact key ⟨2, hd⟩ a 32#32 rfl _
  | ⟨3, hd⟩ => exact key ⟨3, hd⟩ a 48#32 rfl _
  | ⟨4, hd⟩ => exact key ⟨4, hd⟩ a 64#32 rfl _
  | ⟨5, hd⟩ => exact key ⟨5, hd⟩ a 80#32 rfl _
  | ⟨6, hd⟩ => exact key ⟨6, hd⟩ a 96#32 rfl _
  | ⟨7, hd⟩ => exact key ⟨7, hd⟩ a 112#32 rfl _
  | ⟨8, hd⟩ => exact key ⟨8, hd⟩ a 128#32 rfl _
  | ⟨9, hd⟩ => exact key ⟨9, hd⟩ a 144#32 rfl _
  | ⟨10, hd⟩ => exact key ⟨10, hd⟩ a 160#32 rfl _
  | ⟨11, hd⟩ => exact key ⟨11, hd⟩ a 176#32 rfl _
  | ⟨12, hd⟩ => exact key ⟨12, hd⟩ a 192#32 rfl _
  | ⟨13, hd⟩ => exact key ⟨13, hd⟩ a 208#32 rfl _
  | ⟨14, hd⟩ => exact key ⟨14, hd⟩ a 224#32 rfl _
  | ⟨15, hd⟩ => exact key ⟨15, hd⟩ a 240#32 rfl _
  | ⟨n + 16, h⟩ => exact absurd h (by omega)

/-! ### Quarter 1: features 16 … 31, gathered into the row buffer chunk by chunk -/

theorem k0_off22_eq : ∀ (k : Fin k0_t1_loop.trips) (j : Fin k0_t3_loop.trips), k0_off22 k j = ![2048 * (k.val % 2) + 16 * j.val] := by decide +kernel

omit [FloatOps F] in
theorem load_qb_sub (k : Fin k0_t1_loop.trips) (j : Fin k0_t3_loop.trips) :
    (xS).view.setOn (Rect.unit (s := S4096) (k0_off22 k j) S16.size (k0_off22_inb k j)).toLoadRect.set ⊆ halfSet k.val := by
  intro i hi
  obtain ⟨y, hy, rfl⟩ := Finset.mem_map.mp hi
  have h := (Rect.mem_set_unit.mp hy) 0
  rw [k0_off22_eq] at h
  refine Finset.mem_filter.mpr ⟨Finset.mem_univ _, ?_⟩
  have hj : j.val < 128 := j.isLt
  show (y 0).val / 2048 = k.val % 2
  simp only [Matrix.cons_val_zero] at h
  have : (S16.size 0) = 16 := rfl
  omega

omit [FloatOps F] in
theorem words_qb (k : Fin k0_t1_loop.trips) (j : Fin k0_t3_loop.trips) (X : Buf (Elt F) ((xS).view.loc thr)) (a : Fin 16) :
    (xS).view.readAt (Elt F) (Rect.unit (s := S4096) (k0_off22 k j) S16.size (k0_off22_inb k j)).toLoadRect X (ValueIdx.ix1 a)
      = X (at4096 (2048 * (k.val % 2) + 16 * j.val + a.val)) := by
  have hj : j.val < 128 := j.isLt
  rw [View.readAt_apply]
  show X _ = X _
  congr 1
  funext b
  have hb0 : b.val = 0 := by have := b.isLt; change b.val < 1 at this; omega
  obtain rfl : b = ⟨0, by decide⟩ := Fin.ext hb0
  apply Fin.ext
  show (k0_off22 k j) 0 + 1 * a.val = (2048 * (k.val % 2) + 16 * j.val + a.val) % 4096
  rw [k0_off22_eq]
  simp only [Matrix.cons_val_zero]
  omega

set_option maxHeartbeats 4000000 in
/-- One chunk of quarter 1: sixteen words of the index chunk, sixteen gathers of the table's lanes at them, sixteen row
    stores; the row buffer then reads the quarter's rows up to the chunk's last column. -/
theorem trip_qb (k : Fin k0_t1_loop.trips) (j : Fin k0_t3_loop.trips) (v1 v30 arg14 : BitVec 32) (v2 : Vec F S16 .i32)
    (hv2 : ∀ a : Fin 16, v2 (ValueIdx.ix1 a) = BitVec.ofNat 32 a.val)
    (X : Buf (Elt F) ((xS).view.loc thr)) (hX : ∀ i ∈ halfSet k.val, (X i).toNat < 8)
    (TB : Buf (Elt F) ((tS).view.loc thr)) (g : Buf (Elt F) ((bS).view.loc thr))
    (hg : ∀ y : S16x2048.Idx, (y 1).val < 16 * j.val → g y = rowG 1 k.val X TB y) :
    (iprop(((xS).view.loc thr ↦[halfSet k.val]{fullShare} X) ∗ ((tS).view.loc thr ↦{fullShare} TB) ∗ ((bS).view.loc thr ↦{fullShare} g)) : sProp 𝕄)
      ⊢ wp frame (wpE (defs₀ (F := F)) 𝒱₀ thr none) Set.univ
          (k0_t3_body L fW (Memref.isWhole_whole _) rW (Memref.isWhole_whole _) iW (Memref.isWhole_whole _) oW (Memref.isWhole_whole _)
            xS (Memref.isWhole_whole _) tS (Memref.isWhole_whole _) nS (Memref.isWhole_whole _) aS (Memref.isWhole_whole _) bS (Memref.isWhole_whole _)
            cc0_scratch5 cc0_scratch6 cc0_scratch7 cc0_scoped0 cc0_scoped1 v2 k arg14 v30 j ())
          fun _ => iprop(((xS).view.loc thr ↦[halfSet k.val]{fullShare} X) ∗ ((tS).view.loc thr ↦{fullShare} TB)
            ∗ ∃ g' : Buf (Elt F) ((bS).view.loc thr), ((bS).view.loc thr ↦{fullShare} g') ∗ ⌜∀ y : S16x2048.Idx, (y 1).val < 16 * (j.val + 1) → g' y = rowG 1 k.val X TB y⌝) := by
  have hj : j.val < 128 := j.isLt
  have h76 : ∀ a : Fin 16, ((xS).view.readAt (Elt F) (Rect.unit (s := S4096) (k0_off22 k j) S16.size (k0_off22_inb k j)).toLoadRect X (ValueIdx.ix1 a)).toNat < 8 := by
    intro a
    rw [words_qb]
    exact hX _ (at4096_mem_half _ _ (by omega) (by omega))
  have hchk : ∀ (e : BitVec 32), e.toNat ≤ 240 → ∀ (a : Fin 1) (x : S16.Idx),
      ((![Cert.Lookup.Lane.idxVec v2 ((xS).view.readAt (Elt F) (Rect.unit (s := S4096) (k0_off22 k j) S16.size (k0_off22_inb k j)).toLoadRect X) 256#32 e] : Fin 1 → IVec S16 32) a x).toNat < S8192.size a := by
    intro e he a x
    obtain rfl : a = 0 := Subsingleton.elim _ _
    exact Cert.Lookup.Lane.idxVec_lt v2 _ 256#32 e hv2 h76 (by decide) he x
  unfold k0_t3_body
  iintro ⟨Hxs, Hts, Hrow⟩
  sl_exec
  iapply (wp_load 𝒱₀ thr none Set.univ (m := xS) (S := halfSet k.val) (hS := load_qb_sub k j)) $$ Hxs; iintro Hxs
  sl_exec (disch := (first | exact hchk _ (by decide)))
  iterate 16 (rw [SparseCore.vectorLoadIdx_bind (c := thr)]; sl_exec (disch := (first | exact hchk _ (by decide))))
  sl_step
  isplitl [Hxs]; · iexact Hxs
  isplitl [Hts]; · iexact Hts
  iexists _
  isplitl [Hrow]; · iexact Hrow
  ipureintro
  intro y hy
  refine Cert.Lookup.Rows.read_rows16 (bS).view g (rowG 1 k.val X TB) j.val hj
    ![k0_off23 j, k0_off24 j, k0_off25 j, k0_off26 j, k0_off27 j, k0_off28 j, k0_off29 j, k0_off30 j, k0_off31 j, k0_off32 j, k0_off33 j, k0_off34 j, k0_off35 j, k0_off36 j, k0_off37 j, k0_off38 j]
    (fun dd => match dd with | ⟨0, _⟩ => k0_off23_inb j | ⟨1, _⟩ => k0_off24_inb j | ⟨2, _⟩ => k0_off25_inb j | ⟨3, _⟩ => k0_off26_inb j | ⟨4, _⟩ => k0_off27_inb j | ⟨5, _⟩ => k0_off28_inb j | ⟨6, _⟩ => k0_off29_inb j | ⟨7, _⟩ => k0_off30_inb j | ⟨8, _⟩ => k0_off31_inb j | ⟨9, _⟩ => k0_off32_inb j | ⟨10, _⟩ => k0_off33_inb j | ⟨11, _⟩ => k0_off34_inb j | ⟨12, _⟩ => k0_off35_inb j | ⟨13, _⟩ => k0_off36_inb j | ⟨14, _⟩ => k0_off37_inb j | ⟨15, _⟩ => k0_off38_inb j | ⟨n + 16, h⟩ => absurd h (by omega))
    (fun dd => match dd with | ⟨0, _⟩ => k0_off23_eq j | ⟨1, _⟩ => k0_off24_eq j | ⟨2, _⟩ => k0_off25_eq j | ⟨3, _⟩ => k0_off26_eq j | ⟨4, _⟩ => k0_off27_eq j | ⟨5, _⟩ => k0_off28_eq j | ⟨6, _⟩ => k0_off29_eq j | ⟨7, _⟩ => k0_off30_eq j | ⟨8, _⟩ => k0_off31_eq j | ⟨9, _⟩ => k0_off32_eq j | ⟨10, _⟩ => k0_off33_eq j | ⟨11, _⟩ => k0_off34_eq j | ⟨12, _⟩ => k0_off35_eq j | ⟨13, _⟩ => k0_off36_eq j | ⟨14, _⟩ => k0_off37_eq j | ⟨15, _⟩ => k0_off38_eq j | ⟨n + 16, h⟩ => absurd h (by omega))
    ![trip_qb.sl.r d L k j v2 X TB hchk, trip_qb.sl.r_1 d L k j v2 X TB hchk, trip_qb.sl.r_2 d L k j v2 X TB hchk, trip_qb.sl.r_3 d L k j v2 X TB hchk, trip_qb.sl.r_4 d L k j v2 X TB hchk, trip_qb.sl.r_5 d L k j v2 X TB hchk, trip_qb.sl.r_6 d L k j v2 X TB hchk, trip_qb.sl.r_7 d L k j v2 X TB hchk, trip_qb.sl.r_8 d L k j v2 X TB hchk, trip_qb.sl.r_9 d L k j v2 X TB hchk, trip_qb.sl.r_10 d L k j v2 X TB hchk, trip_qb.sl.r_11 d L k j v2 X TB hchk, trip_qb.sl.r_12 d L k j v2 X TB hchk, trip_qb.sl.r_13 d L k j v2 X TB hchk, trip_qb.sl.r_14 d L k j v2 X TB hchk, trip_qb.sl.r_15 d L k j v2 X TB hchk]
    shapeCasts_S16_S1x16 ?_ (fun y hy => hg y hy) y hy
  have key : ∀ (dd a : Fin 16) (e : BitVec 32) (he : e.toNat = 16 * dd.val) (h),
      loadIdx (View.readAt (Elt F) (tS).view (LoadRect.whole S8192) TB)
        ![Cert.Lookup.Lane.idxVec v2 ((xS).view.readAt (Elt F) (Rect.unit (s := S4096) (k0_off22 k j) S16.size (k0_off22_inb k j)).toLoadRect X) 256#32 e] h (ValueIdx.ix1 a)
      = rowG 1 k.val X TB (ValueIdx.ix2 dd (⟨16 * j.val + a.val, by omega⟩ : Fin 2048)) := by
    intro dd a e he h
    have hd : dd.val < 16 := dd.isLt
    have ha : a.val < 16 := a.isLt
    show TB _ = TB _
    congr 1
    funext b
    have hb0 : b.val = 0 := by have := b.isLt; change b.val < 1 at this; omega
    obtain rfl : b = ⟨0, by decide⟩ := Fin.ext hb0
    apply Fin.ext
    show 0 + 1 * (Cert.Lookup.Lane.idxVec v2 _ 256#32 e (ValueIdx.ix1 a)).toNat = _
    rw [Nat.zero_add, Nat.one_mul, Cert.Lookup.Lane.idxVec_toNat v2 _ 256#32 e hv2 h76 (by decide) (by omega) a, words_qb, he]
    show _ = (1024 * (X (at4096 (2048 * (k.val % 2) + (16 * j.val + a.val)))).toNat + (16 * j.val + a.val) % 16 + 256 * 1 + 16 * dd.val) % 8192
    have hx8 := hX _ (at4096_mem_half k.val (2048 * (k.val % 2) + 16 * j.val + a.val) (by omega) (by omega))
    rw [show 2048 * (k.val % 2) + (16 * j.val + a.val) = 2048 * (k.val % 2) + 16 * j.val + a.val by omega]
    have : (256#32 : BitVec 32).toNat = 256 * 1 := by decide
    omega
  intro dd a
  match dd with
  | ⟨0, hd⟩ => exact key ⟨0, hd⟩ a 0#32 rfl _
  | ⟨1, hd⟩ => exact key ⟨1, hd⟩ a 16#32 rfl _
  | ⟨2, hd⟩ => exact key ⟨2, hd⟩ a 32#32 rfl _
  | ⟨3, hd⟩ => exact key ⟨3, hd⟩ a 48#32 rfl _
  | ⟨4, hd⟩ => exact key ⟨4, hd⟩ a 64#32 rfl _
  | ⟨5, hd⟩ => exact key ⟨5, hd⟩ a 80#32 rfl _
  | ⟨6, hd⟩ => exact key ⟨6, hd⟩ a 96#32 rfl _
  | ⟨7, hd⟩ => exact key ⟨7, hd⟩ a 112#32 rfl _
  | ⟨8, hd⟩ => exact key ⟨8, hd⟩ a 128#32 rfl _
  | ⟨9, hd⟩ => exact key ⟨9, hd⟩ a 144#32 rfl _
  | ⟨10, hd⟩ => exact key ⟨10, hd⟩ a 160#32 rfl _
  | ⟨11, hd⟩ => exact key ⟨11, hd⟩ a 176#32 rfl _
  | ⟨12, hd⟩ => exact key ⟨12, hd⟩ a 192#32 rfl _
  | ⟨13, hd⟩ => exact key ⟨13, hd⟩ a 208#32 rfl _
  | ⟨14, hd⟩ => exact key ⟨14, hd⟩ a 224#32 rfl _
  | ⟨15, hd⟩ => exact key ⟨15, hd⟩ a 240#32 rfl _
  | ⟨n + 16, h⟩ => exact absurd h (by omega)

/-! ### Quarter 2: features 32 … 47, gathered into the row buffer chunk by chunk -/

theorem k0_off40_eq : ∀ (k : Fin k0_t1_loop.trips) (j : Fin k0_t4_loop.trips), k0_off40 k j = ![2048 * (k.val % 2) + 16 * j.val] := by decide +kernel

omit [FloatOps F] in
theorem load_qc_sub (k : Fin k0_t1_loop.trips) (j : Fin k0_t4_loop.trips) :
    (xS).view.setOn (Rect.unit (s := S4096) (k0_off40 k j) S16.size (k0_off40_inb k j)).toLoadRect.set ⊆ halfSet k.val := by
  intro i hi
  obtain ⟨y, hy, rfl⟩ := Finset.mem_map.mp hi
  have h := (Rect.mem_set_unit.mp hy) 0
  rw [k0_off40_eq] at h
  refine Finset.mem_filter.mpr ⟨Finset.mem_univ _, ?_⟩
  have hj : j.val < 128 := j.isLt
  show (y 0).val / 2048 = k.val % 2
  simp only [Matrix.cons_val_zero] at h
  have : (S16.size 0) = 16 := rfl
  omega

omit [FloatOps F] in
theorem words_qc (k : Fin k0_t1_loop.trips) (j : Fin k0_t4_loop.trips) (X : Buf (Elt F) ((xS).view.loc thr)) (a : Fin 16) :
    (xS).view.readAt (Elt F) (Rect.unit (s := S4096) (k0_off40 k j) S16.size (k0_off40_inb k j)).toLoadRect X (ValueIdx.ix1 a)
      = X (at4096 (2048 * (k.val % 2) + 16 * j.val + a.val)) := by
  have hj : j.val < 128 := j.isLt
  rw [View.readAt_apply]
  show X _ = X _
  congr 1
  funext b
  have hb0 : b.val = 0 := by have := b.isLt; change b.val < 1 at this; omega
  obtain rfl : b = ⟨0, by decide⟩ := Fin.ext hb0
  apply Fin.ext
  show (k0_off40 k j) 0 + 1 * a.val = (2048 * (k.val % 2) + 16 * j.val + a.val) % 4096
  rw [k0_off40_eq]
  simp only [Matrix.cons_val_zero]
  omega

set_option maxHeartbeats 4000000 in
/-- One chunk of quarter 2: sixteen words of the index chunk, sixteen gathers of the table's lanes at them, sixteen row
    stores; the row buffer then reads the quarter's rows up to the chunk's last column. -/
theorem trip_qc (k : Fin k0_t1_loop.trips) (j : Fin k0_t4_loop.trips) (v1 v30 arg14 : BitVec 32) (v2 : Vec F S16 .i32)
    (hv2 : ∀ a : Fin 16, v2 (ValueIdx.ix1 a) = BitVec.ofNat 32 a.val)
    (X : Buf (Elt F) ((xS).view.loc thr)) (hX : ∀ i ∈ halfSet k.val, (X i).toNat < 8)
    (TB : Buf (Elt F) ((tS).view.loc thr)) (g : Buf (Elt F) ((aS).view.loc thr))
    (hg : ∀ y : S16x2048.Idx, (y 1).val < 16 * j.val → g y = rowG 2 k.val X TB y) :
    (iprop(((xS).view.loc thr ↦[halfSet k.val]{fullShare} X) ∗ ((tS).view.loc thr ↦{fullShare} TB) ∗ ((aS).view.loc thr ↦{fullShare} g)) : sProp 𝕄)
      ⊢ wp frame (wpE (defs₀ (F := F)) 𝒱₀ thr none) Set.univ
          (k0_t4_body L fW (Memref.isWhole_whole _) rW (Memref.isWhole_whole _) iW (Memref.isWhole_whole _) oW (Memref.isWhole_whole _)
            xS (Memref.isWhole_whole _) tS (Memref.isWhole_whole _) nS (Memref.isWhole_whole _) aS (Memref.isWhole_whole _) bS (Memref.isWhole_whole _)
            cc0_scratch5 cc0_scratch6 cc0_scratch7 cc0_scoped0 cc0_scoped1 v2 k arg14 v30 j ())
          fun _ => iprop(((xS).view.loc thr ↦[halfSet k.val]{fullShare} X) ∗ ((tS).view.loc thr ↦{fullShare} TB)
            ∗ ∃ g' : Buf (Elt F) ((aS).view.loc thr), ((aS).view.loc thr ↦{fullShare} g') ∗ ⌜∀ y : S16x2048.Idx, (y 1).val < 16 * (j.val + 1) → g' y = rowG 2 k.val X TB y⌝) := by
  have hj : j.val < 128 := j.isLt
  have h76 : ∀ a : Fin 16, ((xS).view.readAt (Elt F) (Rect.unit (s := S4096) (k0_off40 k j) S16.size (k0_off40_inb k j)).toLoadRect X (ValueIdx.ix1 a)).toNat < 8 := by
    intro a
    rw [words_qc]
    exact hX _ (at4096_mem_half _ _ (by omega) (by omega))
  have hchk : ∀ (e : BitVec 32), e.toNat ≤ 240 → ∀ (a : Fin 1) (x : S16.Idx),
      ((![Cert.Lookup.Lane.idxVec v2 ((xS).view.readAt (Elt F) (Rect.unit (s := S4096) (k0_off40 k j) S16.size (k0_off40_inb k j)).toLoadRect X) 512#32 e] : Fin 1 → IVec S16 32) a x).toNat < S8192.size a := by
    intro e he a x
    obtain rfl : a = 0 := Subsingleton.elim _ _
    exact Cert.Lookup.Lane.idxVec_lt v2 _ 512#32 e hv2 h76 (by decide) he x
  unfold k0_t4_body
  iintro ⟨Hxs, Hts, Hrow⟩
  sl_exec
  iapply (wp_load 𝒱₀ thr none Set.univ (m := xS) (S := halfSet k.val) (hS := load_qc_sub k j)) $$ Hxs; iintro Hxs
  sl_exec (disch := (first | exact hchk _ (by decide)))
  iterate 16 (rw [SparseCore.vectorLoadIdx_bind (c := thr)]; sl_exec (disch := (first | exact hchk _ (by decide))))
  sl_step
  isplitl [Hxs]; · iexact Hxs
  isplitl [Hts]; · iexact Hts
  iexists _
  isplitl [Hrow]; · iexact Hrow
  ipureintro
  intro y hy
  refine Cert.Lookup.Rows.read_rows16 (aS).view g (rowG 2 k.val X TB) j.val hj
    ![k0_off41 j, k0_off42 j, k0_off43 j, k0_off44 j, k0_off45 j, k0_off46 j, k0_off47 j, k0_off48 j, k0_off49 j, k0_off50 j, k0_off51 j, k0_off52 j, k0_off53 j, k0_off54 j, k0_off55 j, k0_off56 j]
    (fun dd => match dd with | ⟨0, _⟩ => k0_off41_inb j | ⟨1, _⟩ => k0_off42_inb j | ⟨2, _⟩ => k0_off43_inb j | ⟨3, _⟩ => k0_off44_inb j | ⟨4, _⟩ => k0_off45_inb j | ⟨5, _⟩ => k0_off46_inb j | ⟨6, _⟩ => k0_off47_inb j | ⟨7, _⟩ => k0_off48_inb j | ⟨8, _⟩ => k0_off49_inb j | ⟨9, _⟩ => k0_off50_inb j | ⟨10, _⟩ => k0_off51_inb j | ⟨11, _⟩ => k0_off52_inb j | ⟨12, _⟩ => k0_off53_inb j | ⟨13, _⟩ => k0_off54_inb j | ⟨14, _⟩ => k0_off55_inb j | ⟨15, _⟩ => k0_off56_inb j | ⟨n + 16, h⟩ => absurd h (by omega))
    (fun dd => match dd with | ⟨0, _⟩ => k0_off41_eq j | ⟨1, _⟩ => k0_off42_eq j | ⟨2, _⟩ => k0_off43_eq j | ⟨3, _⟩ => k0_off44_eq j | ⟨4, _⟩ => k0_off45_eq j | ⟨5, _⟩ => k0_off46_eq j | ⟨6, _⟩ => k0_off47_eq j | ⟨7, _⟩ => k0_off48_eq j | ⟨8, _⟩ => k0_off49_eq j | ⟨9, _⟩ => k0_off50_eq j | ⟨10, _⟩ => k0_off51_eq j | ⟨11, _⟩ => k0_off52_eq j | ⟨12, _⟩ => k0_off53_eq j | ⟨13, _⟩ => k0_off54_eq j | ⟨14, _⟩ => k0_off55_eq j | ⟨15, _⟩ => k0_off56_eq j | ⟨n + 16, h⟩ => absurd h (by omega))
    ![trip_qc.sl.r d L k j v2 X TB hchk, trip_qc.sl.r_1 d L k j v2 X TB hchk, trip_qc.sl.r_2 d L k j v2 X TB hchk, trip_qc.sl.r_3 d L k j v2 X TB hchk, trip_qc.sl.r_4 d L k j v2 X TB hchk, trip_qc.sl.r_5 d L k j v2 X TB hchk, trip_qc.sl.r_6 d L k j v2 X TB hchk, trip_qc.sl.r_7 d L k j v2 X TB hchk, trip_qc.sl.r_8 d L k j v2 X TB hchk, trip_qc.sl.r_9 d L k j v2 X TB hchk, trip_qc.sl.r_10 d L k j v2 X TB hchk, trip_qc.sl.r_11 d L k j v2 X TB hchk, trip_qc.sl.r_12 d L k j v2 X TB hchk, trip_qc.sl.r_13 d L k j v2 X TB hchk, trip_qc.sl.r_14 d L k j v2 X TB hchk, trip_qc.sl.r_15 d L k j v2 X TB hchk]
    shapeCasts_S16_S1x16 ?_ (fun y hy => hg y hy) y hy
  have key : ∀ (dd a : Fin 16) (e : BitVec 32) (he : e.toNat = 16 * dd.val) (h),
      loadIdx (View.readAt (Elt F) (tS).view (LoadRect.whole S8192) TB)
        ![Cert.Lookup.Lane.idxVec v2 ((xS).view.readAt (Elt F) (Rect.unit (s := S4096) (k0_off40 k j) S16.size (k0_off40_inb k j)).toLoadRect X) 512#32 e] h (ValueIdx.ix1 a)
      = rowG 2 k.val X TB (ValueIdx.ix2 dd (⟨16 * j.val + a.val, by omega⟩ : Fin 2048)) := by
    intro dd a e he h
    have hd : dd.val < 16 := dd.isLt
    have ha : a.val < 16 := a.isLt
    show TB _ = TB _
    congr 1
    funext b
    have hb0 : b.val = 0 := by have := b.isLt; change b.val < 1 at this; omega
    obtain rfl : b = ⟨0, by decide⟩ := Fin.ext hb0
    apply Fin.ext
    show 0 + 1 * (Cert.Lookup.Lane.idxVec v2 _ 512#32 e (ValueIdx.ix1 a)).toNat = _
    rw [Nat.zero_add, Nat.one_mul, Cert.Lookup.Lane.idxVec_toNat v2 _ 512#32 e hv2 h76 (by decide) (by omega) a, words_qc, he]
    show _ = (1024 * (X (at4096 (2048 * (k.val % 2) + (16 * j.val + a.val)))).toNat + (16 * j.val + a.val) % 16 + 256 * 2 + 16 * dd.val) % 8192
    have hx8 := hX _ (at4096_mem_half k.val (2048 * (k.val % 2) + 16 * j.val + a.val) (by omega) (by omega))
    rw [show 2048 * (k.val % 2) + (16 * j.val + a.val) = 2048 * (k.val % 2) + 16 * j.val + a.val by omega]
    have : (512#32 : BitVec 32).toNat = 256 * 2 := by decide
    omega
  intro dd a
  match dd with
  | ⟨0, hd⟩ => exact key ⟨0, hd⟩ a 0#32 rfl _
  | ⟨1, hd⟩ => exact key ⟨1, hd⟩ a 16#32 rfl _
  | ⟨2, hd⟩ => exact key ⟨2, hd⟩ a 32#32 rfl _
  | ⟨3, hd⟩ => exact key ⟨3, hd⟩ a 48#32 rfl _
  | ⟨4, hd⟩ => exact key ⟨4, hd⟩ a 64#32 rfl _
  | ⟨5, hd⟩ => exact key ⟨5, hd⟩ a 80#32 rfl _
  | ⟨6, hd⟩ => exact key ⟨6, hd⟩ a 96#32 rfl _
  | ⟨7, hd⟩ => exact key ⟨7, hd⟩ a 112#32 rfl _
  | ⟨8, hd⟩ => exact key ⟨8, hd⟩ a 128#32 rfl _
  | ⟨9, hd⟩ => exact key ⟨9, hd⟩ a 144#32 rfl _
  | ⟨10, hd⟩ => exact key ⟨10, hd⟩ a 160#32 rfl _
  | ⟨11, hd⟩ => exact key ⟨11, hd⟩ a 176#32 rfl _
  | ⟨12, hd⟩ => exact key ⟨12, hd⟩ a 192#32 rfl _
  | ⟨13, hd⟩ => exact key ⟨13, hd⟩ a 208#32 rfl _
  | ⟨14, hd⟩ => exact key ⟨14, hd⟩ a 224#32 rfl _
  | ⟨15, hd⟩ => exact key ⟨15, hd⟩ a 240#32 rfl _
  | ⟨n + 16, h⟩ => exact absurd h (by omega)

/-! ### Quarter 3: features 48 … 63, gathered into the row buffer chunk by chunk -/

theorem k0_off58_eq : ∀ (k : Fin k0_t1_loop.trips) (j : Fin k0_t5_loop.trips), k0_off58 k j = ![2048 * (k.val % 2) + 16 * j.val] := by decide +kernel

omit [FloatOps F] in
theorem load_qd_sub (k : Fin k0_t1_loop.trips) (j : Fin k0_t5_loop.trips) :
    (xS).view.setOn (Rect.unit (s := S4096) (k0_off58 k j) S16.size (k0_off58_inb k j)).toLoadRect.set ⊆ halfSet k.val := by
  intro i hi
  obtain ⟨y, hy, rfl⟩ := Finset.mem_map.mp hi
  have h := (Rect.mem_set_unit.mp hy) 0
  rw [k0_off58_eq] at h
  refine Finset.mem_filter.mpr ⟨Finset.mem_univ _, ?_⟩
  have hj : j.val < 128 := j.isLt
  show (y 0).val / 2048 = k.val % 2
  simp only [Matrix.cons_val_zero] at h
  have : (S16.size 0) = 16 := rfl
  omega

omit [FloatOps F] in
theorem words_qd (k : Fin k0_t1_loop.trips) (j : Fin k0_t5_loop.trips) (X : Buf (Elt F) ((xS).view.loc thr)) (a : Fin 16) :
    (xS).view.readAt (Elt F) (Rect.unit (s := S4096) (k0_off58 k j) S16.size (k0_off58_inb k j)).toLoadRect X (ValueIdx.ix1 a)
      = X (at4096 (2048 * (k.val % 2) + 16 * j.val + a.val)) := by
  have hj : j.val < 128 := j.isLt
  rw [View.readAt_apply]
  show X _ = X _
  congr 1
  funext b
  have hb0 : b.val = 0 := by have := b.isLt; change b.val < 1 at this; omega
  obtain rfl : b = ⟨0, by decide⟩ := Fin.ext hb0
  apply Fin.ext
  show (k0_off58 k j) 0 + 1 * a.val = (2048 * (k.val % 2) + 16 * j.val + a.val) % 4096
  rw [k0_off58_eq]
  simp only [Matrix.cons_val_zero]
  omega

set_option maxHeartbeats 4000000 in
/-- One chunk of quarter 3: sixteen words of the index chunk, sixteen gathers of the table's lanes at them, sixteen row
    stores; the row buffer then reads the quarter's rows up to the chunk's last column. -/
theorem trip_qd (k : Fin k0_t1_loop.trips) (j : Fin k0_t5_loop.trips) (v1 v30 arg14 : BitVec 32) (v2 : Vec F S16 .i32)
    (hv2 : ∀ a : Fin 16, v2 (ValueIdx.ix1 a) = BitVec.ofNat 32 a.val)
    (X : Buf (Elt F) ((xS).view.loc thr)) (hX : ∀ i ∈ halfSet k.val, (X i).toNat < 8)
    (TB : Buf (Elt F) ((tS).view.loc thr)) (g : Buf (Elt F) ((bS).view.loc thr))
    (hg : ∀ y : S16x2048.Idx, (y 1).val < 16 * j.val → g y = rowG 3 k.val X TB y) :
    (iprop(((xS).view.loc thr ↦[halfSet k.val]{fullShare} X) ∗ ((tS).view.loc thr ↦{fullShare} TB) ∗ ((bS).view.loc thr ↦{fullShare} g)) : sProp 𝕄)
      ⊢ wp frame (wpE (defs₀ (F := F)) 𝒱₀ thr none) Set.univ
          (k0_t5_body L fW (Memref.isWhole_whole _) rW (Memref.isWhole_whole _) iW (Memref.isWhole_whole _) oW (Memref.isWhole_whole _)
            xS (Memref.isWhole_whole _) tS (Memref.isWhole_whole _) nS (Memref.isWhole_whole _) aS (Memref.isWhole_whole _) bS (Memref.isWhole_whole _)
            cc0_scratch5 cc0_scratch6 cc0_scratch7 cc0_scoped0 cc0_scoped1 v2 k v30 j ())
          fun _ => iprop(((xS).view.loc thr ↦[halfSet k.val]{fullShare} X) ∗ ((tS).view.loc thr ↦{fullShare} TB)
            ∗ ∃ g' : Buf (Elt F) ((bS).view.loc thr), ((bS).view.loc thr ↦{fullShare} g') ∗ ⌜∀ y : S16x2048.Idx, (y 1).val < 16 * (j.val + 1) → g' y = rowG 3 k.val X TB y⌝) := by
  have hj : j.val < 128 := j.isLt
  have h76 : ∀ a : Fin 16, ((xS).view.readAt (Elt F) (Rect.unit (s := S4096) (k0_off58 k j) S16.size (k0_off58_inb k j)).toLoadRect X (ValueIdx.ix1 a)).toNat < 8 := by
    intro a
    rw [words_qd]
    exact hX _ (at4096_mem_half _ _ (by omega) (by omega))
  have hchk : ∀ (e : BitVec 32), e.toNat ≤ 240 → ∀ (a : Fin 1) (x : S16.Idx),
      ((![Cert.Lookup.Lane.idxVec v2 ((xS).view.readAt (Elt F) (Rect.unit (s := S4096) (k0_off58 k j) S16.size (k0_off58_inb k j)).toLoadRect X) 768#32 e] : Fin 1 → IVec S16 32) a x).toNat < S8192.size a := by
    intro e he a x
    obtain rfl : a = 0 := Subsingleton.elim _ _
    exact Cert.Lookup.Lane.idxVec_lt v2 _ 768#32 e hv2 h76 (by decide) he x
  unfold k0_t5_body
  iintro ⟨Hxs, Hts, Hrow⟩
  sl_exec
  iapply (wp_load 𝒱₀ thr none Set.univ (m := xS) (S := halfSet k.val) (hS := load_qd_sub k j)) $$ Hxs; iintro Hxs
  sl_exec (disch := (first | exact hchk _ (by decide)))
  iterate 16 (rw [SparseCore.vectorLoadIdx_bind (c := thr)]; sl_exec (disch := (first | exact hchk _ (by decide))))
  sl_step
  isplitl [Hxs]; · iexact Hxs
  isplitl [Hts]; · iexact Hts
  iexists _
  isplitl [Hrow]; · iexact Hrow
  ipureintro
  intro y hy
  refine Cert.Lookup.Rows.read_rows16 (bS).view g (rowG 3 k.val X TB) j.val hj
    ![k0_off59 j, k0_off60 j, k0_off61 j, k0_off62 j, k0_off63 j, k0_off64 j, k0_off65 j, k0_off66 j, k0_off67 j, k0_off68 j, k0_off69 j, k0_off70 j, k0_off71 j, k0_off72 j, k0_off73 j, k0_off74 j]
    (fun dd => match dd with | ⟨0, _⟩ => k0_off59_inb j | ⟨1, _⟩ => k0_off60_inb j | ⟨2, _⟩ => k0_off61_inb j | ⟨3, _⟩ => k0_off62_inb j | ⟨4, _⟩ => k0_off63_inb j | ⟨5, _⟩ => k0_off64_inb j | ⟨6, _⟩ => k0_off65_inb j | ⟨7, _⟩ => k0_off66_inb j | ⟨8, _⟩ => k0_off67_inb j | ⟨9, _⟩ => k0_off68_inb j | ⟨10, _⟩ => k0_off69_inb j | ⟨11, _⟩ => k0_off70_inb j | ⟨12, _⟩ => k0_off71_inb j | ⟨13, _⟩ => k0_off72_inb j | ⟨14, _⟩ => k0_off73_inb j | ⟨15, _⟩ => k0_off74_inb j | ⟨n + 16, h⟩ => absurd h (by omega))
    (fun dd => match dd with | ⟨0, _⟩ => k0_off59_eq j | ⟨1, _⟩ => k0_off60_eq j | ⟨2, _⟩ => k0_off61_eq j | ⟨3, _⟩ => k0_off62_eq j | ⟨4, _⟩ => k0_off63_eq j | ⟨5, _⟩ => k0_off64_eq j | ⟨6, _⟩ => k0_off65_eq j | ⟨7, _⟩ => k0_off66_eq j | ⟨8, _⟩ => k0_off67_eq j | ⟨9, _⟩ => k0_off68_eq j | ⟨10, _⟩ => k0_off69_eq j | ⟨11, _⟩ => k0_off70_eq j | ⟨12, _⟩ => k0_off71_eq j | ⟨13, _⟩ => k0_off72_eq j | ⟨14, _⟩ => k0_off73_eq j | ⟨15, _⟩ => k0_off74_eq j | ⟨n + 16, h⟩ => absurd h (by omega))
    ![trip_qd.sl.r d L k j v2 X TB hchk, trip_qd.sl.r_1 d L k j v2 X TB hchk, trip_qd.sl.r_2 d L k j v2 X TB hchk, trip_qd.sl.r_3 d L k j v2 X TB hchk, trip_qd.sl.r_4 d L k j v2 X TB hchk, trip_qd.sl.r_5 d L k j v2 X TB hchk, trip_qd.sl.r_6 d L k j v2 X TB hchk, trip_qd.sl.r_7 d L k j v2 X TB hchk, trip_qd.sl.r_8 d L k j v2 X TB hchk, trip_qd.sl.r_9 d L k j v2 X TB hchk, trip_qd.sl.r_10 d L k j v2 X TB hchk, trip_qd.sl.r_11 d L k j v2 X TB hchk, trip_qd.sl.r_12 d L k j v2 X TB hchk, trip_qd.sl.r_13 d L k j v2 X TB hchk, trip_qd.sl.r_14 d L k j v2 X TB hchk, trip_qd.sl.r_15 d L k j v2 X TB hchk]
    shapeCasts_S16_S1x16 ?_ (fun y hy => hg y hy) y hy
  have key : ∀ (dd a : Fin 16) (e : BitVec 32) (he : e.toNat = 16 * dd.val) (h),
      loadIdx (View.readAt (Elt F) (tS).view (LoadRect.whole S8192) TB)
        ![Cert.Lookup.Lane.idxVec v2 ((xS).view.readAt (Elt F) (Rect.unit (s := S4096) (k0_off58 k j) S16.size (k0_off58_inb k j)).toLoadRect X) 768#32 e] h (ValueIdx.ix1 a)
      = rowG 3 k.val X TB (ValueIdx.ix2 dd (⟨16 * j.val + a.val, by omega⟩ : Fin 2048)) := by
    intro dd a e he h
    have hd : dd.val < 16 := dd.isLt
    have ha : a.val < 16 := a.isLt
    show TB _ = TB _
    congr 1
    funext b
    have hb0 : b.val = 0 := by have := b.isLt; change b.val < 1 at this; omega
    obtain rfl : b = ⟨0, by decide⟩ := Fin.ext hb0
    apply Fin.ext
    show 0 + 1 * (Cert.Lookup.Lane.idxVec v2 _ 768#32 e (ValueIdx.ix1 a)).toNat = _
    rw [Nat.zero_add, Nat.one_mul, Cert.Lookup.Lane.idxVec_toNat v2 _ 768#32 e hv2 h76 (by decide) (by omega) a, words_qd, he]
    show _ = (1024 * (X (at4096 (2048 * (k.val % 2) + (16 * j.val + a.val)))).toNat + (16 * j.val + a.val) % 16 + 256 * 3 + 16 * dd.val) % 8192
    have hx8 := hX _ (at4096_mem_half k.val (2048 * (k.val % 2) + 16 * j.val + a.val) (by omega) (by omega))
    rw [show 2048 * (k.val % 2) + (16 * j.val + a.val) = 2048 * (k.val % 2) + 16 * j.val + a.val by omega]
    have : (768#32 : BitVec 32).toNat = 256 * 3 := by decide
    omega
  intro dd a
  match dd with
  | ⟨0, hd⟩ => exact key ⟨0, hd⟩ a 0#32 rfl _
  | ⟨1, hd⟩ => exact key ⟨1, hd⟩ a 16#32 rfl _
  | ⟨2, hd⟩ => exact key ⟨2, hd⟩ a 32#32 rfl _
  | ⟨3, hd⟩ => exact key ⟨3, hd⟩ a 48#32 rfl _
  | ⟨4, hd⟩ => exact key ⟨4, hd⟩ a 64#32 rfl _
  | ⟨5, hd⟩ => exact key ⟨5, hd⟩ a 80#32 rfl _
  | ⟨6, hd⟩ => exact key ⟨6, hd⟩ a 96#32 rfl _
  | ⟨7, hd⟩ => exact key ⟨7, hd⟩ a 112#32 rfl _
  | ⟨8, hd⟩ => exact key ⟨8, hd⟩ a 128#32 rfl _
  | ⟨9, hd⟩ => exact key ⟨9, hd⟩ a 144#32 rfl _
  | ⟨10, hd⟩ => exact key ⟨10, hd⟩ a 160#32 rfl _
  | ⟨11, hd⟩ => exact key ⟨11, hd⟩ a 176#32 rfl _
  | ⟨12, hd⟩ => exact key ⟨12, hd⟩ a 192#32 rfl _
  | ⟨13, hd⟩ => exact key ⟨13, hd⟩ a 208#32 rfl _
  | ⟨14, hd⟩ => exact key ⟨14, hd⟩ a 224#32 rfl _
  | ⟨15, hd⟩ => exact key ⟨15, hd⟩ a 240#32 rfl _
  | ⟨n + 16, h⟩ => exact absurd h (by omega)

end Tile

end Cert.KernelIdeal.Hand

end
-- ==== Proof.OnKernelIdeal.Bridge.lean ====
/-
  The value bridge between the kernel's row buffers and the looked-up array. While batch row b is worked, the half of
  parity p of the index scratch holds chunk b of the flattened index array — the words x[b, 0 … 2047] — and the table
  scratch holds the lane-replicated table. The row buffer of quarter q then holds, at row dd and column l, the table
  scratch's entry 1024 · x[b, l] + l % 16 + 256 q + 16 dd. Entry k of the replicated table is the table's entry
  (k / 1024, (k / 16) % 64); with x[b, l] below 8 the position is below 8192, dividing it by 1024 gives back x[b, l]
  and dividing it by 16 modulo 64 gives 16 q + dd. So the row buffer holds table[x[b, l], 16 q + dd]: the looked-up
  array's entry at batch row b, feature 16 q + dd, position l.
-/
import proofs.«205739_g2190433321788_cont_8to1_543_10_alg».proof.Proof.OnKernelIdeal.RowFun
import proofs.«205739_g2190433321788_cont_8to1_543_10_alg».proof.Proof.HostTable
import proofs.«205739_g2190433321788_cont_8to1_543_10_alg».proof.Proof.LaneIndex

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

variable (m : (ℓ : Loc nD τ sig) → Buf (Elt F) ℓ)

variable [FloatOps F]

/-! ## The arrays computed ahead of the call, read at an index -/

/-- The flattened index array at position 2048 n + l is the index array's entry (n, l). -/
theorem flatV_apply (d : Dev nD) (n : ℕ) (hn : n < 1024) (l : Fin 2048) :
    flatV m d (ValueIdx.ix1 (⟨(2048 * n + l.val) % 2097152, Nat.mod_lt _ (by decide)⟩ : Fin 2097152))
      = (m (xLoc d) : S1024x2048.Idx → BitVec 32) (ValueIdx.ix2 (⟨n, hn⟩ : Fin 1024) l) := by
  have hl := l.isLt
  unfold flatV
  refine (Cert.Lookup.Host.flat_apply (m (xLoc d) : S1024x2048.Idx → BitVec 32) shapeCasts_S1024x2048_S2097152 _).trans ?_
  refine congrArg (m (xLoc d) : S1024x2048.Idx → BitVec 32) (funext fun a => ?_)
  match a with
  | ⟨0, _⟩ => exact Fin.ext (show (2048 * n + l.val) % 2097152 / 2048 = n by omega)
  | ⟨1, _⟩ => exact Fin.ext (show (2048 * n + l.val) % 2097152 % 2048 = l.val by omega)

/-- The lane-replicated table at position N (folded into range) is the table's entry (N / 1024, (N / 16) % 64). -/
theorem repV_apply (d : Dev nD) (N : ℕ) :
    repV m d (at8192 N)
      = (m (tLoc d) : S8x64.Idx → Elt F .f32) (ValueIdx.ix2 (⟨N % 8192 / 1024, by omega⟩ : Fin 8) (⟨N % 8192 / 16 % 64, by omega⟩ : Fin 64)) := by
  unfold repV at8192
  exact Cert.Lookup.Host.tabRep_apply (m (tLoc d) : S8x64.Idx → Elt F .f32) shapeCasts_S8x64_S512x1 shapeCasts_S512x1_S1x512x1x1
    bcast_S1x512x1x1_S1x512x16x1_0_1_2_3 shapeCasts_S1x512x16x1_S512x16 shapeCasts_S512x16_S8192 (⟨N % 8192, Nat.mod_lt _ (by decide)⟩ : Fin 8192)

/-- The lane numbers: lane a holds a. -/
theorem iota_lane (d : Dev nD) (a : Fin 16) : iotV (F := F) d (ValueIdx.ix1 a) = BitVec.ofNat 32 a.val :=
  Cert.Lookup.Host.iota_apply a

/-! ## A chunk of the index array in a half of the index scratch -/

/-- Half p % 2 of the index scratch holds chunk n of the flattened index array: column l of the half is the
    flattened array's word 2048 n + l. -/
def HoldsChunk (d : Dev nD) (n p : ℕ) (Xk : S4096.Idx → BitVec 32) : Prop :=
  ∀ l : Fin 2048, Xk (at4096 (2048 * (p % 2) + l.val)) = flatV m d (ValueIdx.ix1 (⟨(2048 * n + l.val) % 2097152, Nat.mod_lt _ (by decide)⟩ : Fin 2097152))

/-- Every word of a half that holds a chunk names a table row: an index of the half is column l = i % 2048 of it, the
    word there is the index array's entry (n, l), and the precondition bounds it. -/
theorem words_lt (d : Dev nD) (hpre : PreOK m) (n p : ℕ) (hn : n < 1024) (Xk : S4096.Idx → BitVec 32) (hXk : HoldsChunk m d n p Xk) :
    ∀ i ∈ halfSet p, (Xk i).toNat < 8 := by
  intro i hi
  have hh : (i 0).val / 2048 = p % 2 := mem_halfSet.mp hi
  have hi0 : (i 0).val < 4096 := (i 0).isLt
  have hl : (i 0).val % 2048 < 2048 := Nat.mod_lt _ (by decide)
  have e : at4096 (2048 * (p % 2) + (i 0).val % 2048) = i := by
    funext a
    match a with
    | ⟨0, _⟩ => exact Fin.ext (show (2048 * (p % 2) + (i 0).val % 2048) % 4096 = (i 0).val by omega)
  rw [← e, hXk ⟨(i 0).val % 2048, hl⟩, flatV_apply m d n hn]
  exact hpre d _

/-! ## The row buffer holds the looked-up array -/

/-- While batch row b is worked from a half that holds its chunk and a table scratch that holds the replicated table,
    the row buffer of quarter q holds, at (dd, l), the looked-up array's entry (b, 16 q + dd, l). -/
theorem row_is_out (d : Dev nD) (hpre : PreOK m) (b : Fin 1024) (q : Fin 4) (p : ℕ) (Xk : S4096.Idx → BitVec 32)
    (hXk : HoldsChunk m d b.val p Xk) (TB : S8192.Idx → Elt F .f32) (hTB : ∀ i, TB i = repV m d i) (y : S16x2048.Idx) :
    rowG q.val p Xk TB y = outV m d (ValueIdx.ix3 b (⟨16 * q.val + (y 0).val, by have := (y 0).isLt; have := q.isLt; change (y 0).val < 16 at *; omega⟩ : Fin 64) (⟨(y 1).val, (y 1).isLt⟩ : Fin 2048)) := by
  have h0 : (y 0).val < 16 := (y 0).isLt
  have h1 : (y 1).val < 2048 := (y 1).isLt
  have hq : q.val < 4 := q.isLt
  -- the word at column l of the half is the index array's entry (b, l), below 8
  have hw : Xk (at4096 (2048 * (p % 2) + (y 1).val))
      = (m (xLoc d) : S1024x2048.Idx → BitVec 32) (ValueIdx.ix2 b (⟨(y 1).val, h1⟩ : Fin 2048)) :=
    (hXk ⟨(y 1).val, h1⟩).trans (flatV_apply m d b.val b.isLt ⟨(y 1).val, h1⟩)
  have hlt : ((m (xLoc d) : S1024x2048.Idx → BitVec 32) (ValueIdx.ix2 b (⟨(y 1).val, h1⟩ : Fin 2048))).toNat < 8 := hpre d _
  unfold rowG
  rw [hw, hTB, repV_apply]
  -- the looked-up array's entry is the table's at the row the word names
  show (m (tLoc d) : S8x64.Idx → Elt F .f32) _
    = (m (tLoc d) : S8x64.Idx → Elt F .f32) (ValueIdx.ix2 (Cert.Lookup.rowOf ((m (xLoc d) : S1024x2048.Idx → BitVec 32) (ValueIdx.ix2 b (⟨(y 1).val, h1⟩ : Fin 2048))))
        (⟨16 * q.val + (y 0).val, by omega⟩ : Fin 64))
  refine congrArg (m (tLoc d) : S8x64.Idx → Elt F .f32) (funext fun a => ?_)
  generalize ((m (xLoc d) : S1024x2048.Idx → BitVec 32) (ValueIdx.ix2 b (⟨(y 1).val, h1⟩ : Fin 2048))) = W at hlt ⊢
  match a with
  | ⟨0, _⟩ =>
    refine Fin.ext ?_
    show (1024 * W.toNat + (y 1).val % 16 + 256 * q.val + 16 * (y 0).val) % 8192 / 1024 = W.toNat % 8
    omega
  | ⟨1, _⟩ =>
    refine Fin.ext ?_
    show (1024 * W.toNat + (y 1).val % 16 + 256 * q.val + 16 * (y 0).val) % 8192 / 16 % 64 = 16 * q.val + (y 0).val
    omega

end Cert.KernelIdeal.Hand

end
-- ==== Proof.OnKernelIdeal.SliceIdx.lean ====
/-
  Where the kernel's slices put an index. A slice of a whole buffer puts index `y` at `off + y`, axis by axis; a slice
  with its leading axis of extent one dropped puts `(y₀, y₁)` where the slice puts `(0, y₀, y₁)`, the index with the
  same row-major position (an axis of extent one contributes nothing to the position). And a view's element set is
  the image of its placement.
-/
import proofs.«205739_g2190433321788_cont_8to1_543_10_alg».proof.Proof.OnKernelIdeal.Regions

noncomputable section

namespace Cert.KernelIdeal.Hand

open Cert.KernelIdeal Cert.KernelIdeal.Gen

open Idealize.ShloMosaic

/-- A view's elements are the images of its indices. -/
theorem mem_view_set {κ : Kind} {sp : Space} {s : Shape} {e : EltTy} (v : View sig κ sp s e) (i : v.ty.Idx) :
    i ∈ v.set ↔ ∃ y, v.emb y = i := by
  simp only [View.set, Finset.mem_map, Finset.mem_univ, true_and]

/-- The block at offsets `(b, 16 q, 0)` puts `(y₀, y₁)` at `(b, 16 q + y₀, y₁)`. -/
theorem blk_emb (off : Fin 3 → ℕ) (inb : ∀ a, off a + S1x16x2048.size a ≤ S1024x64x2048.size a) (b q : ℕ)
    (hb : b < 1024) (hq : q < 4) (h : off = ![b, 16 * q, 0]) (y : S16x2048.Idx) :
    (((Memref.whole main_v7_scv : Memref sig .scVector .hbm S1024x64x2048 .f32).slice
        (Rect.unit (s := S1024x64x2048) off S1x16x2048.size inb) (fun _ => rfl)).squeeze S16x2048
          squeezes_S1x16x2048_S16x2048).view.emb y
      = ValueIdx.ix3 (⟨b, hb⟩ : Fin 1024)
          (⟨16 * q + (y 0).val, by have := (y 0).isLt; change (y 0).val < 16 at this; omega⟩ : Fin 64)
          (⟨(y 1).val, (y 1).isLt⟩ : Fin 2048) := by
  subst h
  have hy0 : (y 0).val < 16 := (y 0).isLt
  have hy1 : (y 1).val < 2048 := (y 1).isLt
  -- the index of the `[1, 16, 2048]` slice with the row-major position of `(y₀, y₁)`
  have e : Shape.reshapeEquiv squeezes_S1x16x2048_S16x2048.numel_eq y
      = (ValueIdx.ix3 (⟨0, Nat.one_pos⟩ : Fin 1) (⟨(y 0).val, hy0⟩ : Fin 16) (⟨(y 1).val, hy1⟩ : Fin 2048) : S1x16x2048.Idx) := by
    apply Shape.reshapeEquiv_eq_of_rowMajor
    rw [Shape.rowMajor_val_three, Shape.rowMajor_val_two]
    show (0 * 16 + (y 0).val) * 2048 + (y 1).val = (y 0).val * 2048 + (y 1).val
    omega
  show (Rect.unit (s := S1024x64x2048) ![b, 16 * q, 0] S1x16x2048.size inb).emb
      (Shape.reshapeEquiv squeezes_S1x16x2048_S16x2048.numel_eq y) = _
  rw [e]
  funext a
  match a with
  | ⟨0, _⟩ => exact Fin.ext (by show b + 1 * 0 = b; omega)
  | ⟨1, _⟩ => exact Fin.ext (by show 16 * q + 1 * (y 0).val = 16 * q + (y 0).val; omega)
  | ⟨2, _⟩ => exact Fin.ext (by show 0 + 1 * (y 1).val = (y 1).val; omega)

/-- A 2048-word slice of the index scratch puts `y` at `off + y`. -/
theorem half_emb (off : Fin 1 → ℕ) (inb : ∀ a, off a + S2048.size a ≤ S4096.size a) (y : S2048.Idx) :
    ((Memref.whole cc0_scratch0 : Memref sig .scVector .vmem S4096 .i32).slice
        (Rect.unit (s := S4096) off S2048.size inb) (fun _ => rfl)).view.emb y
      = ValueIdx.ix1 (⟨off 0 + (y 0).val, by
          have h0 := inb 0; have hy := (y 0).isLt
          change (y 0).val < 2048 at hy; change off 0 + 2048 ≤ 4096 at h0; omega⟩ : Fin 4096) := by
  show (Rect.unit (s := S4096) off S2048.size inb).emb y = _
  funext a
  match a with
  | ⟨0, _⟩ => exact Fin.ext (by show off 0 + 1 * (y 0).val = off 0 + (y 0).val; omega)

/-- A 2048-word slice of the flat index array puts `y` at `off + y`. -/
theorem chunk_emb (off : Fin 1 → ℕ) (inb : ∀ a, off a + S2048.size a ≤ S2097152.size a) (y : S2048.Idx) :
    ((Memref.whole main_v6_scv : Memref sig .scVector .hbm S2097152 .i32).slice
        (Rect.unit (s := S2097152) off S2048.size inb) (fun _ => rfl)).view.emb y
      = ValueIdx.ix1 (⟨off 0 + (y 0).val, by
          have h0 := inb 0; have hy := (y 0).isLt
          change (y 0).val < 2048 at hy; change off 0 + 2048 ≤ 2097152 at h0; omega⟩ : Fin 2097152) := by
  show (Rect.unit (s := S2097152) off S2048.size inb).emb y = _
  funext a
  match a with
  | ⟨0, _⟩ => exact Fin.ext (by show off 0 + 1 * (y 0).val = off 0 + (y 0).val; omega)

end Cert.KernelIdeal.Hand

end
-- ==== Proof.OnKernelIdeal.Landing.lean ====
/-
  What a landed copy leaves. A copy into a view leaves the view's buffer written through one piece that covers the
  whole view: the buffer then holds, at the place the view puts index y, the copied value at y, and elsewhere what it
  held. A chunk of the flattened index array copied into a half of the index scratch makes the half hold the chunk;
  a row buffer that holds the looked-up array's block, copied into that block of the result, makes the result hold
  the looked-up array on the block.
-/
import proofs.«205739_g2190433321788_cont_8to1_543_10_alg».proof.Proof.OnKernelIdeal.Bridge
import proofs.«205739_g2190433321788_cont_8to1_543_10_alg».proof.Proof.OnKernelIdeal.SliceIdx

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

variable (m : (ℓ : Loc nD τ sig) → Buf (Elt F) ℓ)

variable [FloatOps F]

/-! ## One piece covering the whole view -/

/-- Moving a value along an equation of types and back. -/
theorem eq_cast_symm_of_cast_eq {α β : Type} (h : α = β) (a : α) (b : β) (e : cast h a = b) : a = cast h.symm b := by
  subst h; exact e

/-- After one write of w through the whole of a view, the buffer holds, at the place the view puts y, the value w y
    (moved to the buffer's element type, which is the view's). -/
theorem whole_write_at {κ : Kind} {sp : Space} {s : Shape} {e : EltTy} {Val : EltTy → Type} (v : View sig κ sp s e)
    (f : v.ty.Contents Val) (w : s.Idx → Val e) (y : s.Idx) :
    (v.writes Val f [⟨Rect.whole s, w⟩]) (v.emb y) = cast (congrArg Val v.elt_eq).symm (w y) := by
  have h := View.read_writes_cons_emb v f (Rect.whole s) w [] y
  rw [Rect.emb_whole_apply, View.read_apply] at h
  exact eq_cast_symm_of_cast_eq _ _ _ h

/-! ## A chunk of the index array lands in a half of the index scratch -/

/-- The 2048 words copied from offset 2048 n of the flattened index array into the index scratch at offset
    2048 (p % 2): the half then holds chunk n. Position 2048 (p % 2) + l of the scratch is where the destination
    slice puts l, the source slice puts l at position 2048 n + l of the flattened array. -/
theorem lands (d : Dev nD) (offd : Fin 1 → ℕ) (inbd : ∀ a, offd a + S2048.size a ≤ S4096.size a)
    (offs : Fin 1 → ℕ) (inbs : ∀ a, offs a + S2048.size a ≤ S2097152.size a) (p n : ℕ)
    (hd : offd = ![2048 * (p % 2)]) (hs : offs = ![2048 * n]) (hn : n < 1024)
    (g : S4096.Idx → BitVec 32) (w : S2048.Idx → BitVec 32)
    (hw : ∀ y, w y = flatV m d (((Memref.whole main_v6_scv : Memref sig .scVector .hbm S2097152 .i32).slice
      (Rect.unit (s := S2097152) offs S2048.size inbs) (fun _ => rfl)).view.emb y)) :
    HoldsChunk m d n p (((Memref.whole cc0_scratch0 : Memref sig .scVector .vmem S4096 .i32).slice
      (Rect.unit (s := S4096) offd S2048.size inbd) (fun _ => rfl)).view.writes (Elt F) g
        [⟨Rect.whole (Rect.unit (s := S4096) offd S2048.size inbd).shape, w⟩]) := by
  subst hd
  subst hs
  intro l
  have hl := l.isLt
  -- the scratch position is where the destination slice puts l
  have hpos : at4096 (2048 * (p % 2) + l.val)
      = ((Memref.whole cc0_scratch0 : Memref sig .scVector .vmem S4096 .i32).slice
          (Rect.unit (s := S4096) ![2048 * (p % 2)] S2048.size inbd) (fun _ => rfl)).view.emb (ValueIdx.ix1 l) := by
    rw [half_emb]
    exact congrArg ValueIdx.ix1 (Fin.ext (show (2048 * (p % 2) + l.val) % 4096 = 2048 * (p % 2) + l.val by omega))
  -- there the written buffer holds the copied word
  rw [hpos]
  refine (whole_write_at (Val := Elt F) ((Memref.whole cc0_scratch0 : Memref sig .scVector .vmem S4096 .i32).slice
      (Rect.unit (s := S4096) ![2048 * (p % 2)] S2048.size inbd) (fun _ => rfl)).view g w (ValueIdx.ix1 l)).trans ?_
  refine (show cast _ (w (ValueIdx.ix1 l)) = w (ValueIdx.ix1 l) from rfl).trans ?_
  -- and the copied word is the flattened array's at 2048 n + l
  rw [hw, chunk_emb]
  exact congrArg (flatV m d) (congrArg ValueIdx.ix1 (Fin.ext (show 2048 * n + l.val = (2048 * n + l.val) % 2097152 by omega)))

/-! ## A row buffer lands in its block of the result -/

/-- Block q of batch row b of the result, as the kernel addresses it: the slice at offsets (b, 16 q, 0) of sizes
    (1, 16, 2048), its unit axis dropped. -/
abbrev blkM (off : Fin 3 → ℕ) (inb : ∀ a, off a + S1x16x2048.size a ≤ S1024x64x2048.size a) :
    Memref sig .scVector .hbm S16x2048 .f32 :=
  ((Memref.whole main_v7_scv : Memref sig .scVector .hbm S1024x64x2048 .f32).slice
    (Rect.unit (s := S1024x64x2048) off S1x16x2048.size inb) (fun _ => rfl)).squeeze S16x2048 squeezes_S1x16x2048_S16x2048

/-- A row buffer holding the looked-up array's block (b, q), copied into that block: the result then holds the
    looked-up array at every element of the block. Every element of the block is where the block's view puts some
    (dd, l), namely (b, 16 q + dd, l). -/
theorem blk_lands (d : Dev nD) (off : Fin 3 → ℕ) (inb : ∀ a, off a + S1x16x2048.size a ≤ S1024x64x2048.size a) (b q : ℕ)
    (hb : b < 1024) (hq : q < 4) (h : off = ![b, 16 * q, 0]) (f0 : S1024x64x2048.Idx → Elt F .f32) (w : S16x2048.Idx → Elt F .f32)
    (hw : ∀ y : S16x2048.Idx, w y = outV m d (ValueIdx.ix3 (⟨b, hb⟩ : Fin 1024)
      (⟨16 * q + (y 0).val, by have := (y 0).isLt; change (y 0).val < 16 at this; omega⟩ : Fin 64) (⟨(y 1).val, (y 1).isLt⟩ : Fin 2048))) :
    ∀ i ∈ blkSet b q, ((blkM off inb).view.writes (Elt F) f0 [⟨Rect.whole S16x2048, w⟩]) i = outV m d i := by
  intro i hi
  rw [← set_blk off inb b q h] at hi
  obtain ⟨y, rfl⟩ := (mem_view_set (blkM off inb).view i).mp hi
  refine (whole_write_at (Val := Elt F) (blkM off inb).view f0 w y).trans ?_
  refine (show cast _ (w y) = w y from rfl).trans ?_
  rw [hw y, blk_emb off inb b q hb hq h y]

end Cert.KernelIdeal.Hand

end
-- ==== Proof.OnKernelIdeal.Body.lean ====
/-
  One task of the lookup kernel: vector subcore `s` of SparseCore `c` fills the 32 batch rows `64 s + 32 c + t` of the
  result. It first copies the lane numbers and the lane-replicated table into its tile memory, and starts fetching the
  first row's 2048 index words into one half of a double-buffered index scratch. Trip `t` then waits for its words,
  starts fetching the next row's into the other half, and fills the row in four quarters of sixteen features: a quarter is
  gathered into one of two [16, 2048] row buffers (one chunk of sixteen positions at a time) and written back to its block of the result while
  the next quarter is gathered into the other buffer; before a buffer is reused its earlier write-back is awaited. Between
  trips, therefore, two write-backs (quarters 2 and 3 of the row just done) and one fetch are in flight: the loop's
  invariant carries them as flights whose deliveries are stated at the looked-up array `outV` — the row buffer's function
  `rowG` is the table at the row's index words (by the host's replication of the table and flattening of the index array) — and at the chunk of index words the half will hold.
  After the last trip the two write-backs are awaited and every row of the task is at the looked-up array.
-/
import proofs.«205739_g2190433321788_cont_8to1_543_10_alg».proof.Proof.OnKernelIdeal.Quarter
import proofs.«205739_g2190433321788_cont_8to1_543_10_alg».proof.Proof.OnKernelIdeal.Bridge
import proofs.«205739_g2190433321788_cont_8to1_543_10_alg».proof.Proof.OnKernelIdeal.Landing

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Tile

variable (d : Dev nD) (L : grid0.Coords)

omit [FloatOps F] in
theorem bound_zero : grid0.bound 0 = 2 := rfl
omit [FloatOps F] in
theorem bound_one : grid0.bound 1 = 16 := rfl
abbrev cL (L : grid0.Coords) : Fin 2 := Fin.cast bound_zero (L 0)
abbrev sL (L : grid0.Coords) : Fin 16 := Fin.cast bound_one (L 1)

-- the kernel's memrefs, spelt as the body table passes them
local notation "fW" => (Memref.whole Cert.KernelIdeal.main_v6_scv : Memref Cert.KernelIdeal.sig Kind.scVector Space.hbm Cert.KernelIdeal.S2097152 EltTy.i32)
local notation "rW" => (Memref.whole Cert.KernelIdeal.main_v4_scv : Memref Cert.KernelIdeal.sig Kind.scVector Space.hbm Cert.KernelIdeal.S8192 EltTy.f32)
local notation "iW" => (Memref.whole Cert.KernelIdeal.main_v5_scv : Memref Cert.KernelIdeal.sig Kind.scVector Space.hbm Cert.KernelIdeal.S16 EltTy.i32)
local notation "oW" => (Memref.whole Cert.KernelIdeal.main_v7_scv : Memref Cert.KernelIdeal.sig Kind.scVector Space.hbm Cert.KernelIdeal.S1024x64x2048 EltTy.f32)
local notation "xS" => (Memref.whole Cert.KernelIdeal.cc0_scratch0 : Memref Cert.KernelIdeal.sig Kind.scVector Space.vmem Cert.KernelIdeal.S4096 EltTy.i32)
local notation "tS" => (Memref.whole Cert.KernelIdeal.cc0_scratch1 : Memref Cert.KernelIdeal.sig Kind.scVector Space.vmem Cert.KernelIdeal.S8192 EltTy.f32)
local notation "nS" => (Memref.whole Cert.KernelIdeal.cc0_scratch2 : Memref Cert.KernelIdeal.sig Kind.scVector Space.vmem Cert.KernelIdeal.S16 EltTy.i32)
local notation "aS" => (Memref.whole Cert.KernelIdeal.cc0_scratch3 : Memref Cert.KernelIdeal.sig Kind.scVector Space.vmem Cert.KernelIdeal.S16x2048 EltTy.f32)
local notation "bS" => (Memref.whole Cert.KernelIdeal.cc0_scratch4 : Memref Cert.KernelIdeal.sig Kind.scVector Space.vmem Cert.KernelIdeal.S16x2048 EltTy.f32)
local notation "thd" => (V d (cV L) (jV L))

omit [FloatOps F] in
theorem cond1_iff : ∀ k : Fin k0_t1_loop.trips, k0_cond1 k = 1#1 ↔ k.val + 1 < 32 := by decide +kernel
omit [FloatOps F] in
theorem cond2_iff : ∀ k : Fin k0_t1_loop.trips,
    Scalar.cmpi .ne (Scalar.extui (Scalar.cmpi .sgt (Scf.iv 0#32 1#32 k) 0#32) : BitVec 32) 0#32 = 1#1 ↔ 0 < k.val := by decide +kernel
omit [FloatOps F] in
theorem k0_off2_eq : ∀ k : Fin k0_t1_loop.trips, k0_off2 k = ![2048 * ((k.val + 1) % 2)] := by decide +kernel

omit [FloatOps F] in
theorem pts_hbm_f (q : PosShare TreeShare) (f : Buf (Elt F) (fLoc d)) :
    ((fW).view.loc thd ↦{q} f : sProp 𝕄) = fLoc d ↦{q} f := by
  simp only [Memref.view_whole, View.set_whole]
omit [FloatOps F] in
theorem pts_hbm_r (q : PosShare TreeShare) (f : Buf (Elt F) (rLoc d)) :
    ((rW).view.loc thd ↦{q} f : sProp 𝕄) = rLoc d ↦{q} f := by
  simp only [Memref.view_whole, View.set_whole]
omit [FloatOps F] in
theorem pts_hbm_i (q : PosShare TreeShare) (f : Buf (Elt F) (iLoc d)) :
    ((iW).view.loc thd ↦{q} f : sProp 𝕄) = iLoc d ↦{q} f := by
  simp only [Memref.view_whole, View.set_whole]

abbrev baseRow (L : grid0.Coords) : ℕ := 64 * (L 1).val + 32 * (L 0).val

omit [FloatOps F] in
theorem baseRow_le : baseRow L + 32 ≤ 1024 := by
  have h0 : (L 0).val < 2 := (L 0).isLt
  have h1 : (L 1).val < 16 := (L 1).isLt
  unfold baseRow; omega

abbrev qT (L : grid0.Coords) : PosShare TreeShare := qTile (cL L) (sL L)

/-- The index fetch between trips: before trip `k < 32` the chunk of batch row `base + k` is in flight into the half of
    parity `k` of the index scratch; after the last trip nothing is. -/
def IdxPart (k : ℕ) : sProp 𝕄 :=
  if k < 32 then
    iprop(Transfers.Flight countersEmb thd (SemLoc.dma cc0_scratch7.sem) (default : HIx 1) 65536
        iprop((∃ Xk : Buf (Elt F) ((xS).view.loc thd), ((xS).view.loc thd ↦[halfSet k]{fullShare} Xk) ∗ ⌜HoldsChunk m d (baseRow L + k) k Xk⌝)
          ∗ ((fW).view.loc thd ↦[chunkSet (baseRow L + k)]{qT L} flatV m d))
      ∗ ((fW).view.loc thd ↦[Finset.univ \ chunkSet (baseRow L + k)]{qT L} flatV m d))
  else iprop(semVal (thd, SemLoc.dma cc0_scratch7.sem) 0 ∗ ((fW).view.loc thd ↦{qT L} flatV m d)
      ∗ ∃ g : Buf (Elt F) ((xS).view.loc thd), (xS).view.loc thd ↦[halfSet k]{fullShare} g)

/-- The two row buffers between trips: before the first trip they and their semaphores are at rest; before trip `k > 0`
    quarters 2 and 3 of batch row `base + k - 1` are in flight out of them. -/
def BufPart (k : ℕ) : sProp 𝕄 :=
  if 0 < k then
    iprop(∃ (gA : Buf (Elt F) ((aS).view.loc thd)) (gB : Buf (Elt F) ((bS).view.loc thd)),
      Transfers.Flight countersEmb thd (SemLoc.dma cc0_scratch5.sem) (default : HIx 1) 1048576
        iprop((oLoc d ↦[blkSet (baseRow L + k - 1) 2]{fullShare} outV m d) ∗ ((aS).view.loc thd ↦{fullShare} gA))
      ∗ Transfers.Flight countersEmb thd (SemLoc.dma cc0_scratch6.sem) (default : HIx 1) 1048576
        iprop((oLoc d ↦[blkSet (baseRow L + k - 1) 3]{fullShare} outV m d) ∗ ((bS).view.loc thd ↦{fullShare} gB)))
  else iprop(semVal (thd, SemLoc.dma cc0_scratch5.sem) 0 ∗ semVal (thd, SemLoc.dma cc0_scratch6.sem) 0
      ∗ (∃ g : Buf (Elt F) ((aS).view.loc thd), (aS).view.loc thd ↦{fullShare} g) ∗ ∃ g : Buf (Elt F) ((bS).view.loc thd), (bS).view.loc thd ↦{fullShare} g)

/-- Before trip `k`: the table scratch at the replicated table, the index fetch, the rows landed so far at the looked-up
    array, the rows still to do untouched, the row buffers, and what the task owes. -/
def invO (O : CellTallies nD τ sig (HIx 1)) (W : Waits sig (HIx 1)) (TB : Buf (Elt F) ((tS).view.loc thd)) (k : ℕ) (_ : PUnit) : sProp 𝕄 :=
  iprop(Transfers.MayWaits thd (none : HIx 1) O ∗ ((tS).view.loc thd ↦{fullShare} TB)
    ∗ IdxPart m d L k ∗ (∃ g : Buf (Elt F) ((xS).view.loc thd), (xS).view.loc thd ↦[halfSet (k + 1)]{fullShare} g) ∗ (oLoc d ↦[landed (baseRow L) k]{fullShare} outV m d) ∗ (oLoc d ↦[todo (baseRow L) k]{fullShare} m (oLoc d))
    ∗ BufPart m d L k
    ∗ ∃ W', ⌜∀ p ∈ W', p ∈ W ∨ p.2 = none⌝ ∗ owes thd O W')

omit [FloatOps F] in
theorem cell_ne {a b : DmaSem sig} (h : a ≠ b) : (((V d (cV L) (jV L)), SemLoc.dma a) : GSem nD τ sig) ≠ ((V d (cV L) (jV L)), SemLoc.dma b) := by
  intro e; exact h (SemLoc.dma.inj (Prod.mk.inj e).2)

omit [FloatOps F] in
/-- The five DMA semaphores are among the subcore's own cells. -/
theorem ownSems0_V :
    (ownSems0 (V d (cV L) (jV L)) : sProp 𝕄)
      = iprop(semVal ((V d (cV L) (jV L)), SemLoc.dma cc0_scratch5.sem) 0 ∗ semVal ((V d (cV L) (jV L)), SemLoc.dma cc0_scratch6.sem) 0 ∗ semVal ((V d (cV L) (jV L)), SemLoc.dma cc0_scratch7.sem) 0 ∗ semVal ((V d (cV L) (jV L)), SemLoc.dma cc0_scoped0.sem) 0 ∗ semVal ((V d (cV L) (jV L)), SemLoc.dma cc0_scoped1.sem) 0
          ∗ bigSep ((((((ownCells (V d (cV L) (jV L))).erase (((V d (cV L) (jV L)), SemLoc.dma cc0_scratch5.sem) : GSem nD τ sig)).erase (((V d (cV L) (jV L)), SemLoc.dma cc0_scratch6.sem) : GSem nD τ sig)).erase (((V d (cV L) (jV L)), SemLoc.dma cc0_scratch7.sem) : GSem nD τ sig)).erase (((V d (cV L) (jV L)), SemLoc.dma cc0_scoped0.sem) : GSem nD τ sig)).erase (((V d (cV L) (jV L)), SemLoc.dma cc0_scoped1.sem) : GSem nD τ sig)) fun g => semVal g 0) := by
  unfold SparseCore.Cfg.ownSems0
  rw [SparseCore.bigSep_erase' ((mem_ownCells (g := (((V d (cV L) (jV L)), SemLoc.dma cc0_scratch5.sem) : GSem nD τ sig))).mpr ⟨rfl, by show (SemLoc.dma cc0_scratch5.sem : SemLoc sig).isScoped .scVector = true; decide⟩),
    SparseCore.bigSep_erase' (Finset.mem_erase.mpr ⟨cell_ne d L (show (cc0_scratch6.sem : DmaSem sig) ≠ cc0_scratch5.sem by decide), (mem_ownCells (g := (((V d (cV L) (jV L)), SemLoc.dma cc0_scratch6.sem) : GSem nD τ sig))).mpr ⟨rfl, by show (SemLoc.dma cc0_scratch6.sem : SemLoc sig).isScoped .scVector = true; decide⟩⟩),
    SparseCore.bigSep_erase' (Finset.mem_erase.mpr ⟨cell_ne d L (show (cc0_scratch7.sem : DmaSem sig) ≠ cc0_scratch6.sem by decide), Finset.mem_erase.mpr ⟨cell_ne d L (show (cc0_scratch7.sem : DmaSem sig) ≠ cc0_scratch5.sem by decide), (mem_ownCells (g := (((V d (cV L) (jV L)), SemLoc.dma cc0_scratch7.sem) : GSem nD τ sig))).mpr ⟨rfl, by show (SemLoc.dma cc0_scratch7.sem : SemLoc sig).isScoped .scVector = true; decide⟩⟩⟩),
    SparseCore.bigSep_erase' (Finset.mem_erase.mpr ⟨cell_ne d L (show (cc0_scoped0.sem : DmaSem sig) ≠ cc0_scratch7.sem by decide), Finset.mem_erase.mpr ⟨cell_ne d L (show (cc0_scoped0.sem : DmaSem sig) ≠ cc0_scratch6.sem by decide), Finset.mem_erase.mpr ⟨cell_ne d L (show (cc0_scoped0.sem : DmaSem sig) ≠ cc0_scratch5.sem by decide), (mem_ownCells (g := (((V d (cV L) (jV L)), SemLoc.dma cc0_scoped0.sem) : GSem nD τ sig))).mpr ⟨rfl, by show (SemLoc.dma cc0_scoped0.sem : SemLoc sig).isScoped .scVector = true; decide⟩⟩⟩⟩),
    SparseCore.bigSep_erase' (Finset.mem_erase.mpr ⟨cell_ne d L (show (cc0_scoped1.sem : DmaSem sig) ≠ cc0_scoped0.sem by decide), Finset.mem_erase.mpr ⟨cell_ne d L (show (cc0_scoped1.sem : DmaSem sig) ≠ cc0_scratch7.sem by decide), Finset.mem_erase.mpr ⟨cell_ne d L (show (cc0_scoped1.sem : DmaSem sig) ≠ cc0_scratch6.sem by decide), Finset.mem_erase.mpr ⟨cell_ne d L (show (cc0_scoped1.sem : DmaSem sig) ≠ cc0_scratch5.sem by decide), (mem_ownCells (g := (((V d (cV L) (jV L)), SemLoc.dma cc0_scoped1.sem) : GSem nD τ sig))).mpr ⟨rfl, by show (SemLoc.dma cc0_scoped1.sem : SemLoc sig).isScoped .scVector = true; decide⟩⟩⟩⟩⟩)]

omit [FloatOps F] in
/-- The five scratch buffers are among the subcore's own: they are them, at some contents, and the rest. -/
theorem ownBufs_V :
    (ownBufs (V d (cV L) (jV L)) : sProp 𝕄)
      = iprop((∃ f, (Memref.whole cc0_scratch0 : Memref sig .scVector .vmem S4096 .i32).view.loc (V d (cV L) (jV L)) ↦{fullShare} f) ∗ (∃ f, (Memref.whole cc0_scratch1 : Memref sig .scVector .vmem S8192 .f32).view.loc (V d (cV L) (jV L)) ↦{fullShare} f) ∗ (∃ f, (Memref.whole cc0_scratch2 : Memref sig .scVector .vmem S16 .i32).view.loc (V d (cV L) (jV L)) ↦{fullShare} f) ∗ (∃ f, (Memref.whole cc0_scratch3 : Memref sig .scVector .vmem S16x2048 .f32).view.loc (V d (cV L) (jV L)) ↦{fullShare} f) ∗ (∃ f, (Memref.whole cc0_scratch4 : Memref sig .scVector .vmem S16x2048 .f32).view.loc (V d (cV L) (jV L)) ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩)]

omit [FloatOps F] in
theorem off3_chunk (k : Fin k0_t1_loop.trips) : k0_off3 L k = ![2048 * (baseRow L + k.val + 1)] := by
  rw [k0_off3_eq]; exact congrArg (fun x => ![x]) (by unfold baseRow; omega)
omit [FloatOps F] in
theorem off1_chunk : k0_off1 L = ![2048 * (baseRow L + 0)] := by
  rw [k0_off1_eq]; exact congrArg (fun x => ![x]) (by unfold baseRow; omega)

/-- Quarter `q` of batch row `base + k` of the result, as the kernel slices it for its write-back. -/
abbrev blkA (k : Fin k0_t1_loop.trips) : Memref sig .scVector .hbm S16x2048 .f32 :=
  ((oW).slice (Rect.unit (s := S1024x64x2048) (k0_off21 L k) S1x16x2048.size (k0_off21_inb L k)) (fun _ => rfl)).squeeze S16x2048 squeezes_S1x16x2048_S16x2048
abbrev blkB (k : Fin k0_t1_loop.trips) : Memref sig .scVector .hbm S16x2048 .f32 :=
  ((oW).slice (Rect.unit (s := S1024x64x2048) (k0_off39 L k) S1x16x2048.size (k0_off39_inb L k)) (fun _ => rfl)).squeeze S16x2048 squeezes_S1x16x2048_S16x2048
abbrev blkC (k : Fin k0_t1_loop.trips) : Memref sig .scVector .hbm S16x2048 .f32 :=
  ((oW).slice (Rect.unit (s := S1024x64x2048) (k0_off57 L k) S1x16x2048.size (k0_off57_inb L k)) (fun _ => rfl)).squeeze S16x2048 squeezes_S1x16x2048_S16x2048
abbrev blkD (k : Fin k0_t1_loop.trips) : Memref sig .scVector .hbm S16x2048 .f32 :=
  ((oW).slice (Rect.unit (s := S1024x64x2048) (k0_off75 L k) S1x16x2048.size (k0_off75_inb L k)) (fun _ => rfl)).squeeze S16x2048 squeezes_S1x16x2048_S16x2048

omit [FloatOps F] in
theorem set_blkA (k : Fin k0_t1_loop.trips) : (blkA L k).view.set = blkSet (baseRow L + k.val) 0 := set_blk _ _ _ _ (k0_off21_eq L k)
omit [FloatOps F] in
theorem set_blkB (k : Fin k0_t1_loop.trips) : (blkB L k).view.set = blkSet (baseRow L + k.val) 1 := set_blk _ _ _ _ (k0_off39_eq L k)
omit [FloatOps F] in
theorem set_blkC (k : Fin k0_t1_loop.trips) : (blkC L k).view.set = blkSet (baseRow L + k.val) 2 := set_blk _ _ _ _ (k0_off57_eq L k)
omit [FloatOps F] in
theorem set_blkD (k : Fin k0_t1_loop.trips) : (blkD L k).view.set = blkSet (baseRow L + k.val) 3 := set_blk _ _ _ _ (k0_off75_eq L k)

omit [FloatOps F] in
theorem pts_blkA (k : Fin k0_t1_loop.trips) (f : Buf (Elt F) (oLoc d)) :
    (oLoc d ↦[blkSet (baseRow L + k.val) 0]{fullShare} f : sProp 𝕄) = (blkA L k).view.loc thd ↦[(blkA L k).view.set]{fullShare} f := by rw [set_blkA]
omit [FloatOps F] in
theorem pts_blkB (k : Fin k0_t1_loop.trips) (f : Buf (Elt F) (oLoc d)) :
    (oLoc d ↦[blkSet (baseRow L + k.val) 1]{fullShare} f : sProp 𝕄) = (blkB L k).view.loc thd ↦[(blkB L k).view.set]{fullShare} f := by rw [set_blkB]
omit [FloatOps F] in
theorem pts_blkC (k : Fin k0_t1_loop.trips) (f : Buf (Elt F) (oLoc d)) :
    (oLoc d ↦[blkSet (baseRow L + k.val) 2]{fullShare} f : sProp 𝕄) = (blkC L k).view.loc thd ↦[(blkC L k).view.set]{fullShare} f := by rw [set_blkC]
omit [FloatOps F] in
theorem pts_blkD (k : Fin k0_t1_loop.trips) (f : Buf (Elt F) (oLoc d)) :
    (oLoc d ↦[blkSet (baseRow L + k.val) 3]{fullShare} f : sProp 𝕄) = (blkD L k).view.loc thd ↦[(blkD L k).view.set]{fullShare} f := by rw [set_blkD]

omit [FloatOps F] in
theorem pts_oth (k : Fin k0_t1_loop.trips) (hc1 : k0_cond1 k = 1#1) (g : Buf (Elt F) ((xS).view.loc thd)) :
    ((xS).view.loc thd ↦[halfSet (k.val + 1)]{fullShare} g : sProp 𝕄)
      = ((xS).slice (Rect.unit (s := S4096) (k0_off2 k) S2048.size (k0_off2_inb k hc1)) (fun _ => rfl)).view.loc thd
          ↦[((xS).slice (Rect.unit (s := S4096) (k0_off2 k) S2048.size (k0_off2_inb k hc1)) (fun _ => rfl)).view.set]{fullShare} g := by
  rw [set_half (k0_off2 k) (k0_off2_inb k hc1) (k.val + 1) (k0_off2_eq k)]

/-- While quarter `q` of a batch row is gathered: the index half, the table scratch, and the row buffer right below
    column `16 j`. -/
def invQa (k : ℕ) (q : ℕ) (X : Buf (Elt F) ((xS).view.loc thd)) (TB : Buf (Elt F) ((tS).view.loc thd)) (j : ℕ) (_ : PUnit) : sProp 𝕄 :=
  iprop(((xS).view.loc thd ↦[halfSet k]{fullShare} X) ∗ ((tS).view.loc thd ↦{fullShare} TB)
    ∗ ∃ g : Buf (Elt F) ((aS).view.loc thd), ((aS).view.loc thd ↦{fullShare} g) ∗ ⌜∀ y : S16x2048.Idx, (y 1).val < 16 * j → g y = rowG q k X TB y⌝)
def invQb (k : ℕ) (q : ℕ) (X : Buf (Elt F) ((xS).view.loc thd)) (TB : Buf (Elt F) ((tS).view.loc thd)) (j : ℕ) (_ : PUnit) : sProp 𝕄 :=
  iprop(((xS).view.loc thd ↦[halfSet k]{fullShare} X) ∗ ((tS).view.loc thd ↦{fullShare} TB)
    ∗ ∃ g : Buf (Elt F) ((bS).view.loc thd), ((bS).view.loc thd ↦{fullShare} g) ∗ ⌜∀ y : S16x2048.Idx, (y 1).val < 16 * j → g y = rowG q k X TB y⌝)
omit [FloatOps F] in
theorem IdxPart_lt {k : ℕ} (h : k < 32) : IdxPart m d L k = iprop(Transfers.Flight countersEmb thd (SemLoc.dma cc0_scratch7.sem) (default : HIx 1) 65536
        iprop((∃ Xk : Buf (Elt F) ((xS).view.loc thd), ((xS).view.loc thd ↦[halfSet k]{fullShare} Xk) ∗ ⌜HoldsChunk m d (baseRow L + k) k Xk⌝)
          ∗ ((fW).view.loc thd ↦[chunkSet (baseRow L + k)]{qT L} flatV m d))
      ∗ ((fW).view.loc thd ↦[Finset.univ \ chunkSet (baseRow L + k)]{qT L} flatV m d)) := if_pos h
omit [FloatOps F] in
theorem BufPart_pos {k : ℕ} (h : 0 < k) : BufPart m d L k = iprop(∃ (gA : Buf (Elt F) ((aS).view.loc thd)) (gB : Buf (Elt F) ((bS).view.loc thd)),
      Transfers.Flight countersEmb thd (SemLoc.dma cc0_scratch5.sem) (default : HIx 1) 1048576
        iprop((oLoc d ↦[blkSet (baseRow L + k - 1) 2]{fullShare} outV m d) ∗ ((aS).view.loc thd ↦{fullShare} gA))
      ∗ Transfers.Flight countersEmb thd (SemLoc.dma cc0_scratch6.sem) (default : HIx 1) 1048576
        iprop((oLoc d ↦[blkSet (baseRow L + k - 1) 3]{fullShare} outV m d) ∗ ((bS).view.loc thd ↦{fullShare} gB))) := if_pos h

omit [FloatOps F] in
theorem IdxPart_ge {k : ℕ} (h : ¬ k < 32) : IdxPart m d L k = iprop(semVal (thd, SemLoc.dma cc0_scratch7.sem) 0 ∗ ((fW).view.loc thd ↦{qT L} flatV m d)
      ∗ ∃ g : Buf (Elt F) ((xS).view.loc thd), (xS).view.loc thd ↦[halfSet k]{fullShare} g) := if_neg h
omit [FloatOps F] in
theorem BufPart_zero {k : ℕ} (h : ¬ 0 < k) : BufPart m d L k = iprop(semVal (thd, SemLoc.dma cc0_scratch5.sem) 0 ∗ semVal (thd, SemLoc.dma cc0_scratch6.sem) 0
      ∗ (∃ g : Buf (Elt F) ((aS).view.loc thd), (aS).view.loc thd ↦{fullShare} g) ∗ ∃ g : Buf (Elt F) ((bS).view.loc thd), (bS).view.loc thd ↦{fullShare} g) := if_neg h

omit [FloatOps F] in
theorem trips_t2 : Scf.trips k0_t2_loop.lb k0_t2_loop.ub k0_t2_loop.st = 128 := by decide
omit [FloatOps F] in
theorem trips_t3 : Scf.trips k0_t3_loop.lb k0_t3_loop.ub k0_t3_loop.st = 128 := by decide
omit [FloatOps F] in
theorem trips_t4 : Scf.trips k0_t4_loop.lb k0_t4_loop.ub k0_t4_loop.st = 128 := by decide
omit [FloatOps F] in
theorem trips_t5 : Scf.trips k0_t5_loop.lb k0_t5_loop.ub k0_t5_loop.st = 128 := by decide
omit [FloatOps F] in
theorem col_lt (y : S16x2048.Idx) {n : ℕ} (hn : n = 128) : (y 1).val < 16 * n := by
  have h := (y 1).isLt; change (y 1).val < 2048 at h; omega

/-- A landed write-back: the block of the result holds the looked-up array. -/
theorem pts_landed (off : Fin 3 → ℕ) (inb : ∀ a, off a + S1x16x2048.size a ≤ S1024x64x2048.size a) (b q : ℕ) (hb : b < 1024) (hq : q < 4) (h : off = ![b, 16 * q, 0])
    (f0 : Buf (Elt F) (oLoc d)) (w : S16x2048.Idx → Elt F .f32)
    (hw : ∀ y : S16x2048.Idx, w y = outV m d (ValueIdx.ix3 (⟨b, hb⟩ : Fin 1024) (⟨16 * q + (y 0).val, by have := (y 0).isLt; change (y 0).val < 16 at this; omega⟩ : Fin 64) (⟨(y 1).val, (y 1).isLt⟩ : Fin 2048))) :
    ((blkM off inb).view.loc thd ↦[(blkM off inb).view.set]{fullShare} (blkM off inb).view.writes (Elt F) f0 [⟨Rect.whole S16x2048, w⟩] : sProp 𝕄)
      = oLoc d ↦[blkSet b q]{fullShare} outV m d := by
  rw [set_blk off inb b q h]
  exact pointsTo_congr (blk_lands m d off inb b q hb hq h f0 w hw)

/-- A write-back in flight delivers its block at the looked-up array and its row buffer back. -/
theorem flight_done (sm sm' : SemLoc sig) (hsm : sm = sm') (off : Fin 3 → ℕ) (inb : ∀ a, off a + S1x16x2048.size a ≤ S1024x64x2048.size a) (b q : ℕ) (hb : b < 1024) (hq : q < 4) (h : off = ![b, 16 * q, 0])
    (f0 : Buf (Elt F) (oLoc d)) (w : S16x2048.Idx → Elt F .f32)
    (hw : ∀ y : S16x2048.Idx, w y = outV m d (ValueIdx.ix3 (⟨b, hb⟩ : Fin 1024) (⟨16 * q + (y 0).val, by have := (y 0).isLt; change (y 0).val < 16 at this; omega⟩ : Fin 64) (⟨(y 1).val, (y 1).isLt⟩ : Fin 2048)))
    (B : Memref sig .scVector .vmem S16x2048 .f32) (hB : B.view.set = Finset.univ) (g : Buf (Elt F) (B.view.loc thd)) :
    (Transfers.Flight countersEmb thd sm (default : HIx 1) 1048576
        iprop(((blkM off inb).view.loc thd ↦[(blkM off inb).view.set]{fullShare} (blkM off inb).view.writes (Elt F) f0 [⟨Rect.whole S16x2048, w⟩])
          ∗ (B.view.loc thd ↦[B.view.set]{fullShare} g)) : sProp 𝕄)
      ⊢ Transfers.Flight countersEmb thd sm' (default : HIx 1) 1048576 iprop((oLoc d ↦[blkSet b q]{fullShare} outV m d) ∗ (B.view.loc thd ↦{fullShare} g)) := by
  subst hsm
  rw [pts_landed m d L off inb b q hb hq h f0 w hw, hB]

omit [FloatOps F] in
theorem off3_chunk' (k : Fin k0_t1_loop.trips) : k0_off3 L k = ![2048 * (baseRow L + (k.val + 1))] := by
  rw [k0_off3_eq]; exact congrArg (fun x => ![x]) (by unfold baseRow; omega)

/-- The next chunk's fetch in flight delivers the other half holding that chunk. -/
theorem flight_idx (sm : SemLoc sig) (hsm : sm = SemLoc.dma cc0_scratch7.sem) (k : Fin k0_t1_loop.trips) (hc1 : k0_cond1 k = 1#1) (h1 : k.val + 1 < 32) (gh : Buf (Elt F) ((xS).view.loc thd)) (w : S2048.Idx → BitVec 32)
    (hw : ∀ y, w y = flatV m d (((fW).slice (Rect.unit (s := S2097152) (k0_off3 L k) S2048.size (k0_off3_inb L k hc1)) (fun _ => rfl)).view.emb y)) :
    (Transfers.Flight countersEmb thd sm (default : HIx 1) 65536
        iprop((((xS).slice (Rect.unit (s := S4096) (k0_off2 k) S2048.size (k0_off2_inb k hc1)) (fun _ => rfl)).view.loc thd
              ↦[((xS).slice (Rect.unit (s := S4096) (k0_off2 k) S2048.size (k0_off2_inb k hc1)) (fun _ => rfl)).view.set]{fullShare}
              ((xS).slice (Rect.unit (s := S4096) (k0_off2 k) S2048.size (k0_off2_inb k hc1)) (fun _ => rfl)).view.writes (Elt F) gh
                [⟨Rect.whole (Rect.unit (s := S4096) (k0_off2 k) S2048.size (k0_off2_inb k hc1)).shape, w⟩])
          ∗ ((fW).view.loc thd ↦[((fW).slice (Rect.unit (s := S2097152) (k0_off3 L k) S2048.size (k0_off3_inb L k hc1)) (fun _ => rfl)).view.set]{qT L} flatV m d)) : sProp 𝕄)
      ⊢ Transfers.Flight countersEmb thd (SemLoc.dma cc0_scratch7.sem) (default : HIx 1) 65536
        iprop((∃ Xk : Buf (Elt F) ((xS).view.loc thd), ((xS).view.loc thd ↦[halfSet (k.val + 1)]{fullShare} Xk) ∗ ⌜HoldsChunk m d (baseRow L + (k.val + 1)) (k.val + 1) Xk⌝)
          ∗ ((fW).view.loc thd ↦[chunkSet (baseRow L + (k.val + 1))]{qT L} flatV m d)) := by
  have hb := baseRow_le L
  have hD : (iprop((((xS).slice (Rect.unit (s := S4096) (k0_off2 k) S2048.size (k0_off2_inb k hc1)) (fun _ => rfl)).view.loc thd
              ↦[((xS).slice (Rect.unit (s := S4096) (k0_off2 k) S2048.size (k0_off2_inb k hc1)) (fun _ => rfl)).view.set]{fullShare}
              ((xS).slice (Rect.unit (s := S4096) (k0_off2 k) S2048.size (k0_off2_inb k hc1)) (fun _ => rfl)).view.writes (Elt F) gh
                [⟨Rect.whole (Rect.unit (s := S4096) (k0_off2 k) S2048.size (k0_off2_inb k hc1)).shape, w⟩])
          ∗ ((fW).view.loc thd ↦[((fW).slice (Rect.unit (s := S2097152) (k0_off3 L k) S2048.size (k0_off3_inb L k hc1)) (fun _ => rfl)).view.set]{qT L} flatV m d)) : sProp 𝕄)
      ⊢ iprop((∃ Xk : Buf (Elt F) ((xS).view.loc thd), ((xS).view.loc thd ↦[halfSet (k.val + 1)]{fullShare} Xk) ∗ ⌜HoldsChunk m d (baseRow L + (k.val + 1)) (k.val + 1) Xk⌝)
          ∗ ((fW).view.loc thd ↦[chunkSet (baseRow L + (k.val + 1))]{qT L} flatV m d)) := by
    rw [← pts_oth d L k hc1, set_chunk _ _ _ (off3_chunk' L k)]
    iintro ⟨H1, H2⟩
    isplitl [H1]
    · iexists _
      isplitl [H1]; · iexact H1
      ipureintro
      exact lands m d _ _ _ _ (k.val + 1) (baseRow L + (k.val + 1)) (k0_off2_eq k) (off3_chunk' L k) (by omega) gh w hw
    · iexact H2
  subst hsm
  exact Transfers.Flight_mono _ _ hD

omit [FloatOps F] in
theorem pts_frest (k : Fin k0_t1_loop.trips) (hc1 : k0_cond1 k = 1#1) (q : PosShare TreeShare) (f : Buf (Elt F) ((fW).view.loc thd)) :
    ((fW).view.loc thd ↦[Finset.univ \ ((fW).slice (Rect.unit (s := S2097152) (k0_off3 L k) S2048.size (k0_off3_inb L k hc1)) (fun _ => rfl)).view.set]{q} f : sProp 𝕄)
      = (fW).view.loc thd ↦[Finset.univ \ chunkSet (baseRow L + (k.val + 1))]{q} f := by
  rw [set_chunk _ _ _ (off3_chunk' L k)]

omit [FloatOps F] in
theorem set_bufA : (aS).view.set = Finset.univ := by simp only [Memref.view_whole, View.set_whole]
omit [FloatOps F] in
theorem set_bufB : (bS).view.set = Finset.univ := by simp only [Memref.view_whole, View.set_whole]

set_option maxHeartbeats 8000000 in
theorem trip_mid (hpre : PreOK m) (O : CellTallies nD τ sig (HIx 1)) (W : Waits sig (HIx 1)) (TB : Buf (Elt F) ((tS).view.loc thd)) (hTB : ∀ i, TB i = repV m d i)
    (v1 : BitVec 32) (v2 : Vec F S16 .i32) (hv2 : ∀ a : Fin 16, v2 (ValueIdx.ix1 a) = BitVec.ofNat 32 a.val)
    (k : Fin k0_t1_loop.trips) (h0 : 0 < k.val) (h1 : k.val + 1 < 32) :
    invO m d L O W TB k.val ()
      ⊢ wp frame (wpE (defs₀ (F := F)) 𝒱₀ thd none) Set.univ
          (k0_t1_body L fW (Memref.isWhole_whole _) rW (Memref.isWhole_whole _) iW (Memref.isWhole_whole _) oW (Memref.isWhole_whole _)
            xS (Memref.isWhole_whole _) tS (Memref.isWhole_whole _) nS (Memref.isWhole_whole _) aS (Memref.isWhole_whole _) bS (Memref.isWhole_whole _)
            cc0_scratch5 cc0_scratch6 cc0_scratch7 cc0_scoped0 cc0_scoped1 v1 v2 k ())
          fun _ => invO m d L O W TB (k.val + 1) () := by
  have hk : k.val < 32 := k.isLt
  have hbase := baseRow_le L
  have hb : baseRow L + k.val < 1024 := by omega
  have hc1 : k0_cond1 k = 1#1 := (cond1_iff k).mpr h1
  have hc2 : Scalar.cmpi .ne (Scalar.extui (Scalar.cmpi .sgt (Scf.iv 0#32 1#32 k) 0#32) : BitVec 32) 0#32 = 1#1 := (cond2_iff k).mpr h0
  unfold invO
  rw [IdxPart_lt m d L hk, BufPart_pos m d L h0]
  unfold k0_t1_body
  rw [k0_part13_eq_skeleton, k0_part14_eq_skeleton]
  iintro ⟨Hmw, Hts, ⟨Hfl, Hfrest⟩, ⟨%gh, Hoth⟩, Hland, Htodo, ⟨%gA0, %gB0, HflA, HflB⟩, %W', %hW', HO⟩
  -- the other half as the next fetch's target; the four quarters of this trip's batch row as the write-backs' targets
  ihave Hoth' := (Entails.of_eq (pts_oth (F := F) d L k hc1 gh)) $$ Hoth
  ihave Hsp := (todo_split (F := F) d (baseRow L) k.val hk hbase (m (oLoc d))).1 $$ Htodo
  icases Hsp with ⟨HbA, HbB, HbC, HbD, Htodo⟩
  ihave HbA' := (Entails.of_eq (pts_blkA (F := F) d L k _)) $$ HbA
  ihave HbB' := (Entails.of_eq (pts_blkB (F := F) d L k _)) $$ HbB
  ihave HbC' := (Entails.of_eq (pts_blkC (F := F) d L k _)) $$ HbC
  ihave HbD' := (Entails.of_eq (pts_blkD (F := F) d L k _)) $$ HbD
  sl_exec (disch := (first | exact hc2 | exact hc1))
  icases Hfl_dst with ⟨%Xk, Hcur, %hXk⟩
  have hX8 := words_lt m d hpre (baseRow L + k.val) k.val (by omega) Xk hXk
  icases HflA_dst with Hdone2
  -- quarter 0 into row buffer A, then out to its block
  sl_for (invQa d L k.val 0 Xk TB) $$ [Hcur Hts HflA_src]
  case region =>
    intro j _
    unfold invQa
    iintro ⟨Hx, Ht, %g, Hb, %hg⟩
    iapply (trip_qa (F := F) d L k j v1 _ 0#32 v2 hv2 Xk hX8 TB g hg)
    isplitl [Hx]; · iexact Hx
    isplitl [Ht]; · iexact Ht
    iexact Hb
  · unfold invQa
    isplitl [Hcur]; · iexact Hcur
    isplitl [Hts]; · iexact Hts
    iexists _; isplitl [HflA_src]; · iexact HflA_src
    ipureintro; intro y hy; exact absurd hy (by omega)
  iintro %_ HI
  unfold invQa
  icases HI with ⟨Hcur, Hts, %gA, Has, %hgA⟩
  sl_exec (disch := (first | exact hc2 | exact hc1))
  icases HflB_dst with Hdone3
  -- quarter 1 into row buffer B
  sl_for (invQb d L k.val 1 Xk TB) $$ [Hcur Hts HflB_src]
  case region =>
    intro j _
    unfold invQb
    iintro ⟨Hx, Ht, %g, Hb, %hg⟩
    iapply (trip_qb (F := F) d L k j v1 _ _ v2 hv2 Xk hX8 TB g hg)
    isplitl [Hx]; · iexact Hx
    isplitl [Ht]; · iexact Ht
    iexact Hb
  · unfold invQb
    isplitl [Hcur]; · iexact Hcur
    isplitl [Hts]; · iexact Hts
    iexists _; isplitl [HflB_src]; · iexact HflB_src
    ipureintro; intro y hy; exact absurd hy (by omega)
  iintro %_ HI
  unfold invQb
  icases HI with ⟨Hcur, Hts, %gB, Hbs, %hgB⟩
  sl_exec
  -- quarter 2 into row buffer A again
  sl_for (invQa d L k.val 2 Xk TB) $$ [Hcur Hts Has]
  case region =>
    intro j _
    unfold invQa
    iintro ⟨Hx, Ht, %g, Hb, %hg⟩
    iapply (trip_qc (F := F) d L k j v1 _ _ v2 hv2 Xk hX8 TB g hg)
    isplitl [Hx]; · iexact Hx
    isplitl [Ht]; · iexact Ht
    iexact Hb
  · unfold invQa
    isplitl [Hcur]; · iexact Hcur
    isplitl [Hts]; · iexact Hts
    iexists _; isplitl [Has]; · iexact Has
    ipureintro; intro y hy; exact absurd hy (by omega)
  iintro %_ HI
  unfold invQa
  icases HI with ⟨Hcur, Hts, %gA2, Has, %hgA2⟩
  sl_exec
  -- quarter 3 into row buffer B again
  sl_for (invQb d L k.val 3 Xk TB) $$ [Hcur Hts Hbs]
  case region =>
    intro j _
    unfold invQb
    iintro ⟨Hx, Ht, %g, Hb, %hg⟩
    iapply (trip_qd (F := F) d L k j v1 _ 0#32 v2 hv2 Xk hX8 TB g hg)
    isplitl [Hx]; · iexact Hx
    isplitl [Ht]; · iexact Ht
    iexact Hb
  · unfold invQb
    isplitl [Hcur]; · iexact Hcur
    isplitl [Hts]; · iexact Hts
    iexists _; isplitl [Hbs]; · iexact Hbs
    ipureintro; intro y hy; exact absurd hy (by omega)
  iintro %_ HI
  unfold invQb
  icases HI with ⟨Hcur, Hts, %gB2, Hbs, %hgB2⟩
  sl_exec
  sl_step
  sl_unfold_run_names
  -- what landed and what is in flight, at the looked-up array
  ihave HdA := (Entails.of_eq (pts_landed m d L (k0_off21 L k) (k0_off21_inb L k) (baseRow L + k.val) 0 hb (by decide) (k0_off21_eq L k) _ (ReadAs.same.apply (View.read (Elt F) (aS).view gA))
    (fun y => (hgA y (col_lt y trips_t2)).trans (row_is_out m d hpre ⟨_, hb⟩ 0 k.val Xk hXk TB hTB y)))) $$ HbA'
  ihave HdB := (Entails.of_eq (pts_landed m d L (k0_off39 L k) (k0_off39_inb L k) (baseRow L + k.val) 1 hb (by decide) (k0_off39_eq L k) _ (ReadAs.same.apply (View.read (Elt F) (bS).view gB))
    (fun y => (hgB y (col_lt y trips_t3)).trans (row_is_out m d hpre ⟨_, hb⟩ 1 k.val Xk hXk TB hTB y)))) $$ HbB'
  ihave HflA' := (flight_done m d L (SemLoc.dma (⟨0, _⟩ : DmaSem sig)) (SemLoc.dma cc0_scratch5.sem) rfl (k0_off57 L k) (k0_off57_inb L k) (baseRow L + k.val) 2 hb (by decide) (k0_off57_eq L k) _ (ReadAs.same.apply (View.read (Elt F) (aS).view gA2))
    (fun y => (hgA2 y (col_lt y trips_t4)).trans (row_is_out m d hpre ⟨_, hb⟩ 2 k.val Xk hXk TB hTB y)) aS set_bufA gA2) $$ HflA
  ihave HflB' := (flight_done m d L (SemLoc.dma (⟨1, _⟩ : DmaSem sig)) (SemLoc.dma cc0_scratch6.sem) rfl (k0_off75 L k) (k0_off75_inb L k) (baseRow L + k.val) 3 hb (by decide) (k0_off75_eq L k) _ (ReadAs.same.apply (View.read (Elt F) (bS).view gB2))
    (fun y => (hgB2 y (col_lt y trips_t5)).trans (row_is_out m d hpre ⟨_, hb⟩ 3 k.val Xk hXk TB hTB y)) bS set_bufB gB2) $$ HflB
  ihave Hl := (landed_next (F := F) d (baseRow L) k.val (outV m d)) $$ [Hland Hdone2 Hdone3 HdA HdB]
  · isplitl [Hland]; · iexact Hland
    rw [show optBlk (baseRow L) k.val 2 = blkSet (baseRow L + k.val - 1) 2 from if_pos h0, show optBlk (baseRow L) k.val 3 = blkSet (baseRow L + k.val - 1) 3 from if_pos h0]
    isplitl [Hdone2]; · iexact Hdone2
    isplitl [Hdone3]; · iexact Hdone3
    isplitl [HdA]; · iexact HdA
    iexact HdB
  ihave Hfl' := (flight_idx m d L (SemLoc.dma (⟨2, _⟩ : DmaSem sig)) rfl k hc1 h1 gh (ReadAs.same.apply (View.read (Elt F) ((fW).slice (Rect.unit (s := S2097152) (k0_off3 L k) S2048.size (k0_off3_inb L k hc1)) (fun _ => rfl)).view (flatV m d))) (fun y => (View.read_apply _ _).trans (cast_eq _ _))) $$ Hfl
  ihave Hfrest' := (Entails.of_eq (pts_frest (F := F) d L k hc1 _ _)) $$ Hfrest
  rw [IdxPart_lt m d L h1, BufPart_pos m d L (Nat.succ_pos k.val), show baseRow L + (k.val + 1) - 1 = baseRow L + k.val from by omega,
    show halfSet (k.val + 1 + 1) = halfSet k.val from halfSet_succ k.val]
  isplitl [Hmw]; · iexact Hmw
  isplitl [Hts]; · iexact Hts
  isplitl [Hfl' Hfrest']
  · isplitl [Hfl']; · iexact Hfl'
    iexact Hfrest'
  isplitl [Hcur]; · iexists _; iexact Hcur
  isplitl [Hl]; · iexact Hl
  isplitl [Htodo]; · iexact Htodo
  isplitl [HflA' HflB']
  · iexists gA2, gB2
    isplitl [HflA']; · iexact HflA'
    iexact HflB'
  iexists _
  isplitr
  rotate_left
  · iexact HO
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp

set_option maxHeartbeats 8000000 in
theorem trip_first (hpre : PreOK m) (O : CellTallies nD τ sig (HIx 1)) (W : Waits sig (HIx 1)) (TB : Buf (Elt F) ((tS).view.loc thd)) (hTB : ∀ i, TB i = repV m d i)
    (v1 : BitVec 32) (v2 : Vec F S16 .i32) (hv2 : ∀ a : Fin 16, v2 (ValueIdx.ix1 a) = BitVec.ofNat 32 a.val)
    (k : Fin k0_t1_loop.trips) (h0 : ¬ 0 < k.val) (h1 : k.val + 1 < 32) :
    invO m d L O W TB k.val ()
      ⊢ wp frame (wpE (defs₀ (F := F)) 𝒱₀ thd none) Set.univ
          (k0_t1_body L fW (Memref.isWhole_whole _) rW (Memref.isWhole_whole _) iW (Memref.isWhole_whole _) oW (Memref.isWhole_whole _)
            xS (Memref.isWhole_whole _) tS (Memref.isWhole_whole _) nS (Memref.isWhole_whole _) aS (Memref.isWhole_whole _) bS (Memref.isWhole_whole _)
            cc0_scratch5 cc0_scratch6 cc0_scratch7 cc0_scoped0 cc0_scoped1 v1 v2 k ())
          fun _ => invO m d L O W TB (k.val + 1) () := by
  have hk : k.val < 32 := k.isLt
  have hbase := baseRow_le L
  have hb : baseRow L + k.val < 1024 := by omega
  have hc1 : k0_cond1 k = 1#1 := (cond1_iff k).mpr h1
  have hc2 : ¬ Scalar.cmpi .ne (Scalar.extui (Scalar.cmpi .sgt (Scf.iv 0#32 1#32 k) 0#32) : BitVec 32) 0#32 = 1#1 := fun h => h0 ((cond2_iff k).mp h)
  unfold invO
  rw [IdxPart_lt m d L hk, BufPart_zero m d L h0]
  unfold k0_t1_body
  rw [k0_part13_eq_skeleton, k0_part14_eq_skeleton]
  iintro ⟨Hmw, Hts, ⟨Hfl, Hfrest⟩, ⟨%gh, Hoth⟩, Hland, Htodo, ⟨HflA, HflB, ⟨%gA0, HflA_src⟩, ⟨%gB0, HflB_src⟩⟩, %W', %hW', HO⟩
  -- the other half as the next fetch's target; the four quarters of this trip's batch row as the write-backs' targets
  ihave Hoth' := (Entails.of_eq (pts_oth (F := F) d L k hc1 gh)) $$ Hoth
  ihave Hsp := (todo_split (F := F) d (baseRow L) k.val hk hbase (m (oLoc d))).1 $$ Htodo
  icases Hsp with ⟨HbA, HbB, HbC, HbD, Htodo⟩
  ihave HbA' := (Entails.of_eq (pts_blkA (F := F) d L k _)) $$ HbA
  ihave HbB' := (Entails.of_eq (pts_blkB (F := F) d L k _)) $$ HbB
  ihave HbC' := (Entails.of_eq (pts_blkC (F := F) d L k _)) $$ HbC
  ihave HbD' := (Entails.of_eq (pts_blkD (F := F) d L k _)) $$ HbD
  sl_exec (disch := (first | exact hc2 | exact hc1))
  icases Hfl_dst with ⟨%Xk, Hcur, %hXk⟩
  have hX8 := words_lt m d hpre (baseRow L + k.val) k.val (by omega) Xk hXk
  -- quarter 0 into row buffer A, then out to its block
  sl_for (invQa d L k.val 0 Xk TB) $$ [Hcur Hts HflA_src]
  case region =>
    intro j _
    unfold invQa
    iintro ⟨Hx, Ht, %g, Hb, %hg⟩
    iapply (trip_qa (F := F) d L k j v1 _ 0#32 v2 hv2 Xk hX8 TB g hg)
    isplitl [Hx]; · iexact Hx
    isplitl [Ht]; · iexact Ht
    iexact Hb
  · unfold invQa
    isplitl [Hcur]; · iexact Hcur
    isplitl [Hts]; · iexact Hts
    iexists _; isplitl [HflA_src]; · iexact HflA_src
    ipureintro; intro y hy; exact absurd hy (by omega)
  iintro %_ HI
  unfold invQa
  icases HI with ⟨Hcur, Hts, %gA, Has, %hgA⟩
  sl_exec (disch := (first | exact hc2 | exact hc1))
  -- quarter 1 into row buffer B
  sl_for (invQb d L k.val 1 Xk TB) $$ [Hcur Hts HflB_src]
  case region =>
    intro j _
    unfold invQb
    iintro ⟨Hx, Ht, %g, Hb, %hg⟩
    iapply (trip_qb (F := F) d L k j v1 _ _ v2 hv2 Xk hX8 TB g hg)
    isplitl [Hx]; · iexact Hx
    isplitl [Ht]; · iexact Ht
    iexact Hb
  · unfold invQb
    isplitl [Hcur]; · iexact Hcur
    isplitl [Hts]; · iexact Hts
    iexists _; isplitl [HflB_src]; · iexact HflB_src
    ipureintro; intro y hy; exact absurd hy (by omega)
  iintro %_ HI
  unfold invQb
  icases HI with ⟨Hcur, Hts, %gB, Hbs, %hgB⟩
  sl_exec
  -- quarter 2 into row buffer A again
  sl_for (invQa d L k.val 2 Xk TB) $$ [Hcur Hts Has]
  case region =>
    intro j _
    unfold invQa
    iintro ⟨Hx, Ht, %g, Hb, %hg⟩
    iapply (trip_qc (F := F) d L k j v1 _ _ v2 hv2 Xk hX8 TB g hg)
    isplitl [Hx]; · iexact Hx
    isplitl [Ht]; · iexact Ht
    iexact Hb
  · unfold invQa
    isplitl [Hcur]; · iexact Hcur
    isplitl [Hts]; · iexact Hts
    iexists _; isplitl [Has]; · iexact Has
    ipureintro; intro y hy; exact absurd hy (by omega)
  iintro %_ HI
  unfold invQa
  icases HI with ⟨Hcur, Hts, %gA2, Has, %hgA2⟩
  sl_exec
  -- quarter 3 into row buffer B again
  sl_for (invQb d L k.val 3 Xk TB) $$ [Hcur Hts Hbs]
  case region =>
    intro j _
    unfold invQb
    iintro ⟨Hx, Ht, %g, Hb, %hg⟩
    iapply (trip_qd (F := F) d L k j v1 _ 0#32 v2 hv2 Xk hX8 TB g hg)
    isplitl [Hx]; · iexact Hx
    isplitl [Ht]; · iexact Ht
    iexact Hb
  · unfold invQb
    isplitl [Hcur]; · iexact Hcur
    isplitl [Hts]; · iexact Hts
    iexists _; isplitl [Hbs]; · iexact Hbs
    ipureintro; intro y hy; exact absurd hy (by omega)
  iintro %_ HI
  unfold invQb
  icases HI with ⟨Hcur, Hts, %gB2, Hbs, %hgB2⟩
  sl_exec
  sl_step
  sl_unfold_run_names
  -- what landed and what is in flight, at the looked-up array
  ihave HdA := (Entails.of_eq (pts_landed m d L (k0_off21 L k) (k0_off21_inb L k) (baseRow L + k.val) 0 hb (by decide) (k0_off21_eq L k) _ (ReadAs.same.apply (View.read (Elt F) (aS).view gA))
    (fun y => (hgA y (col_lt y trips_t2)).trans (row_is_out m d hpre ⟨_, hb⟩ 0 k.val Xk hXk TB hTB y)))) $$ HbA'
  ihave HdB := (Entails.of_eq (pts_landed m d L (k0_off39 L k) (k0_off39_inb L k) (baseRow L + k.val) 1 hb (by decide) (k0_off39_eq L k) _ (ReadAs.same.apply (View.read (Elt F) (bS).view gB))
    (fun y => (hgB y (col_lt y trips_t3)).trans (row_is_out m d hpre ⟨_, hb⟩ 1 k.val Xk hXk TB hTB y)))) $$ HbB'
  ihave HflA' := (flight_done m d L (SemLoc.dma (⟨0, _⟩ : DmaSem sig)) (SemLoc.dma cc0_scratch5.sem) rfl (k0_off57 L k) (k0_off57_inb L k) (baseRow L + k.val) 2 hb (by decide) (k0_off57_eq L k) _ (ReadAs.same.apply (View.read (Elt F) (aS).view gA2))
    (fun y => (hgA2 y (col_lt y trips_t4)).trans (row_is_out m d hpre ⟨_, hb⟩ 2 k.val Xk hXk TB hTB y)) aS set_bufA gA2) $$ HflA
  ihave HflB' := (flight_done m d L (SemLoc.dma (⟨1, _⟩ : DmaSem sig)) (SemLoc.dma cc0_scratch6.sem) rfl (k0_off75 L k) (k0_off75_inb L k) (baseRow L + k.val) 3 hb (by decide) (k0_off75_eq L k) _ (ReadAs.same.apply (View.read (Elt F) (bS).view gB2))
    (fun y => (hgB2 y (col_lt y trips_t5)).trans (row_is_out m d hpre ⟨_, hb⟩ 3 k.val Xk hXk TB hTB y)) bS set_bufB gB2) $$ HflB
  ihave Hdone2 := (Entails.of_eq (pointsTo_empty (ℓ := oLoc d) (q := fullShare) (f := outV m d)).symm) $$ []
  · iempintro
  ihave Hdone3 := (Entails.of_eq (pointsTo_empty (ℓ := oLoc d) (q := fullShare) (f := outV m d)).symm) $$ []
  · iempintro
  ihave Hl := (landed_next (F := F) d (baseRow L) k.val (outV m d)) $$ [Hland Hdone2 Hdone3 HdA HdB]
  · isplitl [Hland]; · iexact Hland
    rw [show optBlk (baseRow L) k.val 2 = ∅ from if_neg h0, show optBlk (baseRow L) k.val 3 = ∅ from if_neg h0]
    isplitl [Hdone2]; · iexact Hdone2
    isplitl [Hdone3]; · iexact Hdone3
    isplitl [HdA]; · iexact HdA
    iexact HdB
  ihave Hfl' := (flight_idx m d L (SemLoc.dma (⟨2, _⟩ : DmaSem sig)) rfl k hc1 h1 gh (ReadAs.same.apply (View.read (Elt F) ((fW).slice (Rect.unit (s := S2097152) (k0_off3 L k) S2048.size (k0_off3_inb L k hc1)) (fun _ => rfl)).view (flatV m d))) (fun y => (View.read_apply _ _).trans (cast_eq _ _))) $$ Hfl
  ihave Hfrest' := (Entails.of_eq (pts_frest (F := F) d L k hc1 _ _)) $$ Hfrest
  rw [IdxPart_lt m d L h1, BufPart_pos m d L (Nat.succ_pos k.val), show baseRow L + (k.val + 1) - 1 = baseRow L + k.val from by omega,
    show halfSet (k.val + 1 + 1) = halfSet k.val from halfSet_succ k.val]
  isplitl [Hmw]; · iexact Hmw
  isplitl [Hts]; · iexact Hts
  isplitl [Hfl' Hfrest']
  · isplitl [Hfl']; · iexact Hfl'
    iexact Hfrest'
  isplitl [Hcur]; · iexists _; iexact Hcur
  isplitl [Hl]; · iexact Hl
  isplitl [Htodo]; · iexact Htodo
  isplitl [HflA' HflB']
  · iexists gA2, gB2
    isplitl [HflA']; · iexact HflA'
    iexact HflB'
  iexists _
  isplitr
  rotate_left
  · iexact HO
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    exact hW' p hp

set_option maxHeartbeats 8000000 in
theorem trip_last (hpre : PreOK m) (O : CellTallies nD τ sig (HIx 1)) (W : Waits sig (HIx 1)) (TB : Buf (Elt F) ((tS).view.loc thd)) (hTB : ∀ i, TB i = repV m d i)
    (v1 : BitVec 32) (v2 : Vec F S16 .i32) (hv2 : ∀ a : Fin 16, v2 (ValueIdx.ix1 a) = BitVec.ofNat 32 a.val)
    (k : Fin k0_t1_loop.trips) (h0 : 0 < k.val) (h1 : ¬ k.val + 1 < 32) :
    invO m d L O W TB k.val ()
      ⊢ wp frame (wpE (defs₀ (F := F)) 𝒱₀ thd none) Set.univ
          (k0_t1_body L fW (Memref.isWhole_whole _) rW (Memref.isWhole_whole _) iW (Memref.isWhole_whole _) oW (Memref.isWhole_whole _)
            xS (Memref.isWhole_whole _) tS (Memref.isWhole_whole _) nS (Memref.isWhole_whole _) aS (Memref.isWhole_whole _) bS (Memref.isWhole_whole _)
            cc0_scratch5 cc0_scratch6 cc0_scratch7 cc0_scoped0 cc0_scoped1 v1 v2 k ())
          fun _ => invO m d L O W TB (k.val + 1) () := by
  have hk : k.val < 32 := k.isLt
  have hbase := baseRow_le L
  have hb : baseRow L + k.val < 1024 := by omega
  have hc1 : ¬ k0_cond1 k = 1#1 := fun h => h1 ((cond1_iff k).mp h)
  have hc2 : Scalar.cmpi .ne (Scalar.extui (Scalar.cmpi .sgt (Scf.iv 0#32 1#32 k) 0#32) : BitVec 32) 0#32 = 1#1 := (cond2_iff k).mpr h0
  unfold invO
  rw [IdxPart_lt m d L hk, BufPart_pos m d L h0]
  unfold k0_t1_body
  rw [k0_part13_eq_skeleton, k0_part14_eq_skeleton]
  iintro ⟨Hmw, Hts, ⟨Hfl, Hfrest⟩, ⟨%gh, Hoth⟩, Hland, Htodo, ⟨%gA0, %gB0, HflA, HflB⟩, %W', %hW', HO⟩
  -- no chunk is left to fetch; the four quarters of this trip's batch row as the write-backs' targets
  ihave Hsp := (todo_split (F := F) d (baseRow L) k.val hk hbase (m (oLoc d))).1 $$ Htodo
  icases Hsp with ⟨HbA, HbB, HbC, HbD, Htodo⟩
  ihave HbA' := (Entails.of_eq (pts_blkA (F := F) d L k _)) $$ HbA
  ihave HbB' := (Entails.of_eq (pts_blkB (F := F) d L k _)) $$ HbB
  ihave HbC' := (Entails.of_eq (pts_blkC (F := F) d L k _)) $$ HbC
  ihave HbD' := (Entails.of_eq (pts_blkD (F := F) d L k _)) $$ HbD
  sl_exec (disch := (first | exact hc2 | exact hc1))
  icases Hfl_dst with ⟨%Xk, Hcur, %hXk⟩
  have hX8 := words_lt m d hpre (baseRow L + k.val) k.val (by omega) Xk hXk
  icases HflA_dst with Hdone2
  -- quarter 0 into row buffer A, then out to its block
  sl_for (invQa d L k.val 0 Xk TB) $$ [Hcur Hts HflA_src]
  case region =>
    intro j _
    unfold invQa
    iintro ⟨Hx, Ht, %g, Hb, %hg⟩
    iapply (trip_qa (F := F) d L k j v1 _ 0#32 v2 hv2 Xk hX8 TB g hg)
    isplitl [Hx]; · iexact Hx
    isplitl [Ht]; · iexact Ht
    iexact Hb
  · unfold invQa
    isplitl [Hcur]; · iexact Hcur
    isplitl [Hts]; · iexact Hts
    iexists _; isplitl [HflA_src]; · iexact HflA_src
    ipureintro; intro y hy; exact absurd hy (by omega)
  iintro %_ HI
  unfold invQa
  icases HI with ⟨Hcur, Hts, %gA, Has, %hgA⟩
  sl_exec (disch := (first | exact hc2 | exact hc1))
  icases HflB_dst with Hdone3
  -- quarter 1 into row buffer B
  sl_for (invQb d L k.val 1 Xk TB) $$ [Hcur Hts HflB_src]
  case region =>
    intro j _
    unfold invQb
    iintro ⟨Hx, Ht, %g, Hb, %hg⟩
    iapply (trip_qb (F := F) d L k j v1 _ _ v2 hv2 Xk hX8 TB g hg)
    isplitl [Hx]; · iexact Hx
    isplitl [Ht]; · iexact Ht
    iexact Hb
  · unfold invQb
    isplitl [Hcur]; · iexact Hcur
    isplitl [Hts]; · iexact Hts
    iexists _; isplitl [HflB_src]; · iexact HflB_src
    ipureintro; intro y hy; exact absurd hy (by omega)
  iintro %_ HI
  unfold invQb
  icases HI with ⟨Hcur, Hts, %gB, Hbs, %hgB⟩
  sl_exec
  -- quarter 2 into row buffer A again
  sl_for (invQa d L k.val 2 Xk TB) $$ [Hcur Hts Has]
  case region =>
    intro j _
    unfold invQa
    iintro ⟨Hx, Ht, %g, Hb, %hg⟩
    iapply (trip_qc (F := F) d L k j v1 _ _ v2 hv2 Xk hX8 TB g hg)
    isplitl [Hx]; · iexact Hx
    isplitl [Ht]; · iexact Ht
    iexact Hb
  · unfold invQa
    isplitl [Hcur]; · iexact Hcur
    isplitl [Hts]; · iexact Hts
    iexists _; isplitl [Has]; · iexact Has
    ipureintro; intro y hy; exact absurd hy (by omega)
  iintro %_ HI
  unfold invQa
  icases HI with ⟨Hcur, Hts, %gA2, Has, %hgA2⟩
  sl_exec
  -- quarter 3 into row buffer B again
  sl_for (invQb d L k.val 3 Xk TB) $$ [Hcur Hts Hbs]
  case region =>
    intro j _
    unfold invQb
    iintro ⟨Hx, Ht, %g, Hb, %hg⟩
    iapply (trip_qd (F := F) d L k j v1 _ 0#32 v2 hv2 Xk hX8 TB g hg)
    isplitl [Hx]; · iexact Hx
    isplitl [Ht]; · iexact Ht
    iexact Hb
  · unfold invQb
    isplitl [Hcur]; · iexact Hcur
    isplitl [Hts]; · iexact Hts
    iexists _; isplitl [Hbs]; · iexact Hbs
    ipureintro; intro y hy; exact absurd hy (by omega)
  iintro %_ HI
  unfold invQb
  icases HI with ⟨Hcur, Hts, %gB2, Hbs, %hgB2⟩
  sl_exec
  sl_step
  sl_unfold_run_names
  -- what landed and what is in flight, at the looked-up array
  ihave HdA := (Entails.of_eq (pts_landed m d L (k0_off21 L k) (k0_off21_inb L k) (baseRow L + k.val) 0 hb (by decide) (k0_off21_eq L k) _ (ReadAs.same.apply (View.read (Elt F) (aS).view gA))
    (fun y => (hgA y (col_lt y trips_t2)).trans (row_is_out m d hpre ⟨_, hb⟩ 0 k.val Xk hXk TB hTB y)))) $$ HbA'
  ihave HdB := (Entails.of_eq (pts_landed m d L (k0_off39 L k) (k0_off39_inb L k) (baseRow L + k.val) 1 hb (by decide) (k0_off39_eq L k) _ (ReadAs.same.apply (View.read (Elt F) (bS).view gB))
    (fun y => (hgB y (col_lt y trips_t3)).trans (row_is_out m d hpre ⟨_, hb⟩ 1 k.val Xk hXk TB hTB y)))) $$ HbB'
  ihave HflA' := (flight_done m d L (SemLoc.dma (⟨0, _⟩ : DmaSem sig)) (SemLoc.dma cc0_scratch5.sem) rfl (k0_off57 L k) (k0_off57_inb L k) (baseRow L + k.val) 2 hb (by decide) (k0_off57_eq L k) _ (ReadAs.same.apply (View.read (Elt F) (aS).view gA2))
    (fun y => (hgA2 y (col_lt y trips_t4)).trans (row_is_out m d hpre ⟨_, hb⟩ 2 k.val Xk hXk TB hTB y)) aS set_bufA gA2) $$ HflA
  ihave HflB' := (flight_done m d L (SemLoc.dma (⟨1, _⟩ : DmaSem sig)) (SemLoc.dma cc0_scratch6.sem) rfl (k0_off75 L k) (k0_off75_inb L k) (baseRow L + k.val) 3 hb (by decide) (k0_off75_eq L k) _ (ReadAs.same.apply (View.read (Elt F) (bS).view gB2))
    (fun y => (hgB2 y (col_lt y trips_t5)).trans (row_is_out m d hpre ⟨_, hb⟩ 3 k.val Xk hXk TB hTB y)) bS set_bufB gB2) $$ HflB
  ihave Hl := (landed_next (F := F) d (baseRow L) k.val (outV m d)) $$ [Hland Hdone2 Hdone3 HdA HdB]
  · isplitl [Hland]; · iexact Hland
    rw [show optBlk (baseRow L) k.val 2 = blkSet (baseRow L + k.val - 1) 2 from if_pos h0, show optBlk (baseRow L) k.val 3 = blkSet (baseRow L + k.val - 1) 3 from if_pos h0]
    isplitl [Hdone2]; · iexact Hdone2
    isplitl [Hdone3]; · iexact Hdone3
    isplitl [HdA]; · iexact HdA
    iexact HdB
  rw [IdxPart_ge m d L h1, BufPart_pos m d L (Nat.succ_pos k.val), show baseRow L + (k.val + 1) - 1 = baseRow L + k.val from by omega,
    show halfSet (k.val + 1 + 1) = halfSet k.val from halfSet_succ k.val]
  isplitl [Hmw]; · iexact Hmw
  isplitl [Hts]; · iexact Hts
  isplitl [Hfl Hfrest Hoth]
  · isplitl [Hfl]; · iexact Hfl
    isplitl [Hfrest]; · iexact Hfrest
    iexists _; iexact Hoth
  isplitl [Hcur]; · iexists _; iexact Hcur
  isplitl [Hl]; · iexact Hl
  isplitl [Htodo]; · iexact Htodo
  isplitl [HflA' HflB']
  · iexists gA2, gB2
    isplitl [HflA']; · iexact HflA'
    iexact HflB'
  iexists _
  isplitr
  rotate_left
  · iexact HO
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp

omit [FloatOps F] in
theorem trips_t1 : Scf.trips k0_t1_loop.lb k0_t1_loop.ub k0_t1_loop.st = 32 := by decide

omit [FloatOps F] in
theorem lane_idx (j : S16.Idx) : (Rect.unit (s := S16) ![0] S16.size inb_S16_S16_0).toLoadRect.idx j = j := by
  funext a; apply Fin.ext
  rw [LoadRect.idx_apply]
  have ha : a = 0 := Subsingleton.elim _ _
  subst ha
  show 0 + 1 * (j 0).val = (j 0).val
  omega

/-- The first chunk's fetch in flight delivers the first half holding that chunk. -/
theorem flight_idx0 (sm : SemLoc sig) (hsm : sm = SemLoc.dma cc0_scratch7.sem) (p4) (gx : Buf (Elt F) ((xS).view.loc thd)) (w : S2048.Idx → BitVec 32)
    (hw : ∀ y, w y = flatV m d (((fW).slice (Rect.unit (s := S2097152) (k0_off1 L) S2048.size (k0_off1_inb L)) (fun _ => rfl)).view.emb y)) :
    (Transfers.Flight countersEmb thd sm (default : HIx 1) 65536
        iprop((((xS).slice (Rect.unit (s := S4096) ![0] S2048.size inb_S4096_S2048_0) p4).view.loc thd
              ↦[((xS).slice (Rect.unit (s := S4096) ![0] S2048.size inb_S4096_S2048_0) p4).view.set]{fullShare}
              ((xS).slice (Rect.unit (s := S4096) ![0] S2048.size inb_S4096_S2048_0) p4).view.writes (Elt F) gx
                [⟨Rect.whole (Rect.unit (s := S4096) ![0] S2048.size inb_S4096_S2048_0).shape, w⟩])
          ∗ ((fW).view.loc thd ↦[((fW).slice (Rect.unit (s := S2097152) (k0_off1 L) S2048.size (k0_off1_inb L)) (fun _ => rfl)).view.set]{qT L} flatV m d)) : sProp 𝕄)
      ⊢ Transfers.Flight countersEmb thd (SemLoc.dma cc0_scratch7.sem) (default : HIx 1) 65536
        iprop((∃ Xk : Buf (Elt F) ((xS).view.loc thd), ((xS).view.loc thd ↦[halfSet 0]{fullShare} Xk) ∗ ⌜HoldsChunk m d (baseRow L + 0) 0 Xk⌝)
          ∗ ((fW).view.loc thd ↦[chunkSet (baseRow L + 0)]{qT L} flatV m d)) := by
  have hb := baseRow_le L
  have hD : (iprop((((xS).slice (Rect.unit (s := S4096) ![0] S2048.size inb_S4096_S2048_0) p4).view.loc thd
              ↦[((xS).slice (Rect.unit (s := S4096) ![0] S2048.size inb_S4096_S2048_0) p4).view.set]{fullShare}
              ((xS).slice (Rect.unit (s := S4096) ![0] S2048.size inb_S4096_S2048_0) p4).view.writes (Elt F) gx
                [⟨Rect.whole (Rect.unit (s := S4096) ![0] S2048.size inb_S4096_S2048_0).shape, w⟩])
          ∗ ((fW).view.loc thd ↦[((fW).slice (Rect.unit (s := S2097152) (k0_off1 L) S2048.size (k0_off1_inb L)) (fun _ => rfl)).view.set]{qT L} flatV m d)) : sProp 𝕄)
      ⊢ iprop((∃ Xk : Buf (Elt F) ((xS).view.loc thd), ((xS).view.loc thd ↦[halfSet 0]{fullShare} Xk) ∗ ⌜HoldsChunk m d (baseRow L + 0) 0 Xk⌝)
          ∗ ((fW).view.loc thd ↦[chunkSet (baseRow L + 0)]{qT L} flatV m d)) := by
    rw [set_half ![0] inb_S4096_S2048_0 0 rfl, set_chunk _ _ _ (off1_chunk L)]
    iintro ⟨H1, H2⟩
    isplitl [H1]
    · iexists _
      isplitl [H1]; · iexact H1
      ipureintro
      exact lands m d ![0] inb_S4096_S2048_0 _ _ 0 (baseRow L + 0) rfl (off1_chunk L) (by omega) gx w hw
    · iexact H2
  subst hsm
  exact Transfers.Flight_mono _ _ hD

omit [FloatOps F] in
theorem pts_frest0 (q : PosShare TreeShare) (f : Buf (Elt F) ((fW).view.loc thd)) :
    ((fW).view.loc thd ↦[Finset.univ \ ((fW).slice (Rect.unit (s := S2097152) (k0_off1 L) S2048.size (k0_off1_inb L)) (fun _ => rfl)).view.set]{q} f : sProp 𝕄)
      = (fW).view.loc thd ↦[Finset.univ \ chunkSet (baseRow L + 0)]{q} f := by
  rw [set_chunk _ _ _ (off1_chunk L)]

omit [FloatOps F] in
/-- The index scratch's two halves, at whatever each holds, are the scratch at some contents. -/
theorem halves_any (g0 g1 : Buf (Elt F) ((xS).view.loc thd)) :
    iprop(((xS).view.loc thd ↦[halfSet 0]{fullShare} g0) ∗ ((xS).view.loc thd ↦[halfSet 1]{fullShare} g1))
      ⊢ (iprop(∃ f : Buf (Elt F) ((xS).view.loc thd), (xS).view.loc thd ↦{fullShare} f) : sProp 𝕄) := by
  have hd : Disjoint (halfSet 0) (halfSet (0 + 1)) := halfSet_disjoint 0
  rw [pointsTo_congr (f := g0) (g := (halfSet 1).piecewise g1 g0) (I := halfSet 0) (fun i hi => by
        rw [Finset.piecewise_eq_of_notMem _ _ _ (Finset.disjoint_left.mp hd hi)]),
    pointsTo_congr (f := g1) (g := (halfSet 1).piecewise g1 g0) (I := halfSet 1) (fun i hi => by
        rw [Finset.piecewise_eq_of_mem _ _ _ hi])]
  iintro H
  iexists _
  iapply (halves (F := F) d (cV L) (jV L) _).2
  iexact H

set_option maxHeartbeats 8000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (readPts m d (qTile (cL L) (sL L)) ∗ oLoc d ↦[tileSet (cL L) (sL L)]{fullShare} m (oLoc d))
        ∗ scopedBufs thd ∗ scopedSems0 thd ∗ owes thd O W)
      ⊢ wp frame (wpE (defs₀ (F := F)) 𝒱₀ thd none) Set.univ
          (cc0_sc_embed L fW (Memref.isWhole_whole _) rW (Memref.isWhole_whole _) iW (Memref.isWhole_whole _) oW (Memref.isWhole_whole _)
            xS (Memref.isWhole_whole _) tS (Memref.isWhole_whole _) nS (Memref.isWhole_whole _) aS (Memref.isWhole_whole _) bS (Memref.isWhole_whole _)
            cc0_scratch5 cc0_scratch6 cc0_scratch7 cc0_scoped0 cc0_scoped1)
          fun _ => iprop((readPts m d (qTile (cL L) (sL L)) ∗ oLoc d ↦[tileSet (cL L) (sL L)]{fullShare} outV m d)
            ∗ scopedBufs thd ∗ scopedSems0 thd
            ∗ ∃ W', ⌜∀ p ∈ W', p ∈ W ∨ p.2 = none⌝ ∗ owes thd O W') := by
  have hb := baseRow_le L
  simp only [cc0_sc_embed_eq_skeleton]; unfold cc0_sc_embed_skel
  rw [(K (F := F)).scopedBufs_V hF d (cV L) (jV L), SparseCore.Cfg.scopedSems0_V (Val := Elt F) d (cV L) (jV L), ownSems0_V, ownBufs_V]
  iintro ⟨#Hlv, -, ⟨⟨Hf, Hr, Hi⟩, Ho⟩, ⟨⟨%gx, Hxs⟩, ⟨%gt, Hts⟩, ⟨%gn, Hns⟩, ⟨%ga, Has⟩, ⟨%gb, Hbs⟩, Hbufs⟩, ⟨Hsa, Hsb, Hsx, Hsn, Hst, Hsems⟩, HO⟩
  ihave Hmw := ((K (F := F)).mayWaits_none (thr := thd) hO) $$ Hlv
  ihave Hf' := (Entails.of_eq (pts_hbm_f (F := F) d L _ _).symm) $$ Hf
  ihave Hr' := (Entails.of_eq (pts_hbm_r (F := F) d L _ _).symm) $$ Hr
  ihave Hi' := (Entails.of_eq (pts_hbm_i (F := F) d L _ _).symm) $$ Hi
  -- the index scratch in its two halves, the first spelt as the first fetch's target
  ihave Hh := (halves (F := F) d (cV L) (jV L) gx).1 $$ Hxs
  icases Hh with ⟨Hx0, Hx1⟩
  ihave Hx0' := (Entails.of_eq (show ((V d (cV L) (jV L)).loc cc0_scratch0 ↦[halfSet 0]{fullShare} gx : sProp 𝕄)
      = ((xS).slice (Rect.unit (s := S4096) ![0] S2048.size inb_S4096_S2048_0) (fun _ => rfl)).view.loc thd
          ↦[((xS).slice (Rect.unit (s := S4096) ![0] S2048.size inb_S4096_S2048_0) (fun _ => rfl)).view.set]{fullShare} gx from by
    rw [set_half ![0] inb_S4096_S2048_0 0 rfl])) $$ Hx0
  sl_exec
  sl_unfold_run_names
  -- the table scratch holds the replicated table, the lane register the lane numbers
  ihave Hts' := (Entails.of_eq (congrArg (fun c => ((tS).view.loc thd ↦{fullShare} c : sProp 𝕄))
    (show View.write (Elt F) (tS).view gt (ReadAs.same.apply (View.read (Elt F) (rW).view (repV m d))) Finset.univ = repV m d from View.write_whole_univ _ _ _))) $$ Hts
  have hv2 : ∀ a : Fin 16, (View.readAt (Elt F) (nS).view (Rect.unit (s := S16) ![0] S16.size inb_S16_S16_0).toLoadRect
      (View.write (Elt F) (nS).view gn (ReadAs.same.apply (View.read (Elt F) (iW).view (iotV (F := F) d))) Finset.univ)) (ValueIdx.ix1 a) = BitVec.ofNat 32 a.val := by
    intro a
    rw [View.readAt_apply, lane_idx, show View.write (Elt F) (nS).view gn (ReadAs.same.apply (View.read (Elt F) (iW).view (iotV (F := F) d))) Finset.univ = iotV (F := F) d from View.write_whole_univ _ _ _]
    exact iota_lane d a
  ihave Hsx' := (flight_idx0 m d L (SemLoc.dma (⟨2, _⟩ : DmaSem sig)) rfl _ gx
    (ReadAs.same.apply (View.read (Elt F) ((fW).slice (Rect.unit (s := S2097152) (k0_off1 L) S2048.size (k0_off1_inb L)) (fun _ => rfl)).view (flatV m d)))
    (fun y => (View.read_apply _ _).trans (cast_eq _ _))) $$ Hsx
  ihave Hf'' := (Entails.of_eq (pts_frest0 (F := F) d L _ _)) $$ Hf'
  ihave Hl0 := ((landed_zero (F := F) d (baseRow L) (outV m d)).2) $$ []
  · iempintro
  ihave Ho' := (Entails.of_eq (congrArg (fun S => (oLoc d ↦[S]{fullShare} m (oLoc d) : sProp 𝕄)) (tile_eq_todo (cL L) (sL L)))) $$ Ho
  sl_for (invO m d L O W (repV m d)) $$ [Hmw Hts' Hsx' Hf'' Hx1 Hl0 Ho' Hsa Hsb Has Hbs HO]
  case region =>
    intro k _
    by_cases h0 : 0 < k.val
    · by_cases h1 : k.val + 1 < 32
      · exact trip_mid m d L hpre O W _ (fun _ => rfl) _ _ hv2 k h0 h1
      · exact trip_last m d L hpre O W _ (fun _ => rfl) _ _ hv2 k h0 h1
    · exact trip_first m d L hpre O W _ (fun _ => rfl) _ _ hv2 k h0 (by omega)
  · unfold invO
    rw [IdxPart_lt m d L (by decide : 0 < 32), BufPart_zero m d L (Nat.lt_irrefl 0)]
    isplitl [Hmw]; · iexact Hmw
    isplitl [Hts']; · iexact Hts'
    isplitl [Hsx' Hf'']
    · isplitl [Hsx']; · iexact Hsx'
      iexact Hf''
    isplitl [Hx1]; · iexists _; iexact Hx1
    isplitl [Hl0]; · iexact Hl0
    isplitl [Ho']; · iexact Ho'
    isplitl [Hsa Hsb Has Hbs]
    · isplitl [Hsa]; · iexact Hsa
      isplitl [Hsb]; · iexact Hsb
      isplitl [Has]; · iexists _; iexact Has
      iexists _; iexact Hbs
    iexists _
    isplitr
    rotate_left
    · iexact HO
    · ipureintro
      intro p hp
      rcases Finset.mem_insert.mp hp with rfl | hp
      · exact .inr rfl
      rcases Finset.mem_insert.mp hp with rfl | hp
      · exact .inr rfl
      exact .inl hp
  iintro %_ HI
  rw [trips_t1]
  unfold invO
  rw [IdxPart_ge m d L (by decide : ¬ 32 < 32), BufPart_pos m d L (by decide : 0 < 32), show baseRow L + 32 - 1 = baseRow L + 31 from by omega]
  icases HI with ⟨-, Hts, ⟨Hsx, Hf, ⟨%gx0, Hx0⟩⟩, ⟨%gx1, Hx1⟩, Hland, Htodo, ⟨%gA, %gB, HflA, HflB⟩, %W', %hW', HO⟩
  sl_exec
  sl_step
  -- every batch row of the task has landed; the index scratch is whole again
  ihave Hout := (landed_last (F := F) d (baseRow L) hb (outV m d)) $$ [Hland HflA_dst HflB_dst]
  · isplitl [Hland]; · iexact Hland
    isplitl [HflA_dst]; · iexact HflA_dst
    iexact HflB_dst
  ihave Hout' := (Entails.of_eq (show (oLoc d ↦[todo (baseRow L) 0]{fullShare} outV m d : sProp 𝕄) = oLoc d ↦[tileSet (cL L) (sL L)]{fullShare} outV m d from
    congrArg (fun S => (oLoc d ↦[S]{fullShare} outV m d : sProp 𝕄)) (tile_eq_todo (cL L) (sL L)).symm)) $$ Hout
  ihave Hxs := (halves_any (F := F) d L gx0 gx1) $$ [Hx0 Hx1]
  · isplitl [Hx0]; · iexact Hx0
    iexact Hx1
  isplitl [Hf Hr' Hi' Hout']
  · isplitl [Hf Hr' Hi']
    · isplitl [Hf]; · iapply (Entails.of_eq (pts_hbm_f (F := F) d L _ _)); iexact Hf
      isplitl [Hr']; · iapply (Entails.of_eq (pts_hbm_r (F := F) d L _ _)); iexact Hr'
      iapply (Entails.of_eq (pts_hbm_i (F := F) d L _ _)); iexact Hi'
    · iexact Hout'
  isplitl [Hxs Hts Hns HflA_src HflB_src Hbufs]
  · isplitl [Hxs]; · iexact Hxs
    isplitl [Hts]; · iexists _; iexact Hts
    isplitl [Hns]; · iexists _; iexact Hns
    isplitl [HflA_src]; · iexists _; iexact HflA_src
    isplitl [HflB_src]; · iexists _; iexact HflB_src
    iexact Hbufs
  isplitl [HflA HflB Hsx Hsn Hst Hsems]
  · isplitl [HflA]; · iexact HflA
    isplitl [HflB]; · iexact HflB
    isplitl [Hsx]; · iexact Hsx
    isplitl [Hsn]; · iexact Hsn
    isplitl [Hst]; · iexact Hst
    iexact Hsems
  iexists _
  isplitr
  rotate_left
  · iexact HO
  · ipureintro
    intro p hp
    rcases Finset.mem_insert.mp hp with rfl | hp
    · exact .inr rfl
    rcases Finset.mem_insert.mp hp with rfl | hp
    · exact .inr rfl
    exact hW' p hp

end Tile

end Cert.KernelIdeal.Hand

end
-- ==== Proof.OnKernelIdeal.Task.lean ====
/-
  From one task to the launch theorem's obligation. The body table runs the kernel function, on vector subcore `s` of
  SparseCore `c` of the call's grid, at the coordinates `(c, s)` over the four arrays whole and the subcore's own scratch;
  the proof of that function at a symbolic coordinate pair is the obligation once the pair is the subcore's: what the
  handshake hands the task — a token of each array every task reads and the thirty-two batch rows
  `64 s + 32 c + t`, `t < 32`, of the result — is what the proof takes, and what the proof gives back, those rows at the
  looked-up array, is what the handshake carries back. The kernel waits only on its own transfers, which leaves the
  waits it records at the index the obligation allows.
-/
import Idealize.ShloMosaic.Lib.SparseCore.Launch
import Idealize.ShloMosaic.Lib.SparseCore.Ops
import Idealize.ShloMosaic.Lib.Pipeline.Kit
import Idealize.ShloMosaic.Lib.Tactic
import proofs.«205739_g2190433321788_cont_8to1_543_10_alg».proof.Proof.OnKernelIdeal.Setup
import proofs.«205739_g2190433321788_cont_8to1_543_10_alg».proof.Proof.OnKernelIdeal.Body

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
variable [FloatOps F]

-- the kernel's memrefs, spelt as the body table passes them
local notation "fW" => (Memref.whole Cert.KernelIdeal.main_v6_scv : Memref Cert.KernelIdeal.sig Kind.scVector Space.hbm Cert.KernelIdeal.S2097152 EltTy.i32)
local notation "rW" => (Memref.whole Cert.KernelIdeal.main_v4_scv : Memref Cert.KernelIdeal.sig Kind.scVector Space.hbm Cert.KernelIdeal.S8192 EltTy.f32)
local notation "iW" => (Memref.whole Cert.KernelIdeal.main_v5_scv : Memref Cert.KernelIdeal.sig Kind.scVector Space.hbm Cert.KernelIdeal.S16 EltTy.i32)
local notation "oW" => (Memref.whole Cert.KernelIdeal.main_v7_scv : Memref Cert.KernelIdeal.sig Kind.scVector Space.hbm Cert.KernelIdeal.S1024x64x2048 EltTy.f32)
local notation "xS" => (Memref.whole Cert.KernelIdeal.cc0_scratch0 : Memref Cert.KernelIdeal.sig Kind.scVector Space.vmem Cert.KernelIdeal.S4096 EltTy.i32)
local notation "tS" => (Memref.whole Cert.KernelIdeal.cc0_scratch1 : Memref Cert.KernelIdeal.sig Kind.scVector Space.vmem Cert.KernelIdeal.S8192 EltTy.f32)
local notation "nS" => (Memref.whole Cert.KernelIdeal.cc0_scratch2 : Memref Cert.KernelIdeal.sig Kind.scVector Space.vmem Cert.KernelIdeal.S16 EltTy.i32)
local notation "aS" => (Memref.whole Cert.KernelIdeal.cc0_scratch3 : Memref Cert.KernelIdeal.sig Kind.scVector Space.vmem Cert.KernelIdeal.S16x2048 EltTy.f32)
local notation "bS" => (Memref.whole Cert.KernelIdeal.cc0_scratch4 : Memref Cert.KernelIdeal.sig Kind.scVector Space.vmem Cert.KernelIdeal.S16x2048 EltTy.f32)

/-- The coordinates of vector subcore `s` of SparseCore `c` in the call's grid. -/
def coordsV (c : Fin (grid0.bound 0)) (s : Fin (grid0.bound 1)) : grid0.Coords :=
  fun | 0 => c | 1 => s | ⟨_ + 2, h⟩ => absurd h (Nat.not_lt.2 (Nat.le_add_left _ _))

/-- What the body table runs on a vector subcore: the kernel function at the subcore's coordinates. -/
theorem defs₀_vector (c : Fin τ.nSC) (s : Fin τ.nSub) :
    defs₀ (F := F) (.scVector c s) 0 ()
      = SparseCore.onTile hcore0 hsub0 (fun c s => cc0_sc_embed (coordsV c s)
          fW (Memref.isWhole_whole _) rW (Memref.isWhole_whole _) iW (Memref.isWhole_whole _) oW (Memref.isWhole_whole _)
          xS (Memref.isWhole_whole _) tS (Memref.isWhole_whole _) nS (Memref.isWhole_whole _) aS (Memref.isWhole_whole _) bS (Memref.isWhole_whole _)
          cc0_scratch5 cc0_scratch6 cc0_scratch7 cc0_scoped0 cc0_scoped1) ⟨⟩ c s := rfl

/-- Waits recorded at no call's index are among those the obligation allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task obligation of the call: on every vector subcore of the grid, the kernel function's proof at that
    subcore's coordinates. -/
theorem tileObl (hpre : PreOK m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts hpre O W hO).trans (wp_mono frame _ _ fun _ => obl_post)

end Cert.KernelIdeal.Hand

end
-- ==== Proof.lean ====
/-
  The certificate of an embedding lookup, transposed: for an index array `x : [1024, 2048]` of row numbers between 0
  and 7 and a table `t : [8, 64]`, the result `[1024, 64, 2048]` holds at `(b, d, l)` the table's entry
  `(x[b, l], d)`. The kernel computes it on the two SparseCores' thirty-two vector subcores, each filling thirty-two
  batch rows from a lane-replicated copy of the table; the reference takes the rows by a gather and transposes the
  last two axes. Both results are the one whole-array function `Cert.Lookup.gathered` of the two arguments.

  The five claims. The two kernel programs (the words as stored, and the same text over extended reals) run: every
  weakly fair execution of all their threads terminates, nothing faulting, with the result at the looked-up array and
  the arguments unchanged — the launch of the SparseCore call around the proof of one task, which needs every index
  word below 8; the frames are that run with the value dropped. The reference runs to the same array under the same
  hypothesis. The idealization rewrote no operation, so there is nothing to preserve. And from memories that agree on
  the arguments the two ideal programs end with equal results, both being the looked-up array. The precondition — an
  `and`-reduction of `0 ≤ v ≤ 7` over the index array, signed, equal to 1 — gives the bound on every index word.
-/
import proofs.«205739_g2190433321788_cont_8to1_543_10_alg».proof.Defs
import proofs.«205739_g2190433321788_cont_8to1_543_10_alg».proof.Proof.Gen.Kernel
import proofs.«205739_g2190433321788_cont_8to1_543_10_alg».proof.Proof.Gen.Kernel.Skeleton
import proofs.«205739_g2190433321788_cont_8to1_543_10_alg».proof.Proof.Gen.KernelIdeal
import proofs.«205739_g2190433321788_cont_8to1_543_10_alg».proof.Proof.Gen.KernelIdeal.Skeleton
import proofs.«205739_g2190433321788_cont_8to1_543_10_alg».proof.Proof.Gen.ReferenceIdeal
import proofs.«205739_g2190433321788_cont_8to1_543_10_alg».proof.Proof.Gen.Pre_input_domain
import Idealize.ShloMosaic.Adequacy
import Idealize.ShloMosaic.Init
import proofs.«205739_g2190433321788_cont_8to1_543_10_alg».proof.Proof.Lookup
import proofs.«205739_g2190433321788_cont_8to1_543_10_alg».proof.Proof.IndexRange
import proofs.«205739_g2190433321788_cont_8to1_543_10_alg».proof.Proof.RefRun
import proofs.«205739_g2190433321788_cont_8to1_543_10_alg».proof.Proof.OnKernel.Dispatch
import proofs.«205739_g2190433321788_cont_8to1_543_10_alg».proof.Proof.OnKernel.Task
import proofs.«205739_g2190433321788_cont_8to1_543_10_alg».proof.Proof.OnKernelIdeal.Dispatch
import proofs.«205739_g2190433321788_cont_8to1_543_10_alg».proof.Proof.OnKernelIdeal.Task

noncomputable section

namespace Cert.Proof

open Idealize.ShloMosaic Idealize.SL.Sem Cert.Kernel

/-! ## The precondition bounds every index word -/

theorem preOK_Kernel (m : (ℓ : Loc Cert.Kernel.nD Cert.Kernel.τ Cert.Kernel.sig) → Buf (Elt Bits) ℓ) (h : Cert.Pre_Kernel m) :
    Cert.Kernel.Hand.PreOK (F := Bits) m :=
  fun d => Cert.Pre_input_domain.Hand.lt_eight_of_pre _ _ (h d)

theorem preOK_KernelIdeal (m : (ℓ : Loc Cert.KernelIdeal.nD Cert.KernelIdeal.τ Cert.KernelIdeal.sig) → Buf (Elt Ideal) ℓ) (h : Cert.Pre_KernelIdeal m) :
    Cert.KernelIdeal.Hand.PreOK (F := Ideal) m :=
  fun d => Cert.Pre_input_domain.Hand.lt_eight_of_pre _ _ (h d)

/-! ## The frames: each program's run, the value dropped -/

theorem frame_Kernel : Cert.frame_Kernel := fun m g hpre =>
  (θ_run Cert.Kernel.defs _ _).mono (fun _ h c => ⟨(h c).2.1, (h c).2.2⟩)
    (Cert.Kernel.Hand.run_main (F := Bits) m g (Cert.Kernel.Hand.tileObl m (preOK_Kernel m hpre)))

theorem frame_KernelIdeal : Cert.frame_KernelIdeal := fun m g hpre =>
  (θ_run Cert.KernelIdeal.defs _ _).mono (fun _ h c => ⟨(h c).2.1, (h c).2.2⟩)
    (Cert.KernelIdeal.Hand.run_main (F := Ideal) m g (Cert.KernelIdeal.Hand.tileObl m (preOK_KernelIdeal m hpre)))

theorem frame_ReferenceIdeal : Cert.frame_ReferenceIdeal := fun m g hpre =>
  (θ_run Cert.ReferenceIdeal.defs _ _).mono (fun _ h c => ⟨(h c).2.1, (h c).2.2⟩)
    (Cert.ReferenceIdeal.Hand.run m g fun c => Cert.Pre_input_domain.Hand.lt_eight_of_pre _ _ (hpre c))

/-! ## The two ideal programs compute the same array -/

theorem algebraic : Cert.algebraic_KernelIdeal_ReferenceIdeal := fun m g m' g' hpre hag =>
  ⟨fun c => Cert.Lookup.gathered
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_main (F := Ideal) m g (Cert.KernelIdeal.Hand.tileObl m (preOK_KernelIdeal m hpre)),
    (θ_run Cert.ReferenceIdeal.defs _ _).mono
      (fun _ h c => ⟨(h c).1.trans (by rw [(hag c).1, (hag c).2]), (h c).2.1, (h c).2.2⟩)
      (Cert.ReferenceIdeal.Hand.run m' g' fun c i => by
        rw [(hag c).1]; exact Cert.Pre_input_domain.Hand.lt_eight_of_pre _ _ (hpre c) i)⟩

theorem claim : Cert.Claim := ⟨Cert.Kernel.Gen.facts, Cert.KernelIdeal.Gen.facts, Cert.ReferenceIdeal.Gen.facts, Cert.Pre_input_domain.Gen.facts,
  frame_Kernel, frame_KernelIdeal, frame_ReferenceIdeal, trivial, algebraic⟩

end Cert.Proof

end
